-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v281)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v281) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v450) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S3 : Shape := ⟨1, ![3]⟩
abbrev S3x64 : Shape := ⟨2, ![3, 64]⟩
abbrev S3x64x128 : Shape := ⟨3, ![3, 64, 128]⟩
abbrev S3x128 : Shape := ⟨2, ![3, 128]⟩
abbrev S3x128x64 : Shape := ⟨3, ![3, 128, 64]⟩
abbrev S64x256 : Shape := ⟨2, ![64, 256]⟩
abbrev S256 : Shape := ⟨1, ![256]⟩
abbrev S_ : Shape := ⟨0, ![]⟩
abbrev S256x10 : Shape := ⟨2, ![256, 10]⟩
abbrev S10 : Shape := ⟨1, ![10]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S3 : S_.BroadcastsInDim S3 (![] : Fin 0 → Fin S3.rank)
  reducesTo_S3_S_d0 : S3.ReducesTo [0] S_
  bcast_S_S3x64 : S_.BroadcastsInDim S3x64 (![] : Fin 0 → Fin S3x64.rank)
  reducesTo_S3x64_S_d0_1 : S3x64.ReducesTo [0, 1] S_
  bcast_S_S3x64x128 : S_.BroadcastsInDim S3x64x128 (![] : Fin 0 → Fin S3x64x128.rank)
  reducesTo_S3x64x128_S_d0_1_2 : S3x64x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  reducesTo_S_S_d : S_.ReducesTo [] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_v82 : IVec S_ 1) (main_v83 : FVec F S10 .f32) (main_v84 : FVec F S10 .f32) : IVec S_ 1 :=
  let main_v85 : IVec S10 1 := cmpf .olt main_v83 main_v84
  let main_c_33 : IVec S_ 1 := constantI S_ 1 1#1
  let main_v86 : IVec S_ 1 := (fun x v => Host.reduce IntOp.andi x v reducesTo_S10_S_d0 h_S_) main_v85 main_c_33
  let main_v87 : IVec S_ 1 := andi main_v82 main_v86
  main_v87

def fn_part4 {F : FTy → Type} [FloatOps F] (main_arg16 : FVec F S256 .f32) (main_arg17 : FVec F S_ .f32) (main_arg18 : FVec F S256x10 .f32) (main_arg19 : FVec F S10 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S_ .f32 := Host.absf main_arg17
  let main_cst_28 : FVec F S_ .f32 := constant S_ .f32 0x7F800000#32
  let main_v75 : IVec S_ 1 := cmpf .olt main_v74 main_cst_28
  let main_c_29 : IVec S_ 1 := constantI S_ 1 1#1
  let main_v76 : IVec S_ 1 := (fun x v => Host.reduce IntOp.andi x v reducesTo_S_S_d h_S_) main_v75 main_c_29
  let main_v77 : IVec S_ 1 := andi main_v73 main_v76
  let main_v78 : FVec F S256x10 .f32 := Host.absf main_arg18
  let main_cst_30 : FVec F S_ .f32 := constant S_ .f32 0x7F800000#32
  let main_v79 : FVec F S256x10 .f32 := broadcastInDim S256x10 ![] bcast_S_S256x10 main_cst_30
  let main_v80 : IVec S256x10 1 := cmpf .olt main_v78 main_v79
  let main_c_31 : IVec S_ 1 := constantI S_ 1 1#1
  let main_v81 : IVec S_ 1 := (fun x v => Host.reduce IntOp.andi x v reducesTo_S256x10_S_d0_1 h_S_) main_v80 main_c_31
  let main_v82 : IVec S_ 1 := andi main_v77 main_v81
  let main_v83 : FVec F S10 .f32 := Host.absf main_arg19
  let main_cst_32 : FVec F S_ .f32 := constant S_ .f32 0x7F800000#32
  let main_v84 : FVec F S10 .f32 := broadcastInDim S10 ![] bcast_S_S10 main_cst_32
  fn_part5 (F := F) main_v82 main_v83 main_v84

def fn_part3 {F : FTy → Type} [FloatOps F] (main_arg13 : FVec F S64 .f32) (main_arg14 : FVec F S64 .f32) (main_arg15 : FVec F S64x256 .f32) (main_arg16 : FVec F S256 .f32) (main_arg17 : FVec F S_ .f32) (main_arg18 : FVec F S256x10 .f32) (main_arg19 : FVec F S10 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x256 .f32 := Host.absf main_arg15
  let main_cst_24 : FVec F S_ .f32 := constant S_ .f32 0x7F800000#32
  let main_v65 : FVec F S64x256 .f32 := broadcastInDim S64x256 ![] bcast_S_S64x256 main_cst_24
  let main_v66 : IVec S64x256 1 := cmpf .olt main_v64 main_v65
  let main_c_25 : IVec S_ 1 := constantI S_ 1 1#1
  let main_v67 : IVec S_ 1 := (fun x v => Host.reduce IntOp.andi x v reducesTo_S64x256_S_d0_1 h_S_) main_v66 main_c_25
  fn_part4 (F := F) main_arg16 main_arg17 main_arg18 main_arg19 main_v63 main_v67

def fn_part2 {F : FTy → Type} [FloatOps F] (main_arg9 : FVec F S3x128 .f32) (main_arg10 : FVec F S3 .f32) (main_arg11 : FVec F S3x128x64 .f32) (main_arg12 : FVec F S3x64 .f32) (main_arg13 : FVec F S64 .f32) (main_arg14 : FVec F S64 .f32) (main_arg15 : FVec F S64x256 .f32) (main_arg16 : FVec F S256 .f32) (main_arg17 : FVec F S_ .f32) (main_arg18 : FVec F S256x10 .f32) (main_arg19 : FVec F S10 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S3x128x64 .f32 := Host.absf main_arg11
  let main_cst_16 : FVec F S_ .f32 := constant S_ .f32 0x7F800000#32
  let main_v45 : FVec F S3x128x64 .f32 := broadcastInDim S3x128x64 ![] bcast_S_S3x128x64 main_cst_16
  let main_v46 : IVec S3x128x64 1 := cmpf .olt main_v44 main_v45
  let main_c_17 : IVec S_ 1 := constantI S_ 1 1#1
  let main_v47 : IVec S_ 1 := (fun x v => Host.reduce IntOp.andi x v reducesTo_S3x128x64_S_d0_1_2 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg13 main_arg14 main_arg15 main_arg16 main_arg17 main_arg18 main_arg19 main_v48 main_v49 main_v50

def fn_part1 {F : FTy → Type} [FloatOps F] (main_arg6 : FVec F S3x64 .f32) (main_arg7 : FVec F S3x64 .f32) (main_arg8 : FVec F S3x64x128 .f32) (main_arg9 : FVec F S3x128 .f32) (main_arg10 : FVec F S3 .f32) (main_arg11 : FVec F S3x128x64 .f32) (main_arg12 : FVec F S3x64 .f32) (main_arg13 : FVec F S64 .f32) (main_arg14 : FVec F S64 .f32) (main_arg15 : FVec F S64x256 .f32) (main_arg16 : FVec F S256 .f32) (main_arg17 : FVec F S_ .f32) (main_arg18 : FVec F S256x10 .f32) (main_arg19 : FVec F S10 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x128 .f32 := Host.absf main_arg8
  let main_cst_10 : FVec F S_ .f32 := constant S_ .f32 0x7F800000#32
  let main_v30 : FVec F S3x64x128 .f32 := broadcastInDim S3x64x128 ![] bcast_S_S3x64x128 main_cst_10
  let main_v31 : IVec S3x64x128 1 := cmpf .olt main_v29 main_v30
  let main_c_11 : IVec S_ 1 := constantI S_ 1 1#1
  let main_v32 : IVec S_ 1 := (fun x v => Host.reduce IntOp.andi x v reducesTo_S3x64x128_S_d0_1_2 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S3 .f32) (main_arg6 : FVec F S3x64 .f32) (main_arg7 : FVec F S3x64 .f32) (main_arg8 : FVec F S3x64x128 .f32) (main_arg9 : FVec F S3x128 .f32) (main_arg10 : FVec F S3 .f32) (main_arg11 : FVec F S3x128x64 .f32) (main_arg12 : FVec F S3x64 .f32) (main_arg13 : FVec F S64 .f32) (main_arg14 : FVec F S64 .f32) (main_arg15 : FVec F S64x256 .f32) (main_arg16 : FVec F S256 .f32) (main_arg17 : FVec F S_ .f32) (main_arg18 : FVec F S256x10 .f32) (main_arg19 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3 .f32 := Host.absf main_arg5
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S3 : Shape := ⟨1, ![3]⟩
abbrev S3x64 : Shape := ⟨2, ![3, 64]⟩
abbrev S3x64x128 : Shape := ⟨3, ![3, 64, 128]⟩
abbrev S3x128 : Shape := ⟨2, ![3, 128]⟩
abbrev S3x128x64 : Shape := ⟨3, ![3, 128, 64]⟩
abbrev S64x256 : Shape := ⟨2, ![64, 256]⟩
abbrev S256 : Shape := ⟨1, ![256]⟩
abbrev S_ : Shape := ⟨0, ![]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S800000x1 : Shape := ⟨2, ![800000, 1]⟩
abbrev S50000x1 : Shape := ⟨2, ![50000, 1]⟩
abbrev S1x64 : Shape := ⟨2, ![1, 64]⟩
abbrev S5000x64 : Shape := ⟨2, ![5000, 64]⟩
abbrev S1 : Shape := ⟨1, ![1]⟩
abbrev S1x64x128 : Shape := ⟨3, ![1, 64, 128]⟩
abbrev S64x128 : Shape := ⟨2, ![64, 128]⟩
abbrev S1x1 : Shape := ⟨2, ![1, 1]⟩
abbrev S50000x128 : Shape := ⟨2, ![50000, 128]⟩
abbrev S5000x128 : Shape := ⟨2, ![5000, 128]⟩
abbrev S800000x128 : Shape := ⟨2, ![800000, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S800000x64 : Shape := ⟨2, ![800000, 64]⟩
abbrev S64x1 : Shape := ⟨2, ![64, 1]⟩
abbrev S1x256 : Shape := ⟨2, ![1, 256]⟩
abbrev S64x10 : Shape := ⟨2, ![64, 10]⟩
abbrev S1x10 : Shape := ⟨2, ![1, 10]⟩

abbrev nBuf : Space → Nat
  | .hbm => 432
  | .vmem => 54
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S3, .f32⟩
  | 6 => ⟨S3x64, .f32⟩
  | 7 => ⟨S3x64, .f32⟩
  | 8 => ⟨S3x64x128, .f32⟩
  | 9 => ⟨S3x128, .f32⟩
  | 10 => ⟨S3, .f32⟩
  | 11 => ⟨S3x128x64, .f32⟩
  | 12 => ⟨S3x64, .f32⟩
  | 13 => ⟨S64, .f32⟩
  | 14 => ⟨S64, .f32⟩
  | 15 => ⟨S64x256, .f32⟩
  | 16 => ⟨S256, .f32⟩
  | 17 => ⟨S_, .f32⟩
  | 18 => ⟨S256x10, .f32⟩
  | 19 => ⟨S10, .f32⟩
  | 20 => ⟨S1x800000, .i32⟩
  | 21 => ⟨S800000, .i32⟩
  | 22 => ⟨S1x800000, .i32⟩
  | 23 => ⟨S800000, .i32⟩
  | 24 => ⟨S_, .f32⟩
  | 25 => ⟨S800000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S50000, .f32⟩
  | 32 => ⟨S50000, .f32⟩
  | 33 => ⟨S50000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S800000x1, .f32⟩
  | 54 => ⟨S50000, .f32⟩
  | 55 => ⟨S50000x1, .f32⟩
  | 56 => ⟨S1x64, .f32⟩
  | 57 => ⟨S50000x64, .f32⟩
  | 58 => ⟨S1, .f32⟩
  | 59 => ⟨S_, .f32⟩
  | 60 => ⟨S_, .f32⟩
  | 61 => ⟨S50000x64, .f32⟩
  | 62 => ⟨S50000x64, .i1⟩
  | 63 => ⟨S50000x64, .f32⟩
  | 64 => ⟨S50000x64, .f32⟩
  | 65 => ⟨S50000x64, .f32⟩
  | 66 => ⟨S_, .f32⟩
  | 67 => ⟨S64, .f32⟩
  | 68 => ⟨S_, .f32⟩
  | 69 => ⟨S64, .f32⟩
  | 70 => ⟨S64, .f32⟩
  | 71 => ⟨S_, .i32⟩
  | 72 => ⟨S_, .f32⟩
  | 73 => ⟨S64, .f32⟩
  | 74 => ⟨S1x64, .f32⟩
  | 75 => ⟨S_, .f32⟩
  | 76 => ⟨S1x64, .f32⟩
  | 77 => ⟨S1x64, .f32⟩
  | 78 => ⟨S50000x64, .f32⟩
  | 79 => ⟨S50000x64, .f32⟩
  | 80 => ⟨S50000x64, .f32⟩
  | 81 => ⟨S_, .f32⟩
  | 82 => ⟨S_, .f32⟩
  | 83 => ⟨S_, .f32⟩
  | 84 => ⟨S_, .f32⟩
  | 85 => ⟨S64, .f32⟩
  | 86 => ⟨S64, .f32⟩
  | 87 => ⟨S64, .f32⟩
  | 88 => ⟨S_, .f32⟩
  | 89 => ⟨S_, .i1⟩
  | 90 => ⟨S_, .f32⟩
  | 91 => ⟨S_, .f32⟩
  | 92 => ⟨S64, .f32⟩
  | 93 => ⟨S64, .f32⟩
  | 94 => ⟨S1x64, .f32⟩
  | 95 => ⟨S64, .f32⟩
  | 96 => ⟨S1x64, .f32⟩
  | 97 => ⟨S64, .f32⟩
  | 98 => ⟨S1x64x128, .f32⟩
  | 99 => ⟨S64x128, .f32⟩
  | 100 => ⟨S1x1, .f32⟩
  | 101 => ⟨S1x64, .f32⟩
  | 102 => ⟨S1x64, .f32⟩
  | 103 => ⟨S1x64, .f32⟩
  | 104 => ⟨S1x64, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S800000x128, .f32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S50000x128, .f32⟩
  | 122 => ⟨S50000x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x64, .f32⟩

abbrev hbmTy0_1 (i : Nat) : BufTy := match i % 128 with
  | 0 => ⟨S50000x128, .f32⟩
  | 1 => ⟨S1, .f32⟩
  | 2 => ⟨S_, .f32⟩
  | 3 => ⟨S1x128x64, .f32⟩
  | 4 => ⟨S128x64, .f32⟩
  | 5 => ⟨S1x1, .f32⟩
  | 6 => ⟨S50000x64, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x64, .f32⟩
  | 16 => ⟨S800000x64, .f32⟩
  | 17 => ⟨S800000x64, .f32⟩
  | 18 => ⟨S_, .f32⟩
  | 19 => ⟨S50000x64, .f32⟩
  | 20 => ⟨S800000x1, .i32⟩
  | 21 => ⟨S50000x64, .f32⟩
  | 22 => ⟨S50000x64, .f32⟩
  | 23 => ⟨S50000x64, .f32⟩
  | 24 => ⟨S50000x64, .f32⟩
  | 25 => ⟨S1x64, .f32⟩
  | 26 => ⟨S64, .f32⟩
  | 27 => ⟨S1x64, .f32⟩
  | 28 => ⟨S50000x64, .f32⟩
  | 29 => ⟨S50000x64, .f32⟩
  | 30 => ⟨S1, .f32⟩
  | 31 => ⟨S_, .f32⟩
  | 32 => ⟨S_, .f32⟩
  | 33 => ⟨S50000x64, .f32⟩
  | 34 => ⟨S50000x64, .i1⟩
  | 35 => ⟨S50000x64, .f32⟩
  | 36 => ⟨S50000x64, .f32⟩
  | 37 => ⟨S50000x64, .f32⟩
  | 38 => ⟨S_, .f32⟩
  | 39 => ⟨S64, .f32⟩
  | 40 => ⟨S_, .f32⟩
  | 41 => ⟨S64, .f32⟩
  | 42 => ⟨S64, .f32⟩
  | 43 => ⟨S_, .i32⟩
  | 44 => ⟨S_, .f32⟩
  | 45 => ⟨S64, .f32⟩
  | 46 => ⟨S1x64, .f32⟩
  | 47 => ⟨S_, .f32⟩
  | 48 => ⟨S1x64, .f32⟩
  | 49 => ⟨S1x64, .f32⟩
  | 50 => ⟨S50000x64, .f32⟩
  | 51 => ⟨S50000x64, .f32⟩
  | 52 => ⟨S50000x64, .f32⟩
  | 53 => ⟨S_, .f32⟩
  | 54 => ⟨S_, .f32⟩
  | 55 => ⟨S_, .f32⟩
  | 56 => ⟨S_, .f32⟩
  | 57 => ⟨S64, .f32⟩
  | 58 => ⟨S64, .f32⟩
  | 59 => ⟨S64, .f32⟩
  | 60 => ⟨S_, .f32⟩
  | 61 => ⟨S_, .i1⟩
  | 62 => ⟨S_, .f32⟩
  | 63 => ⟨S_, .f32⟩
  | 64 => ⟨S64, .f32⟩
  | 65 => ⟨S64, .f32⟩
  | 66 => ⟨S1x64, .f32⟩
  | 67 => ⟨S64, .f32⟩
  | 68 => ⟨S1x64, .f32⟩
  | 69 => ⟨S64, .f32⟩
  | 70 => ⟨S1x64x128, .f32⟩
  | 71 => ⟨S64x128, .f32⟩
  | 72 => ⟨S1x1, .f32⟩
  | 73 => ⟨S1x64, .f32⟩
  | 74 => ⟨S1x64, .f32⟩
  | 75 => ⟨S1x64, .f32⟩
  | 76 => ⟨S1x64, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S800000x128, .f32⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S50000x128, .f32⟩
  | 94 => ⟨S50000x128, .f32⟩
  | 95 => ⟨S50000x128, .f32⟩
  | 96 => ⟨S1x128, .f32⟩
  | 97 => ⟨S128, .f32⟩
  | 98 => ⟨S1x128, .f32⟩
  | 99 => ⟨S50000x128, .f32⟩
  | 100 => ⟨S50000x128, .f32⟩
  | 101 => ⟨S1, .f32⟩
  | 102 => ⟨S_, .f32⟩
  | 103 => ⟨S1x128x64, .f32⟩
  | 104 => ⟨S128x64, .f32⟩
  | 105 => ⟨S1x1, .f32⟩
  | 106 => ⟨S50000x64, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x64, .f32⟩
  | 116 => ⟨S800000x64, .f32⟩
  | 117 => ⟨S800000x64, .f32⟩
  | 118 => ⟨S_, .f32⟩
  | 119 => ⟨S50000x64, .f32⟩
  | 120 => ⟨S800000x1, .i32⟩
  | 121 => ⟨S50000x64, .f32⟩
  | 122 => ⟨S50000x64, .f32⟩
  | 123 => ⟨S50000x64, .f32⟩
  | 124 => ⟨S50000x64, .f32⟩
  | 125 => ⟨S1x64, .f32⟩
  | 126 => ⟨S64, .f32⟩
  | 127 => ⟨S1x64, .f32⟩
  | _ => ⟨S50000x64, .f32⟩

abbrev hbmTy0_2 (i : Nat) : BufTy := match i % 128 with
  | 0 => ⟨S50000x64, .f32⟩
  | 1 => ⟨S50000x64, .f32⟩
  | 2 => ⟨S1, .f32⟩
  | 3 => ⟨S_, .f32⟩
  | 4 => ⟨S_, .f32⟩
  | 5 => ⟨S50000x64, .f32⟩
  | 6 => ⟨S50000x64, .i1⟩
  | 7 => ⟨S50000x64, .f32⟩
  | 8 => ⟨S50000x64, .f32⟩
  | 9 => ⟨S50000x64, .f32⟩
  | 10 => ⟨S_, .f32⟩
  | 11 => ⟨S64, .f32⟩
  | 12 => ⟨S_, .f32⟩
  | 13 => ⟨S64, .f32⟩
  | 14 => ⟨S64, .f32⟩
  | 15 => ⟨S_, .i32⟩
  | 16 => ⟨S_, .f32⟩
  | 17 => ⟨S64, .f32⟩
  | 18 => ⟨S1x64, .f32⟩
  | 19 => ⟨S_, .f32⟩
  | 20 => ⟨S1x64, .f32⟩
  | 21 => ⟨S1x64, .f32⟩
  | 22 => ⟨S50000x64, .f32⟩
  | 23 => ⟨S50000x64, .f32⟩
  | 24 => ⟨S50000x64, .f32⟩
  | 25 => ⟨S_, .f32⟩
  | 26 => ⟨S_, .f32⟩
  | 27 => ⟨S_, .f32⟩
  | 28 => ⟨S_, .f32⟩
  | 29 => ⟨S64, .f32⟩
  | 30 => ⟨S64, .f32⟩
  | 31 => ⟨S64, .f32⟩
  | 32 => ⟨S_, .f32⟩
  | 33 => ⟨S_, .i1⟩
  | 34 => ⟨S_, .f32⟩
  | 35 => ⟨S_, .f32⟩
  | 36 => ⟨S64, .f32⟩
  | 37 => ⟨S64, .f32⟩
  | 38 => ⟨S1x64, .f32⟩
  | 39 => ⟨S64, .f32⟩
  | 40 => ⟨S1x64, .f32⟩
  | 41 => ⟨S64, .f32⟩
  | 42 => ⟨S1x64x128, .f32⟩
  | 43 => ⟨S64x128, .f32⟩
  | 44 => ⟨S1x1, .f32⟩
  | 45 => ⟨S1x64, .f32⟩
  | 46 => ⟨S1x64, .f32⟩
  | 47 => ⟨S1x64, .f32⟩
  | 48 => ⟨S1x64, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000x128, .f32⟩
  | 66 => ⟨S50000x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S1, .f32⟩
  | 74 => ⟨S_, .f32⟩
  | 75 => ⟨S1x128x64, .f32⟩
  | 76 => ⟨S128x64, .f32⟩
  | 77 => ⟨S1x1, .f32⟩
  | 78 => ⟨S50000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x64, .f32⟩
  | 88 => ⟨S800000x64, .f32⟩
  | 89 => ⟨S800000x64, .f32⟩
  | 90 => ⟨S_, .f32⟩
  | 91 => ⟨S50000x64, .f32⟩
  | 92 => ⟨S800000x1, .i32⟩
  | 93 => ⟨S50000x64, .f32⟩
  | 94 => ⟨S50000x64, .f32⟩
  | 95 => ⟨S50000x64, .f32⟩
  | 96 => ⟨S50000x64, .f32⟩
  | 97 => ⟨S1x64, .f32⟩
  | 98 => ⟨S64, .f32⟩
  | 99 => ⟨S1x64, .f32⟩
  | 100 => ⟨S50000x64, .f32⟩
  | 101 => ⟨S50000x64, .f32⟩
  | 102 => ⟨S_, .f32⟩
  | 103 => ⟨S64x64, .f32⟩
  | 104 => ⟨S50000x1, .i32⟩
  | 105 => ⟨S64x64, .f32⟩
  | 106 => ⟨S_, .f32⟩
  | 107 => ⟨S50000, .f32⟩
  | 108 => ⟨S_, .f32⟩
  | 109 => ⟨S64, .f32⟩
  | 110 => ⟨S50000x1, .i32⟩
  | 111 => ⟨S64, .f32⟩
  | 112 => ⟨S_, .f32⟩
  | 113 => ⟨S64, .f32⟩
  | 114 => ⟨S64, .f32⟩
  | 115 => ⟨S64x1, .f32⟩
  | 116 => ⟨S64x64, .f32⟩
  | 117 => ⟨S64x64, .f32⟩
  | 118 => ⟨S_, .f32⟩
  | 119 => ⟨S64, .f32⟩
  | 120 => ⟨S_, .f32⟩
  | 121 => ⟨S64, .f32⟩
  | 122 => ⟨S64, .f32⟩
  | 123 => ⟨S_, .i32⟩
  | 124 => ⟨S_, .f32⟩
  | 125 => ⟨S64, .f32⟩
  | 126 => ⟨S1x64, .f32⟩
  | 127 => ⟨S_, .f32⟩
  | _ => ⟨S50000x64, .f32⟩

abbrev hbmTy0_3 (i : Nat) : BufTy := match i % 128 with
  | 0 => ⟨S1x64, .f32⟩
  | 1 => ⟨S1x64, .f32⟩
  | 2 => ⟨S64x64, .f32⟩
  | 3 => ⟨S64x64, .f32⟩
  | 4 => ⟨S64x64, .f32⟩
  | 5 => ⟨S_, .f32⟩
  | 6 => ⟨S_, .f32⟩
  | 7 => ⟨S_, .f32⟩
  | 8 => ⟨S_, .f32⟩
  | 9 => ⟨S64, .f32⟩
  | 10 => ⟨S64, .f32⟩
  | 11 => ⟨S64, .f32⟩
  | 12 => ⟨S_, .f32⟩
  | 13 => ⟨S_, .i1⟩
  | 14 => ⟨S_, .f32⟩
  | 15 => ⟨S_, .f32⟩
  | 16 => ⟨S64, .f32⟩
  | 17 => ⟨S64, .f32⟩
  | 18 => ⟨S1x64, .f32⟩
  | 19 => ⟨S64x64, .f32⟩
  | 20 => ⟨S64x64, .f32⟩
  | 21 => ⟨S_, .f32⟩
  | 22 => ⟨S64, .f32⟩
  | 23 => ⟨S64, .f32⟩
  | 24 => ⟨S64, .f32⟩
  | 25 => ⟨S1x64, .f32⟩
  | 26 => ⟨S64x64, .f32⟩
  | 27 => ⟨S64x64, .f32⟩
  | 28 => ⟨S1x64, .f32⟩
  | 29 => ⟨S64x64, .f32⟩
  | 30 => ⟨S64x64, .f32⟩
  | 31 => ⟨S1x64, .f32⟩
  | 32 => ⟨S64x64, .f32⟩
  | 33 => ⟨S64x64, .f32⟩
  | 34 => ⟨S64x256, .f32⟩
  | 35 => ⟨S1x256, .f32⟩
  | 36 => ⟨S64x256, .f32⟩
  | 37 => ⟨S64x256, .f32⟩
  | 38 => ⟨S_, .f32⟩
  | 39 => ⟨S64x256, .f32⟩
  | 40 => ⟨S64x256, .i1⟩
  | 41 => ⟨S64x256, .f32⟩
  | 42 => ⟨S64x256, .f32⟩
  | 43 => ⟨S64x256, .f32⟩
  | 44 => ⟨S64x10, .f32⟩
  | 45 => ⟨S1x10, .f32⟩
  | 46 => ⟨S64x10, .f32⟩
  | 47 => ⟨S64x10, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S1x1, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S64x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x1, .f32⟩
  | .local _ .vmem, ⟨19, _⟩ => ⟨S128x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S1x1, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S64x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S1x1, .f32⟩
  | .local _ .vmem, ⟨35, _⟩ => ⟨S128x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S1x1, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S64x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S1x1, .f32⟩
  | .local _ .vmem, ⟨51, _⟩ => ⟨S128x64, .f32⟩
  | .local _ .vmem, ⟨52, _⟩ => ⟨S5000x64, .f32⟩
  | .local _ .vmem, ⟨53, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_c_8 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_cst_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_cst_1 : Ref sig .tc := ⟨.hbm, 82, rfl⟩
abbrev main_call1_v8 : Ref sig .tc := ⟨.hbm, 83, rfl⟩
abbrev main_call1_cst_2 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_cst_3 : Ref sig .tc := ⟨.hbm, 88, rfl⟩
abbrev main_call1_v12 : Ref sig .tc := ⟨.hbm, 89, rfl⟩
abbrev main_call1_cst_4 : Ref sig .tc := ⟨.hbm, 90, rfl⟩
abbrev main_call1_call0_v0 : Ref sig .tc := ⟨.hbm, 91, rfl⟩
abbrev main_call1_call0_v1 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_c_9 : Ref sig .tc := ⟨.hbm, 106, rfl⟩
abbrev main_v54 : Ref sig .tc := ⟨.hbm, 107, rfl⟩
abbrev main_v55 : Ref sig .tc := ⟨.hbm, 108, rfl⟩
abbrev main_c_10 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_cst_11 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_c_12 : Ref sig .tc := ⟨.hbm, 135, rfl⟩
abbrev main_v80 : Ref sig .tc := ⟨.hbm, 136, rfl⟩
abbrev main_v81 : Ref sig .tc := ⟨.hbm, 137, rfl⟩
abbrev main_c_13 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_cst_14 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_15 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_cst_16 : Ref sig .tc := ⟨.hbm, 166, rfl⟩
abbrev main_v107 : Ref sig .tc := ⟨.hbm, 167, rfl⟩
abbrev main_cst_17 : Ref sig .tc := ⟨.hbm, 168, rfl⟩
abbrev main_v108 : Ref sig .tc := ⟨.hbm, 169, rfl⟩
abbrev main_v109 : Ref sig .tc := ⟨.hbm, 170, rfl⟩
abbrev main_c_18 : Ref sig .tc := ⟨.hbm, 171, rfl⟩
abbrev main_call3_cst : Ref sig .tc := ⟨.hbm, 172, rfl⟩
abbrev main_call3_v0 : Ref sig .tc := ⟨.hbm, 173, rfl⟩
abbrev main_call3_v1 : Ref sig .tc := ⟨.hbm, 174, rfl⟩
abbrev main_call3_cst_0 : Ref sig .tc := ⟨.hbm, 175, rfl⟩
abbrev main_call3_v2 : Ref sig .tc := ⟨.hbm, 176, rfl⟩
abbrev main_call3_v3 : Ref sig .tc := ⟨.hbm, 177, rfl⟩
abbrev main_call3_v4 : Ref sig .tc := ⟨.hbm, 178, rfl⟩
abbrev main_call3_v5 : Ref sig .tc := ⟨.hbm, 179, rfl⟩
abbrev main_call3_v6 : Ref sig .tc := ⟨.hbm, 180, rfl⟩
abbrev main_call3_v7 : Ref sig .tc := ⟨.hbm, 181, rfl⟩
abbrev main_call3_cst_1 : Ref sig .tc := ⟨.hbm, 182, rfl⟩
abbrev main_call3_v8 : Ref sig .tc := ⟨.hbm, 183, rfl⟩
abbrev main_call3_cst_2 : Ref sig .tc := ⟨.hbm, 184, rfl⟩
abbrev main_call3_v9 : Ref sig .tc := ⟨.hbm, 185, rfl⟩
abbrev main_call3_v10 : Ref sig .tc := ⟨.hbm, 186, rfl⟩
abbrev main_call3_v11 : Ref sig .tc := ⟨.hbm, 187, rfl⟩
abbrev main_call3_cst_3 : Ref sig .tc := ⟨.hbm, 188, rfl⟩
abbrev main_call3_v12 : Ref sig .tc := ⟨.hbm, 189, rfl⟩
abbrev main_call3_cst_4 : Ref sig .tc := ⟨.hbm, 190, rfl⟩
abbrev main_call3_call0_v0 : Ref sig .tc := ⟨.hbm, 191, rfl⟩
abbrev main_call3_call0_v1 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_c_19 : Ref sig .tc := ⟨.hbm, 206, rfl⟩
abbrev main_v123 : Ref sig .tc := ⟨.hbm, 207, rfl⟩
abbrev main_v124 : Ref sig .tc := ⟨.hbm, 208, rfl⟩
abbrev main_c_20 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_cst_21 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_c_22 : Ref sig .tc := ⟨.hbm, 235, rfl⟩
abbrev main_v149 : Ref sig .tc := ⟨.hbm, 236, rfl⟩
abbrev main_v150 : Ref sig .tc := ⟨.hbm, 237, rfl⟩
abbrev main_c_23 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_cst_24 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_cst_25 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_cst_26 : Ref sig .tc := ⟨.hbm, 266, rfl⟩
abbrev main_v176 : Ref sig .tc := ⟨.hbm, 267, rfl⟩
abbrev main_cst_27 : Ref sig .tc := ⟨.hbm, 268, rfl⟩
abbrev main_v177 : Ref sig .tc := ⟨.hbm, 269, rfl⟩
abbrev main_v178 : Ref sig .tc := ⟨.hbm, 270, rfl⟩
abbrev main_c_28 : Ref sig .tc := ⟨.hbm, 271, rfl⟩
abbrev main_call5_cst : Ref sig .tc := ⟨.hbm, 272, rfl⟩
abbrev main_call5_v0 : Ref sig .tc := ⟨.hbm, 273, rfl⟩
abbrev main_call5_v1 : Ref sig .tc := ⟨.hbm, 274, rfl⟩
abbrev main_call5_cst_0 : Ref sig .tc := ⟨.hbm, 275, rfl⟩
abbrev main_call5_v2 : Ref sig .tc := ⟨.hbm, 276, rfl⟩
abbrev main_call5_v3 : Ref sig .tc := ⟨.hbm, 277, rfl⟩
abbrev main_call5_v4 : Ref sig .tc := ⟨.hbm, 278, rfl⟩
abbrev main_call5_v5 : Ref sig .tc := ⟨.hbm, 279, rfl⟩
abbrev main_call5_v6 : Ref sig .tc := ⟨.hbm, 280, rfl⟩
abbrev main_call5_v7 : Ref sig .tc := ⟨.hbm, 281, rfl⟩
abbrev main_call5_cst_1 : Ref sig .tc := ⟨.hbm, 282, rfl⟩
abbrev main_call5_v8 : Ref sig .tc := ⟨.hbm, 283, rfl⟩
abbrev main_call5_cst_2 : Ref sig .tc := ⟨.hbm, 284, rfl⟩
abbrev main_call5_v9 : Ref sig .tc := ⟨.hbm, 285, rfl⟩
abbrev main_call5_v10 : Ref sig .tc := ⟨.hbm, 286, rfl⟩
abbrev main_call5_v11 : Ref sig .tc := ⟨.hbm, 287, rfl⟩
abbrev main_call5_cst_3 : Ref sig .tc := ⟨.hbm, 288, rfl⟩
abbrev main_call5_v12 : Ref sig .tc := ⟨.hbm, 289, rfl⟩
abbrev main_call5_cst_4 : Ref sig .tc := ⟨.hbm, 290, rfl⟩
abbrev main_call5_call0_v0 : Ref sig .tc := ⟨.hbm, 291, rfl⟩
abbrev main_call5_call0_v1 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_v187 : Ref sig .tc := ⟨.hbm, 301, rfl⟩
abbrev main_v188 : Ref sig .tc := ⟨.hbm, 302, rfl⟩
abbrev main_v189 : Ref sig .tc := ⟨.hbm, 303, rfl⟩
abbrev main_v190 : Ref sig .tc := ⟨.hbm, 304, rfl⟩
abbrev main_v191 : Ref sig .tc := ⟨.hbm, 305, rfl⟩
abbrev main_c_29 : Ref sig .tc := ⟨.hbm, 306, rfl⟩
abbrev main_v192 : Ref sig .tc := ⟨.hbm, 307, rfl⟩
abbrev main_v193 : Ref sig .tc := ⟨.hbm, 308, rfl⟩
abbrev main_c_30 : Ref sig .tc := ⟨.hbm, 309, rfl⟩
abbrev main_v194 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev main_v198 : Ref sig .tc := ⟨.hbm, 314, rfl⟩
abbrev main_v199 : Ref sig .tc := ⟨.hbm, 315, rfl⟩
abbrev main_v200 : Ref sig .tc := ⟨.hbm, 316, rfl⟩
abbrev main_cst_31 : Ref sig .tc := ⟨.hbm, 317, rfl⟩
abbrev main_v201 : Ref sig .tc := ⟨.hbm, 318, rfl⟩
abbrev main_v202 : Ref sig .tc := ⟨.hbm, 319, rfl⟩
abbrev main_v203 : Ref sig .tc := ⟨.hbm, 320, rfl⟩
abbrev main_v204 : Ref sig .tc := ⟨.hbm, 321, rfl⟩
abbrev main_v205 : Ref sig .tc := ⟨.hbm, 322, rfl⟩
abbrev main_v206 : Ref sig .tc := ⟨.hbm, 323, rfl⟩
abbrev main_v207 : Ref sig .tc := ⟨.hbm, 324, rfl⟩
abbrev main_v208 : Ref sig .tc := ⟨.hbm, 325, rfl⟩
abbrev main_v209 : Ref sig .tc := ⟨.hbm, 326, rfl⟩
abbrev main_v210 : Ref sig .tc := ⟨.hbm, 327, rfl⟩
abbrev main_v211 : Ref sig .tc := ⟨.hbm, 328, rfl⟩
abbrev main_v212 : Ref sig .tc := ⟨.hbm, 329, rfl⟩
abbrev main_v213 : Ref sig .tc := ⟨.hbm, 330, rfl⟩
abbrev main_v214 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_c_32 : Ref sig .tc := ⟨.hbm, 335, rfl⟩
abbrev main_v218 : Ref sig .tc := ⟨.hbm, 336, rfl⟩
abbrev main_v219 : Ref sig .tc := ⟨.hbm, 337, rfl⟩
abbrev main_c_33 : Ref sig .tc := ⟨.hbm, 338, rfl⟩
abbrev main_v220 : Ref sig .tc := ⟨.hbm, 339, rfl⟩
abbrev main_v221 : Ref sig .tc := ⟨.hbm, 340, rfl⟩
abbrev main_v222 : Ref sig .tc := ⟨.hbm, 341, rfl⟩
abbrev main_v223 : Ref sig .tc := ⟨.hbm, 342, rfl⟩
abbrev main_v224 : Ref sig .tc := ⟨.hbm, 343, rfl⟩
abbrev main_v225 : Ref sig .tc := ⟨.hbm, 344, rfl⟩
abbrev main_v226 : Ref sig .tc := ⟨.hbm, 345, rfl⟩
abbrev main_cst_34 : Ref sig .tc := ⟨.hbm, 346, rfl⟩
abbrev main_v227 : Ref sig .tc := ⟨.hbm, 347, rfl⟩
abbrev main_v228 : Ref sig .tc := ⟨.hbm, 348, rfl⟩
abbrev main_v229 : Ref sig .tc := ⟨.hbm, 349, rfl⟩
abbrev main_v230 : Ref sig .tc := ⟨.hbm, 350, rfl⟩
abbrev main_v231 : Ref sig .tc := ⟨.hbm, 351, rfl⟩
abbrev main_v232 : Ref sig .tc := ⟨.hbm, 352, rfl⟩
abbrev main_v233 : Ref sig .tc := ⟨.hbm, 353, rfl⟩
abbrev main_v234 : Ref sig .tc := ⟨.hbm, 354, rfl⟩
abbrev main_v235 : Ref sig .tc := ⟨.hbm, 355, rfl⟩
abbrev main_v236 : Ref sig .tc := ⟨.hbm, 356, rfl⟩
abbrev main_v237 : Ref sig .tc := ⟨.hbm, 357, rfl⟩
abbrev main_cst_35 : Ref sig .tc := ⟨.hbm, 358, rfl⟩
abbrev main_v238 : Ref sig .tc := ⟨.hbm, 359, rfl⟩
abbrev main_v239 : Ref sig .tc := ⟨.hbm, 360, rfl⟩
abbrev main_v240 : Ref sig .tc := ⟨.hbm, 361, rfl⟩
abbrev main_cst_36 : Ref sig .tc := ⟨.hbm, 362, rfl⟩
abbrev main_v241 : Ref sig .tc := ⟨.hbm, 363, rfl⟩
abbrev main_cst_37 : Ref sig .tc := ⟨.hbm, 364, rfl⟩
abbrev main_v242 : Ref sig .tc := ⟨.hbm, 365, rfl⟩
abbrev main_v243 : Ref sig .tc := ⟨.hbm, 366, rfl⟩
abbrev main_v244 : Ref sig .tc := ⟨.hbm, 367, rfl⟩
abbrev main_cst_38 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_v248 : Ref sig .tc := ⟨.hbm, 372, rfl⟩
abbrev main_v249 : Ref sig .tc := ⟨.hbm, 373, rfl⟩
abbrev main_cst_39 : Ref sig .tc := ⟨.hbm, 374, rfl⟩
abbrev main_v250 : Ref sig .tc := ⟨.hbm, 375, rfl⟩
abbrev main_cst_40 : Ref sig .tc := ⟨.hbm, 376, rfl⟩
abbrev main_v251 : Ref sig .tc := ⟨.hbm, 377, rfl⟩
abbrev main_v252 : Ref sig .tc := ⟨.hbm, 378, rfl⟩
abbrev main_c_41 : Ref sig .tc := ⟨.hbm, 379, rfl⟩
abbrev main_call6_cst : Ref sig .tc := ⟨.hbm, 380, rfl⟩
abbrev main_call6_v0 : Ref sig .tc := ⟨.hbm, 381, rfl⟩
abbrev main_call6_v1 : Ref sig .tc := ⟨.hbm, 382, rfl⟩
abbrev main_call6_cst_0 : Ref sig .tc := ⟨.hbm, 383, rfl⟩
abbrev main_call6_v2 : Ref sig .tc := ⟨.hbm, 384, rfl⟩
abbrev main_call6_v3 : Ref sig .tc := ⟨.hbm, 385, rfl⟩
abbrev main_call6_v4 : Ref sig .tc := ⟨.hbm, 386, rfl⟩
abbrev main_call6_v5 : Ref sig .tc := ⟨.hbm, 387, rfl⟩
abbrev main_call6_v6 : Ref sig .tc := ⟨.hbm, 388, rfl⟩
abbrev main_call6_v7 : Ref sig .tc := ⟨.hbm, 389, rfl⟩
abbrev main_call6_cst_1 : Ref sig .tc := ⟨.hbm, 390, rfl⟩
abbrev main_call6_v8 : Ref sig .tc := ⟨.hbm, 391, rfl⟩
abbrev main_call6_cst_2 : Ref sig .tc := ⟨.hbm, 392, rfl⟩
abbrev main_call6_v9 : Ref sig .tc := ⟨.hbm, 393, rfl⟩
abbrev main_call6_v10 : Ref sig .tc := ⟨.hbm, 394, rfl⟩
abbrev main_call6_v11 : Ref sig .tc := ⟨.hbm, 395, rfl⟩
abbrev main_call6_cst_3 : Ref sig .tc := ⟨.hbm, 396, rfl⟩
abbrev main_call6_v12 : Ref sig .tc := ⟨.hbm, 397, rfl⟩
abbrev main_call6_cst_4 : Ref sig .tc := ⟨.hbm, 398, rfl⟩
abbrev main_call6_call0_v0 : Ref sig .tc := ⟨.hbm, 399, rfl⟩
abbrev main_call6_call0_v1 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_v256 : Ref sig .tc := ⟨.hbm, 404, rfl⟩
abbrev main_cst_42 : Ref sig .tc := ⟨.hbm, 405, rfl⟩
abbrev main_v257 : Ref sig .tc := ⟨.hbm, 406, rfl⟩
abbrev main_v258 : Ref sig .tc := ⟨.hbm, 407, rfl⟩
abbrev main_v259 : Ref sig .tc := ⟨.hbm, 408, rfl⟩
abbrev main_v260 : Ref sig .tc := ⟨.hbm, 409, rfl⟩
abbrev main_v261 : Ref sig .tc := ⟨.hbm, 410, rfl⟩
abbrev main_v262 : Ref sig .tc := ⟨.hbm, 411, rfl⟩
abbrev main_v263 : Ref sig .tc := ⟨.hbm, 412, rfl⟩
abbrev main_v264 : Ref sig .tc := ⟨.hbm, 413, rfl⟩
abbrev main_v265 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_v269 : Ref sig .tc := ⟨.hbm, 418, rfl⟩
abbrev main_v270 : Ref sig .tc := ⟨.hbm, 419, rfl⟩
abbrev main_v271 : Ref sig .tc := ⟨.hbm, 420, rfl⟩
abbrev main_v272 : Ref sig .tc := ⟨.hbm, 421, rfl⟩
abbrev main_cst_43 : Ref sig .tc := ⟨.hbm, 422, rfl⟩
abbrev main_v273 : Ref sig .tc := ⟨.hbm, 423, rfl⟩
abbrev main_v274 : Ref sig .tc := ⟨.hbm, 424, rfl⟩
abbrev main_v275 : Ref sig .tc := ⟨.hbm, 425, rfl⟩
abbrev main_v276 : Ref sig .tc := ⟨.hbm, 426, rfl⟩
abbrev main_v277 : Ref sig .tc := ⟨.hbm, 427, rfl⟩
abbrev main_v278 : Ref sig .tc := ⟨.hbm, 428, rfl⟩
abbrev main_v279 : Ref sig .tc := ⟨.hbm, 429, rfl⟩
abbrev main_v280 : Ref sig .tc := ⟨.hbm, 430, rfl⟩
abbrev main_v281 : Ref sig .tc := ⟨.hbm, 431, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg7_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg6_0 : Ref sig .tc := ⟨.vmem, 45, rfl⟩
abbrev cc5_stg7_0 : Ref sig .tc := ⟨.vmem, 46, rfl⟩
abbrev cc5_stg7_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem7_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem6_0 : DmaSem sig := 45
abbrev cc5_sem7_0 : DmaSem sig := 46
abbrev cc5_sem7_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S3_S1_0 : S3.Slices ![0] S1
  shapeCasts_S1_S_ : S1.ShapeCasts S_
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  slices_S3x64_S1x64_0_0 : S3x64.Slices ![0, 0] S1x64
  shapeCasts_S1x64_S64 : S1x64.ShapeCasts S64
  slices_S3x64x128_S1x64x128_0_0_0 : S3x64x128.Slices ![0, 0, 0] S1x64x128
  shapeCasts_S1x64x128_S64x128 : S1x64x128.ShapeCasts S64x128
  shapeCasts_S_S1x1 : S_.ShapeCasts S1x1
  shapeCasts_S5000x64_S5000x64 : S5000x64.ShapeCasts S5000x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x128_S5000x128_0_0 : ∀ a, (![0, 0] : Fin 2 → Nat) a + S5000x128.size a ≤ S5000x128.size a
  h_S5000x128 : 0 < S5000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x64_S1x128x64_0_0_0 : S3x128x64.Slices ![0, 0, 0] S1x128x64
  shapeCasts_S1x128x64_S128x64 : S1x128x64.ShapeCasts S128x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bcast_S800000x1_S800000x64_0_1 : S800000x1.BroadcastsInDim S800000x64 (![0, 1] : Fin 2 → Fin S800000x64.rank)
  bcast_S50000x1_S50000x64_0_1 : S50000x1.BroadcastsInDim S50000x64 (![0, 1] : Fin 2 → Fin S50000x64.rank)
  slices_S3_S1_1 : S3.Slices ![1] S1
  slices_S3x64_S1x64_1_0 : S3x64.Slices ![1, 0] S1x64
  slices_S3x64x128_S1x64x128_1_0_0 : S3x64x128.Slices ![1, 0, 0] S1x64x128
  slices_S3x128_S1x128_1_0 : S3x128.Slices ![1, 0] S1x128
  slices_S3x128x64_S1x128x64_1_0_0 : S3x128x64.Slices ![1, 0, 0] S1x128x64
  slices_S3_S1_2 : S3.Slices ![2] S1
  slices_S3x64_S1x64_2_0 : S3x64.Slices ![2, 0] S1x64
  slices_S3x64x128_S1x64x128_2_0_0 : S3x64x128.Slices ![2, 0, 0] S1x64x128
  slices_S3x128_S1x128_2_0 : S3x128.Slices ![2, 0] S1x128
  slices_S3x128x64_S1x128x64_2_0_0 : S3x128x64.Slices ![2, 0, 0] S1x128x64
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  reducesTo_S64x64_S64_d0 : S64x64.ReducesTo [0] S64
  bcast_S1x64_S64x64_0_1 : S1x64.BroadcastsInDim S64x64 (![0, 1] : Fin 2 → Fin S64x64.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x256_S64x256_1_0_0_1_n_n_wf : DotDims.WF S64x64 S64x256 S64x256 [1] [0] [0] [1] [] []
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x128.size a ≤ S64x128.size a
  hwx1_6 : ∀ i : grid1.Coords, EltTy.bits .f32 = 32 ∨ (Rect.block (s := S64x128) S64x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x128.size a ≤ S64x128.size a
  hwx3_6 : ∀ i : grid3.Coords, EltTy.bits .f32 = 32 ∨ (Rect.block (s := S64x128) S64x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1.size a ≤ S1x1.size a
  hwx4_1 : ∀ i : grid4.Coords, EltTy.bits .f32 = 32 ∨ (Rect.block (s := S1x1) S1x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64x128.size a ≤ S64x128.size a
  hwx5_6 : ∀ i : grid5.Coords, EltTy.bits .f32 = 32 ∨ (Rect.block (s := S64x128) S64x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x1.size a ≤ S1x1.size a
  hwx6_1 : ∀ i : grid6.Coords, EltTy.bits .f32 = 32 ∨ (Rect.block (s := S1x1) S1x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S64x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v73) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v99) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v117) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v118) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v119) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v120) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v121) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v116) S64x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v122) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v142) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v147) S1x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v146) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v148) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v168) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v186) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v187) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v188) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v189) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v190) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v185) S64x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v191) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v211) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v216) S1x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v215) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v217) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S3 : Shape := ⟨1, ![3]⟩
abbrev S3x64 : Shape := ⟨2, ![3, 64]⟩
abbrev S3x64x128 : Shape := ⟨3, ![3, 64, 128]⟩
abbrev S3x128 : Shape := ⟨2, ![3, 128]⟩
abbrev S3x128x64 : Shape := ⟨3, ![3, 128, 64]⟩
abbrev S64x256 : Shape := ⟨2, ![64, 256]⟩
abbrev S256 : Shape := ⟨1, ![256]⟩
abbrev S_ : Shape := ⟨0, ![]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S1x64 : Shape := ⟨2, ![1, 64]⟩
abbrev S1 : Shape := ⟨1, ![1]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S50000x128 : Shape := ⟨2, ![50000, 128]⟩
abbrev S800000x1 : Shape := ⟨2, ![800000, 1]⟩
abbrev S800000x128 : Shape := ⟨2, ![800000, 128]⟩
abbrev S50000x1 : Shape := ⟨2, ![50000, 1]⟩
abbrev S1x128x64 : Shape := ⟨3, ![1, 128, 64]⟩
abbrev S128x64 : Shape := ⟨2, ![128, 64]⟩
abbrev S800000x64 : Shape := ⟨2, ![800000, 64]⟩
abbrev S64x1 : Shape := ⟨2, ![64, 1]⟩
abbrev S1x256 : Shape := ⟨2, ![1, 256]⟩
abbrev S64x10 : Shape := ⟨2, ![64, 10]⟩
abbrev S1x10 : Shape := ⟨2, ![1, 10]⟩

abbrev nBuf : Space → Nat
  | .hbm => 642
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S3, .f32⟩
  | 6 => ⟨S3x64, .f32⟩
  | 7 => ⟨S3x64, .f32⟩
  | 8 => ⟨S3x64x128, .f32⟩
  | 9 => ⟨S3x128, .f32⟩
  | 10 => ⟨S3, .f32⟩
  | 11 => ⟨S3x128x64, .f32⟩
  | 12 => ⟨S3x64, .f32⟩
  | 13 => ⟨S64, .f32⟩
  | 14 => ⟨S64, .f32⟩
  | 15 => ⟨S64x256, .f32⟩
  | 16 => ⟨S256, .f32⟩
  | 17 => ⟨S_, .f32⟩
  | 18 => ⟨S256x10, .f32⟩
  | 19 => ⟨S10, .f32⟩
  | 20 => ⟨S1x800000, .i32⟩
  | 21 => ⟨S800000, .i32⟩
  | 22 => ⟨S1x800000, .i32⟩
  | 23 => ⟨S800000, .i32⟩
  | 24 => ⟨S50000x64, .f32⟩
  | 25 => ⟨S1x64, .f32⟩
  | 26 => ⟨S50000x64, .f32⟩
  | 27 => ⟨S50000x64, .f32⟩
  | 28 => ⟨S1, .f32⟩
  | 29 => ⟨S_, .f32⟩
  | 30 => ⟨S_, .f32⟩
  | 31 => ⟨S50000x64, .f32⟩
  | 32 => ⟨S50000x64, .i1⟩
  | 33 => ⟨S50000x64, .f32⟩
  | 34 => ⟨S50000x64, .f32⟩
  | 35 => ⟨S50000x64, .f32⟩
  | 36 => ⟨S1x64, .f32⟩
  | 37 => ⟨S64, .f32⟩
  | 38 => ⟨S1x64, .f32⟩
  | 39 => ⟨S64, .f32⟩
  | 40 => ⟨S_, .f32⟩
  | 41 => ⟨S64, .f32⟩
  | 42 => ⟨S_, .f32⟩
  | 43 => ⟨S64, .f32⟩
  | 44 => ⟨S64, .f32⟩
  | 45 => ⟨S_, .i32⟩
  | 46 => ⟨S_, .f32⟩
  | 47 => ⟨S64, .f32⟩
  | 48 => ⟨S1x64, .f32⟩
  | 49 => ⟨S_, .f32⟩
  | 50 => ⟨S1x64, .f32⟩
  | 51 => ⟨S1x64, .f32⟩
  | 52 => ⟨S50000x64, .f32⟩
  | 53 => ⟨S50000x64, .f32⟩
  | 54 => ⟨S50000x64, .f32⟩
  | 55 => ⟨S_, .f32⟩
  | 56 => ⟨S_, .f32⟩
  | 57 => ⟨S_, .f32⟩
  | 58 => ⟨S_, .f32⟩
  | 59 => ⟨S64, .f32⟩
  | 60 => ⟨S64, .f32⟩
  | 61 => ⟨S64, .f32⟩
  | 62 => ⟨S_, .f32⟩
  | 63 => ⟨S_, .i1⟩
  | 64 => ⟨S_, .f32⟩
  | 65 => ⟨S_, .f32⟩
  | 66 => ⟨S64, .f32⟩
  | 67 => ⟨S64, .f32⟩
  | 68 => ⟨S1x64, .f32⟩
  | 69 => ⟨S50000x64, .f32⟩
  | 70 => ⟨S50000x64, .f32⟩
  | 71 => ⟨S_, .f32⟩
  | 72 => ⟨S64, .f32⟩
  | 73 => ⟨S64, .f32⟩
  | 74 => ⟨S64, .f32⟩
  | 75 => ⟨S1x64, .f32⟩
  | 76 => ⟨S50000x64, .f32⟩
  | 77 => ⟨S50000x64, .f32⟩
  | 78 => ⟨S1x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S1x64x128, .f32⟩
  | 85 => ⟨S64x128, .f32⟩
  | 86 => ⟨S1x128, .f32⟩
  | 87 => ⟨S128, .f32⟩
  | 88 => ⟨S50000x128, .f32⟩
  | 89 => ⟨S_, .f32⟩
  | 90 => ⟨S800000, .f32⟩
  | 91 => ⟨S_, .f32⟩
  | 92 => ⟨S50000, .f32⟩
  | 93 => ⟨S800000x1, .i32⟩
  | 94 => ⟨S50000, .f32⟩
  | 95 => ⟨S_, .f32⟩
  | 96 => ⟨S50000, .f32⟩
  | 97 => ⟨S50000, .f32⟩
  | 98 => ⟨S50000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000, .f32⟩
  | 117 => ⟨S800000, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S800000x1, .f32⟩
  | _ => ⟨S50000x64, .f32⟩

abbrev hbmTy0_1 (i : Nat) : BufTy := match i % 128 with
  | 0 => ⟨S800000x128, .f32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S50000, .f32⟩
  | 7 => ⟨S50000x1, .f32⟩
  | 8 => ⟨S50000x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S1, .f32⟩
  | 15 => ⟨S_, .f32⟩
  | 16 => ⟨S_, .f32⟩
  | 17 => ⟨S50000x128, .f32⟩
  | 18 => ⟨S50000x128, .i1⟩
  | 19 => ⟨S50000x128, .f32⟩
  | 20 => ⟨S50000x128, .f32⟩
  | 21 => ⟨S50000x128, .f32⟩
  | 22 => ⟨S1x128x64, .f32⟩
  | 23 => ⟨S128x64, .f32⟩
  | 24 => ⟨S1x64, .f32⟩
  | 25 => ⟨S64, .f32⟩
  | 26 => ⟨S50000x64, .f32⟩
  | 27 => ⟨S_, .f32⟩
  | 28 => ⟨S800000, .f32⟩
  | 29 => ⟨S_, .f32⟩
  | 30 => ⟨S50000, .f32⟩
  | 31 => ⟨S800000x1, .i32⟩
  | 32 => ⟨S50000, .f32⟩
  | 33 => ⟨S_, .f32⟩
  | 34 => ⟨S50000, .f32⟩
  | 35 => ⟨S50000, .f32⟩
  | 36 => ⟨S50000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S800000x1, .f32⟩
  | 66 => ⟨S800000x64, .f32⟩
  | 67 => ⟨S800000x64, .f32⟩
  | 68 => ⟨S_, .f32⟩
  | 69 => ⟨S50000x64, .f32⟩
  | 70 => ⟨S800000x1, .i32⟩
  | 71 => ⟨S50000x64, .f32⟩
  | 72 => ⟨S50000, .f32⟩
  | 73 => ⟨S50000x1, .f32⟩
  | 74 => ⟨S50000x64, .f32⟩
  | 75 => ⟨S50000x64, .f32⟩
  | 76 => ⟨S50000x64, .f32⟩
  | 77 => ⟨S1x64, .f32⟩
  | 78 => ⟨S50000x64, .f32⟩
  | 79 => ⟨S50000x64, .f32⟩
  | 80 => ⟨S1, .f32⟩
  | 81 => ⟨S_, .f32⟩
  | 82 => ⟨S_, .f32⟩
  | 83 => ⟨S50000x64, .f32⟩
  | 84 => ⟨S50000x64, .i1⟩
  | 85 => ⟨S50000x64, .f32⟩
  | 86 => ⟨S50000x64, .f32⟩
  | 87 => ⟨S50000x64, .f32⟩
  | 88 => ⟨S1x64, .f32⟩
  | 89 => ⟨S64, .f32⟩
  | 90 => ⟨S1x64, .f32⟩
  | 91 => ⟨S64, .f32⟩
  | 92 => ⟨S_, .f32⟩
  | 93 => ⟨S64, .f32⟩
  | 94 => ⟨S_, .f32⟩
  | 95 => ⟨S64, .f32⟩
  | 96 => ⟨S64, .f32⟩
  | 97 => ⟨S_, .i32⟩
  | 98 => ⟨S_, .f32⟩
  | 99 => ⟨S64, .f32⟩
  | 100 => ⟨S1x64, .f32⟩
  | 101 => ⟨S_, .f32⟩
  | 102 => ⟨S1x64, .f32⟩
  | 103 => ⟨S1x64, .f32⟩
  | 104 => ⟨S50000x64, .f32⟩
  | 105 => ⟨S50000x64, .f32⟩
  | 106 => ⟨S50000x64, .f32⟩
  | 107 => ⟨S_, .f32⟩
  | 108 => ⟨S_, .f32⟩
  | 109 => ⟨S_, .f32⟩
  | 110 => ⟨S_, .f32⟩
  | 111 => ⟨S64, .f32⟩
  | 112 => ⟨S64, .f32⟩
  | 113 => ⟨S64, .f32⟩
  | 114 => ⟨S_, .f32⟩
  | 115 => ⟨S_, .i1⟩
  | 116 => ⟨S_, .f32⟩
  | 117 => ⟨S_, .f32⟩
  | 118 => ⟨S64, .f32⟩
  | 119 => ⟨S64, .f32⟩
  | 120 => ⟨S1x64, .f32⟩
  | 121 => ⟨S50000x64, .f32⟩
  | 122 => ⟨S50000x64, .f32⟩
  | 123 => ⟨S_, .f32⟩
  | 124 => ⟨S64, .f32⟩
  | 125 => ⟨S64, .f32⟩
  | 126 => ⟨S64, .f32⟩
  | 127 => ⟨S1x64, .f32⟩
  | _ => ⟨S50000x64, .f32⟩

abbrev hbmTy0_2 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S1x64, .f32⟩
  | 6 => ⟨S50000x64, .f32⟩
  | 7 => ⟨S50000x64, .f32⟩
  | 8 => ⟨S1x64x128, .f32⟩
  | 9 => ⟨S64x128, .f32⟩
  | 10 => ⟨S1x128, .f32⟩
  | 11 => ⟨S128, .f32⟩
  | 12 => ⟨S50000x128, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x1, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S50000, .f32⟩
  | 59 => ⟨S50000x1, .f32⟩
  | 60 => ⟨S50000x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S1, .f32⟩
  | 67 => ⟨S_, .f32⟩
  | 68 => ⟨S_, .f32⟩
  | 69 => ⟨S50000x128, .f32⟩
  | 70 => ⟨S50000x128, .i1⟩
  | 71 => ⟨S50000x128, .f32⟩
  | 72 => ⟨S50000x128, .f32⟩
  | 73 => ⟨S50000x128, .f32⟩
  | 74 => ⟨S1x128x64, .f32⟩
  | 75 => ⟨S128x64, .f32⟩
  | 76 => ⟨S1x64, .f32⟩
  | 77 => ⟨S64, .f32⟩
  | 78 => ⟨S50000x64, .f32⟩
  | 79 => ⟨S_, .f32⟩
  | 80 => ⟨S800000, .f32⟩
  | 81 => ⟨S_, .f32⟩
  | 82 => ⟨S50000, .f32⟩
  | 83 => ⟨S800000x1, .i32⟩
  | 84 => ⟨S50000, .f32⟩
  | 85 => ⟨S_, .f32⟩
  | 86 => ⟨S50000, .f32⟩
  | 87 => ⟨S50000, .f32⟩
  | 88 => ⟨S50000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000, .f32⟩
  | 107 => ⟨S800000, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x64, .f32⟩
  | 117 => ⟨S800000x1, .f32⟩
  | 118 => ⟨S800000x64, .f32⟩
  | 119 => ⟨S800000x64, .f32⟩
  | 120 => ⟨S_, .f32⟩
  | 121 => ⟨S50000x64, .f32⟩
  | 122 => ⟨S800000x1, .i32⟩
  | 123 => ⟨S50000x64, .f32⟩
  | 124 => ⟨S50000, .f32⟩
  | 125 => ⟨S50000x1, .f32⟩
  | 126 => ⟨S50000x64, .f32⟩
  | 127 => ⟨S50000x64, .f32⟩
  | _ => ⟨S50000x64, .f32⟩

abbrev hbmTy0_3 (i : Nat) : BufTy := match i % 128 with
  | 0 => ⟨S50000x64, .f32⟩
  | 1 => ⟨S1x64, .f32⟩
  | 2 => ⟨S50000x64, .f32⟩
  | 3 => ⟨S50000x64, .f32⟩
  | 4 => ⟨S1, .f32⟩
  | 5 => ⟨S_, .f32⟩
  | 6 => ⟨S_, .f32⟩
  | 7 => ⟨S50000x64, .f32⟩
  | 8 => ⟨S50000x64, .i1⟩
  | 9 => ⟨S50000x64, .f32⟩
  | 10 => ⟨S50000x64, .f32⟩
  | 11 => ⟨S50000x64, .f32⟩
  | 12 => ⟨S1x64, .f32⟩
  | 13 => ⟨S64, .f32⟩
  | 14 => ⟨S1x64, .f32⟩
  | 15 => ⟨S64, .f32⟩
  | 16 => ⟨S_, .f32⟩
  | 17 => ⟨S64, .f32⟩
  | 18 => ⟨S_, .f32⟩
  | 19 => ⟨S64, .f32⟩
  | 20 => ⟨S64, .f32⟩
  | 21 => ⟨S_, .i32⟩
  | 22 => ⟨S_, .f32⟩
  | 23 => ⟨S64, .f32⟩
  | 24 => ⟨S1x64, .f32⟩
  | 25 => ⟨S_, .f32⟩
  | 26 => ⟨S1x64, .f32⟩
  | 27 => ⟨S1x64, .f32⟩
  | 28 => ⟨S50000x64, .f32⟩
  | 29 => ⟨S50000x64, .f32⟩
  | 30 => ⟨S50000x64, .f32⟩
  | 31 => ⟨S_, .f32⟩
  | 32 => ⟨S_, .f32⟩
  | 33 => ⟨S_, .f32⟩
  | 34 => ⟨S_, .f32⟩
  | 35 => ⟨S64, .f32⟩
  | 36 => ⟨S64, .f32⟩
  | 37 => ⟨S64, .f32⟩
  | 38 => ⟨S_, .f32⟩
  | 39 => ⟨S_, .i1⟩
  | 40 => ⟨S_, .f32⟩
  | 41 => ⟨S_, .f32⟩
  | 42 => ⟨S64, .f32⟩
  | 43 => ⟨S64, .f32⟩
  | 44 => ⟨S1x64, .f32⟩
  | 45 => ⟨S50000x64, .f32⟩
  | 46 => ⟨S50000x64, .f32⟩
  | 47 => ⟨S_, .f32⟩
  | 48 => ⟨S64, .f32⟩
  | 49 => ⟨S64, .f32⟩
  | 50 => ⟨S64, .f32⟩
  | 51 => ⟨S1x64, .f32⟩
  | 52 => ⟨S50000x64, .f32⟩
  | 53 => ⟨S50000x64, .f32⟩
  | 54 => ⟨S1x64, .f32⟩
  | 55 => ⟨S50000x64, .f32⟩
  | 56 => ⟨S50000x64, .f32⟩
  | 57 => ⟨S1x64, .f32⟩
  | 58 => ⟨S50000x64, .f32⟩
  | 59 => ⟨S50000x64, .f32⟩
  | 60 => ⟨S1x64x128, .f32⟩
  | 61 => ⟨S64x128, .f32⟩
  | 62 => ⟨S1x128, .f32⟩
  | 63 => ⟨S128, .f32⟩
  | 64 => ⟨S50000x128, .f32⟩
  | 65 => ⟨S_, .f32⟩
  | 66 => ⟨S800000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S50000, .f32⟩
  | 73 => ⟨S50000, .f32⟩
  | 74 => ⟨S50000, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S800000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x1, .f32⟩
  | 104 => ⟨S800000x128, .f32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000, .f32⟩
  | 111 => ⟨S50000x1, .f32⟩
  | 112 => ⟨S50000x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S1, .f32⟩
  | 119 => ⟨S_, .f32⟩
  | 120 => ⟨S_, .f32⟩
  | 121 => ⟨S50000x128, .f32⟩
  | 122 => ⟨S50000x128, .i1⟩
  | 123 => ⟨S50000x128, .f32⟩
  | 124 => ⟨S50000x128, .f32⟩
  | 125 => ⟨S50000x128, .f32⟩
  | 126 => ⟨S1x128x64, .f32⟩
  | 127 => ⟨S128x64, .f32⟩
  | _ => ⟨S50000x64, .f32⟩

abbrev hbmTy0_4 (i : Nat) : BufTy := match i % 128 with
  | 0 => ⟨S1x64, .f32⟩
  | 1 => ⟨S64, .f32⟩
  | 2 => ⟨S50000x64, .f32⟩
  | 3 => ⟨S_, .f32⟩
  | 4 => ⟨S800000, .f32⟩
  | 5 => ⟨S_, .f32⟩
  | 6 => ⟨S50000, .f32⟩
  | 7 => ⟨S800000x1, .i32⟩
  | 8 => ⟨S50000, .f32⟩
  | 9 => ⟨S_, .f32⟩
  | 10 => ⟨S50000, .f32⟩
  | 11 => ⟨S50000, .f32⟩
  | 12 => ⟨S50000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000, .f32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S800000x1, .f32⟩
  | 42 => ⟨S800000x64, .f32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S50000, .f32⟩
  | 49 => ⟨S50000x1, .f32⟩
  | 50 => ⟨S50000x64, .f32⟩
  | 51 => ⟨S50000x64, .f32⟩
  | 52 => ⟨S50000x64, .f32⟩
  | 53 => ⟨S1x64, .f32⟩
  | 54 => ⟨S50000x64, .f32⟩
  | 55 => ⟨S50000x64, .f32⟩
  | 56 => ⟨S_, .f32⟩
  | 57 => ⟨S64x64, .f32⟩
  | 58 => ⟨S50000x1, .i32⟩
  | 59 => ⟨S64x64, .f32⟩
  | 60 => ⟨S_, .f32⟩
  | 61 => ⟨S50000, .f32⟩
  | 62 => ⟨S_, .f32⟩
  | 63 => ⟨S64, .f32⟩
  | 64 => ⟨S50000x1, .i32⟩
  | 65 => ⟨S64, .f32⟩
  | 66 => ⟨S_, .f32⟩
  | 67 => ⟨S64, .f32⟩
  | 68 => ⟨S64, .f32⟩
  | 69 => ⟨S64x1, .f32⟩
  | 70 => ⟨S64x64, .f32⟩
  | 71 => ⟨S64x64, .f32⟩
  | 72 => ⟨S_, .f32⟩
  | 73 => ⟨S64, .f32⟩
  | 74 => ⟨S_, .f32⟩
  | 75 => ⟨S64, .f32⟩
  | 76 => ⟨S64, .f32⟩
  | 77 => ⟨S_, .i32⟩
  | 78 => ⟨S_, .f32⟩
  | 79 => ⟨S64, .f32⟩
  | 80 => ⟨S1x64, .f32⟩
  | 81 => ⟨S_, .f32⟩
  | 82 => ⟨S1x64, .f32⟩
  | 83 => ⟨S1x64, .f32⟩
  | 84 => ⟨S64x64, .f32⟩
  | 85 => ⟨S64x64, .f32⟩
  | 86 => ⟨S64x64, .f32⟩
  | 87 => ⟨S_, .f32⟩
  | 88 => ⟨S_, .f32⟩
  | 89 => ⟨S_, .f32⟩
  | 90 => ⟨S_, .f32⟩
  | 91 => ⟨S64, .f32⟩
  | 92 => ⟨S64, .f32⟩
  | 93 => ⟨S64, .f32⟩
  | 94 => ⟨S_, .f32⟩
  | 95 => ⟨S_, .i1⟩
  | 96 => ⟨S_, .f32⟩
  | 97 => ⟨S_, .f32⟩
  | 98 => ⟨S64, .f32⟩
  | 99 => ⟨S64, .f32⟩
  | 100 => ⟨S1x64, .f32⟩
  | 101 => ⟨S64x64, .f32⟩
  | 102 => ⟨S64x64, .f32⟩
  | 103 => ⟨S_, .f32⟩
  | 104 => ⟨S64, .f32⟩
  | 105 => ⟨S64, .f32⟩
  | 106 => ⟨S64, .f32⟩
  | 107 => ⟨S1x64, .f32⟩
  | 108 => ⟨S64x64, .f32⟩
  | 109 => ⟨S64x64, .f32⟩
  | 110 => ⟨S1x64, .f32⟩
  | 111 => ⟨S64x64, .f32⟩
  | 112 => ⟨S64x64, .f32⟩
  | 113 => ⟨S1x64, .f32⟩
  | 114 => ⟨S64x64, .f32⟩
  | 115 => ⟨S64x64, .f32⟩
  | 116 => ⟨S64x256, .f32⟩
  | 117 => ⟨S1x256, .f32⟩
  | 118 => ⟨S64x256, .f32⟩
  | 119 => ⟨S64x256, .f32⟩
  | 120 => ⟨S_, .f32⟩
  | 121 => ⟨S64x256, .f32⟩
  | 122 => ⟨S64x256, .i1⟩
  | 123 => ⟨S64x256, .f32⟩
  | 124 => ⟨S64x256, .f32⟩
  | 125 => ⟨S64x256, .f32⟩
  | 126 => ⟨S64x10, .f32⟩
  | 127 => ⟨S1x10, .f32⟩
  | _ => ⟨S50000x64, .f32⟩

abbrev hbmTy0_5 (i : Nat) : BufTy := match i % 128 with
  | 0 => ⟨S64x10, .f32⟩
  | 1 => ⟨S64x10, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_c : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_cst_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_cst_1 : Ref sig .tc := ⟨.hbm, 56, rfl⟩
abbrev main_call1_v8 : Ref sig .tc := ⟨.hbm, 57, rfl⟩
abbrev main_call1_cst_2 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_cst_3 : Ref sig .tc := ⟨.hbm, 62, rfl⟩
abbrev main_call1_v12 : Ref sig .tc := ⟨.hbm, 63, rfl⟩
abbrev main_call1_cst_4 : Ref sig .tc := ⟨.hbm, 64, rfl⟩
abbrev main_call1_call0_v0 : Ref sig .tc := ⟨.hbm, 65, rfl⟩
abbrev main_call1_call0_v1 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_2 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_3 : Ref sig .tc := ⟨.hbm, 89, rfl⟩
abbrev main_v43 : Ref sig .tc := ⟨.hbm, 90, rfl⟩
abbrev main_cst_4 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_cst_5 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_c_6 : Ref sig .tc := ⟨.hbm, 99, rfl⟩
abbrev main_v50 : Ref sig .tc := ⟨.hbm, 100, rfl⟩
abbrev main_v51 : Ref sig .tc := ⟨.hbm, 101, rfl⟩
abbrev main_c_7 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_c_8 : Ref sig .tc := ⟨.hbm, 108, rfl⟩
abbrev main_v57 : Ref sig .tc := ⟨.hbm, 109, rfl⟩
abbrev main_v58 : Ref sig .tc := ⟨.hbm, 110, rfl⟩
abbrev main_c_9 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_c_10 : Ref sig .tc := ⟨.hbm, 118, rfl⟩
abbrev main_v65 : Ref sig .tc := ⟨.hbm, 119, rfl⟩
abbrev main_v66 : Ref sig .tc := ⟨.hbm, 120, rfl⟩
abbrev main_c_11 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_12 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_13 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_14 : Ref sig .tc := ⟨.hbm, 155, rfl⟩
abbrev main_v98 : Ref sig .tc := ⟨.hbm, 156, rfl⟩
abbrev main_cst_15 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_cst_16 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_c_17 : Ref sig .tc := ⟨.hbm, 165, rfl⟩
abbrev main_v105 : Ref sig .tc := ⟨.hbm, 166, rfl⟩
abbrev main_v106 : Ref sig .tc := ⟨.hbm, 167, rfl⟩
abbrev main_c_18 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_c_19 : Ref sig .tc := ⟨.hbm, 174, rfl⟩
abbrev main_v112 : Ref sig .tc := ⟨.hbm, 175, rfl⟩
abbrev main_v113 : Ref sig .tc := ⟨.hbm, 176, rfl⟩
abbrev main_c_20 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_c_21 : Ref sig .tc := ⟨.hbm, 184, rfl⟩
abbrev main_v120 : Ref sig .tc := ⟨.hbm, 185, rfl⟩
abbrev main_v121 : Ref sig .tc := ⟨.hbm, 186, rfl⟩
abbrev main_c_22 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_cst_23 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_cst_24 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_cst_25 : Ref sig .tc := ⟨.hbm, 220, rfl⟩
abbrev main_v152 : Ref sig .tc := ⟨.hbm, 221, rfl⟩
abbrev main_cst_26 : Ref sig .tc := ⟨.hbm, 222, rfl⟩
abbrev main_v153 : Ref sig .tc := ⟨.hbm, 223, rfl⟩
abbrev main_v154 : Ref sig .tc := ⟨.hbm, 224, rfl⟩
abbrev main_c_27 : Ref sig .tc := ⟨.hbm, 225, rfl⟩
abbrev main_call4_cst : Ref sig .tc := ⟨.hbm, 226, rfl⟩
abbrev main_call4_v0 : Ref sig .tc := ⟨.hbm, 227, rfl⟩
abbrev main_call4_v1 : Ref sig .tc := ⟨.hbm, 228, rfl⟩
abbrev main_call4_cst_0 : Ref sig .tc := ⟨.hbm, 229, rfl⟩
abbrev main_call4_v2 : Ref sig .tc := ⟨.hbm, 230, rfl⟩
abbrev main_call4_v3 : Ref sig .tc := ⟨.hbm, 231, rfl⟩
abbrev main_call4_v4 : Ref sig .tc := ⟨.hbm, 232, rfl⟩
abbrev main_call4_v5 : Ref sig .tc := ⟨.hbm, 233, rfl⟩
abbrev main_call4_v6 : Ref sig .tc := ⟨.hbm, 234, rfl⟩
abbrev main_call4_v7 : Ref sig .tc := ⟨.hbm, 235, rfl⟩
abbrev main_call4_cst_1 : Ref sig .tc := ⟨.hbm, 236, rfl⟩
abbrev main_call4_v8 : Ref sig .tc := ⟨.hbm, 237, rfl⟩
abbrev main_call4_cst_2 : Ref sig .tc := ⟨.hbm, 238, rfl⟩
abbrev main_call4_v9 : Ref sig .tc := ⟨.hbm, 239, rfl⟩
abbrev main_call4_v10 : Ref sig .tc := ⟨.hbm, 240, rfl⟩
abbrev main_call4_v11 : Ref sig .tc := ⟨.hbm, 241, rfl⟩
abbrev main_call4_cst_3 : Ref sig .tc := ⟨.hbm, 242, rfl⟩
abbrev main_call4_v12 : Ref sig .tc := ⟨.hbm, 243, rfl⟩
abbrev main_call4_cst_4 : Ref sig .tc := ⟨.hbm, 244, rfl⟩
abbrev main_call4_call0_v0 : Ref sig .tc := ⟨.hbm, 245, rfl⟩
abbrev main_call4_call0_v1 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_cst_28 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_cst_29 : Ref sig .tc := ⟨.hbm, 269, rfl⟩
abbrev main_v176 : Ref sig .tc := ⟨.hbm, 270, rfl⟩
abbrev main_cst_30 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_cst_31 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_c_32 : Ref sig .tc := ⟨.hbm, 279, rfl⟩
abbrev main_v183 : Ref sig .tc := ⟨.hbm, 280, rfl⟩
abbrev main_v184 : Ref sig .tc := ⟨.hbm, 281, rfl⟩
abbrev main_c_33 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_c_34 : Ref sig .tc := ⟨.hbm, 288, rfl⟩
abbrev main_v190 : Ref sig .tc := ⟨.hbm, 289, rfl⟩
abbrev main_v191 : Ref sig .tc := ⟨.hbm, 290, rfl⟩
abbrev main_c_35 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_c_36 : Ref sig .tc := ⟨.hbm, 298, rfl⟩
abbrev main_v198 : Ref sig .tc := ⟨.hbm, 299, rfl⟩
abbrev main_v199 : Ref sig .tc := ⟨.hbm, 300, rfl⟩
abbrev main_c_37 : Ref sig .tc := ⟨.hbm, 301, rfl⟩
abbrev main_v200 : Ref sig .tc := ⟨.hbm, 302, rfl⟩
abbrev main_v201 : Ref sig .tc := ⟨.hbm, 303, rfl⟩
abbrev main_v202 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_cst_38 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_v213 : Ref sig .tc := ⟨.hbm, 316, rfl⟩
abbrev main_v214 : Ref sig .tc := ⟨.hbm, 317, rfl⟩
abbrev main_v215 : Ref sig .tc := ⟨.hbm, 318, rfl⟩
abbrev main_v216 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_v220 : Ref sig .tc := ⟨.hbm, 323, rfl⟩
abbrev main_cst_39 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_v230 : Ref sig .tc := ⟨.hbm, 334, rfl⟩
abbrev main_cst_40 : Ref sig .tc := ⟨.hbm, 335, rfl⟩
abbrev main_v231 : Ref sig .tc := ⟨.hbm, 336, rfl⟩
abbrev main_cst_41 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_cst_42 : Ref sig .tc := ⟨.hbm, 341, rfl⟩
abbrev main_v235 : Ref sig .tc := ⟨.hbm, 342, rfl⟩
abbrev main_v236 : Ref sig .tc := ⟨.hbm, 343, rfl⟩
abbrev main_v237 : Ref sig .tc := ⟨.hbm, 344, rfl⟩
abbrev main_c_43 : Ref sig .tc := ⟨.hbm, 345, rfl⟩
abbrev main_v238 : Ref sig .tc := ⟨.hbm, 346, rfl⟩
abbrev main_v239 : Ref sig .tc := ⟨.hbm, 347, rfl⟩
abbrev main_c_44 : Ref sig .tc := ⟨.hbm, 348, rfl⟩
abbrev main_v240 : Ref sig .tc := ⟨.hbm, 349, rfl⟩
abbrev main_v241 : Ref sig .tc := ⟨.hbm, 350, rfl⟩
abbrev main_v242 : Ref sig .tc := ⟨.hbm, 351, rfl⟩
abbrev main_v243 : Ref sig .tc := ⟨.hbm, 352, rfl⟩
abbrev main_v244 : Ref sig .tc := ⟨.hbm, 353, rfl⟩
abbrev main_c_45 : Ref sig .tc := ⟨.hbm, 354, rfl⟩
abbrev main_v245 : Ref sig .tc := ⟨.hbm, 355, rfl⟩
abbrev main_v246 : Ref sig .tc := ⟨.hbm, 356, rfl⟩
abbrev main_c_46 : Ref sig .tc := ⟨.hbm, 357, rfl⟩
abbrev main_v247 : Ref sig .tc := ⟨.hbm, 358, rfl⟩
abbrev main_v248 : Ref sig .tc := ⟨.hbm, 359, rfl⟩
abbrev main_v249 : Ref sig .tc := ⟨.hbm, 360, rfl⟩
abbrev main_v250 : Ref sig .tc := ⟨.hbm, 361, rfl⟩
abbrev main_v251 : Ref sig .tc := ⟨.hbm, 362, rfl⟩
abbrev main_v252 : Ref sig .tc := ⟨.hbm, 363, rfl⟩
abbrev main_c_47 : Ref sig .tc := ⟨.hbm, 364, rfl⟩
abbrev main_v253 : Ref sig .tc := ⟨.hbm, 365, rfl⟩
abbrev main_v254 : Ref sig .tc := ⟨.hbm, 366, rfl⟩
abbrev main_c_48 : Ref sig .tc := ⟨.hbm, 367, rfl⟩
abbrev main_v255 : Ref sig .tc := ⟨.hbm, 368, rfl⟩
abbrev main_v256 : Ref sig .tc := ⟨.hbm, 369, rfl⟩
abbrev main_v257 : Ref sig .tc := ⟨.hbm, 370, rfl⟩
abbrev main_v258 : Ref sig .tc := ⟨.hbm, 371, rfl⟩
abbrev main_v259 : Ref sig .tc := ⟨.hbm, 372, rfl⟩
abbrev main_v260 : Ref sig .tc := ⟨.hbm, 373, rfl⟩
abbrev main_v261 : Ref sig .tc := ⟨.hbm, 374, rfl⟩
abbrev main_v262 : Ref sig .tc := ⟨.hbm, 375, rfl⟩
abbrev main_cst_49 : Ref sig .tc := ⟨.hbm, 376, rfl⟩
abbrev main_v263 : Ref sig .tc := ⟨.hbm, 377, rfl⟩
abbrev main_v264 : Ref sig .tc := ⟨.hbm, 378, rfl⟩
abbrev main_v265 : Ref sig .tc := ⟨.hbm, 379, rfl⟩
abbrev main_v266 : Ref sig .tc := ⟨.hbm, 380, rfl⟩
abbrev main_v267 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_v275 : Ref sig .tc := ⟨.hbm, 389, rfl⟩
abbrev main_cst_50 : Ref sig .tc := ⟨.hbm, 390, rfl⟩
abbrev main_v276 : Ref sig .tc := ⟨.hbm, 391, rfl⟩
abbrev main_v277 : Ref sig .tc := ⟨.hbm, 392, rfl⟩
abbrev main_v278 : Ref sig .tc := ⟨.hbm, 393, rfl⟩
abbrev main_v279 : Ref sig .tc := ⟨.hbm, 394, rfl⟩
abbrev main_v280 : Ref sig .tc := ⟨.hbm, 395, rfl⟩
abbrev main_v281 : Ref sig .tc := ⟨.hbm, 396, rfl⟩
abbrev main_v282 : Ref sig .tc := ⟨.hbm, 397, rfl⟩
abbrev main_v283 : Ref sig .tc := ⟨.hbm, 398, rfl⟩
abbrev main_v284 : Ref sig .tc := ⟨.hbm, 399, rfl⟩
abbrev main_cst_51 : Ref sig .tc := ⟨.hbm, 400, rfl⟩
abbrev main_v285 : Ref sig .tc := ⟨.hbm, 401, rfl⟩
abbrev main_cst_52 : Ref sig .tc := ⟨.hbm, 402, rfl⟩
abbrev main_v286 : Ref sig .tc := ⟨.hbm, 403, rfl⟩
abbrev main_v287 : Ref sig .tc := ⟨.hbm, 404, rfl⟩
abbrev main_c_53 : Ref sig .tc := ⟨.hbm, 405, rfl⟩
abbrev main_call7_cst : Ref sig .tc := ⟨.hbm, 406, rfl⟩
abbrev main_call7_v0 : Ref sig .tc := ⟨.hbm, 407, rfl⟩
abbrev main_call7_v1 : Ref sig .tc := ⟨.hbm, 408, rfl⟩
abbrev main_call7_cst_0 : Ref sig .tc := ⟨.hbm, 409, rfl⟩
abbrev main_call7_v2 : Ref sig .tc := ⟨.hbm, 410, rfl⟩
abbrev main_call7_v3 : Ref sig .tc := ⟨.hbm, 411, rfl⟩
abbrev main_call7_v4 : Ref sig .tc := ⟨.hbm, 412, rfl⟩
abbrev main_call7_v5 : Ref sig .tc := ⟨.hbm, 413, rfl⟩
abbrev main_call7_v6 : Ref sig .tc := ⟨.hbm, 414, rfl⟩
abbrev main_call7_v7 : Ref sig .tc := ⟨.hbm, 415, rfl⟩
abbrev main_call7_cst_1 : Ref sig .tc := ⟨.hbm, 416, rfl⟩
abbrev main_call7_v8 : Ref sig .tc := ⟨.hbm, 417, rfl⟩
abbrev main_call7_cst_2 : Ref sig .tc := ⟨.hbm, 418, rfl⟩
abbrev main_call7_v9 : Ref sig .tc := ⟨.hbm, 419, rfl⟩
abbrev main_call7_v10 : Ref sig .tc := ⟨.hbm, 420, rfl⟩
abbrev main_call7_v11 : Ref sig .tc := ⟨.hbm, 421, rfl⟩
abbrev main_call7_cst_3 : Ref sig .tc := ⟨.hbm, 422, rfl⟩
abbrev main_call7_v12 : Ref sig .tc := ⟨.hbm, 423, rfl⟩
abbrev main_call7_cst_4 : Ref sig .tc := ⟨.hbm, 424, rfl⟩
abbrev main_call7_call0_v0 : Ref sig .tc := ⟨.hbm, 425, rfl⟩
abbrev main_call7_call0_v1 : Ref sig .tc := ⟨.hbm, 426, rfl⟩
abbrev main_v288 : Ref sig .tc := ⟨.hbm, 427, rfl⟩
abbrev main_v289 : Ref sig .tc := ⟨.hbm, 428, rfl⟩
abbrev main_v290 : Ref sig .tc := ⟨.hbm, 429, rfl⟩
abbrev main_v291 : Ref sig .tc := ⟨.hbm, 430, rfl⟩
abbrev main_cst_54 : Ref sig .tc := ⟨.hbm, 431, rfl⟩
abbrev main_v292 : Ref sig .tc := ⟨.hbm, 432, rfl⟩
abbrev main_v293 : Ref sig .tc := ⟨.hbm, 433, rfl⟩
abbrev main_v294 : Ref sig .tc := ⟨.hbm, 434, rfl⟩
abbrev main_v295 : Ref sig .tc := ⟨.hbm, 435, rfl⟩
abbrev main_v296 : Ref sig .tc := ⟨.hbm, 436, rfl⟩
abbrev main_v297 : Ref sig .tc := ⟨.hbm, 437, rfl⟩
abbrev main_v298 : Ref sig .tc := ⟨.hbm, 438, rfl⟩
abbrev main_v299 : Ref sig .tc := ⟨.hbm, 439, rfl⟩
abbrev main_v300 : Ref sig .tc := ⟨.hbm, 440, rfl⟩
abbrev main_v301 : Ref sig .tc := ⟨.hbm, 441, rfl⟩
abbrev main_v302 : Ref sig .tc := ⟨.hbm, 442, rfl⟩
abbrev main_v303 : Ref sig .tc := ⟨.hbm, 443, rfl⟩
abbrev main_v304 : Ref sig .tc := ⟨.hbm, 444, rfl⟩
abbrev main_v305 : Ref sig .tc := ⟨.hbm, 445, rfl⟩
abbrev main_v306 : Ref sig .tc := ⟨.hbm, 446, rfl⟩
abbrev main_v307 : Ref sig .tc := ⟨.hbm, 447, rfl⟩
abbrev main_v308 : Ref sig .tc := ⟨.hbm, 448, rfl⟩
abbrev main_cst_55 : Ref sig .tc := ⟨.hbm, 449, rfl⟩
abbrev main_v309 : Ref sig .tc := ⟨.hbm, 450, rfl⟩
abbrev main_cst_56 : Ref sig .tc := ⟨.hbm, 451, rfl⟩
abbrev main_v310 : Ref sig .tc := ⟨.hbm, 452, rfl⟩
abbrev main_v311 : Ref sig .tc := ⟨.hbm, 453, rfl⟩
abbrev main_v312 : Ref sig .tc := ⟨.hbm, 454, rfl⟩
abbrev main_cst_57 : Ref sig .tc := ⟨.hbm, 455, rfl⟩
abbrev main_v313 : Ref sig .tc := ⟨.hbm, 456, rfl⟩
abbrev main_v314 : Ref sig .tc := ⟨.hbm, 457, rfl⟩
abbrev main_v315 : Ref sig .tc := ⟨.hbm, 458, rfl⟩
abbrev main_c_58 : Ref sig .tc := ⟨.hbm, 459, rfl⟩
abbrev main_v316 : Ref sig .tc := ⟨.hbm, 460, rfl⟩
abbrev main_v317 : Ref sig .tc := ⟨.hbm, 461, rfl⟩
abbrev main_c_59 : Ref sig .tc := ⟨.hbm, 462, rfl⟩
abbrev main_v318 : Ref sig .tc := ⟨.hbm, 463, rfl⟩
abbrev main_v319 : Ref sig .tc := ⟨.hbm, 464, rfl⟩
abbrev main_v320 : Ref sig .tc := ⟨.hbm, 465, rfl⟩
abbrev main_v321 : Ref sig .tc := ⟨.hbm, 466, rfl⟩
abbrev main_v322 : Ref sig .tc := ⟨.hbm, 467, rfl⟩
abbrev main_c_60 : Ref sig .tc := ⟨.hbm, 468, rfl⟩
abbrev main_v323 : Ref sig .tc := ⟨.hbm, 469, rfl⟩
abbrev main_v324 : Ref sig .tc := ⟨.hbm, 470, rfl⟩
abbrev main_c_61 : Ref sig .tc := ⟨.hbm, 471, rfl⟩
abbrev main_v325 : Ref sig .tc := ⟨.hbm, 472, rfl⟩
abbrev main_v326 : Ref sig .tc := ⟨.hbm, 473, rfl⟩
abbrev main_v327 : Ref sig .tc := ⟨.hbm, 474, rfl⟩
abbrev main_v328 : Ref sig .tc := ⟨.hbm, 475, rfl⟩
abbrev main_v329 : Ref sig .tc := ⟨.hbm, 476, rfl⟩
abbrev main_v330 : Ref sig .tc := ⟨.hbm, 477, rfl⟩
abbrev main_c_62 : Ref sig .tc := ⟨.hbm, 478, rfl⟩
abbrev main_v331 : Ref sig .tc := ⟨.hbm, 479, rfl⟩
abbrev main_v332 : Ref sig .tc := ⟨.hbm, 480, rfl⟩
abbrev main_c_63 : Ref sig .tc := ⟨.hbm, 481, rfl⟩
abbrev main_v333 : Ref sig .tc := ⟨.hbm, 482, rfl⟩
abbrev main_v334 : Ref sig .tc := ⟨.hbm, 483, rfl⟩
abbrev main_v335 : Ref sig .tc := ⟨.hbm, 484, rfl⟩
abbrev main_v336 : Ref sig .tc := ⟨.hbm, 485, rfl⟩
abbrev main_v337 : Ref sig .tc := ⟨.hbm, 486, rfl⟩
abbrev main_v338 : Ref sig .tc := ⟨.hbm, 487, rfl⟩
abbrev main_v339 : Ref sig .tc := ⟨.hbm, 488, rfl⟩
abbrev main_v340 : Ref sig .tc := ⟨.hbm, 489, rfl⟩
abbrev main_cst_64 : Ref sig .tc := ⟨.hbm, 490, rfl⟩
abbrev main_v341 : Ref sig .tc := ⟨.hbm, 491, rfl⟩
abbrev main_v342 : Ref sig .tc := ⟨.hbm, 492, rfl⟩
abbrev main_v343 : Ref sig .tc := ⟨.hbm, 493, rfl⟩
abbrev main_v344 : Ref sig .tc := ⟨.hbm, 494, rfl⟩
abbrev main_v345 : Ref sig .tc := ⟨.hbm, 495, rfl⟩
abbrev main_v346 : Ref sig .tc := ⟨.hbm, 496, rfl⟩
abbrev main_v347 : Ref sig .tc := ⟨.hbm, 497, rfl⟩
abbrev main_v348 : Ref sig .tc := ⟨.hbm, 498, rfl⟩
abbrev main_v349 : Ref sig .tc := ⟨.hbm, 499, rfl⟩
abbrev main_v350 : Ref sig .tc := ⟨.hbm, 500, rfl⟩
abbrev main_v351 : Ref sig .tc := ⟨.hbm, 501, rfl⟩
abbrev main_v352 : Ref sig .tc := ⟨.hbm, 502, rfl⟩
abbrev main_v353 : Ref sig .tc := ⟨.hbm, 503, rfl⟩
abbrev main_cst_65 : Ref sig .tc := ⟨.hbm, 504, rfl⟩
abbrev main_v354 : Ref sig .tc := ⟨.hbm, 505, rfl⟩
abbrev main_v355 : Ref sig .tc := ⟨.hbm, 506, rfl⟩
abbrev main_v356 : Ref sig .tc := ⟨.hbm, 507, rfl⟩
abbrev main_v357 : Ref sig .tc := ⟨.hbm, 508, rfl⟩
abbrev main_v358 : Ref sig .tc := ⟨.hbm, 509, rfl⟩
abbrev main_v359 : Ref sig .tc := ⟨.hbm, 510, rfl⟩
abbrev main_v360 : Ref sig .tc := ⟨.hbm, 511, rfl⟩
abbrev main_v361 : Ref sig .tc := ⟨.hbm, 512, rfl⟩
abbrev main_v362 : Ref sig .tc := ⟨.hbm, 513, rfl⟩
abbrev main_v363 : Ref sig .tc := ⟨.hbm, 514, rfl⟩
abbrev main_cst_66 : Ref sig .tc := ⟨.hbm, 515, rfl⟩
abbrev main_v364 : Ref sig .tc := ⟨.hbm, 516, rfl⟩
abbrev main_cst_67 : Ref sig .tc := ⟨.hbm, 517, rfl⟩
abbrev main_v365 : Ref sig .tc := ⟨.hbm, 518, rfl⟩
abbrev main_v366 : Ref sig .tc := ⟨.hbm, 519, rfl⟩
abbrev main_v367 : Ref sig .tc := ⟨.hbm, 520, rfl⟩
abbrev main_cst_68 : Ref sig .tc := ⟨.hbm, 521, rfl⟩
abbrev main_v368 : Ref sig .tc := ⟨.hbm, 522, rfl⟩
abbrev main_v369 : Ref sig .tc := ⟨.hbm, 523, rfl⟩
abbrev main_v370 : Ref sig .tc := ⟨.hbm, 524, rfl⟩
abbrev main_c_69 : Ref sig .tc := ⟨.hbm, 525, rfl⟩
abbrev main_v371 : Ref sig .tc := ⟨.hbm, 526, rfl⟩
abbrev main_v372 : Ref sig .tc := ⟨.hbm, 527, rfl⟩
abbrev main_c_70 : Ref sig .tc := ⟨.hbm, 528, rfl⟩
abbrev main_v373 : Ref sig .tc := ⟨.hbm, 529, rfl⟩
abbrev main_v374 : Ref sig .tc := ⟨.hbm, 530, rfl⟩
abbrev main_v375 : Ref sig .tc := ⟨.hbm, 531, rfl⟩
abbrev main_v376 : Ref sig .tc := ⟨.hbm, 532, rfl⟩
abbrev main_v377 : Ref sig .tc := ⟨.hbm, 533, rfl⟩
abbrev main_c_71 : Ref sig .tc := ⟨.hbm, 534, rfl⟩
abbrev main_v378 : Ref sig .tc := ⟨.hbm, 535, rfl⟩
abbrev main_v379 : Ref sig .tc := ⟨.hbm, 536, rfl⟩
abbrev main_c_72 : Ref sig .tc := ⟨.hbm, 537, rfl⟩
abbrev main_v380 : Ref sig .tc := ⟨.hbm, 538, rfl⟩
abbrev main_v381 : Ref sig .tc := ⟨.hbm, 539, rfl⟩
abbrev main_v382 : Ref sig .tc := ⟨.hbm, 540, rfl⟩
abbrev main_v383 : Ref sig .tc := ⟨.hbm, 541, rfl⟩
abbrev main_v384 : Ref sig .tc := ⟨.hbm, 542, rfl⟩
abbrev main_v385 : Ref sig .tc := ⟨.hbm, 543, rfl⟩
abbrev main_c_73 : Ref sig .tc := ⟨.hbm, 544, rfl⟩
abbrev main_v386 : Ref sig .tc := ⟨.hbm, 545, rfl⟩
abbrev main_v387 : Ref sig .tc := ⟨.hbm, 546, rfl⟩
abbrev main_c_74 : Ref sig .tc := ⟨.hbm, 547, rfl⟩
abbrev main_v388 : Ref sig .tc := ⟨.hbm, 548, rfl⟩
abbrev main_v389 : Ref sig .tc := ⟨.hbm, 549, rfl⟩
abbrev main_v390 : Ref sig .tc := ⟨.hbm, 550, rfl⟩
abbrev main_v391 : Ref sig .tc := ⟨.hbm, 551, rfl⟩
abbrev main_v392 : Ref sig .tc := ⟨.hbm, 552, rfl⟩
abbrev main_v393 : Ref sig .tc := ⟨.hbm, 553, rfl⟩
abbrev main_v394 : Ref sig .tc := ⟨.hbm, 554, rfl⟩
abbrev main_v395 : Ref sig .tc := ⟨.hbm, 555, rfl⟩
abbrev main_cst_75 : Ref sig .tc := ⟨.hbm, 556, rfl⟩
abbrev main_v396 : Ref sig .tc := ⟨.hbm, 557, rfl⟩
abbrev main_v397 : Ref sig .tc := ⟨.hbm, 558, rfl⟩
abbrev main_v398 : Ref sig .tc := ⟨.hbm, 559, rfl⟩
abbrev main_v399 : Ref sig .tc := ⟨.hbm, 560, rfl⟩
abbrev main_v400 : Ref sig .tc := ⟨.hbm, 561, rfl⟩
abbrev main_v401 : Ref sig .tc := ⟨.hbm, 562, rfl⟩
abbrev main_v402 : Ref sig .tc := ⟨.hbm, 563, rfl⟩
abbrev main_v403 : Ref sig .tc := ⟨.hbm, 564, rfl⟩
abbrev main_v404 : Ref sig .tc := ⟨.hbm, 565, rfl⟩
abbrev main_v405 : Ref sig .tc := ⟨.hbm, 566, rfl⟩
abbrev main_v406 : Ref sig .tc := ⟨.hbm, 567, rfl⟩
abbrev main_cst_76 : Ref sig .tc := ⟨.hbm, 568, rfl⟩
abbrev main_v407 : Ref sig .tc := ⟨.hbm, 569, rfl⟩
abbrev main_v408 : Ref sig .tc := ⟨.hbm, 570, rfl⟩
abbrev main_v409 : Ref sig .tc := ⟨.hbm, 571, rfl⟩
abbrev main_cst_77 : Ref sig .tc := ⟨.hbm, 572, rfl⟩
abbrev main_v410 : Ref sig .tc := ⟨.hbm, 573, rfl⟩
abbrev main_cst_78 : Ref sig .tc := ⟨.hbm, 574, rfl⟩
abbrev main_v411 : Ref sig .tc := ⟨.hbm, 575, rfl⟩
abbrev main_v412 : Ref sig .tc := ⟨.hbm, 576, rfl⟩
abbrev main_v413 : Ref sig .tc := ⟨.hbm, 577, rfl⟩
abbrev main_cst_79 : Ref sig .tc := ⟨.hbm, 578, rfl⟩
abbrev main_v414 : Ref sig .tc := ⟨.hbm, 579, rfl⟩
abbrev main_v415 : Ref sig .tc := ⟨.hbm, 580, rfl⟩
abbrev main_v416 : Ref sig .tc := ⟨.hbm, 581, rfl⟩
abbrev main_v417 : Ref sig .tc := ⟨.hbm, 582, rfl⟩
abbrev main_v418 : Ref sig .tc := ⟨.hbm, 583, rfl⟩
abbrev main_cst_80 : Ref sig .tc := ⟨.hbm, 584, rfl⟩
abbrev main_v419 : Ref sig .tc := ⟨.hbm, 585, rfl⟩
abbrev main_cst_81 : Ref sig .tc := ⟨.hbm, 586, rfl⟩
abbrev main_v420 : Ref sig .tc := ⟨.hbm, 587, rfl⟩
abbrev main_v421 : Ref sig .tc := ⟨.hbm, 588, rfl⟩
abbrev main_c_82 : Ref sig .tc := ⟨.hbm, 589, rfl⟩
abbrev main_call9_cst : Ref sig .tc := ⟨.hbm, 590, rfl⟩
abbrev main_call9_v0 : Ref sig .tc := ⟨.hbm, 591, rfl⟩
abbrev main_call9_v1 : Ref sig .tc := ⟨.hbm, 592, rfl⟩
abbrev main_call9_cst_0 : Ref sig .tc := ⟨.hbm, 593, rfl⟩
abbrev main_call9_v2 : Ref sig .tc := ⟨.hbm, 594, rfl⟩
abbrev main_call9_v3 : Ref sig .tc := ⟨.hbm, 595, rfl⟩
abbrev main_call9_v4 : Ref sig .tc := ⟨.hbm, 596, rfl⟩
abbrev main_call9_v5 : Ref sig .tc := ⟨.hbm, 597, rfl⟩
abbrev main_call9_v6 : Ref sig .tc := ⟨.hbm, 598, rfl⟩
abbrev main_call9_v7 : Ref sig .tc := ⟨.hbm, 599, rfl⟩
abbrev main_call9_cst_1 : Ref sig .tc := ⟨.hbm, 600, rfl⟩
abbrev main_call9_v8 : Ref sig .tc := ⟨.hbm, 601, rfl⟩
abbrev main_call9_cst_2 : Ref sig .tc := ⟨.hbm, 602, rfl⟩
abbrev main_call9_v9 : Ref sig .tc := ⟨.hbm, 603, rfl⟩
abbrev main_call9_v10 : Ref sig .tc := ⟨.hbm, 604, rfl⟩
abbrev main_call9_v11 : Ref sig .tc := ⟨.hbm, 605, rfl⟩
abbrev main_call9_cst_3 : Ref sig .tc := ⟨.hbm, 606, rfl⟩
abbrev main_call9_v12 : Ref sig .tc := ⟨.hbm, 607, rfl⟩
abbrev main_call9_cst_4 : Ref sig .tc := ⟨.hbm, 608, rfl⟩
abbrev main_call9_call0_v0 : Ref sig .tc := ⟨.hbm, 609, rfl⟩
abbrev main_call9_call0_v1 : Ref sig .tc := ⟨.hbm, 610, rfl⟩
abbrev main_v422 : Ref sig .tc := ⟨.hbm, 611, rfl⟩
abbrev main_v423 : Ref sig .tc := ⟨.hbm, 612, rfl⟩
abbrev main_v424 : Ref sig .tc := ⟨.hbm, 613, rfl⟩
abbrev main_v425 : Ref sig .tc := ⟨.hbm, 614, rfl⟩
abbrev main_cst_83 : Ref sig .tc := ⟨.hbm, 615, rfl⟩
abbrev main_v426 : Ref sig .tc := ⟨.hbm, 616, rfl⟩
abbrev main_v427 : Ref sig .tc := ⟨.hbm, 617, rfl⟩
abbrev main_v428 : Ref sig .tc := ⟨.hbm, 618, rfl⟩
abbrev main_v429 : Ref sig .tc := ⟨.hbm, 619, rfl⟩
abbrev main_v430 : Ref sig .tc := ⟨.hbm, 620, rfl⟩
abbrev main_v431 : Ref sig .tc := ⟨.hbm, 621, rfl⟩
abbrev main_v432 : Ref sig .tc := ⟨.hbm, 622, rfl⟩
abbrev main_v433 : Ref sig .tc := ⟨.hbm, 623, rfl⟩
abbrev main_v434 : Ref sig .tc := ⟨.hbm, 624, rfl⟩
abbrev main_v435 : Ref sig .tc := ⟨.hbm, 625, rfl⟩
abbrev main_v436 : Ref sig .tc := ⟨.hbm, 626, rfl⟩
abbrev main_v437 : Ref sig .tc := ⟨.hbm, 627, rfl⟩
abbrev main_v438 : Ref sig .tc := ⟨.hbm, 628, rfl⟩
abbrev main_v439 : Ref sig .tc := ⟨.hbm, 629, rfl⟩
abbrev main_v440 : Ref sig .tc := ⟨.hbm, 630, rfl⟩
abbrev main_v441 : Ref sig .tc := ⟨.hbm, 631, rfl⟩
abbrev main_cst_84 : Ref sig .tc := ⟨.hbm, 632, rfl⟩
abbrev main_v442 : Ref sig .tc := ⟨.hbm, 633, rfl⟩
abbrev main_v443 : Ref sig .tc := ⟨.hbm, 634, rfl⟩
abbrev main_v444 : Ref sig .tc := ⟨.hbm, 635, rfl⟩
abbrev main_v445 : Ref sig .tc := ⟨.hbm, 636, rfl⟩
abbrev main_v446 : Ref sig .tc := ⟨.hbm, 637, rfl⟩
abbrev main_v447 : Ref sig .tc := ⟨.hbm, 638, rfl⟩
abbrev main_v448 : Ref sig .tc := ⟨.hbm, 639, rfl⟩
abbrev main_v449 : Ref sig .tc := ⟨.hbm, 640, rfl⟩
abbrev main_v450 : Ref sig .tc := ⟨.hbm, 641, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3_S1_0 : S3.Slices ![0] S1
  shapeCasts_S1_S_ : S1.ShapeCasts S_
  bcast_S_S50000x64 : S_.BroadcastsInDim S50000x64 (![] : Fin 0 → Fin S50000x64.rank)
  slices_S3x64_S1x64_0_0 : S3x64.Slices ![0, 0] S1x64
  shapeCasts_S1x64_S64 : S1x64.ShapeCasts S64
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x64_S1x128x64_0_0_0 : S3x128x64.Slices ![0, 0, 0] S1x128x64
  shapeCasts_S1x128x64_S128x64 : S1x128x64.ShapeCasts S128x64
  bcast_S800000x1_S800000x64_0_1 : S800000x1.BroadcastsInDim S800000x64 (![0, 1] : Fin 2 → Fin S800000x64.rank)
  bcast_S50000x1_S50000x64_0_1 : S50000x1.BroadcastsInDim S50000x64 (![0, 1] : Fin 2 → Fin S50000x64.rank)
  slices_S3_S1_1 : S3.Slices ![1] S1
  slices_S3x64_S1x64_1_0 : S3x64.Slices ![1, 0] S1x64
  slices_S3x64x128_S1x64x128_1_0_0 : S3x64x128.Slices ![1, 0, 0] S1x64x128
  slices_S3x128_S1x128_1_0 : S3x128.Slices ![1, 0] S1x128
  slices_S3x128x64_S1x128x64_1_0_0 : S3x128x64.Slices ![1, 0, 0] S1x128x64
  slices_S3_S1_2 : S3.Slices ![2] S1
  slices_S3x64_S1x64_2_0 : S3x64.Slices ![2, 0] S1x64
  slices_S3x64x128_S1x64x128_2_0_0 : S3x64x128.Slices ![2, 0, 0] S1x64x128
  slices_S3x128_S1x128_2_0 : S3x128.Slices ![2, 0] S1x128
  slices_S3x128x64_S1x128x64_2_0_0 : S3x128x64.Slices ![2, 0, 0] S1x128x64
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  reducesTo_S64x64_S64_d0 : S64x64.ReducesTo [0] S64
  bcast_S1x64_S64x64_0_1 : S1x64.BroadcastsInDim S64x64 (![0, 1] : Fin 2 → Fin S64x64.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S50000x64_S64x64_S50000x64_1_0_0_1_n_n_wf : DotDims.WF S50000x64 S64x64 S50000x64 [1] [0] [0] [1] [] []
  dot_S50000x64_S64x128_S50000x128_1_0_0_1_n_n_wf : DotDims.WF S50000x64 S64x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x256_S64x256_1_0_0_1_n_n_wf : DotDims.WF S64x64 S64x256 S64x256 [1] [0] [0] [1] [] []
  dot_S64x256_S256x10_S64x10_1_0_0_1_n_n_wf : DotDims.WF S64x256 S256x10 S64x10 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.Spec.lean ====
/-
  The network, stage by stage, as functions of whole arrays (any float instance): each stage is the composition of
  array operations that the plain program applies, written once so that both programs' runs can be stated against it.
  * the edge list's two rows (sources, targets), negative node numbers wrapped by the node count;
  * deg = 1 + the number of edges into a node, dinv = deg^(-1/2), the edge weight dinv(src)·dinv(dst), the
    self-loop weight dinv²;
  * a graph convolution of already transformed rows: scatter-add over the edges of the gathered source rows times the
    edge weights, plus the rows times the self-loop weight, plus a bias row;
  * the parametric rectifier, the mean and the (biased) variance over the node axis, the normalisation, the dense
    contractions; the mean pool per graph and the two dense layers at the end.
-/
import proofs.«102494_j5102421148167_1_alg».proof.ReferenceIdeal

noncomputable section

namespace Cert.Spec

open Cert.ReferenceIdeal Idealize.ShloMosaic Idealize.SL.Sem
open Cert.ReferenceIdeal.Facts₀ Cert.ReferenceIdeal.Facts

variable {F : FTy → Type} [FloatOps F] [Cert.ReferenceIdeal.Facts]

/-- The contents of a buffer of shape `s` and element type `e`. -/
abbrev C (F : FTy → Type) (s : Shape) (e : EltTy) : Type := (⟨s, e⟩ : BufTy).Contents (Elt F)

/-! ## The graph's structure -/

/-- The sources of the edges: row 0 of the edge list. -/
def src (a1 : C F S2x800000 .i32) : C F S800000 .i32 :=
  shapeCast S800000 (extractStridedSlice S1x800000 ![0, 0] a1 slices_S2x800000_S1x800000_0_0) shapeCasts_S1x800000_S800000
/-- The targets of the edges: row 1 of the edge list. -/
def dst (a1 : C F S2x800000 .i32) : C F S800000 .i32 :=
  shapeCast S800000 (extractStridedSlice S1x800000 ![1, 0] a1 slices_S2x800000_S1x800000_1_0) shapeCasts_S1x800000_S800000

/-- Node numbers as gather indices: a negative one wrapped by the node count, as a column. -/
def nidx (v : C F S800000 .i32) : C F S800000x1 .i32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- (1 + in-degree)^(-1/2) per node. -/
def dinv (d : C F S800000 .i32) : C F S50000 .f32 :=
  Host.rsqrt (addf
    (Host.scatterAdd scatter_S50000_S800000x1_S800000_n_0_0_1
      (broadcastInDim S50000 ![] bcast_S_S50000 (constant (F := F) S_ .f32 0x00000000#32))
      (broadcastInDim S800000x1 ![0] bcast_S800000_S800000x1_0 d)
      (broadcastInDim S800000 ![] bcast_S_S800000 (constant (F := F) S_ .f32 0x3F800000#32)))
    (broadcastInDim S50000 ![] bcast_S_S50000 (constant (F := F) S_ .f32 0x3F800000#32)))

/-- The edge weights dinv(src)·dinv(dst), as a column. -/
def normE1 (s d : C F S800000 .i32) : C F S800000x1 .f32 :=
  broadcastInDim S800000x1 ![0] bcast_S800000_S800000x1_0
    (mulf (Host.gather gather_S50000_S800000x1_S800000_n_0_n_n_0_1_1 (dinv d) (nidx s))
          (Host.gather gather_S50000_S800000x1_S800000_n_0_n_n_0_1_1 (dinv d) (nidx d)))

/-- The self-loop weights dinv², as a column. -/
def selfS1 (d : C F S800000 .i32) : C F S50000x1 .f32 :=
  broadcastInDim S50000x1 ![0] bcast_S50000_S50000x1_0 (mulf (dinv d) (dinv d))

/-! ## The convolution's aggregation -/

/-- Aggregate 128-wide rows over the edges, add the self loops and the bias. -/
def conv128 (lin : C F S50000x128 .f32) (s d : C F S800000 .i32) (n1 : C F S800000x1 .f32) (s1 : C F S50000x1 .f32)
    (bias : C F S128 .f32) : C F S50000x128 .f32 :=
  addf (addf
    (Host.scatterAdd scatter_S50000x128_S800000x1_S800000x128_1_0_0_1
      (broadcastInDim S50000x128 ![] bcast_S_S50000x128 (constant (F := F) S_ .f32 0x00000000#32))
      (broadcastInDim S800000x1 ![0] bcast_S800000_S800000x1_0 d)
      (mulf (Host.gather gather_S50000x128_S800000x1_S800000x128_1_0_n_n_0_1_1128 lin (nidx s))
            (broadcastInDim S800000x128 ![0, 1] bcast_S800000x1_S800000x128_0_1 n1)))
    (mulf lin (broadcastInDim S50000x128 ![0, 1] bcast_S50000x1_S50000x128_0_1 s1)))
    (broadcastInDim S50000x128 ![0, 1] bcast_S1x128_S50000x128_0_1 (broadcastInDim S1x128 ![1] bcast_S128_S1x128_1 bias))

/-- Aggregate 64-wide rows over the edges, add the self loops and the bias. -/
def conv64 (lin : C F S50000x64 .f32) (s d : C F S800000 .i32) (n1 : C F S800000x1 .f32) (s1 : C F S50000x1 .f32)
    (bias : C F S64 .f32) : C F S50000x64 .f32 :=
  addf (addf
    (Host.scatterAdd scatter_S50000x64_S800000x1_S800000x64_1_0_0_1
      (broadcastInDim S50000x64 ![] bcast_S_S50000x64 (constant (F := F) S_ .f32 0x00000000#32))
      (broadcastInDim S800000x1 ![0] bcast_S800000_S800000x1_0 d)
      (mulf (Host.gather gather_S50000x64_S800000x1_S800000x64_1_0_n_n_0_1_164 lin (nidx s))
            (broadcastInDim S800000x64 ![0, 1] bcast_S800000x1_S800000x64_0_1 n1)))
    (mulf lin (broadcastInDim S50000x64 ![0, 1] bcast_S50000x1_S50000x64_0_1 s1)))
    (broadcastInDim S50000x64 ![0, 1] bcast_S1x64_S50000x64_0_1 (broadcastInDim S1x64 ![1] bcast_S64_S1x64_1 bias))

/-! ## Rectifier, statistics, normalisation, contractions -/

/-- A per-feature vector as every row of a [50000, 64] array. -/
def rows64 (v : C F S64 .f32) : C F S50000x64 .f32 :=
  broadcastInDim S50000x64 ![0, 1] bcast_S1x64_S50000x64_0_1 (broadcastInDim S1x64 ![1] bcast_S64_S1x64_1 v)

/-- The parametric rectifier on [50000, 64]. -/
def prelu64 (a : C F S_ .f32) (h : C F S50000x64 .f32) : C F S50000x64 .f32 :=
  select (cmpf .oge h (broadcastInDim S50000x64 ![] bcast_S_S50000x64 (constant (F := F) S_ .f32 0x00000000#32))) h
    (mulf (broadcastInDim S50000x64 ![] bcast_S_S50000x64 a) h)

/-- The parametric rectifier on [50000, 128]. -/
def prelu128 (a : C F S_ .f32) (h : C F S50000x128 .f32) : C F S50000x128 .f32 :=
  select (cmpf .oge h (broadcastInDim S50000x128 ![] bcast_S_S50000x128 (constant (F := F) S_ .f32 0x00000000#32))) h
    (mulf (broadcastInDim S50000x128 ![] bcast_S_S50000x128 a) h)

/-- The mean over the node axis. -/
def mean64 (t : C F S50000x64 .f32) : C F S64 .f32 :=
  Host.divf (Host.reduceAdd t (constant (F := F) S_ .f32 0x00000000#32) reducesTo_S50000x64_S64_d0 h_S_)
    (broadcastInDim S64 ![] bcast_S_S64 (constant (F := F) S_ .f32 0x47435000#32))

/-- The biased variance over the node axis: the mean of the squared deviations, the divisor 50000 − 0 guarded. -/
def var64 (t : C F S50000x64 .f32) : C F S64 .f32 :=
  have v5 : C F S50000x64 .f32 := subf t (broadcastInDim S50000x64 ![0, 1] bcast_S1x64_S50000x64_0_1
    (Host.divf (broadcastInDim S1x64 ![1] bcast_S64_S1x64_1
        (Host.reduceAdd t (constant (F := F) S_ .f32 0x00000000#32) reducesTo_S50000x64_S64_d0 h_S_))
      (broadcastInDim S1x64 ![] bcast_S_S1x64 (constant (F := F) S_ .f32 0x47435000#32))))
  have v8 : C F S_ .f32 := subf (constant (F := F) S_ .f32 0x47435000#32) (sitofp .f32 (constantI S_ 32 0#32))
  select (broadcastInDim S64 ![] bcast_S_S64 (cmpf .ogt v8 (constant (F := F) S_ .f32 0x00000000#32)))
    (Host.divf (Host.reduceAdd (mulf v5 v5) (constant (F := F) S_ .f32 0x00000000#32) reducesTo_S50000x64_S64_d0 h_S_)
      (broadcastInDim S64 ![] bcast_S_S64 v8))
    (broadcastInDim S64 ![] bcast_S_S64 (id (constant (F := F) S_ .f32 0x7FC00000#32)))

/-- Normalise per feature, scale and shift, contract with a [64, 128] matrix. -/
def bndot64 (t : C F S50000x64 .f32) (mean var gamma beta : C F S64 .f32) (w : C F S64x128 .f32) : C F S50000x128 .f32 :=
  Host.dotGeneral dot_S50000x64_S64x128_S50000x128_1_0_0_1_n_n none
    (addf (mulf (mulf (subf t (rows64 mean))
        (rows64 (Host.rsqrt (addf var (broadcastInDim S64 ![] bcast_S_S64 (constant (F := F) S_ .f32 0x3727C5AC#32))))))
      (rows64 gamma)) (rows64 beta)) w

/-- The first dense layer: x·W + b. -/
def lin0 (x : C F S50000x64 .f32) (w : C F S64x64 .f32) (b : C F S64 .f32) : C F S50000x64 .f32 :=
  addf (Host.dotGeneral dot_S50000x64_S64x64_S50000x64_1_0_0_1_n_n none x w) (rows64 b)

/-- Rectify and contract with a [128, 64] matrix. -/
def pdot128 (a : C F S_ .f32) (h : C F S50000x128 .f32) (w : C F S128x64 .f32) : C F S50000x64 .f32 :=
  Host.dotGeneral dot_S50000x128_S128x64_S50000x64_1_0_0_1_n_n none (prelu128 a h) w

/-- One block from its input activations and its own (already sliced) parameters. -/
def block (h : C F S50000x64 .f32) (s d : C F S800000 .i32) (n1 : C F S800000x1 .f32) (s1 : C F S50000x1 .f32)
    (a1 : C F S_ .f32) (gamma beta : C F S64 .f32) (w1 : C F S64x128 .f32) (b1 : C F S128 .f32)
    (a2 : C F S_ .f32) (w2 : C F S128x64 .f32) (b2 : C F S64 .f32) : C F S50000x64 .f32 :=
  conv64 (pdot128 a2
    (conv128 (bndot64 (prelu64 a1 h) (mean64 (prelu64 a1 h)) (var64 (prelu64 a1 h)) gamma beta w1) s d n1 s1 b1) w2)
    s d n1 s1 b2

/-! ## The blocks' parameters: slice k of a stacked parameter -/

def sc0 (a : C F S3 .f32) : C F S_ .f32 := shapeCast S_ (extractStridedSlice S1 ![0] a slices_S3_S1_0) shapeCasts_S1_S_
def sc1 (a : C F S3 .f32) : C F S_ .f32 := shapeCast S_ (extractStridedSlice S1 ![1] a slices_S3_S1_1) shapeCasts_S1_S_
def sc2 (a : C F S3 .f32) : C F S_ .f32 := shapeCast S_ (extractStridedSlice S1 ![2] a slices_S3_S1_2) shapeCasts_S1_S_
def v64_0 (a : C F S3x64 .f32) : C F S64 .f32 := shapeCast S64 (extractStridedSlice S1x64 ![0, 0] a slices_S3x64_S1x64_0_0) shapeCasts_S1x64_S64
def v64_1 (a : C F S3x64 .f32) : C F S64 .f32 := shapeCast S64 (extractStridedSlice S1x64 ![1, 0] a slices_S3x64_S1x64_1_0) shapeCasts_S1x64_S64
def v64_2 (a : C F S3x64 .f32) : C F S64 .f32 := shapeCast S64 (extractStridedSlice S1x64 ![2, 0] a slices_S3x64_S1x64_2_0) shapeCasts_S1x64_S64
def v128_0 (a : C F S3x128 .f32) : C F S128 .f32 := shapeCast S128 (extractStridedSlice S1x128 ![0, 0] a slices_S3x128_S1x128_0_0) shapeCasts_S1x128_S128
def v128_1 (a : C F S3x128 .f32) : C F S128 .f32 := shapeCast S128 (extractStridedSlice S1x128 ![1, 0] a slices_S3x128_S1x128_1_0) shapeCasts_S1x128_S128
def v128_2 (a : C F S3x128 .f32) : C F S128 .f32 := shapeCast S128 (extractStridedSlice S1x128 ![2, 0] a slices_S3x128_S1x128_2_0) shapeCasts_S1x128_S128
def w1_0 (a : C F S3x64x128 .f32) : C F S64x128 .f32 := shapeCast S64x128 (extractStridedSlice S1x64x128 ![0, 0, 0] a slices_S3x64x128_S1x64x128_0_0_0) shapeCasts_S1x64x128_S64x128
def w1_1 (a : C F S3x64x128 .f32) : C F S64x128 .f32 := shapeCast S64x128 (extractStridedSlice S1x64x128 ![1, 0, 0] a slices_S3x64x128_S1x64x128_1_0_0) shapeCasts_S1x64x128_S64x128
def w1_2 (a : C F S3x64x128 .f32) : C F S64x128 .f32 := shapeCast S64x128 (extractStridedSlice S1x64x128 ![2, 0, 0] a slices_S3x64x128_S1x64x128_2_0_0) shapeCasts_S1x64x128_S64x128
def w2_0 (a : C F S3x128x64 .f32) : C F S128x64 .f32 := shapeCast S128x64 (extractStridedSlice S1x128x64 ![0, 0, 0] a slices_S3x128x64_S1x128x64_0_0_0) shapeCasts_S1x128x64_S128x64
def w2_1 (a : C F S3x128x64 .f32) : C F S128x64 .f32 := shapeCast S128x64 (extractStridedSlice S1x128x64 ![1, 0, 0] a slices_S3x128x64_S1x128x64_1_0_0) shapeCasts_S1x128x64_S128x64
def w2_2 (a : C F S3x128x64 .f32) : C F S128x64 .f32 := shapeCast S128x64 (extractStridedSlice S1x128x64 ![2, 0, 0] a slices_S3x128x64_S1x128x64_2_0_0) shapeCasts_S1x128x64_S128x64

/-! ## The pool and the head -/

/-- A per-feature vector as every row of a [64, 64] array. -/
def rowsG (v : C F S64 .f32) : C F S64x64 .f32 :=
  broadcastInDim S64x64 ![0, 1] bcast_S1x64_S64x64_0_1 (broadcastInDim S1x64 ![1] bcast_S64_S1x64_1 v)

/-- The biased variance over the graph axis of the pooled rows. -/
def varG (t : C F S64x64 .f32) : C F S64 .f32 :=
  have v5 : C F S64x64 .f32 := subf t (broadcastInDim S64x64 ![0, 1] bcast_S1x64_S64x64_0_1
    (Host.divf (broadcastInDim S1x64 ![1] bcast_S64_S1x64_1
        (Host.reduceAdd t (constant (F := F) S_ .f32 0x00000000#32) reducesTo_S64x64_S64_d0 h_S_))
      (broadcastInDim S1x64 ![] bcast_S_S1x64 (constant (F := F) S_ .f32 0x42800000#32))))
  have v8 : C F S_ .f32 := subf (constant (F := F) S_ .f32 0x42800000#32) (sitofp .f32 (constantI S_ 32 0#32))
  select (broadcastInDim S64 ![] bcast_S_S64 (cmpf .ogt v8 (constant (F := F) S_ .f32 0x00000000#32)))
    (Host.divf (Host.reduceAdd (mulf v5 v5) (constant (F := F) S_ .f32 0x00000000#32) reducesTo_S64x64_S64_d0 h_S_)
      (broadcastInDim S64 ![] bcast_S_S64 v8))
    (broadcastInDim S64 ![] bcast_S_S64 (id (constant (F := F) S_ .f32 0x7FC00000#32)))

/-- The mean pool per graph: the sum of a graph's rows over max(its node count, 1). -/
def pool (h : C F S50000x64 .f32) (a2 : C F S50000 .i32) : C F S64x64 .f32 :=
  Host.divf
    (Host.scatterAdd scatter_S64x64_S50000x1_S50000x64_1_0_0_1
      (broadcastInDim S64x64 ![] bcast_S_S64x64 (constant (F := F) S_ .f32 0x00000000#32))
      (broadcastInDim S50000x1 ![0] bcast_S50000_S50000x1_0 a2) h)
    (broadcastInDim S64x64 ![0, 1] bcast_S64x1_S64x64_0_1 (broadcastInDim S64x1 ![0] bcast_S64_S64x1_0
      (maximumf
        (Host.scatterAdd scatter_S64_S50000x1_S50000_n_0_0_1
          (broadcastInDim S64 ![] bcast_S_S64 (constant (F := F) S_ .f32 0x00000000#32))
          (broadcastInDim S50000x1 ![0] bcast_S50000_S50000x1_0 a2)
          (broadcastInDim S50000 ![] bcast_S_S50000 (constant (F := F) S_ .f32 0x3F800000#32)))
        (broadcastInDim S64 ![] bcast_S_S64 (constant (F := F) S_ .f32 0x3F800000#32)))))

/-- Normalise the pooled rows over the graph axis, then the two dense layers with a rectifier between. -/
def head (p : C F S64x64 .f32) (a13 a14 : C F S64 .f32) (a15 : C F S64x256 .f32) (a16 : C F S256 .f32) (a17 : C F S_ .f32)
    (a18 : C F S256x10 .f32) (a19 : C F S10 .f32) : C F S64x10 .f32 :=
  have o1 : C F S64x256 .f32 := addf
    (Host.dotGeneral dot_S64x64_S64x256_S64x256_1_0_0_1_n_n none
      (addf (mulf (mulf
          (subf p (rowsG (Host.divf (Host.reduceAdd p (constant (F := F) S_ .f32 0x00000000#32) reducesTo_S64x64_S64_d0 h_S_)
            (broadcastInDim S64 ![] bcast_S_S64 (constant (F := F) S_ .f32 0x42800000#32)))))
          (rowsG (Host.rsqrt (addf (varG p) (broadcastInDim S64 ![] bcast_S_S64 (constant (F := F) S_ .f32 0x3727C5AC#32))))))
        (rowsG a13)) (rowsG a14)) a15)
    (broadcastInDim S64x256 ![0, 1] bcast_S1x256_S64x256_0_1 (broadcastInDim S1x256 ![1] bcast_S256_S1x256_1 a16))
  addf
    (Host.dotGeneral dot_S64x256_S256x10_S64x10_1_0_0_1_n_n none
      (select (cmpf .oge o1 (broadcastInDim S64x256 ![] bcast_S_S64x256 (constant (F := F) S_ .f32 0x00000000#32))) o1
        (mulf (broadcastInDim S64x256 ![] bcast_S_S64x256 a17) o1)) a18)
    (broadcastInDim S64x10 ![0, 1] bcast_S1x10_S64x10_0_1 (broadcastInDim S1x10 ![1] bcast_S10_S1x10_1 a19))

/-! ## The whole network -/

/-- The result as one function of the twenty argument arrays. -/
def out (a0 : C F S50000x64 .f32) (a1 : C F S2x800000 .i32) (a2 : C F S50000 .i32) (a3 : C F S64x64 .f32) (a4 : C F S64 .f32)
    (a5 : C F S3 .f32) (a6 a7 : C F S3x64 .f32) (a8 : C F S3x64x128 .f32) (a9 : C F S3x128 .f32) (a10 : C F S3 .f32)
    (a11 : C F S3x128x64 .f32) (a12 : C F S3x64 .f32) (a13 a14 : C F S64 .f32) (a15 : C F S64x256 .f32) (a16 : C F S256 .f32)
    (a17 : C F S_ .f32) (a18 : C F S256x10 .f32) (a19 : C F S10 .f32) : C F S64x10 .f32 :=
  have s := src a1
  have d := dst a1
  have n1 := normE1 s d
  have s1 := selfS1 d
  have h0 := lin0 a0 a3 a4
  have h1 := block h0 s d n1 s1 (sc0 a5) (v64_0 a6) (v64_0 a7) (w1_0 a8) (v128_0 a9) (sc0 a10) (w2_0 a11) (v64_0 a12)
  have h2 := block h1 s d n1 s1 (sc1 a5) (v64_1 a6) (v64_1 a7) (w1_1 a8) (v128_1 a9) (sc1 a10) (w2_1 a11) (v64_1 a12)
  have h3 := block h2 s d n1 s1 (sc2 a5) (v64_2 a6) (v64_2 a7) (w1_2 a8) (v128_2 a9) (sc2 a10) (w2_2 a11) (v64_2 a12)
  head (pool h3 a2) a13 a14 a15 a16 a17 a18 a19

end Cert.Spec

end
-- ==== Proof.SpecG.lean ====
/-
  The three dense stages of the network as functions of whole arrays, entry by entry, on the extended reals.
  A parametric rectifier keeps a non-negative entry and scales a negative one by a learned slope;
  a dense stage contracts the 64 (or 128) features of a row against a weight matrix.
  * lin    : row p, column q  ↦  (∑ₖ x(p,k)·w(k,q)) + b(q)
  * bnlin  : the rectified row is centred by a per-feature mean, scaled by the reciprocal square root of a per-feature
             variance plus a small constant, scaled and shifted per feature, and then contracted
  * plin   : the rectified row contracted
  The per-feature parameters arrive as rows of shape [1, d] and the slope as a [1, 1] array.
-/
import Idealize.ShloMosaic.PureOps.Ideal
import Idealize.ShloMosaic.Lib.ValueIdx

noncomputable section

open scoped BigOperators

namespace Cert.SpecG

open Idealize.ShloMosaic Idealize.ShloMosaic.ValueIdx

/-- An array of extended reals over a rank-2 shape. -/
abbrev Arr2 (a b : Nat) : Type := (⟨2, ![a, b]⟩ : Shape).Idx → EReal

/-- The binary32 zero, as the instance reads its word. -/
abbrev zeroF : EReal := Ideal.ofBits .f32 0x00000000#32
/-- The small constant added to a variance, as the instance reads its word. -/
abbrev epsF : EReal := Ideal.ofBits .f32 0x3727C5AC#32

/-- The parametric rectifier on one entry: x where x ≥ 0, slope · x elsewhere. -/
def prelu (a x : EReal) : EReal := Scalar.select (FloatOps.cmpf (F := Ideal) (φ := .f32) .oge x zeroF) x (a * x)

/-- A dense stage with bias: (∑ₖ x(p,k)·w(k,q)) + b(q). -/
def lin (x : Arr2 50000 64) (w : Arr2 64 64) (b : Arr2 1 64) : Arr2 50000 64 :=
  fun i => (∑ k : Fin 64, x (ix2 (i 0 : Fin 50000) k) * w (ix2 k (i 1 : Fin 64))) + b (ix2 (0 : Fin 1) (i 1 : Fin 64))

/-- One normalised entry: ((rectified − mean) · (var + ε)^(−1/2)) · γ + β. -/
def bn (a h m v g be : EReal) : EReal := (((prelu a h - m) * Ideal.rsqrt (v + epsF)) * g) + be

/-- Rectify, normalise per feature, contract: ∑ₖ bn(h(p,k))·w(k,q). -/
def bnlin (h : Arr2 50000 64) (a : Arr2 1 1) (mean var gamma beta : Arr2 1 64) (w : Arr2 64 128) : Arr2 50000 128 :=
  fun i => ∑ k : Fin 64, bn (a (ix2 (0 : Fin 1) (0 : Fin 1))) (h (ix2 (i 0 : Fin 50000) k)) (mean (ix2 (0 : Fin 1) k)) (var (ix2 (0 : Fin 1) k))
      (gamma (ix2 (0 : Fin 1) k)) (beta (ix2 (0 : Fin 1) k)) * w (ix2 k (i 1 : Fin 128))

/-- Rectify, contract: ∑ₖ prelu(h(p,k))·w(k,q). -/
def plin (h : Arr2 50000 128) (a : Arr2 1 1) (w : Arr2 128 64) : Arr2 50000 64 :=
  fun i => ∑ k : Fin 128, prelu (a (ix2 (0 : Fin 1) (0 : Fin 1))) (h (ix2 (i 0 : Fin 50000) k)) * w (ix2 k (i 1 : Fin 64))

end Cert.SpecG

end
-- ==== Proof.KHostA.lean ====
/-
  What a stretch of host operations leaves alone — the twenty argument arrays, and the graph's structure once it is
  computed (sources, targets, edge weights, self-loop weights) — as two conjunctions that compose; and the eight
  stretches between the regions, each as a function of the buffer contents it starts from.
-/
import proofs.«102494_j5102421148167_1_alg».proof.Proof.Gen.KernelIdeal.Frame
import proofs.«102494_j5102421148167_1_alg».proof.Proof.Gen.ReferenceIdeal
import proofs.«102494_j5102421148167_1_alg».proof.Proof.Spec

set_option maxRecDepth 16384

noncomputable section

namespace Cert.KVal

open Cert.KernelIdeal Cert.KernelIdeal.Gen
open Idealize.ShloMosaic Idealize.ShloMosaic.TcCoe Idealize.SL.Sem Idealize.ShloMosaic.StableHlo

variable {F : FTy → Type} [FloatOps F] [Cert.KernelIdeal.Facts] [Cert.ReferenceIdeal.Facts]

/-- The twenty argument arrays read the same in two valuations. -/
def KeepsA (Wa Wb : Valuation τ sig (Elt F)) : Prop :=
  Wa (Proc.devRef .tc main_arg0) = Wb (Proc.devRef .tc main_arg0) ∧ Wa (Proc.devRef .tc main_arg1) = Wb (Proc.devRef .tc main_arg1) ∧ Wa (Proc.devRef .tc main_arg2) = Wb (Proc.devRef .tc main_arg2) ∧ Wa (Proc.devRef .tc main_arg3) = Wb (Proc.devRef .tc main_arg3) ∧ Wa (Proc.devRef .tc main_arg4) = Wb (Proc.devRef .tc main_arg4) ∧ Wa (Proc.devRef .tc main_arg5) = Wb (Proc.devRef .tc main_arg5) ∧ Wa (Proc.devRef .tc main_arg6) = Wb (Proc.devRef .tc main_arg6) ∧ Wa (Proc.devRef .tc main_arg7) = Wb (Proc.devRef .tc main_arg7) ∧ Wa (Proc.devRef .tc main_arg8) = Wb (Proc.devRef .tc main_arg8) ∧ Wa (Proc.devRef .tc main_arg9) = Wb (Proc.devRef .tc main_arg9) ∧ Wa (Proc.devRef .tc main_arg10) = Wb (Proc.devRef .tc main_arg10) ∧ Wa (Proc.devRef .tc main_arg11) = Wb (Proc.devRef .tc main_arg11) ∧ Wa (Proc.devRef .tc main_arg12) = Wb (Proc.devRef .tc main_arg12) ∧ Wa (Proc.devRef .tc main_arg13) = Wb (Proc.devRef .tc main_arg13) ∧ Wa (Proc.devRef .tc main_arg14) = Wb (Proc.devRef .tc main_arg14) ∧ Wa (Proc.devRef .tc main_arg15) = Wb (Proc.devRef .tc main_arg15) ∧ Wa (Proc.devRef .tc main_arg16) = Wb (Proc.devRef .tc main_arg16) ∧ Wa (Proc.devRef .tc main_arg17) = Wb (Proc.devRef .tc main_arg17) ∧ Wa (Proc.devRef .tc main_arg18) = Wb (Proc.devRef .tc main_arg18) ∧ Wa (Proc.devRef .tc main_arg19) = Wb (Proc.devRef .tc main_arg19)

/-- The graph's structure — sources, targets, edge weights, self-loop weights — reads the same in two valuations. -/
def KeepsG (Wa Wb : Valuation τ sig (Elt F)) : Prop :=
  Wa (Proc.devRef .tc main_v1) = Wb (Proc.devRef .tc main_v1) ∧ Wa (Proc.devRef .tc main_v3) = Wb (Proc.devRef .tc main_v3) ∧ Wa (Proc.devRef .tc main_v26) = Wb (Proc.devRef .tc main_v26) ∧ Wa (Proc.devRef .tc main_v28) = Wb (Proc.devRef .tc main_v28)

theorem KeepsA.trans {Wa Wb Wc : Valuation τ sig (Elt F)} (h1 : KeepsA Wa Wb) (h2 : KeepsA Wb Wc) : KeepsA Wa Wc := by
  unfold KeepsA at *
  obtain ⟨a0, a1, a2, a3, a4, a5, a6, a7, a8, a9, a10, a11, a12, a13, a14, a15, a16, a17, a18, a19⟩ := h1
  obtain ⟨b0, b1, b2, b3, b4, b5, b6, b7, b8, b9, b10, b11, b12, b13, b14, b15, b16, b17, b18, b19⟩ := h2
  exact ⟨a0.trans b0, a1.trans b1, a2.trans b2, a3.trans b3, a4.trans b4, a5.trans b5, a6.trans b6, a7.trans b7, a8.trans b8, a9.trans b9, a10.trans b10, a11.trans b11, a12.trans b12, a13.trans b13, a14.trans b14, a15.trans b15, a16.trans b16, a17.trans b17, a18.trans b18, a19.trans b19⟩

theorem KeepsG.trans {Wa Wb Wc : Valuation τ sig (Elt F)} (h1 : KeepsG Wa Wb) (h2 : KeepsG Wb Wc) : KeepsG Wa Wc := by
  unfold KeepsG at *
  obtain ⟨a0, a1, a2, a3⟩ := h1
  obtain ⟨b0, b1, b2, b3⟩ := h2
  exact ⟨a0.trans b0, a1.trans b1, a2.trans b2, a3.trans b3⟩

/-! ## The components -/

theorem KeepsA.a0 {Wa Wb : Valuation τ sig (Elt F)} (h : KeepsA Wa Wb) : Wa (Proc.devRef .tc main_arg0) = Wb (Proc.devRef .tc main_arg0) := by
  unfold KeepsA at h; exact h.1
theorem KeepsA.a1 {Wa Wb : Valuation τ sig (Elt F)} (h : KeepsA Wa Wb) : Wa (Proc.devRef .tc main_arg1) = Wb (Proc.devRef .tc main_arg1) := by
  unfold KeepsA at h; exact h.2.1
theorem KeepsA.a2 {Wa Wb : Valuation τ sig (Elt F)} (h : KeepsA Wa Wb) : Wa (Proc.devRef .tc main_arg2) = Wb (Proc.devRef .tc main_arg2) := by
  unfold KeepsA at h; exact h.2.2.1
theorem KeepsA.a3 {Wa Wb : Valuation τ sig (Elt F)} (h : KeepsA Wa Wb) : Wa (Proc.devRef .tc main_arg3) = Wb (Proc.devRef .tc main_arg3) := by
  unfold KeepsA at h; exact h.2.2.2.1
theorem KeepsA.a4 {Wa Wb : Valuation τ sig (Elt F)} (h : KeepsA Wa Wb) : Wa (Proc.devRef .tc main_arg4) = Wb (Proc.devRef .tc main_arg4) := by
  unfold KeepsA at h; exact h.2.2.2.2.1
theorem KeepsA.a5 {Wa Wb : Valuation τ sig (Elt F)} (h : KeepsA Wa Wb) : Wa (Proc.devRef .tc main_arg5) = Wb (Proc.devRef .tc main_arg5) := by
  unfold KeepsA at h; exact h.2.2.2.2.2.1
theorem KeepsA.a6 {Wa Wb : Valuation τ sig (Elt F)} (h : KeepsA Wa Wb) : Wa (Proc.devRef .tc main_arg6) = Wb (Proc.devRef .tc main_arg6) := by
  unfold KeepsA at h; exact h.2.2.2.2.2.2.1
theorem KeepsA.a7 {Wa Wb : Valuation τ sig (Elt F)} (h : KeepsA Wa Wb) : Wa (Proc.devRef .tc main_arg7) = Wb (Proc.devRef .tc main_arg7) := by
  unfold KeepsA at h; exact h.2.2.2.2.2.2.2.1
theorem KeepsA.a8 {Wa Wb : Valuation τ sig (Elt F)} (h : KeepsA Wa Wb) : Wa (Proc.devRef .tc main_arg8) = Wb (Proc.devRef .tc main_arg8) := by
  unfold KeepsA at h; exact h.2.2.2.2.2.2.2.2.1
theorem KeepsA.a9 {Wa Wb : Valuation τ sig (Elt F)} (h : KeepsA Wa Wb) : Wa (Proc.devRef .tc main_arg9) = Wb (Proc.devRef .tc main_arg9) := by
  unfold KeepsA at h; exact h.2.2.2.2.2.2.2.2.2.1
theorem KeepsA.a10 {Wa Wb : Valuation τ sig (Elt F)} (h : KeepsA Wa Wb) : Wa (Proc.devRef .tc main_arg10) = Wb (Proc.devRef .tc main_arg10) := by
  unfold KeepsA at h; exact h.2.2.2.2.2.2.2.2.2.2.1
theorem KeepsA.a11 {Wa Wb : Valuation τ sig (Elt F)} (h : KeepsA Wa Wb) : Wa (Proc.devRef .tc main_arg11) = Wb (Proc.devRef .tc main_arg11) := by
  unfold KeepsA at h; exact h.2.2.2.2.2.2.2.2.2.2.2.1
theorem KeepsA.a12 {Wa Wb : Valuation τ sig (Elt F)} (h : KeepsA Wa Wb) : Wa (Proc.devRef .tc main_arg12) = Wb (Proc.devRef .tc main_arg12) := by
  unfold KeepsA at h; exact h.2.2.2.2.2.2.2.2.2.2.2.2.1
theorem KeepsA.a13 {Wa Wb : Valuation τ sig (Elt F)} (h : KeepsA Wa Wb) : Wa (Proc.devRef .tc main_arg13) = Wb (Proc.devRef .tc main_arg13) := by
  unfold KeepsA at h; exact h.2.2.2.2.2.2.2.2.2.2.2.2.2.1
theorem KeepsA.a14 {Wa Wb : Valuation τ sig (Elt F)} (h : KeepsA Wa Wb) : Wa (Proc.devRef .tc main_arg14) = Wb (Proc.devRef .tc main_arg14) := by
  unfold KeepsA at h; exact h.2.2.2.2.2.2.2.2.2.2.2.2.2.2.1
theorem KeepsA.a15 {Wa Wb : Valuation τ sig (Elt F)} (h : KeepsA Wa Wb) : Wa (Proc.devRef .tc main_arg15) = Wb (Proc.devRef .tc main_arg15) := by
  unfold KeepsA at h; exact h.2.2.2.2.2.2.2.2.2.2.2.2.2.2.2.1
theorem KeepsA.a16 {Wa Wb : Valuation τ sig (Elt F)} (h : KeepsA Wa Wb) : Wa (Proc.devRef .tc main_arg16) = Wb (Proc.devRef .tc main_arg16) := by
  unfold KeepsA at h; exact h.2.2.2.2.2.2.2.2.2.2.2.2.2.2.2.2.1
theorem KeepsA.a17 {Wa Wb : Valuation τ sig (Elt F)} (h : KeepsA Wa Wb) : Wa (Proc.devRef .tc main_arg17) = Wb (Proc.devRef .tc main_arg17) := by
  unfold KeepsA at h; exact h.2.2.2.2.2.2.2.2.2.2.2.2.2.2.2.2.2.1
theorem KeepsA.a18 {Wa Wb : Valuation τ sig (Elt F)} (h : KeepsA Wa Wb) : Wa (Proc.devRef .tc main_arg18) = Wb (Proc.devRef .tc main_arg18) := by
  unfold KeepsA at h; exact h.2.2.2.2.2.2.2.2.2.2.2.2.2.2.2.2.2.2.1
theorem KeepsA.a19 {Wa Wb : Valuation τ sig (Elt F)} (h : KeepsA Wa Wb) : Wa (Proc.devRef .tc main_arg19) = Wb (Proc.devRef .tc main_arg19) := by
  unfold KeepsA at h; exact h.2.2.2.2.2.2.2.2.2.2.2.2.2.2.2.2.2.2.2
theorem KeepsG.g0 {Wa Wb : Valuation τ sig (Elt F)} (h : KeepsG Wa Wb) : Wa (Proc.devRef .tc main_v1) = Wb (Proc.devRef .tc main_v1) := by
  unfold KeepsG at h; exact h.1
theorem KeepsG.g1 {Wa Wb : Valuation τ sig (Elt F)} (h : KeepsG Wa Wb) : Wa (Proc.devRef .tc main_v3) = Wb (Proc.devRef .tc main_v3) := by
  unfold KeepsG at h; exact h.2.1
theorem KeepsG.g2 {Wa Wb : Valuation τ sig (Elt F)} (h : KeepsG Wa Wb) : Wa (Proc.devRef .tc main_v26) = Wb (Proc.devRef .tc main_v26) := by
  unfold KeepsG at h; exact h.2.2.1
theorem KeepsG.g3 {Wa Wb : Valuation τ sig (Elt F)} (h : KeepsG Wa Wb) : Wa (Proc.devRef .tc main_v28) = Wb (Proc.devRef .tc main_v28) := by
  unfold KeepsG at h; exact h.2.2.2

/-! ## The stretches of host operations between the regions, as functions of the contents they start from -/

abbrev G0 (W : Valuation τ sig (Elt F)) : Valuation τ sig (Elt F) := after hostOps0 W
abbrev G1 (W : Valuation τ sig (Elt F)) : Valuation τ sig (Elt F) := after hostOps1_4 (after hostOps1_3 (after hostOps1_2 (after hostOps1_1 (after hostOps1 W))))
abbrev G2 (W : Valuation τ sig (Elt F)) : Valuation τ sig (Elt F) := after hostOps2 W
abbrev G3 (W : Valuation τ sig (Elt F)) : Valuation τ sig (Elt F) := after hostOps3_4 (after hostOps3_3 (after hostOps3_2 (after hostOps3_1 (after hostOps3 W))))
abbrev G4 (W : Valuation τ sig (Elt F)) : Valuation τ sig (Elt F) := after hostOps4 W
abbrev G5 (W : Valuation τ sig (Elt F)) : Valuation τ sig (Elt F) := after hostOps5_4 (after hostOps5_3 (after hostOps5_2 (after hostOps5_1 (after hostOps5 W))))
abbrev G6 (W : Valuation τ sig (Elt F)) : Valuation τ sig (Elt F) := after hostOps6 W
abbrev G7 (W : Valuation τ sig (Elt F)) : Valuation τ sig (Elt F) := after hostOps7_4 (after hostOps7_3 (after hostOps7_2 (after hostOps7_1 (after hostOps7 W))))

end Cert.KVal

end
-- ==== Proof.KHost7.lean ====
/-
  The last stretch, from any contents: the third block's output, its mean pool per graph, the normalisation over the
  graph axis and the two dense layers with a rectifier between.
-/
import proofs.«102494_j5102421148167_1_alg».proof.Proof.Gen.KernelIdeal.Frame
import proofs.«102494_j5102421148167_1_alg».proof.Proof.Gen.ReferenceIdeal
import proofs.«102494_j5102421148167_1_alg».proof.Proof.Spec
import proofs.«102494_j5102421148167_1_alg».proof.Proof.KHostA
set_option maxRecDepth 16384

noncomputable section

namespace Cert.KVal

open Cert.KernelIdeal Cert.KernelIdeal.Gen
open Idealize.ShloMosaic Idealize.ShloMosaic.TcCoe Idealize.SL.Sem Idealize.ShloMosaic.StableHlo

variable {F : FTy → Type} [FloatOps F] [Cert.KernelIdeal.Facts] [Cert.ReferenceIdeal.Facts]

set_option maxHeartbeats 16000000 in
/-- The result: the last block's output pooled per graph, normalised, and sent through the two dense layers. -/
theorem g7_out (W : Valuation τ sig (Elt F)) : G7 W (Proc.devRef .tc main_v281) = Cert.Spec.head (Cert.Spec.pool (Cert.Spec.conv64 (W (Proc.devRef .tc main_v217)) (W (Proc.devRef .tc main_v1)) (W (Proc.devRef .tc main_v3)) (W (Proc.devRef .tc main_v26)) (W (Proc.devRef .tc main_v28)) (Cert.Spec.v64_2 (W (Proc.devRef .tc main_arg12)))) (W (Proc.devRef .tc main_arg2))) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) := by
  unfold G7; after_results_simp <;> rfl

set_option maxHeartbeats 16000000 in
/-- The stretch writes none of the argument arrays. -/
theorem g7_keepsA (W : Valuation τ sig (Elt F)) : KeepsA (G7 W) W := by
  unfold KeepsA G7
  refine ⟨?_, ?_, ?_, ?_, ?_, ?_, ?_, ?_, ?_, ?_, ?_, ?_, ?_, ?_, ?_, ?_, ?_, ?_, ?_, ?_⟩ <;> (after_results_simp <;> rfl)

end Cert.KVal

end
-- ==== Proof.KHost0.lean ====
/-
  The first stretch, from any contents: the edge list's two rows, the edge weights dinv(src)·dinv(dst) and the self-loop
  weights dinv², each computed once, and the first layer's bias as a row; it writes no argument array.
-/
import proofs.«102494_j5102421148167_1_alg».proof.Proof.Gen.KernelIdeal.Frame
import proofs.«102494_j5102421148167_1_alg».proof.Proof.Gen.ReferenceIdeal
import proofs.«102494_j5102421148167_1_alg».proof.Proof.Spec
import proofs.«102494_j5102421148167_1_alg».proof.Proof.KHostA
set_option maxRecDepth 16384

noncomputable section

namespace Cert.KVal

open Cert.KernelIdeal Cert.KernelIdeal.Gen
open Idealize.ShloMosaic Idealize.ShloMosaic.TcCoe Idealize.SL.Sem Idealize.ShloMosaic.StableHlo

variable {F : FTy → Type} [FloatOps F] [Cert.KernelIdeal.Facts] [Cert.ReferenceIdeal.Facts]

/-- The sources of the edges. -/
theorem g0_src (W : Valuation τ sig (Elt F)) : G0 W (Proc.devRef .tc main_v1) = Cert.Spec.src (W (Proc.devRef .tc main_arg1)) := by
  unfold G0; after_results_simp <;> rfl

/-- The targets of the edges. -/
theorem g0_dst (W : Valuation τ sig (Elt F)) : G0 W (Proc.devRef .tc main_v3) = Cert.Spec.dst (W (Proc.devRef .tc main_arg1)) := by
  unfold G0; after_results_simp <;> rfl

/-- The edge weights, computed once. -/
theorem g0_norm (W : Valuation τ sig (Elt F)) : G0 W (Proc.devRef .tc main_v26) = Cert.Spec.normE1 (Cert.Spec.src (W (Proc.devRef .tc main_arg1))) (Cert.Spec.dst (W (Proc.devRef .tc main_arg1))) := by
  unfold G0; after_results_simp <;> rfl

/-- The self-loop weights, computed once. -/
theorem g0_self (W : Valuation τ sig (Elt F)) : G0 W (Proc.devRef .tc main_v28) = Cert.Spec.selfS1 (Cert.Spec.dst (W (Proc.devRef .tc main_arg1))) := by
  unfold G0; after_results_simp <;> rfl

/-- The first layer's bias as a row. -/
theorem g0_bias (W : Valuation τ sig (Elt F)) : G0 W (Proc.devRef .tc main_v29) = shapeCast S1x64 (W (Proc.devRef .tc main_arg4)) (by decide) := by
  unfold G0; after_results_simp <;> rfl

set_option maxHeartbeats 16000000 in
/-- The stretch writes none of the argument arrays. -/
theorem g0_keepsA (W : Valuation τ sig (Elt F)) : KeepsA (G0 W) W := by
  unfold KeepsA G0
  refine ⟨?_, ?_, ?_, ?_, ?_, ?_, ?_, ?_, ?_, ?_, ?_, ?_, ?_, ?_, ?_, ?_, ?_, ?_, ?_, ?_⟩ <;> (after_results_simp <;> rfl)

end Cert.KVal

end
-- ==== Proof.KRegion0.lean ====
/-
  The dense stage with bias, block by block, is the stage on the whole array.
  Each of the ten grid points reads rows 5000·t … 5000·t + 4999 of the input array, the whole weight matrix and the
  whole bias row, and writes rows 5000·t … 5000·t + 4999 of the result: entry (p, q) of its block is
  (∑ₖ x(5000·t + p, k)·w(k, q)) + b(q), which is entry (5000·t + p, q) of the whole-array function. The ten row blocks
  cover all 50000 rows, so the result array ends holding the whole-array function of the arrays the stage reads.
-/
import proofs.«102494_j5102421148167_1_alg».proof.Proof.Gen.KernelIdeal.Frame
import proofs.«102494_j5102421148167_1_alg».proof.Proof.SpecG
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KVal

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, however spelt. -/
theorem zeroOff0 : (![0, 0] : Fin 2 → Nat) = fun _ => 0 := funext fun a => by fin_cases a <;> rfl

/-- One entry of the block's result: the contraction over the 64 features of the row against the weight column (the
    operand format changes are the identity on extended reals, the accumulator is zero), plus the bias of the column. -/
theorem linBlock0_at (x0 : Vec Ideal S5000x64 .f32) (x1 : Vec Ideal S64x64 .f32) (x2 : Vec Ideal S1x64 .f32) (p : Fin 5000) (q : Fin 64) :
    k0_pay1 (F := Ideal) x0 x1 x2 (ix2 p q)
      = (∑ k : Fin 64, x0 (ix2 p k) * x1 (ix2 k q)) + x2 (ix2 (0 : Fin 1) q) := by
  unfold k0_pay1
  simp only [matmul, shapeCast_self]
  rw [addf_apply, broadcastTo_1b_ab_apply, Ideal.matmul_constant_zero_apply,
    ← Equiv.sum_comp (contrEquiv1 dot_S5000x64_S64x64_S5000x64_1_0_0_1_n_n 64 rfl rfl).symm]
  refine congrArg (· + x2 (ix2 (0 : Fin 1) q)) (Finset.sum_congr rfl fun k _ => ?_)
  have c2 := contrEquiv1_symm_val dot_S5000x64_S64x64_S5000x64_1_0_0_1_n_n 64 rfl rfl k
  have l2 : dot_S5000x64_S64x64_S5000x64_1_0_0_1_n_n.lhsIdx (ix2 p q) ((contrEquiv1 _ 64 rfl rfl).symm k) = ix2 p k := by
    funext ax; apply Fin.ext
    match ax with
    | ⟨0, _⟩ => simp [DotDims.lhsIdx, dot_S5000x64_S64x64_S5000x64_1_0_0_1_n_n]; rfl
    | ⟨1, _⟩ => simp [DotDims.lhsIdx, dot_S5000x64_S64x64_S5000x64_1_0_0_1_n_n]; exact c2
  have r2 : dot_S5000x64_S64x64_S5000x64_1_0_0_1_n_n.rhsIdx (ix2 p q) ((contrEquiv1 _ 64 rfl rfl).symm k) = ix2 k q := by
    funext ax; apply Fin.ext
    match ax with
    | ⟨0, _⟩ => simp [DotDims.rhsIdx, dot_S5000x64_S64x64_S5000x64_1_0_0_1_n_n]; exact c2
    | ⟨1, _⟩ => simp [DotDims.rhsIdx, dot_S5000x64_S64x64_S5000x64_1_0_0_1_n_n]; rfl
  rw [l2, r2]
  rfl

/-- An entry of a block whose rows are rows of the whole arrays is the whole-array stage's entry there. -/
theorem linBlock0_eq (A0 : Cert.SpecG.Arr2 50000 64) (A1 : Cert.SpecG.Arr2 64 64) (A2 : Cert.SpecG.Arr2 1 64)
    (x0 : Vec Ideal S5000x64 .f32) (x1 : Vec Ideal S64x64 .f32) (x2 : Vec Ideal S1x64 .f32)
    (i : (⟨2, ![50000, 64]⟩ : Shape).Idx) (p : Fin 5000) (q : Fin 64)
    (h0 : ∀ k : Fin 64, x0 (ix2 p k) = A0 (ix2 (i 0 : Fin 50000) k))
    (h1 : ∀ k : Fin 64, x1 (ix2 k q) = A1 (ix2 k (i 1 : Fin 64)))
    (h2 : x2 (ix2 (0 : Fin 1) q) = A2 (ix2 (0 : Fin 1) (i 1 : Fin 64))) :
    k0_pay1 (F := Ideal) x0 x1 x2 (ix2 p q) = Cert.SpecG.lin A0 A1 A2 i := by
  rw [linBlock0_at]
  unfold Cert.SpecG.lin
  rw [h2]
  refine congrArg (· + A2 (ix2 (0 : Fin 1) (i 1 : Fin 64))) (Finset.sum_congr rfl fun k _ => ?_)
  rw [h0 k, h1 k]

/-- The printed index maps over the ten points: the input block and the result block are row block t, the weights and
    the bias row are whole. -/
theorem blockIndex0 : ∀ t : Fin cfg0.N,
    win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What point t writes back is row block t of the whole-array stage of the arrays as the region finds them. -/
theorem flushed0_eq (c : Dev nD) (t : Fin cfg0.N) :
    (dat0 (F := Ideal) V c).flushed 3 t = ((cfg0.win 3).blk t).view.read (Elt Ideal)
      (Cert.SpecG.lin (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zeroOff0]
  simp only [View.ld_unit_zero (S := S5000x64) zeroOff0, View.ld_unit_zero (S := S64x64) zeroOff0, View.ld_unit_zero (S := S1x64) zeroOff0]
  obtain ⟨e0, e1, e2, e3, e4, e5, e6, e7⟩ := blockIndex0 t
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (ix2 p q)
    = Cert.SpecG.lin _ _ _ (((cfg0.win 3).blk t).view.emb (ix2 p q))
  refine linBlock0_eq _ _ _ _ _ _ _ p q (fun k => ?_) (fun k => ?_) ?_
  · unfold iblk0
    rw [View.read_apply]
    show V c (Pipeline.arrRef spec0 0) _ = V c (Pipeline.arrRef spec0 0) _
    refine congrArg (V c (Pipeline.arrRef spec0 0)) (funext fun a => Fin.ext ?_)
    match a with
    | ⟨0, _⟩ => show win0_0.index t (0 : Fin 2) * 5000 + 1 * p.val = win0_3.index t (0 : Fin 2) * 5000 + 1 * p.val; rw [e0]
    | ⟨1, _⟩ => show win0_0.index t (1 : Fin 2) * 64 + 1 * k.val = k.val; rw [e1]; omega
  · unfold iblk0
    rw [View.read_apply]
    show V c (Pipeline.arrRef spec0 1) _ = V c (Pipeline.arrRef spec0 1) _
    refine congrArg (V c (Pipeline.arrRef spec0 1)) (funext fun a => Fin.ext ?_)
    match a with
    | ⟨0, _⟩ => show win0_1.index t (0 : Fin 2) * 64 + 1 * k.val = k.val; rw [e2]; omega
    | ⟨1, _⟩ => show win0_1.index t (1 : Fin 2) * 64 + 1 * q.val = win0_3.index t (1 : Fin 2) * 64 + 1 * q.val; rw [e3, e7]
  · unfold iblk0
    rw [View.read_apply]
    show V c (Pipeline.arrRef spec0 2) _ = V c (Pipeline.arrRef spec0 2) _
    refine congrArg (V c (Pipeline.arrRef spec0 2)) (funext fun a => Fin.ext ?_)
    match a with
    | ⟨0, _⟩ => show win0_2.index t (0 : Fin 2) * 1 + 1 * 0 = 0; rw [e4]
    | ⟨1, _⟩ => show win0_2.index t (1 : Fin 2) * 64 + 1 * q.val = win0_3.index t (1 : Fin 2) * 64 + 1 * q.val; rw [e5, e7]

/-- An index of the result array is in point t's block iff each coordinate is in the block's range on its axis. -/
theorem mem_block0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v30).slice (win0_3.rect t)).set ↔ _
  rw [View.set_slice_whole, Rect.mem_set_unit]
  exact Iff.rfl

/-- Row r of the result is in the block of point r / 5000: the ten blocks cover the array. -/
theorem covered0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 10 := N_0
  have ht : (i 0).val / 5000 < grid0.N := by rw [hN]; omega
  obtain ⟨e0, e1, e2, e3, e4, e5, e6, e7⟩ := blockIndex0 ⟨(i 0).val / 5000, ht⟩
  refine ⟨⟨(i 0).val / 5000, ht⟩, flush0_3 _, ?_⟩
  rw [mem_block0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e7]; omega

/-- After the region the result array is the dense stage with bias of the arrays the region finds. -/
theorem region0 (c : Dev nD) :
    (dat0 (F := Ideal) V c).arrAt 3 cfg0.N
      = Cert.SpecG.lin (V c (Pipeline.arrRef spec0 0)) (V c (Pipeline.arrRef spec0 1)) (V c (Pipeline.arrRef spec0 2)) :=
  (dat0 V c).arrAt_eq_of_cover 3 _ (fun t _ => flushed0_eq V c t) covered0

end

end Cert.KVal

end
-- ==== Proof.Bridge.lean ====
/-
  The dense stages read entry by entry agree with the whole-array compositions: a contraction of two matrices read at
  (p, q) is the sum over the contracted coordinate k of the products a(p,k)·b(k,q); an elementwise operation read at an
  entry is the operation on the entries; a per-feature vector broadcast to every row, read at (p, k), is the vector at k,
  and so is its row-major reshape to one row read at (0, k); a scalar broadcast to an array reads the scalar everywhere,
  and so does its reshape to a 1×1 array read at (0, 0). Hence both sides are the same sums of the same products in the
  same order.
-/
import proofs.«102494_j5102421148167_1_alg».proof.Proof.Spec
import proofs.«102494_j5102421148167_1_alg».proof.Proof.SpecG
import proofs.«102494_j5102421148167_1_alg».proof.Proof.Gen.ReferenceIdeal
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.Bridge

open Cert.ReferenceIdeal Idealize.ShloMosaic Idealize.ShloMosaic.ValueIdx
open Cert.ReferenceIdeal.Facts₀ Cert.ReferenceIdeal.Facts

/-- The shape of a one-entry matrix. -/
abbrev S1x1 : Shape := ⟨2, ![1, 1]⟩

/-- A plain matrix product (rows × contraction times contraction × columns, whatever the proof of the record's
    well-formedness) read at (a, b) is ∑_c A(a,c)·B(c,b). -/
theorem dot_plain_apply {m k n : Nat} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    Host.dotGeneral D none A B (ix2 a b) = ∑ c : Fin k, A (ix2 a c) * B (ix2 c b) := by
  subst hD
  exact Idealize.ShloMosaic.StackMember.dotGeneral_plain_apply none A B a b

/-- A scalar reshaped to a 1×1 array reads the scalar. -/
theorem cast_scalar_apply (a : Cert.Spec.C Ideal S_ .f32) (h1 : S_.ShapeCasts S1x1) :
    shapeCast S1x1 a h1 (ix2 (0 : Fin 1) (0 : Fin 1)) = a ix0 := by
  refine shapeCast_apply a h1 _ ix0 ?_
  rw [Shape.rowMajor_val_two]
  have := (S_.rowMajor ix0).isLt
  simp [Shape.numel] at this ⊢
  omega

/-- A scalar broadcast to a [50000, 128] array reads the scalar everywhere. -/
theorem bcast_scalar128_apply (a : Cert.Spec.C Ideal S_ .f32) (i : S50000x128.Idx) :
    broadcastInDim S50000x128 ![] bcast_S_S50000x128 a i = a ix0 := by
  unfold broadcastInDim
  exact congrArg a (funext fun x => x.elim0)

/-- The rectifier of the whole-array form read at an entry is the entrywise rectifier. -/
theorem prelu128_apply (a : Cert.Spec.C Ideal S_ .f32) (h : Cert.Spec.C Ideal S50000x128 .f32) (i : S50000x128.Idx) :
    Cert.Spec.prelu128 (F := Ideal) a h i = Cert.SpecG.prelu (a ix0) (h i) := by
  unfold Cert.Spec.prelu128 Cert.SpecG.prelu
  rw [select_apply, cmpf_apply, mulf_apply, bcast_scalar128_apply, bcast_scalar128_apply]
  rfl

theorem plin_bridge (h : Cert.Spec.C Ideal S50000x128 .f32) (a : Cert.Spec.C Ideal S_ .f32) (w : Cert.Spec.C Ideal S128x64 .f32)
    (h1 : S_.ShapeCasts S1x1) :
    Cert.SpecG.plin h (shapeCast S1x1 a h1) w = Cert.Spec.pdot128 (F := Ideal) a h w := by
  funext i
  obtain ⟨p, q, rfl⟩ : ∃ (p : Fin 50000) (q : Fin 64), i = ix2 p q := ⟨i 0, i 1, eq_ix2 i⟩
  unfold Cert.Spec.pdot128 Cert.SpecG.plin
  refine Eq.trans ?_ (dot_plain_apply dot_S50000x128_S128x64_S50000x64_1_0_0_1_n_n rfl _ w p q).symm
  refine Finset.sum_congr rfl fun k _ => ?_
  rw [prelu128_apply, cast_scalar_apply]

/-- A per-feature vector as every row of a [50000, 64] array reads the vector at the column. -/
theorem rows64_apply (v : Cert.Spec.C Ideal S64 .f32) (p : Fin 50000) (k : Fin 64) :
    Cert.Spec.rows64 (F := Ideal) v (ix2 p k) = v (ix1 k) := by
  unfold Cert.Spec.rows64
  refine (broadcastInDim_apply _ _ _ (ix2 p k) (ix2 (0 : Fin 1) k) ?_).trans ?_
  · intro a
    match a with
    | ⟨0, _⟩ => rfl
    | ⟨1, _⟩ => rfl
  · refine broadcastInDim_apply _ _ v (ix2 (0 : Fin 1) k) (ix1 k) ?_
    intro a
    match a with
    | ⟨0, _⟩ => rfl

/-- A per-feature vector reshaped to one row reads the vector at the column. -/
theorem cast_row64_apply (v : Cert.Spec.C Ideal S64 .f32) (hc : S64.ShapeCasts S1x64) (k : Fin 64) :
    shapeCast S1x64 v hc (ix2 (0 : Fin 1) k) = v (ix1 k) := by
  refine shapeCast_apply v hc _ (ix1 k) ?_
  rw [Shape.rowMajor_val_two, Shape.rowMajor_val_one]
  show k.val = 0 * 64 + k.val
  omega

theorem lin_bridge (x : Cert.Spec.C Ideal S50000x64 .f32) (w : Cert.Spec.C Ideal S64x64 .f32) (b : Cert.Spec.C Ideal S64 .f32)
    (hc : S64.ShapeCasts S1x64) :
    Cert.SpecG.lin x w (shapeCast S1x64 b hc) = Cert.Spec.lin0 (F := Ideal) x w b := by
  funext i
  obtain ⟨p, q, rfl⟩ : ∃ (p : Fin 50000) (q : Fin 64), i = ix2 p q := ⟨i 0, i 1, eq_ix2 i⟩
  unfold Cert.Spec.lin0 Cert.SpecG.lin
  rw [addf_apply, rows64_apply, dot_plain_apply dot_S50000x64_S64x64_S50000x64_1_0_0_1_n_n rfl x w p q]
  exact congrArg (_ + ·) (cast_row64_apply b hc q)

/-- A scalar broadcast to a [50000, 64] array reads the scalar everywhere. -/
theorem bcast_scalar64_apply (a : Cert.Spec.C Ideal S_ .f32) (i : S50000x64.Idx) :
    broadcastInDim S50000x64 ![] bcast_S_S50000x64 a i = a ix0 := by
  unfold broadcastInDim
  exact congrArg a (funext fun x => x.elim0)

/-- The rectifier of the whole-array form on [50000, 64] read at an entry is the entrywise rectifier. -/
theorem prelu64_apply (a : Cert.Spec.C Ideal S_ .f32) (h : Cert.Spec.C Ideal S50000x64 .f32) (i : S50000x64.Idx) :
    Cert.Spec.prelu64 (F := Ideal) a h i = Cert.SpecG.prelu (a ix0) (h i) := by
  unfold Cert.Spec.prelu64 Cert.SpecG.prelu
  rw [select_apply, cmpf_apply, mulf_apply, bcast_scalar64_apply, bcast_scalar64_apply]
  rfl

/-- The reciprocal square root of a per-feature variance plus the small constant, read at a feature. -/
theorem rsqrt_eps_apply (var : Cert.Spec.C Ideal S64 .f32) (k : Fin 64) :
    Host.rsqrt (addf var (broadcastInDim S64 ![] bcast_S_S64 (constant (F := Ideal) S_ .f32 0x3727C5AC#32))) (ix1 k)
      = Ideal.rsqrt (var (ix1 k) + Cert.SpecG.epsF) := by
  unfold Host.rsqrt
  rw [Ideal.hostUnary_rsqrt_def, addf_apply]
  rfl

theorem bnlin_bridge (h : Cert.Spec.C Ideal S50000x64 .f32) (a : Cert.Spec.C Ideal S_ .f32)
    (mean var g be : Cert.Spec.C Ideal S64 .f32) (w : Cert.Spec.C Ideal S64x128 .f32)
    (h1 : S_.ShapeCasts S1x1) (h2 : S64.ShapeCasts S1x64) :
    Cert.SpecG.bnlin h (shapeCast S1x1 a h1) (shapeCast S1x64 mean h2) (shapeCast S1x64 var h2) (shapeCast S1x64 g h2)
        (shapeCast S1x64 be h2) w
      = Cert.Spec.bndot64 (F := Ideal) (Cert.Spec.prelu64 a h) mean var g be w := by
  funext i
  obtain ⟨p, q, rfl⟩ : ∃ (p : Fin 50000) (q : Fin 128), i = ix2 p q := ⟨i 0, i 1, eq_ix2 i⟩
  unfold Cert.Spec.bndot64 Cert.SpecG.bnlin
  refine Eq.trans ?_ (dot_plain_apply dot_S50000x64_S64x128_S50000x128_1_0_0_1_n_n rfl _ w p q).symm
  refine Finset.sum_congr rfl fun k _ => ?_
  rw [addf_apply, mulf_apply, mulf_apply, subf_apply, rows64_apply, rows64_apply, rows64_apply, rows64_apply,
    prelu64_apply, rsqrt_eps_apply, cast_scalar_apply, cast_row64_apply, cast_row64_apply, cast_row64_apply,
    cast_row64_apply]
  rfl

end Cert.Bridge

end
-- ==== Proof.KChain1.lean ====
/-
  The contents at the first two boundaries of the kernel program's run, as functions of the launch contents of the
  argument arrays: after the first stretch the graph's structure and the bias row; after region 0 the first dense
  layer x·W + b — the tile-by-tile contraction is the contraction of the whole array, and the bias reshaped to a row
  is the bias broadcast to a row.
-/
import proofs.«102494_j5102421148167_1_alg».proof.Proof.Gen.KernelIdeal.Frame
import proofs.«102494_j5102421148167_1_alg».proof.Proof.Gen.ReferenceIdeal
import proofs.«102494_j5102421148167_1_alg».proof.Proof.Spec
import proofs.«102494_j5102421148167_1_alg».proof.Proof.SpecG
import proofs.«102494_j5102421148167_1_alg».proof.Proof.KHostA
import proofs.«102494_j5102421148167_1_alg».proof.Proof.KHost0
import proofs.«102494_j5102421148167_1_alg».proof.Proof.KRegion0
import proofs.«102494_j5102421148167_1_alg».proof.Proof.Bridge

set_option maxRecDepth 16384

noncomputable section

namespace Cert.KVal

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch: the graph's structure, and the bias row -/

theorem KA1 : KeepsA (W1 m ρ c) (W0 m ρ c) := g0_keepsA (W0 m ρ c)
theorem src1 : W1 m ρ c (Proc.devRef .tc main_v1) = (Cert.Spec.src (W0 m ρ c (Proc.devRef .tc main_arg1))) := g0_src (W0 m ρ c)
theorem dst1 : W1 m ρ c (Proc.devRef .tc main_v3) = (Cert.Spec.dst (W0 m ρ c (Proc.devRef .tc main_arg1))) := g0_dst (W0 m ρ c)
theorem norm1 : W1 m ρ c (Proc.devRef .tc main_v26) = (Cert.Spec.normE1 (Cert.Spec.src (W0 m ρ c (Proc.devRef .tc main_arg1))) (Cert.Spec.dst (W0 m ρ c (Proc.devRef .tc main_arg1)))) := g0_norm (W0 m ρ c)
theorem self1 : W1 m ρ c (Proc.devRef .tc main_v28) = (Cert.Spec.selfS1 (Cert.Spec.dst (W0 m ρ c (Proc.devRef .tc main_arg1)))) := g0_self (W0 m ρ c)
theorem bias1 : W1 m ρ c (Proc.devRef .tc main_v29) = shapeCast S1x64 (W0 m ρ c (Proc.devRef .tc main_arg4)) (by decide) := g0_bias (W0 m ρ c)

/-! ## After region 0: the first dense layer -/

/-- Region 0 writes only its output array: the argument arrays stay. -/
theorem KA2s : KeepsA (W2 m ρ c) (W1 m ρ c) := by
  unfold KeepsA
  exact ⟨(W2_arr m ρ c 0).trans (((dat0 (V1 m ρ) c).arrAt_in 0 rfl _).trans (A_eq0 (V1 m ρ) c 0)), W2_of_ne m ρ c main_arg1 (by decide), W2_of_ne m ρ c main_arg2 (by decide), (W2_arr m ρ c 1).trans (((dat0 (V1 m ρ) c).arrAt_in 1 rfl _).trans (A_eq0 (V1 m ρ) c 1)), W2_of_ne m ρ c main_arg4 (by decide), W2_of_ne m ρ c main_arg5 (by decide), W2_of_ne m ρ c main_arg6 (by decide), W2_of_ne m ρ c main_arg7 (by decide), W2_of_ne m ρ c main_arg8 (by decide), W2_of_ne m ρ c main_arg9 (by decide), W2_of_ne m ρ c main_arg10 (by decide), W2_of_ne m ρ c main_arg11 (by decide), W2_of_ne m ρ c main_arg12 (by decide), W2_of_ne m ρ c main_arg13 (by decide), W2_of_ne m ρ c main_arg14 (by decide), W2_of_ne m ρ c main_arg15 (by decide), W2_of_ne m ρ c main_arg16 (by decide), W2_of_ne m ρ c main_arg17 (by decide), W2_of_ne m ρ c main_arg18 (by decide), W2_of_ne m ρ c main_arg19 (by decide)⟩
/-- And the graph-structure buffers stay. -/
theorem KG2s : KeepsG (W2 m ρ c) (W1 m ρ c) := by
  unfold KeepsG
  exact ⟨W2_of_ne m ρ c main_v1 (by decide), W2_of_ne m ρ c main_v3 (by decide), W2_of_ne m ρ c main_v26 (by decide), W2_of_ne m ρ c main_v28 (by decide)⟩

theorem KA2 : KeepsA (W2 m ρ c) (W0 m ρ c) := (KA2s m ρ c).trans (KA1 m ρ c)

/-- The first layer's output is x·W + b. -/
theorem h0_2 : W2 m ρ c (Proc.devRef .tc main_v30) = (Cert.Spec.lin0 (W0 m ρ c (Proc.devRef .tc main_arg0)) (W0 m ρ c (Proc.devRef .tc main_arg3)) (W0 m ρ c (Proc.devRef .tc main_arg4))) :=
  calc W2 m ρ c (Proc.devRef .tc main_v30) = (dat0 (V1 m ρ) c).arrAt 3 cfg0.N := W2_arr m ρ c 3
    _ = Cert.SpecG.lin (W1 m ρ c (Proc.devRef .tc main_arg0)) (W1 m ρ c (Proc.devRef .tc main_arg3)) (W1 m ρ c (Proc.devRef .tc main_v29)) := region0 (V1 m ρ) c
    _ = Cert.SpecG.lin (W0 m ρ c (Proc.devRef .tc main_arg0)) (W0 m ρ c (Proc.devRef .tc main_arg3)) (shapeCast S1x64 (W0 m ρ c (Proc.devRef .tc main_arg4)) (by decide)) := by
        rw [(KA1 m ρ c).a0, (KA1 m ρ c).a3, bias1 m ρ c]
    _ = (Cert.Spec.lin0 (W0 m ρ c (Proc.devRef .tc main_arg0)) (W0 m ρ c (Proc.devRef .tc main_arg3)) (W0 m ρ c (Proc.devRef .tc main_arg4))) := Cert.Bridge.lin_bridge _ _ _ _

end Cert.KVal

end
-- ==== Proof.KHost1.lean ====
/-
  The stretch before the first block's normalising stage, from any contents: the rectified activations' mean and
  variance over the nodes, the scale and the shift as rows [1, 64], the slope as a [1, 1] array, the weight matrix;
  the activations, the argument arrays and the graph's structure are not written.
-/
import proofs.«102494_j5102421148167_1_alg».proof.Proof.Gen.KernelIdeal.Frame
import proofs.«102494_j5102421148167_1_alg».proof.Proof.Gen.ReferenceIdeal
import proofs.«102494_j5102421148167_1_alg».proof.Proof.Spec
import proofs.«102494_j5102421148167_1_alg».proof.Proof.KHostA
set_option maxRecDepth 16384

noncomputable section

namespace Cert.KVal

open Cert.KernelIdeal Cert.KernelIdeal.Gen
open Idealize.ShloMosaic Idealize.ShloMosaic.TcCoe Idealize.SL.Sem Idealize.ShloMosaic.StableHlo

variable {F : FTy → Type} [FloatOps F] [Cert.KernelIdeal.Facts] [Cert.ReferenceIdeal.Facts]

/-- The block's first weight matrix. -/
theorem g1_w (W : Valuation τ sig (Elt F)) : G1 W (Proc.devRef .tc main_v47) = Cert.Spec.w1_0 (W (Proc.devRef .tc main_arg8)) := by
  unfold G1; after_results_simp <;> rfl

/-- The first rectifier's slope as a [1, 1] array. -/
theorem g1_slope (W : Valuation τ sig (Elt F)) : G1 W (Proc.devRef .tc main_v48) = shapeCast S1x1 (Cert.Spec.sc0 (W (Proc.devRef .tc main_arg5))) (by decide) := by
  unfold G1; after_results_simp <;> rfl

/-- The mean of the rectified activations over the nodes, as a row. -/
theorem g1_mean (W : Valuation τ sig (Elt F)) : G1 W (Proc.devRef .tc main_v49) = shapeCast S1x64 (Cert.Spec.mean64 (Cert.Spec.prelu64 (Cert.Spec.sc0 (W (Proc.devRef .tc main_arg5))) (W (Proc.devRef .tc main_v30)))) (by decide) := by
  unfold G1; after_results_simp <;> rfl

/-- Their variance over the nodes, as a row. -/
theorem g1_var (W : Valuation τ sig (Elt F)) : G1 W (Proc.devRef .tc main_v50) = shapeCast S1x64 (Cert.Spec.var64 (Cert.Spec.prelu64 (Cert.Spec.sc0 (W (Proc.devRef .tc main_arg5))) (W (Proc.devRef .tc main_v30)))) (by decide) := by
  unfold G1; after_results_simp <;> rfl

/-- The normalisation's scale as a row. -/
theorem g1_gamma (W : Valuation τ sig (Elt F)) : G1 W (Proc.devRef .tc main_v51) = shapeCast S1x64 (Cert.Spec.v64_0 (W (Proc.devRef .tc main_arg6))) (by decide) := by
  unfold G1; after_results_simp <;> rfl

/-- The normalisation's shift as a row. -/
theorem g1_beta (W : Valuation τ sig (Elt F)) : G1 W (Proc.devRef .tc main_v52) = shapeCast S1x64 (Cert.Spec.v64_0 (W (Proc.devRef .tc main_arg7))) (by decide) := by
  unfold G1; after_results_simp <;> rfl

/-- The activations are not written. -/
theorem g1_h (W : Valuation τ sig (Elt F)) : G1 W (Proc.devRef .tc main_v30) = (W (Proc.devRef .tc main_v30)) := by
  unfold G1; after_results_simp <;> rfl

set_option maxHeartbeats 16000000 in
/-- The stretch writes none of the argument arrays. -/
theorem g1_keepsA (W : Valuation τ sig (Elt F)) : KeepsA (G1 W) W := by
  unfold KeepsA G1
  refine ⟨?_, ?_, ?_, ?_, ?_, ?_, ?_, ?_, ?_, ?_, ?_, ?_, ?_, ?_, ?_, ?_, ?_, ?_, ?_, ?_⟩ <;> (after_results_simp <;> rfl)

set_option maxHeartbeats 16000000 in
/-- The stretch writes none of the graph-structure buffers. -/
theorem g1_keepsG (W : Valuation τ sig (Elt F)) : KeepsG (G1 W) W := by
  unfold KeepsG G1
  refine ⟨?_, ?_, ?_, ?_⟩ <;> (after_results_simp <;> rfl)

end Cert.KVal

end
-- ==== Proof.KHost2.lean ====
/-
  The stretch after the first block's normalising stage, from any contents: the transformed 128-wide rows aggregated
  over the edges with the self loops and the bias, and the second stage's slope and weight matrix.
-/
import proofs.«102494_j5102421148167_1_alg».proof.Proof.Gen.KernelIdeal.Frame
import proofs.«102494_j5102421148167_1_alg».proof.Proof.Gen.ReferenceIdeal
import proofs.«102494_j5102421148167_1_alg».proof.Proof.Spec
import proofs.«102494_j5102421148167_1_alg».proof.Proof.KHostA
set_option maxRecDepth 16384

noncomputable section

namespace Cert.KVal

open Cert.KernelIdeal Cert.KernelIdeal.Gen
open Idealize.ShloMosaic Idealize.ShloMosaic.TcCoe Idealize.SL.Sem Idealize.ShloMosaic.StableHlo

variable {F : FTy → Type} [FloatOps F] [Cert.KernelIdeal.Facts] [Cert.ReferenceIdeal.Facts]

/-- The aggregated 128-wide rows with the bias. -/
theorem g2_h (W : Valuation τ sig (Elt F)) : G2 W (Proc.devRef .tc main_v73) = Cert.Spec.conv128 (W (Proc.devRef .tc main_v53)) (W (Proc.devRef .tc main_v1)) (W (Proc.devRef .tc main_v3)) (W (Proc.devRef .tc main_v26)) (W (Proc.devRef .tc main_v28)) (Cert.Spec.v128_0 (W (Proc.devRef .tc main_arg9))) := by
  unfold G2; after_results_simp <;> rfl

/-- The block's second weight matrix. -/
theorem g2_w (W : Valuation τ sig (Elt F)) : G2 W (Proc.devRef .tc main_v77) = Cert.Spec.w2_0 (W (Proc.devRef .tc main_arg11)) := by
  unfold G2; after_results_simp <;> rfl

/-- The second rectifier's slope as a [1, 1] array. -/
theorem g2_slope (W : Valuation τ sig (Elt F)) : G2 W (Proc.devRef .tc main_v78) = shapeCast S1x1 (Cert.Spec.sc0 (W (Proc.devRef .tc main_arg10))) (by decide) := by
  unfold G2; after_results_simp <;> rfl

set_option maxHeartbeats 16000000 in
/-- The stretch writes none of the argument arrays. -/
theorem g2_keepsA (W : Valuation τ sig (Elt F)) : KeepsA (G2 W) W := by
  unfold KeepsA G2
  refine ⟨?_, ?_, ?_, ?_, ?_, ?_, ?_, ?_, ?_, ?_, ?_, ?_, ?_, ?_, ?_, ?_, ?_, ?_, ?_, ?_⟩ <;> (after_results_simp <;> rfl)

set_option maxHeartbeats 16000000 in
/-- The stretch writes none of the graph-structure buffers. -/
theorem g2_keepsG (W : Valuation τ sig (Elt F)) : KeepsG (G2 W) W := by
  unfold KeepsG G2
  refine ⟨?_, ?_, ?_, ?_⟩ <;> (after_results_simp <;> rfl)

end Cert.KVal

end
-- ==== Proof.KRegion1.lean ====
/-
  A rectify, normalise and contract stage, block by block, is the stage on the whole array.
  Each of the ten grid points reads rows 5000·t … 5000·t + 4999 of the feature array, the whole slope, the whole
  per-feature rows (mean, variance, scale, shift) and the whole weight matrix, and writes rows 5000·t … 5000·t + 4999
  of the result: entry (p, q) of its block is ∑ₖ bn(h(5000·t + p, k))·w(k, q), where bn rectifies the entry, centres it
  by the feature's mean, scales it by the reciprocal square root of the feature's variance plus a small constant, and
  applies the feature's scale and shift; this is entry (5000·t + p, q) of the whole-array function. The ten row blocks
  cover all 50000 rows, so the result array ends holding the whole-array function of the arrays the stage reads.
-/
import proofs.«102494_j5102421148167_1_alg».proof.Proof.Gen.KernelIdeal.Frame
import proofs.«102494_j5102421148167_1_alg».proof.Proof.SpecG
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KVal

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, however spelt. -/
theorem zeroOff1 : (![0, 0] : Fin 2 → Nat) = fun _ => 0 := funext fun a => by fin_cases a <;> rfl

/-- One entry of the block product: the contraction over the 64 features of the rectified, normalised row against the
    weight column (the operand format changes are the identity on extended reals, the accumulator is zero). -/
theorem bnlinBlock1_at (x0 : Vec Ideal S5000x64 .f32) (x1 : Vec Ideal S1x1 .f32) (x2 x3 x4 x5 : Vec Ideal S1x64 .f32)
    (x6 : Vec Ideal S64x128 .f32) (p : Fin 5000) (q : Fin 128) :
    k1_pay1 (F := Ideal) x0 x1 x2 x3 x4 x5 x6 (ix2 p q)
      = ∑ k : Fin 64, Cert.SpecG.bn (x1 (ix2 (0 : Fin 1) (0 : Fin 1))) (x0 (ix2 p k)) (x2 (ix2 (0 : Fin 1) k)) (x3 (ix2 (0 : Fin 1) k))
          (x4 (ix2 (0 : Fin 1) k)) (x5 (ix2 (0 : Fin 1) k)) * x6 (ix2 k q) := by
  unfold k1_pay1
  simp only [matmul]
  rw [Ideal.matmul_constant_zero_apply,
    ← Equiv.sum_comp (contrEquiv1 dot_S5000x64_S64x128_S5000x128_1_0_0_1_n_n 64 rfl rfl).symm]
  refine Finset.sum_congr rfl fun k _ => ?_
  have c2 := contrEquiv1_symm_val dot_S5000x64_S64x128_S5000x128_1_0_0_1_n_n 64 rfl rfl k
  have l2 : dot_S5000x64_S64x128_S5000x128_1_0_0_1_n_n.lhsIdx (ix2 p q) ((contrEquiv1 _ 64 rfl rfl).symm k) = ix2 p k := by
    funext ax; apply Fin.ext
    match ax with
    | ⟨0, _⟩ => simp [DotDims.lhsIdx, dot_S5000x64_S64x128_S5000x128_1_0_0_1_n_n]; rfl
    | ⟨1, _⟩ => simp [DotDims.lhsIdx, dot_S5000x64_S64x128_S5000x128_1_0_0_1_n_n]; exact c2
  have r2 : dot_S5000x64_S64x128_S5000x128_1_0_0_1_n_n.rhsIdx (ix2 p q) ((contrEquiv1 _ 64 rfl rfl).symm k) = ix2 k q := by
    funext ax; apply Fin.ext
    match ax with
    | ⟨0, _⟩ => simp [DotDims.rhsIdx, dot_S5000x64_S64x128_S5000x128_1_0_0_1_n_n]; exact c2
    | ⟨1, _⟩ => simp [DotDims.rhsIdx, dot_S5000x64_S64x128_S5000x128_1_0_0_1_n_n]; rfl
  rw [l2, r2]
  simp only [shapeCast_self, truncf_apply, addf_apply, mulf_apply, subf_apply, select_apply, cmpf_apply, broadcast_apply,
    broadcastTo_1b_ab_apply]
  have ex : extractAt ![0, 0] x1 inpos_S1x1_p0_0 = x1 (ix2 (0 : Fin 1) (0 : Fin 1)) :=
    congrArg x1 (funext fun a => Fin.ext (by match a with | ⟨0, _⟩ => rfl | ⟨1, _⟩ => rfl))
  rw [ex]
  rfl

/-- An entry of a block whose rows are rows of the whole arrays is the whole-array stage's entry there. -/
theorem bnlinBlock1_eq (A0 : Cert.SpecG.Arr2 50000 64) (A1 : Cert.SpecG.Arr2 1 1) (A2 A3 A4 A5 : Cert.SpecG.Arr2 1 64)
    (A6 : Cert.SpecG.Arr2 64 128)
    (x0 : Vec Ideal S5000x64 .f32) (x1 : Vec Ideal S1x1 .f32) (x2 x3 x4 x5 : Vec Ideal S1x64 .f32) (x6 : Vec Ideal S64x128 .f32)
    (i : (⟨2, ![50000, 128]⟩ : Shape).Idx) (p : Fin 5000) (q : Fin 128)
    (h0 : ∀ k : Fin 64, x0 (ix2 p k) = A0 (ix2 (i 0 : Fin 50000) k))
    (h1 : x1 (ix2 (0 : Fin 1) (0 : Fin 1)) = A1 (ix2 (0 : Fin 1) (0 : Fin 1)))
    (h2 : ∀ k : Fin 64, x2 (ix2 (0 : Fin 1) k) = A2 (ix2 (0 : Fin 1) k))
    (h3 : ∀ k : Fin 64, x3 (ix2 (0 : Fin 1) k) = A3 (ix2 (0 : Fin 1) k))
    (h4 : ∀ k : Fin 64, x4 (ix2 (0 : Fin 1) k) = A4 (ix2 (0 : Fin 1) k))
    (h5 : ∀ k : Fin 64, x5 (ix2 (0 : Fin 1) k) = A5 (ix2 (0 : Fin 1) k))
    (h6 : ∀ k : Fin 64, x6 (ix2 k q) = A6 (ix2 k (i 1 : Fin 128))) :
    k1_pay1 (F := Ideal) x0 x1 x2 x3 x4 x5 x6 (ix2 p q) = Cert.SpecG.bnlin A0 A1 A2 A3 A4 A5 A6 i := by
  rw [bnlinBlock1_at]
  unfold Cert.SpecG.bnlin
  refine Finset.sum_congr rfl fun k _ => ?_
  rw [h0 k, h1, h2 k, h3 k, h4 k, h5 k, h6 k]

/-- The printed index maps over the ten points: the feature block and the result block are row block t, the slope, the
    per-feature rows and the weights are whole. -/
theorem blockIndex1 : ∀ t : Fin cfg1.N,
    win1_0.index t (0 : Fin 2) = win1_7.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

section
variable (V : (c : Dev nD) → (b : Ref sig .tc) → Buf (Elt Ideal) ((c : Thread nD τ).loc b))

set_option maxHeartbeats 4000000 in
/-- What point t writes back is row block t of the whole-array stage of the arrays as the region finds them. -/
theorem flushed1_eq (c : Dev nD) (t : Fin cfg1.N) :
    (dat1 (F := Ideal) V c).flushed 7 t = ((cfg1.win 7).blk t).view.read (Elt Ideal)
      (Cert.SpecG.bnlin (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6))) := by
  show (cfg1.win 7).cut (grid1.coords t) ((dat1 V c).after 7 t) = _
  rw [after1_7]
  unfold out1_7
  rw [View.canon_unit_zero zeroOff1]
  simp only [View.ld_unit_zero (S := S5000x64) zeroOff1, View.ld_unit_zero (S := S1x1) zeroOff1, View.ld_unit_zero (S := S1x64) zeroOff1,
    View.ld_unit_zero (S := S64x128) zeroOff1]
  obtain ⟨e0, e1, e2, e3, f20, f21, f30, f31, f40, f41, f50, f51, e12, e13, e14, e15⟩ := blockIndex1 t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 4 t) (iblk1 V c 5 t) (iblk1 V c 6 t) (ix2 p q)
    = Cert.SpecG.bnlin _ _ _ _ _ _ _ (((cfg1.win 7).blk t).view.emb (ix2 p q))
  refine bnlinBlock1_eq _ _ _ _ _ _ _ _ _ _ _ _ _ _ _ p q (fun k => ?_) ?_ (fun k => ?_) (fun k => ?_) (fun k => ?_) (fun k => ?_) (fun k => ?_)
  · unfold iblk1
    rw [View.read_apply]
    show V c (Pipeline.arrRef spec1 0) _ = V c (Pipeline.arrRef spec1 0) _
    refine congrArg (V c (Pipeline.arrRef spec1 0)) (funext fun a => Fin.ext ?_)
    match a with
    | ⟨0, _⟩ => show win1_0.index t (0 : Fin 2) * 5000 + 1 * p.val = win1_7.index t (0 : Fin 2) * 5000 + 1 * p.val; rw [e0]
    | ⟨1, _⟩ => show win1_0.index t (1 : Fin 2) * 64 + 1 * k.val = k.val; rw [e1]; omega
  · unfold iblk1
    rw [View.read_apply]
    show V c (Pipeline.arrRef spec1 1) _ = V c (Pipeline.arrRef spec1 1) _
    refine congrArg (V c (Pipeline.arrRef spec1 1)) (funext fun a => Fin.ext ?_)
    match a with
    | ⟨0, _⟩ => show win1_1.index t (0 : Fin 2) * 1 + 1 * 0 = 0; rw [e2]
    | ⟨1, _⟩ => show win1_1.index t (1 : Fin 2) * 1 + 1 * 0 = 0; rw [e3]
  · unfold iblk1
    rw [View.read_apply]
    show V c (Pipeline.arrRef spec1 2) _ = V c (Pipeline.arrRef spec1 2) _
    refine congrArg (V c (Pipeline.arrRef spec1 2)) (funext fun a => Fin.ext ?_)
    match a with
    | ⟨0, _⟩ => show win1_2.index t (0 : Fin 2) * 1 + 1 * 0 = 0; rw [f20]
    | ⟨1, _⟩ => show win1_2.index t (1 : Fin 2) * 64 + 1 * k.val = k.val; rw [f21]; omega
  · unfold iblk1
    rw [View.read_apply]
    show V c (Pipeline.arrRef spec1 3) _ = V c (Pipeline.arrRef spec1 3) _
    refine congrArg (V c (Pipeline.arrRef spec1 3)) (funext fun a => Fin.ext ?_)
    match a with
    | ⟨0, _⟩ => show win1_3.index t (0 : Fin 2) * 1 + 1 * 0 = 0; rw [f30]
    | ⟨1, _⟩ => show win1_3.index t (1 : Fin 2) * 64 + 1 * k.val = k.val; rw [f31]; omega
  · unfold iblk1
    rw [View.read_apply]
    show V c (Pipeline.arrRef spec1 4) _ = V c (Pipeline.arrRef spec1 4) _
    refine congrArg (V c (Pipeline.arrRef spec1 4)) (funext fun a => Fin.ext ?_)
    match a with
    | ⟨0, _⟩ => show win1_4.index t (0 : Fin 2) * 1 + 1 * 0 = 0; rw [f40]
    | ⟨1, _⟩ => show win1_4.index t (1 : Fin 2) * 64 + 1 * k.val = k.val; rw [f41]; omega
  · unfold iblk1
    rw [View.read_apply]
    show V c (Pipeline.arrRef spec1 5) _ = V c (Pipeline.arrRef spec1 5) _
    refine congrArg (V c (Pipeline.arrRef spec1 5)) (funext fun a => Fin.ext ?_)
    match a with
    | ⟨0, _⟩ => show win1_5.index t (0 : Fin 2) * 1 + 1 * 0 = 0; rw [f50]
    | ⟨1, _⟩ => show win1_5.index t (1 : Fin 2) * 64 + 1 * k.val = k.val; rw [f51]; omega
  · unfold iblk1
    rw [View.read_apply]
    show V c (Pipeline.arrRef spec1 6) _ = V c (Pipeline.arrRef spec1 6) _
    refine congrArg (V c (Pipeline.arrRef spec1 6)) (funext fun a => Fin.ext ?_)
    match a with
    | ⟨0, _⟩ => show win1_6.index t (0 : Fin 2) * 64 + 1 * k.val = k.val; rw [e12]; omega
    | ⟨1, _⟩ => show win1_6.index t (1 : Fin 2) * 128 + 1 * q.val = win1_7.index t (1 : Fin 2) * 128 + 1 * q.val; rw [e13, e15]

/-- An index of the result array is in point t's block iff each coordinate is in the block's range on its axis. -/
theorem mem_block1 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v53).slice (win1_7.rect t)).set ↔ _
  rw [View.set_slice_whole, Rect.mem_set_unit]
  exact Iff.rfl

/-- Row r of the result is in the block of point r / 5000: the ten blocks cover the array. -/
theorem covered1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : grid1.N = 10 := N_1
  have ht : (i 0).val / 5000 < grid1.N := by rw [hN]; omega
  obtain ⟨e0, e1, e2, e3, f20, f21, f30, f31, f40, f41, f50, f51, e12, e13, e14, e15⟩ := blockIndex1 ⟨(i 0).val / 5000, ht⟩
  refine ⟨⟨(i 0).val / 5000, ht⟩, flush1_7 _, ?_⟩
  rw [mem_block1]
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    rw [e14]; show (i 0).val / 5000 * 5000 ≤ (i 0).val ∧ (i 0).val < (i 0).val / 5000 * 5000 + 5000; omega
  | ⟨1, _⟩ =>
    show win1_7.index ⟨(i 0).val / 5000, ht⟩ (1 : Fin 2) * 128 ≤ (i 1).val ∧ (i 1).val < win1_7.index ⟨(i 0).val / 5000, ht⟩ (1 : Fin 2) * 128 + 128
    rw [e15]; omega

/-- After the region the result array is the rectify, normalise and contract stage of the arrays the region finds. -/
theorem region1 (c : Dev nD) :
    (dat1 (F := Ideal) V c).arrAt 7 cfg1.N
      = Cert.SpecG.bnlin (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) :=
  (dat1 V c).arrAt_eq_of_cover 7 _ (fun t _ => flushed1_eq V c t) covered1

end

end Cert.KVal

end
-- ==== Proof.KRegion2.lean ====
/-
  A rectify-and-contract stage, block by block, is the stage on the whole array.
  Each of the ten grid points reads rows 5000·t … 5000·t + 4999 of the feature array, the whole slope and the whole
  weight matrix, and writes rows 5000·t … 5000·t + 4999 of the result: entry (p, q) of its block is
  ∑ₖ prelu(h(5000·t + p, k))·w(k, q), which is entry (5000·t + p, q) of the whole-array function. The ten row blocks
  cover all 50000 rows, so the result array ends holding the whole-array function of the arrays the stage reads.
-/
import proofs.«102494_j5102421148167_1_alg».proof.Proof.Gen.KernelIdeal.Frame
import proofs.«102494_j5102421148167_1_alg».proof.Proof.SpecG
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KVal

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, however spelt. -/
theorem zeroOff2 : (![0, 0] : Fin 2 → Nat) = fun _ => 0 := funext fun a => by fin_cases a <;> rfl

/-- One entry of the block product: the contraction over the 128 features of the rectified row against the weight
    column (the operand format changes are the identity on extended reals, the accumulator is zero). -/
theorem plinBlock2_at (x0 : Vec Ideal S5000x128 .f32) (x1 : Vec Ideal S1x1 .f32) (x2 : Vec Ideal S128x64 .f32) (p : Fin 5000) (q : Fin 64) :
    k2_pay1 (F := Ideal) x0 x1 x2 (ix2 p q)
      = ∑ k : Fin 128, Cert.SpecG.prelu (x1 (ix2 (0 : Fin 1) (0 : Fin 1))) (x0 (ix2 p k)) * x2 (ix2 k q) := by
  unfold k2_pay1
  simp only [matmul]
  rw [Ideal.matmul_constant_zero_apply,
    ← Equiv.sum_comp (contrEquiv1 dot_S5000x128_S128x64_S5000x64_1_0_0_1_n_n 128 rfl rfl).symm]
  refine Finset.sum_congr rfl fun k _ => ?_
  have c2 := contrEquiv1_symm_val dot_S5000x128_S128x64_S5000x64_1_0_0_1_n_n 128 rfl rfl k
  have l2 : dot_S5000x128_S128x64_S5000x64_1_0_0_1_n_n.lhsIdx (ix2 p q) ((contrEquiv1 _ 128 rfl rfl).symm k) = ix2 p k := by
    funext ax; apply Fin.ext
    match ax with
    | ⟨0, _⟩ => simp [DotDims.lhsIdx, dot_S5000x128_S128x64_S5000x64_1_0_0_1_n_n]; rfl
    | ⟨1, _⟩ => simp [DotDims.lhsIdx, dot_S5000x128_S128x64_S5000x64_1_0_0_1_n_n]; exact c2
  have r2 : dot_S5000x128_S128x64_S5000x64_1_0_0_1_n_n.rhsIdx (ix2 p q) ((contrEquiv1 _ 128 rfl rfl).symm k) = ix2 k q := by
    funext ax; apply Fin.ext
    match ax with
    | ⟨0, _⟩ => simp [DotDims.rhsIdx, dot_S5000x128_S128x64_S5000x64_1_0_0_1_n_n]; exact c2
    | ⟨1, _⟩ => simp [DotDims.rhsIdx, dot_S5000x128_S128x64_S5000x64_1_0_0_1_n_n]; rfl
  rw [l2, r2]
  simp only [shapeCast_self, truncf_apply, select_apply, cmpf_apply, broadcast_apply, mulf_apply]
  have ex : extractAt ![0, 0] x1 inpos_S1x1_p0_0 = x1 (ix2 (0 : Fin 1) (0 : Fin 1)) :=
    congrArg x1 (funext fun a => Fin.ext (by match a with | ⟨0, _⟩ => rfl | ⟨1, _⟩ => rfl))
  rw [ex]
  rfl

/-- An entry of a block whose rows are rows of the whole arrays is the whole-array stage's entry there. -/
theorem plinBlock2_eq (A0 : Cert.SpecG.Arr2 50000 128) (A1 : Cert.SpecG.Arr2 1 1) (A2 : Cert.SpecG.Arr2 128 64)
    (x0 : Vec Ideal S5000x128 .f32) (x1 : Vec Ideal S1x1 .f32) (x2 : Vec Ideal S128x64 .f32)
    (i : (⟨2, ![50000, 64]⟩ : Shape).Idx) (p : Fin 5000) (q : Fin 64)
    (h0 : ∀ k : Fin 128, x0 (ix2 p k) = A0 (ix2 (i 0 : Fin 50000) k))
    (h1 : x1 (ix2 (0 : Fin 1) (0 : Fin 1)) = A1 (ix2 (0 : Fin 1) (0 : Fin 1)))
    (h2 : ∀ k : Fin 128, x2 (ix2 k q) = A2 (ix2 k (i 1 : Fin 64))) :
    k2_pay1 (F := Ideal) x0 x1 x2 (ix2 p q) = Cert.SpecG.plin A0 A1 A2 i := by
  rw [plinBlock2_at]
  unfold Cert.SpecG.plin
  refine Finset.sum_congr rfl fun k _ => ?_
  rw [h0 k, h1, h2 k]

/-- The printed index maps over the ten points: the feature block and the result block are row block t, the slope and
    the weights are whole. -/
theorem blockIndex2 : ∀ t : Fin cfg2.N,
    win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- What point t writes back is row block t of the whole-array stage of the arrays as the region finds them. -/
theorem flushed2_eq (c : Dev nD) (t : Fin cfg2.N) :
    (dat2 (F := Ideal) V c).flushed 3 t = ((cfg2.win 3).blk t).view.read (Elt Ideal)
      (Cert.SpecG.plin (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zeroOff2]
  simp only [View.ld_unit_zero (S := S5000x128) zeroOff2, View.ld_unit_zero (S := S1x1) zeroOff2, View.ld_unit_zero (S := S128x64) zeroOff2]
  obtain ⟨e0, e1, e2, e3, e4, e5, e6, e7⟩ := blockIndex2 t
  funext j
  obtain ⟨p, q, rfl⟩ : ∃ (p : Fin 5000) (q : Fin 64), j = ix2 p q := ⟨j 0, j 1, eq_ix2 j⟩
  show k2_pay1 (iblk2 V c 0 t) (iblk2 V c 1 t) (iblk2 V c 2 t) (ix2 p q)
    = Cert.SpecG.plin _ _ _ (((cfg2.win 3).blk t).view.emb (ix2 p q))
  refine plinBlock2_eq _ _ _ _ _ _ _ p q (fun k => ?_) ?_ (fun k => ?_)
  · unfold iblk2
    rw [View.read_apply]
    show V c (Pipeline.arrRef spec2 0) _ = V c (Pipeline.arrRef spec2 0) _
    refine congrArg (V c (Pipeline.arrRef spec2 0)) (funext fun a => Fin.ext ?_)
    match a with
    | ⟨0, _⟩ => show win2_0.index t (0 : Fin 2) * 5000 + 1 * p.val = win2_3.index t (0 : Fin 2) * 5000 + 1 * p.val; rw [e0]
    | ⟨1, _⟩ => show win2_0.index t (1 : Fin 2) * 128 + 1 * k.val = k.val; rw [e1]; omega
  · unfold iblk2
    rw [View.read_apply]
    show V c (Pipeline.arrRef spec2 1) _ = V c (Pipeline.arrRef spec2 1) _
    refine congrArg (V c (Pipeline.arrRef spec2 1)) (funext fun a => Fin.ext ?_)
    match a with
    | ⟨0, _⟩ => show win2_1.index t (0 : Fin 2) * 1 + 1 * 0 = 0; rw [e2]
    | ⟨1, _⟩ => show win2_1.index t (1 : Fin 2) * 1 + 1 * 0 = 0; rw [e3]
  · unfold iblk2
    rw [View.read_apply]
    show V c (Pipeline.arrRef spec2 2) _ = V c (Pipeline.arrRef spec2 2) _
    refine congrArg (V c (Pipeline.arrRef spec2 2)) (funext fun a => Fin.ext ?_)
    match a with
    | ⟨0, _⟩ => show win2_2.index t (0 : Fin 2) * 128 + 1 * k.val = k.val; rw [e4]; omega
    | ⟨1, _⟩ => show win2_2.index t (1 : Fin 2) * 64 + 1 * q.val = win2_3.index t (1 : Fin 2) * 64 + 1 * q.val; rw [e5, e7]

/-- An index of the result array is in point t's block iff each coordinate is in the block's range on its axis. -/
theorem mem_block2 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v79).slice (win2_3.rect t)).set ↔ _
  rw [View.set_slice_whole, Rect.mem_set_unit]
  exact Iff.rfl

/-- Row r of the result is in the block of point r / 5000: the ten blocks cover the array. -/
theorem covered2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : grid2.N = 10 := N_2
  have ht : (i 0).val / 5000 < grid2.N := by rw [hN]; omega
  obtain ⟨e0, e1, e2, e3, e4, e5, e6, e7⟩ := blockIndex2 ⟨(i 0).val / 5000, ht⟩
  refine ⟨⟨(i 0).val / 5000, ht⟩, flush2_3 _, ?_⟩
  rw [mem_block2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, ht⟩ (1 : Fin 2) * 64 ≤ (i 1).val ∧ (i 1).val < win2_3.index ⟨(i 0).val / 5000, ht⟩ (1 : Fin 2) * 64 + 64
    rw [e7]; omega

/-- After the region the result array is the rectify-and-contract stage of the arrays the region finds. -/
theorem region2 (c : Dev nD) :
    (dat2 (F := Ideal) V c).arrAt 3 cfg2.N
      = Cert.SpecG.plin (V c (Pipeline.arrRef spec2 0)) (V c (Pipeline.arrRef spec2 1)) (V c (Pipeline.arrRef spec2 2)) :=
  (dat2 V c).arrAt_eq_of_cover 3 _ (fun t _ => flushed2_eq V c t) covered2

end

end Cert.KVal

end
-- ==== Proof.KChain2.lean ====
/-
  Block 0 of the kernel program's run, boundary by boundary, as functions of the launch contents of the argument
  arrays: the statistics and parameters the normalising region reads; the region's output as the reference's
  rectify-normalise-contract stage; the aggregation of its rows; the second region's output as the reference's
  rectify-contract stage.
-/
import proofs.«102494_j5102421148167_1_alg».proof.Proof.Gen.KernelIdeal.Frame
import proofs.«102494_j5102421148167_1_alg».proof.Proof.Gen.ReferenceIdeal
import proofs.«102494_j5102421148167_1_alg».proof.Proof.Spec
import proofs.«102494_j5102421148167_1_alg».proof.Proof.SpecG
import proofs.«102494_j5102421148167_1_alg».proof.Proof.KHostA
import proofs.«102494_j5102421148167_1_alg».proof.Proof.KHost1
import proofs.«102494_j5102421148167_1_alg».proof.Proof.KHost2
import proofs.«102494_j5102421148167_1_alg».proof.Proof.KRegion1
import proofs.«102494_j5102421148167_1_alg».proof.Proof.KRegion2
import proofs.«102494_j5102421148167_1_alg».proof.Proof.Bridge
import proofs.«102494_j5102421148167_1_alg».proof.Proof.KChain1

set_option maxRecDepth 16384

noncomputable section

namespace Cert.KVal

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Block 0 -/

theorem KA7 : KeepsA (W7 m ρ c) (W0 m ρ c) := (g1_keepsA (W2 m ρ c)).trans (KA2 m ρ c)
theorem KG7 : KeepsG (W7 m ρ c) (W1 m ρ c) := (g1_keepsG (W2 m ρ c)).trans (KG2s m ρ c)
theorem h_7 : W7 m ρ c (Proc.devRef .tc main_v30) = (Cert.Spec.lin0 (W0 m ρ c (Proc.devRef .tc main_arg0)) (W0 m ρ c (Proc.devRef .tc main_arg3)) (W0 m ρ c (Proc.devRef .tc main_arg4))) := (g1_h (W2 m ρ c)).trans (h0_2 m ρ c)

theorem w_7 : W7 m ρ c (Proc.devRef .tc main_v47) = (Cert.Spec.w1_0 (W0 m ρ c (Proc.devRef .tc main_arg8))) := (g1_w (W2 m ρ c)).trans (by rw [(KA2 m ρ c).a8])
theorem slope_7 : W7 m ρ c (Proc.devRef .tc main_v48) = (shapeCast S1x1 (Cert.Spec.sc0 (W0 m ρ c (Proc.devRef .tc main_arg5))) (by decide)) := (g1_slope (W2 m ρ c)).trans (by rw [(KA2 m ρ c).a5])
theorem mean_7 : W7 m ρ c (Proc.devRef .tc main_v49) = (shapeCast S1x64 (Cert.Spec.mean64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (by decide)) := (g1_mean (W2 m ρ c)).trans ((by rw [(KA2 m ρ c).a5, h0_2 m ρ c]) : _ = _)
theorem var_7 : W7 m ρ c (Proc.devRef .tc main_v50) = (shapeCast S1x64 (Cert.Spec.var64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (by decide)) := (g1_var (W2 m ρ c)).trans ((by rw [(KA2 m ρ c).a5, h0_2 m ρ c]) : _ = _)
theorem gamma_7 : W7 m ρ c (Proc.devRef .tc main_v51) = (shapeCast S1x64 (Cert.Spec.v64_0 (W0 m ρ c (Proc.devRef .tc main_arg6))) (by decide)) := (g1_gamma (W2 m ρ c)).trans (by rw [(KA2 m ρ c).a6])
theorem beta_7 : W7 m ρ c (Proc.devRef .tc main_v52) = (shapeCast S1x64 (Cert.Spec.v64_0 (W0 m ρ c (Proc.devRef .tc main_arg7))) (by decide)) := (g1_beta (W2 m ρ c)).trans (by rw [(KA2 m ρ c).a7])

/-- Region 1 writes only its output array: the argument arrays stay. -/
theorem KA8s : KeepsA (W8 m ρ c) (W7 m ρ c) := by
  unfold KeepsA
  exact ⟨W8_of_ne m ρ c main_arg0 (by decide), W8_of_ne m ρ c main_arg1 (by decide), W8_of_ne m ρ c main_arg2 (by decide), W8_of_ne m ρ c main_arg3 (by decide), W8_of_ne m ρ c main_arg4 (by decide), W8_of_ne m ρ c main_arg5 (by decide), W8_of_ne m ρ c main_arg6 (by decide), W8_of_ne m ρ c main_arg7 (by decide), W8_of_ne m ρ c main_arg8 (by decide), W8_of_ne m ρ c main_arg9 (by decide), W8_of_ne m ρ c main_arg10 (by decide), W8_of_ne m ρ c main_arg11 (by decide), W8_of_ne m ρ c main_arg12 (by decide), W8_of_ne m ρ c main_arg13 (by decide), W8_of_ne m ρ c main_arg14 (by decide), W8_of_ne m ρ c main_arg15 (by decide), W8_of_ne m ρ c main_arg16 (by decide), W8_of_ne m ρ c main_arg17 (by decide), W8_of_ne m ρ c main_arg18 (by decide), W8_of_ne m ρ c main_arg19 (by decide)⟩
/-- And the graph-structure buffers stay. -/
theorem KG8s : KeepsG (W8 m ρ c) (W7 m ρ c) := by
  unfold KeepsG
  exact ⟨W8_of_ne m ρ c main_v1 (by decide), W8_of_ne m ρ c main_v3 (by decide), W8_of_ne m ρ c main_v26 (by decide), W8_of_ne m ρ c main_v28 (by decide)⟩

theorem KA8 : KeepsA (W8 m ρ c) (W0 m ρ c) := (KA8s m ρ c).trans (KA7 m ρ c)
theorem KG8 : KeepsG (W8 m ρ c) (W1 m ρ c) := (KG8s m ρ c).trans (KG7 m ρ c)

/-- Region 1: rectify, normalise, contract — the reference's stage of the same inputs. -/
theorem lin1_8 : W8 m ρ c (Proc.devRef .tc main_v53) = (Cert.Spec.bndot64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4)))) (Cert.Spec.mean64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.var64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.v64_0 (W0 m ρ c (Proc.devRef .tc main_arg6))) (Cert.Spec.v64_0 (W0 m ρ c (Proc.devRef .tc main_arg7))) (Cert.Spec.w1_0 (W0 m ρ c (Proc.devRef .tc main_arg8)))) :=
  calc W8 m ρ c (Proc.devRef .tc main_v53) = (dat1 (V7 m ρ) c).arrAt 7 cfg1.N := W8_arr m ρ c 7
    _ = Cert.SpecG.bnlin (W7 m ρ c (Proc.devRef .tc main_v30)) (W7 m ρ c (Proc.devRef .tc main_v48)) (W7 m ρ c (Proc.devRef .tc main_v49)) (W7 m ρ c (Proc.devRef .tc main_v50)) (W7 m ρ c (Proc.devRef .tc main_v51)) (W7 m ρ c (Proc.devRef .tc main_v52)) (W7 m ρ c (Proc.devRef .tc main_v47)) := region1 (V7 m ρ) c
    _ = Cert.SpecG.bnlin (Cert.Spec.lin0 (W0 m ρ c (Proc.devRef .tc main_arg0)) (W0 m ρ c (Proc.devRef .tc main_arg3)) (W0 m ρ c (Proc.devRef .tc main_arg4))) (shapeCast S1x1 (Cert.Spec.sc0 (W0 m ρ c (Proc.devRef .tc main_arg5))) (by decide)) (shapeCast S1x64 (Cert.Spec.mean64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (by decide)) (shapeCast S1x64 (Cert.Spec.var64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (by decide)) (shapeCast S1x64 (Cert.Spec.v64_0 (W0 m ρ c (Proc.devRef .tc main_arg6))) (by decide)) (shapeCast S1x64 (Cert.Spec.v64_0 (W0 m ρ c (Proc.devRef .tc main_arg7))) (by decide)) (Cert.Spec.w1_0 (W0 m ρ c (Proc.devRef .tc main_arg8))) := by
        rw [h_7 m ρ c, slope_7 m ρ c, mean_7 m ρ c, var_7 m ρ c, gamma_7 m ρ c, beta_7 m ρ c, w_7 m ρ c]
    _ = (Cert.Spec.bndot64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4)))) (Cert.Spec.mean64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.var64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.v64_0 (W0 m ρ c (Proc.devRef .tc main_arg6))) (Cert.Spec.v64_0 (W0 m ρ c (Proc.devRef .tc main_arg7))) (Cert.Spec.w1_0 (W0 m ρ c (Proc.devRef .tc main_arg8)))) := Cert.Bridge.bnlin_bridge _ _ _ _ _ _ _ _ _

theorem KA9 : KeepsA (W9 m ρ c) (W0 m ρ c) := (g2_keepsA (W8 m ρ c)).trans (KA8 m ρ c)
theorem KG9 : KeepsG (W9 m ρ c) (W1 m ρ c) := (g2_keepsG (W8 m ρ c)).trans (KG8 m ρ c)
/-- The aggregation of the 128-wide rows. -/
theorem hh_9 : W9 m ρ c (Proc.devRef .tc main_v73) = (Cert.Spec.conv128 (Cert.Spec.bndot64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4)))) (Cert.Spec.mean64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.var64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.v64_0 (W0 m ρ c (Proc.devRef .tc main_arg6))) (Cert.Spec.v64_0 (W0 m ρ c (Proc.devRef .tc main_arg7))) (Cert.Spec.w1_0 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_0 (W0 m ρ c (Proc.devRef .tc main_arg9)))) := (g2_h (W8 m ρ c)).trans (by rw [lin1_8 m ρ c, (KG8 m ρ c).g0, (KG8 m ρ c).g1, (KG8 m ρ c).g2, (KG8 m ρ c).g3, src1 m ρ c, dst1 m ρ c, norm1 m ρ c, self1 m ρ c, (KA8 m ρ c).a9])
theorem w2_9 : W9 m ρ c (Proc.devRef .tc main_v77) = (Cert.Spec.w2_0 (W0 m ρ c (Proc.devRef .tc main_arg11))) := (g2_w (W8 m ρ c)).trans (by rw [(KA8 m ρ c).a11])
theorem slope2_9 : W9 m ρ c (Proc.devRef .tc main_v78) = (shapeCast S1x1 (Cert.Spec.sc0 (W0 m ρ c (Proc.devRef .tc main_arg10))) (by decide)) := (g2_slope (W8 m ρ c)).trans (by rw [(KA8 m ρ c).a10])

/-- Region 2 writes only its output array: the argument arrays stay. -/
theorem KA10s : KeepsA (W10 m ρ c) (W9 m ρ c) := by
  unfold KeepsA
  exact ⟨W10_of_ne m ρ c main_arg0 (by decide), W10_of_ne m ρ c main_arg1 (by decide), W10_of_ne m ρ c main_arg2 (by decide), W10_of_ne m ρ c main_arg3 (by decide), W10_of_ne m ρ c main_arg4 (by decide), W10_of_ne m ρ c main_arg5 (by decide), W10_of_ne m ρ c main_arg6 (by decide), W10_of_ne m ρ c main_arg7 (by decide), W10_of_ne m ρ c main_arg8 (by decide), W10_of_ne m ρ c main_arg9 (by decide), W10_of_ne m ρ c main_arg10 (by decide), W10_of_ne m ρ c main_arg11 (by decide), W10_of_ne m ρ c main_arg12 (by decide), W10_of_ne m ρ c main_arg13 (by decide), W10_of_ne m ρ c main_arg14 (by decide), W10_of_ne m ρ c main_arg15 (by decide), W10_of_ne m ρ c main_arg16 (by decide), W10_of_ne m ρ c main_arg17 (by decide), W10_of_ne m ρ c main_arg18 (by decide), W10_of_ne m ρ c main_arg19 (by decide)⟩
/-- And the graph-structure buffers stay. -/
theorem KG10s : KeepsG (W10 m ρ c) (W9 m ρ c) := by
  unfold KeepsG
  exact ⟨W10_of_ne m ρ c main_v1 (by decide), W10_of_ne m ρ c main_v3 (by decide), W10_of_ne m ρ c main_v26 (by decide), W10_of_ne m ρ c main_v28 (by decide)⟩

theorem KA10 : KeepsA (W10 m ρ c) (W0 m ρ c) := (KA10s m ρ c).trans (KA9 m ρ c)
theorem KG10 : KeepsG (W10 m ρ c) (W1 m ρ c) := (KG10s m ρ c).trans (KG9 m ρ c)

/-- Region 2: rectify, contract — the reference's stage of the same inputs. -/
theorem lin2_10 : W10 m ρ c (Proc.devRef .tc main_v79) = (Cert.Spec.pdot128 (Cert.Spec.sc0 (W0 m ρ c (Proc.devRef .tc main_arg10))) (Cert.Spec.conv128 (Cert.Spec.bndot64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4)))) (Cert.Spec.mean64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.var64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.v64_0 (W0 m ρ c (Proc.devRef .tc main_arg6))) (Cert.Spec.v64_0 (W0 m ρ c (Proc.devRef .tc main_arg7))) (Cert.Spec.w1_0 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_0 (W0 m ρ c (Proc.devRef .tc main_arg9)))) (Cert.Spec.w2_0 (W0 m ρ c (Proc.devRef .tc main_arg11)))) :=
  calc W10 m ρ c (Proc.devRef .tc main_v79) = (dat2 (V9 m ρ) c).arrAt 3 cfg2.N := W10_arr m ρ c 3
    _ = Cert.SpecG.plin (W9 m ρ c (Proc.devRef .tc main_v73)) (W9 m ρ c (Proc.devRef .tc main_v78)) (W9 m ρ c (Proc.devRef .tc main_v77)) := region2 (V9 m ρ) c
    _ = Cert.SpecG.plin (Cert.Spec.conv128 (Cert.Spec.bndot64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4)))) (Cert.Spec.mean64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.var64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.v64_0 (W0 m ρ c (Proc.devRef .tc main_arg6))) (Cert.Spec.v64_0 (W0 m ρ c (Proc.devRef .tc main_arg7))) (Cert.Spec.w1_0 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_0 (W0 m ρ c (Proc.devRef .tc main_arg9)))) (shapeCast S1x1 (Cert.Spec.sc0 (W0 m ρ c (Proc.devRef .tc main_arg10))) (by decide)) (Cert.Spec.w2_0 (W0 m ρ c (Proc.devRef .tc main_arg11))) := by
        rw [hh_9 m ρ c, slope2_9 m ρ c, w2_9 m ρ c]
    _ = (Cert.Spec.pdot128 (Cert.Spec.sc0 (W0 m ρ c (Proc.devRef .tc main_arg10))) (Cert.Spec.conv128 (Cert.Spec.bndot64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4)))) (Cert.Spec.mean64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.var64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.v64_0 (W0 m ρ c (Proc.devRef .tc main_arg6))) (Cert.Spec.v64_0 (W0 m ρ c (Proc.devRef .tc main_arg7))) (Cert.Spec.w1_0 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_0 (W0 m ρ c (Proc.devRef .tc main_arg9)))) (Cert.Spec.w2_0 (W0 m ρ c (Proc.devRef .tc main_arg11)))) := Cert.Bridge.plin_bridge _ _ _ _

end Cert.KVal

end
-- ==== Proof.KHost3.lean ====
/-
  The stretch after the first block's second stage, from any contents: the transformed 64-wide rows aggregated over the
  edges with the self loops and the bias — the block's output — and, of that output rectified with the second block's
  slope, the mean and the variance over the nodes, with the second block's parameters as rows.
-/
import proofs.«102494_j5102421148167_1_alg».proof.Proof.Gen.KernelIdeal.Frame
import proofs.«102494_j5102421148167_1_alg».proof.Proof.Gen.ReferenceIdeal
import proofs.«102494_j5102421148167_1_alg».proof.Proof.Spec
import proofs.«102494_j5102421148167_1_alg».proof.Proof.KHostA
set_option maxRecDepth 16384

noncomputable section

namespace Cert.KVal

open Cert.KernelIdeal Cert.KernelIdeal.Gen
open Idealize.ShloMosaic Idealize.ShloMosaic.TcCoe Idealize.SL.Sem Idealize.ShloMosaic.StableHlo

variable {F : FTy → Type} [FloatOps F] [Cert.KernelIdeal.Facts] [Cert.ReferenceIdeal.Facts]

/-- The block's output: the aggregated 64-wide rows with the bias. -/
theorem g3_h (W : Valuation τ sig (Elt F)) : G3 W (Proc.devRef .tc main_v99) = Cert.Spec.conv64 (W (Proc.devRef .tc main_v79)) (W (Proc.devRef .tc main_v1)) (W (Proc.devRef .tc main_v3)) (W (Proc.devRef .tc main_v26)) (W (Proc.devRef .tc main_v28)) (Cert.Spec.v64_0 (W (Proc.devRef .tc main_arg12))) := by
  unfold G3; after_results_simp <;> rfl

/-- The block's first weight matrix. -/
theorem g3_w (W : Valuation τ sig (Elt F)) : G3 W (Proc.devRef .tc main_v116) = Cert.Spec.w1_1 (W (Proc.devRef .tc main_arg8)) := by
  unfold G3; after_results_simp <;> rfl

/-- The first rectifier's slope as a [1, 1] array. -/
theorem g3_slope (W : Valuation τ sig (Elt F)) : G3 W (Proc.devRef .tc main_v117) = shapeCast S1x1 (Cert.Spec.sc1 (W (Proc.devRef .tc main_arg5))) (by decide) := by
  unfold G3; after_results_simp <;> rfl

/-- The mean of the rectified activations over the nodes, as a row. -/
theorem g3_mean (W : Valuation τ sig (Elt F)) : G3 W (Proc.devRef .tc main_v118) = shapeCast S1x64 (Cert.Spec.mean64 (Cert.Spec.prelu64 (Cert.Spec.sc1 (W (Proc.devRef .tc main_arg5))) (Cert.Spec.conv64 (W (Proc.devRef .tc main_v79)) (W (Proc.devRef .tc main_v1)) (W (Proc.devRef .tc main_v3)) (W (Proc.devRef .tc main_v26)) (W (Proc.devRef .tc main_v28)) (Cert.Spec.v64_0 (W (Proc.devRef .tc main_arg12)))))) (by decide) := by
  unfold G3; after_results_simp <;> rfl

/-- Their variance over the nodes, as a row. -/
theorem g3_var (W : Valuation τ sig (Elt F)) : G3 W (Proc.devRef .tc main_v119) = shapeCast S1x64 (Cert.Spec.var64 (Cert.Spec.prelu64 (Cert.Spec.sc1 (W (Proc.devRef .tc main_arg5))) (Cert.Spec.conv64 (W (Proc.devRef .tc main_v79)) (W (Proc.devRef .tc main_v1)) (W (Proc.devRef .tc main_v3)) (W (Proc.devRef .tc main_v26)) (W (Proc.devRef .tc main_v28)) (Cert.Spec.v64_0 (W (Proc.devRef .tc main_arg12)))))) (by decide) := by
  unfold G3; after_results_simp <;> rfl

/-- The normalisation's scale as a row. -/
theorem g3_gamma (W : Valuation τ sig (Elt F)) : G3 W (Proc.devRef .tc main_v120) = shapeCast S1x64 (Cert.Spec.v64_1 (W (Proc.devRef .tc main_arg6))) (by decide) := by
  unfold G3; after_results_simp <;> rfl

/-- The normalisation's shift as a row. -/
theorem g3_beta (W : Valuation τ sig (Elt F)) : G3 W (Proc.devRef .tc main_v121) = shapeCast S1x64 (Cert.Spec.v64_1 (W (Proc.devRef .tc main_arg7))) (by decide) := by
  unfold G3; after_results_simp <;> rfl

set_option maxHeartbeats 16000000 in
/-- The stretch writes none of the argument arrays. -/
theorem g3_keepsA (W : Valuation τ sig (Elt F)) : KeepsA (G3 W) W := by
  unfold KeepsA G3
  refine ⟨?_, ?_, ?_, ?_, ?_, ?_, ?_, ?_, ?_, ?_, ?_, ?_, ?_, ?_, ?_, ?_, ?_, ?_, ?_, ?_⟩ <;> (after_results_simp <;> rfl)

set_option maxHeartbeats 16000000 in
/-- The stretch writes none of the graph-structure buffers. -/
theorem g3_keepsG (W : Valuation τ sig (Elt F)) : KeepsG (G3 W) W := by
  unfold KeepsG G3
  refine ⟨?_, ?_, ?_, ?_⟩ <;> (after_results_simp <;> rfl)

end Cert.KVal

end
-- ==== Proof.KHost4.lean ====
/-
  The stretch after the second block's normalising stage, from any contents: the transformed 128-wide rows aggregated
  over the edges with the self loops and the bias, and the second stage's slope and weight matrix.
-/
import proofs.«102494_j5102421148167_1_alg».proof.Proof.Gen.KernelIdeal.Frame
import proofs.«102494_j5102421148167_1_alg».proof.Proof.Gen.ReferenceIdeal
import proofs.«102494_j5102421148167_1_alg».proof.Proof.Spec
import proofs.«102494_j5102421148167_1_alg».proof.Proof.KHostA
set_option maxRecDepth 16384

noncomputable section

namespace Cert.KVal

open Cert.KernelIdeal Cert.KernelIdeal.Gen
open Idealize.ShloMosaic Idealize.ShloMosaic.TcCoe Idealize.SL.Sem Idealize.ShloMosaic.StableHlo

variable {F : FTy → Type} [FloatOps F] [Cert.KernelIdeal.Facts] [Cert.ReferenceIdeal.Facts]

/-- The aggregated 128-wide rows with the bias. -/
theorem g4_h (W : Valuation τ sig (Elt F)) : G4 W (Proc.devRef .tc main_v142) = Cert.Spec.conv128 (W (Proc.devRef .tc main_v122)) (W (Proc.devRef .tc main_v1)) (W (Proc.devRef .tc main_v3)) (W (Proc.devRef .tc main_v26)) (W (Proc.devRef .tc main_v28)) (Cert.Spec.v128_1 (W (Proc.devRef .tc main_arg9))) := by
  unfold G4; after_results_simp <;> rfl

/-- The block's second weight matrix. -/
theorem g4_w (W : Valuation τ sig (Elt F)) : G4 W (Proc.devRef .tc main_v146) = Cert.Spec.w2_1 (W (Proc.devRef .tc main_arg11)) := by
  unfold G4; after_results_simp <;> rfl

/-- The second rectifier's slope as a [1, 1] array. -/
theorem g4_slope (W : Valuation τ sig (Elt F)) : G4 W (Proc.devRef .tc main_v147) = shapeCast S1x1 (Cert.Spec.sc1 (W (Proc.devRef .tc main_arg10))) (by decide) := by
  unfold G4; after_results_simp <;> rfl

set_option maxHeartbeats 16000000 in
/-- The stretch writes none of the argument arrays. -/
theorem g4_keepsA (W : Valuation τ sig (Elt F)) : KeepsA (G4 W) W := by
  unfold KeepsA G4
  refine ⟨?_, ?_, ?_, ?_, ?_, ?_, ?_, ?_, ?_, ?_, ?_, ?_, ?_, ?_, ?_, ?_, ?_, ?_, ?_, ?_⟩ <;> (after_results_simp <;> rfl)

set_option maxHeartbeats 16000000 in
/-- The stretch writes none of the graph-structure buffers. -/
theorem g4_keepsG (W : Valuation τ sig (Elt F)) : KeepsG (G4 W) W := by
  unfold KeepsG G4
  refine ⟨?_, ?_, ?_, ?_⟩ <;> (after_results_simp <;> rfl)

end Cert.KVal

end
-- ==== Proof.KRegion3.lean ====
/-
  A rectify, normalise and contract stage, block by block, is the stage on the whole array.
  Each of the ten grid points reads rows 5000·t … 5000·t + 4999 of the feature array, the whole slope, the whole
  per-feature rows (mean, variance, scale, shift) and the whole weight matrix, and writes rows 5000·t … 5000·t + 4999
  of the result: entry (p, q) of its block is ∑ₖ bn(h(5000·t + p, k))·w(k, q), where bn rectifies the entry, centres it
  by the feature's mean, scales it by the reciprocal square root of the feature's variance plus a small constant, and
  applies the feature's scale and shift; this is entry (5000·t + p, q) of the whole-array function. The ten row blocks
  cover all 50000 rows, so the result array ends holding the whole-array function of the arrays the stage reads.
-/
import proofs.«102494_j5102421148167_1_alg».proof.Proof.Gen.KernelIdeal.Frame
import proofs.«102494_j5102421148167_1_alg».proof.Proof.SpecG
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KVal

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, however spelt. -/
theorem zeroOff3 : (![0, 0] : Fin 2 → Nat) = fun _ => 0 := funext fun a => by fin_cases a <;> rfl

/-- One entry of the block product: the contraction over the 64 features of the rectified, normalised row against the
    weight column (the operand format changes are the identity on extended reals, the accumulator is zero). -/
theorem bnlinBlock3_at (x0 : Vec Ideal S5000x64 .f32) (x1 : Vec Ideal S1x1 .f32) (x2 x3 x4 x5 : Vec Ideal S1x64 .f32)
    (x6 : Vec Ideal S64x128 .f32) (p : Fin 5000) (q : Fin 128) :
    k3_pay1 (F := Ideal) x0 x1 x2 x3 x4 x5 x6 (ix2 p q)
      = ∑ k : Fin 64, Cert.SpecG.bn (x1 (ix2 (0 : Fin 1) (0 : Fin 1))) (x0 (ix2 p k)) (x2 (ix2 (0 : Fin 1) k)) (x3 (ix2 (0 : Fin 1) k))
          (x4 (ix2 (0 : Fin 1) k)) (x5 (ix2 (0 : Fin 1) k)) * x6 (ix2 k q) := by
  unfold k3_pay1
  simp only [matmul]
  rw [Ideal.matmul_constant_zero_apply,
    ← Equiv.sum_comp (contrEquiv1 dot_S5000x64_S64x128_S5000x128_1_0_0_1_n_n 64 rfl rfl).symm]
  refine Finset.sum_congr rfl fun k _ => ?_
  have c2 := contrEquiv1_symm_val dot_S5000x64_S64x128_S5000x128_1_0_0_1_n_n 64 rfl rfl k
  have l2 : dot_S5000x64_S64x128_S5000x128_1_0_0_1_n_n.lhsIdx (ix2 p q) ((contrEquiv1 _ 64 rfl rfl).symm k) = ix2 p k := by
    funext ax; apply Fin.ext
    match ax with
    | ⟨0, _⟩ => simp [DotDims.lhsIdx, dot_S5000x64_S64x128_S5000x128_1_0_0_1_n_n]; rfl
    | ⟨1, _⟩ => simp [DotDims.lhsIdx, dot_S5000x64_S64x128_S5000x128_1_0_0_1_n_n]; exact c2
  have r2 : dot_S5000x64_S64x128_S5000x128_1_0_0_1_n_n.rhsIdx (ix2 p q) ((contrEquiv1 _ 64 rfl rfl).symm k) = ix2 k q := by
    funext ax; apply Fin.ext
    match ax with
    | ⟨0, _⟩ => simp [DotDims.rhsIdx, dot_S5000x64_S64x128_S5000x128_1_0_0_1_n_n]; exact c2
    | ⟨1, _⟩ => simp [DotDims.rhsIdx, dot_S5000x64_S64x128_S5000x128_1_0_0_1_n_n]; rfl
  rw [l2, r2]
  simp only [shapeCast_self, truncf_apply, addf_apply, mulf_apply, subf_apply, select_apply, cmpf_apply, broadcast_apply,
    broadcastTo_1b_ab_apply]
  have ex : extractAt ![0, 0] x1 inpos_S1x1_p0_0 = x1 (ix2 (0 : Fin 1) (0 : Fin 1)) :=
    congrArg x1 (funext fun a => Fin.ext (by match a with | ⟨0, _⟩ => rfl | ⟨1, _⟩ => rfl))
  rw [ex]
  rfl

/-- An entry of a block whose rows are rows of the whole arrays is the whole-array stage's entry there. -/
theorem bnlinBlock3_eq (A0 : Cert.SpecG.Arr2 50000 64) (A1 : Cert.SpecG.Arr2 1 1) (A2 A3 A4 A5 : Cert.SpecG.Arr2 1 64)
    (A6 : Cert.SpecG.Arr2 64 128)
    (x0 : Vec Ideal S5000x64 .f32) (x1 : Vec Ideal S1x1 .f32) (x2 x3 x4 x5 : Vec Ideal S1x64 .f32) (x6 : Vec Ideal S64x128 .f32)
    (i : (⟨2, ![50000, 128]⟩ : Shape).Idx) (p : Fin 5000) (q : Fin 128)
    (h0 : ∀ k : Fin 64, x0 (ix2 p k) = A0 (ix2 (i 0 : Fin 50000) k))
    (h1 : x1 (ix2 (0 : Fin 1) (0 : Fin 1)) = A1 (ix2 (0 : Fin 1) (0 : Fin 1)))
    (h2 : ∀ k : Fin 64, x2 (ix2 (0 : Fin 1) k) = A2 (ix2 (0 : Fin 1) k))
    (h3 : ∀ k : Fin 64, x3 (ix2 (0 : Fin 1) k) = A3 (ix2 (0 : Fin 1) k))
    (h4 : ∀ k : Fin 64, x4 (ix2 (0 : Fin 1) k) = A4 (ix2 (0 : Fin 1) k))
    (h5 : ∀ k : Fin 64, x5 (ix2 (0 : Fin 1) k) = A5 (ix2 (0 : Fin 1) k))
    (h6 : ∀ k : Fin 64, x6 (ix2 k q) = A6 (ix2 k (i 1 : Fin 128))) :
    k3_pay1 (F := Ideal) x0 x1 x2 x3 x4 x5 x6 (ix2 p q) = Cert.SpecG.bnlin A0 A1 A2 A3 A4 A5 A6 i := by
  rw [bnlinBlock3_at]
  unfold Cert.SpecG.bnlin
  refine Finset.sum_congr rfl fun k _ => ?_
  rw [h0 k, h1, h2 k, h3 k, h4 k, h5 k, h6 k]

/-- The printed index maps over the ten points: the feature block and the result block are row block t, the slope, the
    per-feature rows and the weights are whole. -/
theorem blockIndex3 : ∀ t : Fin cfg3.N,
    win3_0.index t (0 : Fin 2) = win3_7.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

section
variable (V : (c : Dev nD) → (b : Ref sig .tc) → Buf (Elt Ideal) ((c : Thread nD τ).loc b))

set_option maxHeartbeats 4000000 in
/-- What point t writes back is row block t of the whole-array stage of the arrays as the region finds them. -/
theorem flushed3_eq (c : Dev nD) (t : Fin cfg3.N) :
    (dat3 (F := Ideal) V c).flushed 7 t = ((cfg3.win 7).blk t).view.read (Elt Ideal)
      (Cert.SpecG.bnlin (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6))) := by
  show (cfg3.win 7).cut (grid3.coords t) ((dat3 V c).after 7 t) = _
  rw [after3_7]
  unfold out3_7
  rw [View.canon_unit_zero zeroOff3]
  simp only [View.ld_unit_zero (S := S5000x64) zeroOff3, View.ld_unit_zero (S := S1x1) zeroOff3, View.ld_unit_zero (S := S1x64) zeroOff3,
    View.ld_unit_zero (S := S64x128) zeroOff3]
  obtain ⟨e0, e1, e2, e3, f20, f21, f30, f31, f40, f41, f50, f51, e12, e13, e14, e15⟩ := blockIndex3 t
  funext j
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (iblk3 V c 3 t) (iblk3 V c 4 t) (iblk3 V c 5 t) (iblk3 V c 6 t) (ix2 p q)
    = Cert.SpecG.bnlin _ _ _ _ _ _ _ (((cfg3.win 7).blk t).view.emb (ix2 p q))
  refine bnlinBlock3_eq _ _ _ _ _ _ _ _ _ _ _ _ _ _ _ p q (fun k => ?_) ?_ (fun k => ?_) (fun k => ?_) (fun k => ?_) (fun k => ?_) (fun k => ?_)
  · unfold iblk3
    rw [View.read_apply]
    show V c (Pipeline.arrRef spec3 0) _ = V c (Pipeline.arrRef spec3 0) _
    refine congrArg (V c (Pipeline.arrRef spec3 0)) (funext fun a => Fin.ext ?_)
    match a with
    | ⟨0, _⟩ => show win3_0.index t (0 : Fin 2) * 5000 + 1 * p.val = win3_7.index t (0 : Fin 2) * 5000 + 1 * p.val; rw [e0]
    | ⟨1, _⟩ => show win3_0.index t (1 : Fin 2) * 64 + 1 * k.val = k.val; rw [e1]; omega
  · unfold iblk3
    rw [View.read_apply]
    show V c (Pipeline.arrRef spec3 1) _ = V c (Pipeline.arrRef spec3 1) _
    refine congrArg (V c (Pipeline.arrRef spec3 1)) (funext fun a => Fin.ext ?_)
    match a with
    | ⟨0, _⟩ => show win3_1.index t (0 : Fin 2) * 1 + 1 * 0 = 0; rw [e2]
    | ⟨1, _⟩ => show win3_1.index t (1 : Fin 2) * 1 + 1 * 0 = 0; rw [e3]
  · unfold iblk3
    rw [View.read_apply]
    show V c (Pipeline.arrRef spec3 2) _ = V c (Pipeline.arrRef spec3 2) _
    refine congrArg (V c (Pipeline.arrRef spec3 2)) (funext fun a => Fin.ext ?_)
    match a with
    | ⟨0, _⟩ => show win3_2.index t (0 : Fin 2) * 1 + 1 * 0 = 0; rw [f20]
    | ⟨1, _⟩ => show win3_2.index t (1 : Fin 2) * 64 + 1 * k.val = k.val; rw [f21]; omega
  · unfold iblk3
    rw [View.read_apply]
    show V c (Pipeline.arrRef spec3 3) _ = V c (Pipeline.arrRef spec3 3) _
    refine congrArg (V c (Pipeline.arrRef spec3 3)) (funext fun a => Fin.ext ?_)
    match a with
    | ⟨0, _⟩ => show win3_3.index t (0 : Fin 2) * 1 + 1 * 0 = 0; rw [f30]
    | ⟨1, _⟩ => show win3_3.index t (1 : Fin 2) * 64 + 1 * k.val = k.val; rw [f31]; omega
  · unfold iblk3
    rw [View.read_apply]
    show V c (Pipeline.arrRef spec3 4) _ = V c (Pipeline.arrRef spec3 4) _
    refine congrArg (V c (Pipeline.arrRef spec3 4)) (funext fun a => Fin.ext ?_)
    match a with
    | ⟨0, _⟩ => show win3_4.index t (0 : Fin 2) * 1 + 1 * 0 = 0; rw [f40]
    | ⟨1, _⟩ => show win3_4.index t (1 : Fin 2) * 64 + 1 * k.val = k.val; rw [f41]; omega
  · unfold iblk3
    rw [View.read_apply]
    show V c (Pipeline.arrRef spec3 5) _ = V c (Pipeline.arrRef spec3 5) _
    refine congrArg (V c (Pipeline.arrRef spec3 5)) (funext fun a => Fin.ext ?_)
    match a with
    | ⟨0, _⟩ => show win3_5.index t (0 : Fin 2) * 1 + 1 * 0 = 0; rw [f50]
    | ⟨1, _⟩ => show win3_5.index t (1 : Fin 2) * 64 + 1 * k.val = k.val; rw [f51]; omega
  · unfold iblk3
    rw [View.read_apply]
    show V c (Pipeline.arrRef spec3 6) _ = V c (Pipeline.arrRef spec3 6) _
    refine congrArg (V c (Pipeline.arrRef spec3 6)) (funext fun a => Fin.ext ?_)
    match a with
    | ⟨0, _⟩ => show win3_6.index t (0 : Fin 2) * 64 + 1 * k.val = k.val; rw [e12]; omega
    | ⟨1, _⟩ => show win3_6.index t (1 : Fin 2) * 128 + 1 * q.val = win3_7.index t (1 : Fin 2) * 128 + 1 * q.val; rw [e13, e15]

/-- An index of the result array is in point t's block iff each coordinate is in the block's range on its axis. -/
theorem mem_block3 (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v122).slice (win3_7.rect t)).set ↔ _
  rw [View.set_slice_whole, Rect.mem_set_unit]
  exact Iff.rfl

/-- Row r of the result is in the block of point r / 5000: the ten blocks cover the array. -/
theorem covered3 (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have hN : grid3.N = 10 := N_3
  have ht : (i 0).val / 5000 < grid3.N := by rw [hN]; omega
  obtain ⟨e0, e1, e2, e3, f20, f21, f30, f31, f40, f41, f50, f51, e12, e13, e14, e15⟩ := blockIndex3 ⟨(i 0).val / 5000, ht⟩
  refine ⟨⟨(i 0).val / 5000, ht⟩, flush3_7 _, ?_⟩
  rw [mem_block3]
  intro a
  match a with
  | ⟨0, _⟩ =>
    show win3_7.index ⟨(i 0).val / 5000, ht⟩ (0 : Fin 2) * 5000 ≤ (i 0).val ∧ (i 0).val < win3_7.index ⟨(i 0).val / 5000, ht⟩ (0 : Fin 2) * 5000 + 5000
    rw [e14]; show (i 0).val / 5000 * 5000 ≤ (i 0).val ∧ (i 0).val < (i 0).val / 5000 * 5000 + 5000; omega
  | ⟨1, _⟩ =>
    show win3_7.index ⟨(i 0).val / 5000, ht⟩ (1 : Fin 2) * 128 ≤ (i 1).val ∧ (i 1).val < win3_7.index ⟨(i 0).val / 5000, ht⟩ (1 : Fin 2) * 128 + 128
    rw [e15]; omega

/-- After the region the result array is the rectify, normalise and contract stage of the arrays the region finds. -/
theorem region3 (c : Dev nD) :
    (dat3 (F := Ideal) V c).arrAt 7 cfg3.N
      = Cert.SpecG.bnlin (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5))
          (V c (Pipeline.arrRef spec3 6)) :=
  (dat3 V c).arrAt_eq_of_cover 7 _ (fun t _ => flushed3_eq V c t) covered3

end

end Cert.KVal

end
-- ==== Proof.KRegion4.lean ====
/-
  A rectify-and-contract stage, block by block, is the stage on the whole array.
  Each of the ten grid points reads rows 5000·t … 5000·t + 4999 of the feature array, the whole slope and the whole
  weight matrix, and writes rows 5000·t … 5000·t + 4999 of the result: entry (p, q) of its block is
  ∑ₖ prelu(h(5000·t + p, k))·w(k, q), which is entry (5000·t + p, q) of the whole-array function. The ten row blocks
  cover all 50000 rows, so the result array ends holding the whole-array function of the arrays the stage reads.
-/
import proofs.«102494_j5102421148167_1_alg».proof.Proof.Gen.KernelIdeal.Frame
import proofs.«102494_j5102421148167_1_alg».proof.Proof.SpecG
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KVal

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, however spelt. -/
theorem zeroOff4 : (![0, 0] : Fin 2 → Nat) = fun _ => 0 := funext fun a => by fin_cases a <;> rfl

/-- One entry of the block product: the contraction over the 128 features of the rectified row against the weight
    column (the operand format changes are the identity on extended reals, the accumulator is zero). -/
theorem plinBlock4_at (x0 : Vec Ideal S5000x128 .f32) (x1 : Vec Ideal S1x1 .f32) (x2 : Vec Ideal S128x64 .f32) (p : Fin 5000) (q : Fin 64) :
    k4_pay1 (F := Ideal) x0 x1 x2 (ix2 p q)
      = ∑ k : Fin 128, Cert.SpecG.prelu (x1 (ix2 (0 : Fin 1) (0 : Fin 1))) (x0 (ix2 p k)) * x2 (ix2 k q) := by
  unfold k4_pay1
  simp only [matmul]
  rw [Ideal.matmul_constant_zero_apply,
    ← Equiv.sum_comp (contrEquiv1 dot_S5000x128_S128x64_S5000x64_1_0_0_1_n_n 128 rfl rfl).symm]
  refine Finset.sum_congr rfl fun k _ => ?_
  have c2 := contrEquiv1_symm_val dot_S5000x128_S128x64_S5000x64_1_0_0_1_n_n 128 rfl rfl k
  have l2 : dot_S5000x128_S128x64_S5000x64_1_0_0_1_n_n.lhsIdx (ix2 p q) ((contrEquiv1 _ 128 rfl rfl).symm k) = ix2 p k := by
    funext ax; apply Fin.ext
    match ax with
    | ⟨0, _⟩ => simp [DotDims.lhsIdx, dot_S5000x128_S128x64_S5000x64_1_0_0_1_n_n]; rfl
    | ⟨1, _⟩ => simp [DotDims.lhsIdx, dot_S5000x128_S128x64_S5000x64_1_0_0_1_n_n]; exact c2
  have r2 : dot_S5000x128_S128x64_S5000x64_1_0_0_1_n_n.rhsIdx (ix2 p q) ((contrEquiv1 _ 128 rfl rfl).symm k) = ix2 k q := by
    funext ax; apply Fin.ext
    match ax with
    | ⟨0, _⟩ => simp [DotDims.rhsIdx, dot_S5000x128_S128x64_S5000x64_1_0_0_1_n_n]; exact c2
    | ⟨1, _⟩ => simp [DotDims.rhsIdx, dot_S5000x128_S128x64_S5000x64_1_0_0_1_n_n]; rfl
  rw [l2, r2]
  simp only [shapeCast_self, truncf_apply, select_apply, cmpf_apply, broadcast_apply, mulf_apply]
  have ex : extractAt ![0, 0] x1 inpos_S1x1_p0_0 = x1 (ix2 (0 : Fin 1) (0 : Fin 1)) :=
    congrArg x1 (funext fun a => Fin.ext (by match a with | ⟨0, _⟩ => rfl | ⟨1, _⟩ => rfl))
  rw [ex]
  rfl

/-- An entry of a block whose rows are rows of the whole arrays is the whole-array stage's entry there. -/
theorem plinBlock4_eq (A0 : Cert.SpecG.Arr2 50000 128) (A1 : Cert.SpecG.Arr2 1 1) (A2 : Cert.SpecG.Arr2 128 64)
    (x0 : Vec Ideal S5000x128 .f32) (x1 : Vec Ideal S1x1 .f32) (x2 : Vec Ideal S128x64 .f32)
    (i : (⟨2, ![50000, 64]⟩ : Shape).Idx) (p : Fin 5000) (q : Fin 64)
    (h0 : ∀ k : Fin 128, x0 (ix2 p k) = A0 (ix2 (i 0 : Fin 50000) k))
    (h1 : x1 (ix2 (0 : Fin 1) (0 : Fin 1)) = A1 (ix2 (0 : Fin 1) (0 : Fin 1)))
    (h2 : ∀ k : Fin 128, x2 (ix2 k q) = A2 (ix2 k (i 1 : Fin 64))) :
    k4_pay1 (F := Ideal) x0 x1 x2 (ix2 p q) = Cert.SpecG.plin A0 A1 A2 i := by
  rw [plinBlock4_at]
  unfold Cert.SpecG.plin
  refine Finset.sum_congr rfl fun k _ => ?_
  rw [h0 k, h1, h2 k]

/-- The printed index maps over the ten points: the feature block and the result block are row block t, the slope and
    the weights are whole. -/
theorem blockIndex4 : ∀ t : Fin cfg4.N,
    win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

section
variable (V : (c : Dev nD) → (b : Ref sig .tc) → Buf (Elt Ideal) ((c : Thread nD τ).loc b))

set_option maxHeartbeats 4000000 in
/-- What point t writes back is row block t of the whole-array stage of the arrays as the region finds them. -/
theorem flushed4_eq (c : Dev nD) (t : Fin cfg4.N) :
    (dat4 (F := Ideal) V c).flushed 3 t = ((cfg4.win 3).blk t).view.read (Elt Ideal)
      (Cert.SpecG.plin (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero zeroOff4]
  simp only [View.ld_unit_zero (S := S5000x128) zeroOff4, View.ld_unit_zero (S := S1x1) zeroOff4, View.ld_unit_zero (S := S128x64) zeroOff4]
  obtain ⟨e0, e1, e2, e3, e4, e5, e6, e7⟩ := blockIndex4 t
  funext j
  obtain ⟨p, q, rfl⟩ : ∃ (p : Fin 5000) (q : Fin 64), j = ix2 p q := ⟨j 0, j 1, eq_ix2 j⟩
  show k4_pay1 (iblk4 V c 0 t) (iblk4 V c 1 t) (iblk4 V c 2 t) (ix2 p q)
    = Cert.SpecG.plin _ _ _ (((cfg4.win 3).blk t).view.emb (ix2 p q))
  refine plinBlock4_eq _ _ _ _ _ _ _ p q (fun k => ?_) ?_ (fun k => ?_)
  · unfold iblk4
    rw [View.read_apply]
    show V c (Pipeline.arrRef spec4 0) _ = V c (Pipeline.arrRef spec4 0) _
    refine congrArg (V c (Pipeline.arrRef spec4 0)) (funext fun a => Fin.ext ?_)
    match a with
    | ⟨0, _⟩ => show win4_0.index t (0 : Fin 2) * 5000 + 1 * p.val = win4_3.index t (0 : Fin 2) * 5000 + 1 * p.val; rw [e0]
    | ⟨1, _⟩ => show win4_0.index t (1 : Fin 2) * 128 + 1 * k.val = k.val; rw [e1]; omega
  · unfold iblk4
    rw [View.read_apply]
    show V c (Pipeline.arrRef spec4 1) _ = V c (Pipeline.arrRef spec4 1) _
    refine congrArg (V c (Pipeline.arrRef spec4 1)) (funext fun a => Fin.ext ?_)
    match a with
    | ⟨0, _⟩ => show win4_1.index t (0 : Fin 2) * 1 + 1 * 0 = 0; rw [e2]
    | ⟨1, _⟩ => show win4_1.index t (1 : Fin 2) * 1 + 1 * 0 = 0; rw [e3]
  · unfold iblk4
    rw [View.read_apply]
    show V c (Pipeline.arrRef spec4 2) _ = V c (Pipeline.arrRef spec4 2) _
    refine congrArg (V c (Pipeline.arrRef spec4 2)) (funext fun a => Fin.ext ?_)
    match a with
    | ⟨0, _⟩ => show win4_2.index t (0 : Fin 2) * 128 + 1 * k.val = k.val; rw [e4]; omega
    | ⟨1, _⟩ => show win4_2.index t (1 : Fin 2) * 64 + 1 * q.val = win4_3.index t (1 : Fin 2) * 64 + 1 * q.val; rw [e5, e7]

/-- An index of the result array is in point t's block iff each coordinate is in the block's range on its axis. -/
theorem mem_block4 (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v148).slice (win4_3.rect t)).set ↔ _
  rw [View.set_slice_whole, Rect.mem_set_unit]
  exact Iff.rfl

/-- Row r of the result is in the block of point r / 5000: the ten blocks cover the array. -/
theorem covered4 (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : grid4.N = 10 := N_4
  have ht : (i 0).val / 5000 < grid4.N := by rw [hN]; omega
  obtain ⟨e0, e1, e2, e3, e4, e5, e6, e7⟩ := blockIndex4 ⟨(i 0).val / 5000, ht⟩
  refine ⟨⟨(i 0).val / 5000, ht⟩, flush4_3 _, ?_⟩
  rw [mem_block4]
  intro a
  match a with
  | ⟨0, _⟩ =>
    show win4_3.index ⟨(i 0).val / 5000, ht⟩ (0 : Fin 2) * 5000 ≤ (i 0).val ∧ (i 0).val < win4_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win4_3.index ⟨(i 0).val / 5000, ht⟩ (1 : Fin 2) * 64 ≤ (i 1).val ∧ (i 1).val < win4_3.index ⟨(i 0).val / 5000, ht⟩ (1 : Fin 2) * 64 + 64
    rw [e7]; omega

/-- After the region the result array is the rectify-and-contract stage of the arrays the region finds. -/
theorem region4 (c : Dev nD) :
    (dat4 (F := Ideal) V c).arrAt 3 cfg4.N
      = Cert.SpecG.plin (V c (Pipeline.arrRef spec4 0)) (V c (Pipeline.arrRef spec4 1)) (V c (Pipeline.arrRef spec4 2)) :=
  (dat4 V c).arrAt_eq_of_cover 3 _ (fun t _ => flushed4_eq V c t) covered4

end

end Cert.KVal

end
-- ==== Proof.KChain3.lean ====
/-
  Block 1 of the kernel program's run, boundary by boundary: the first block's output as one block of the first dense
  layer, the second block's statistics and parameters, its two regions as the reference's stages, the aggregation
  between them.
-/
import proofs.«102494_j5102421148167_1_alg».proof.Proof.Gen.KernelIdeal.Frame
import proofs.«102494_j5102421148167_1_alg».proof.Proof.Gen.ReferenceIdeal
import proofs.«102494_j5102421148167_1_alg».proof.Proof.Spec
import proofs.«102494_j5102421148167_1_alg».proof.Proof.SpecG
import proofs.«102494_j5102421148167_1_alg».proof.Proof.KHostA
import proofs.«102494_j5102421148167_1_alg».proof.Proof.KHost3
import proofs.«102494_j5102421148167_1_alg».proof.Proof.KHost4
import proofs.«102494_j5102421148167_1_alg».proof.Proof.KRegion3
import proofs.«102494_j5102421148167_1_alg».proof.Proof.KRegion4
import proofs.«102494_j5102421148167_1_alg».proof.Proof.Bridge
import proofs.«102494_j5102421148167_1_alg».proof.Proof.KChain1
import proofs.«102494_j5102421148167_1_alg».proof.Proof.KChain2

set_option maxRecDepth 16384

noncomputable section

namespace Cert.KVal

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Block 1 -/

theorem KA15 : KeepsA (W15 m ρ c) (W0 m ρ c) := (g3_keepsA (W10 m ρ c)).trans (KA10 m ρ c)
theorem KG15 : KeepsG (W15 m ρ c) (W1 m ρ c) := (g3_keepsG (W10 m ρ c)).trans (KG10 m ρ c)
/-- The block's output, as the aggregation of the 64-wide rows. -/
theorem hu_15 : W15 m ρ c (Proc.devRef .tc main_v99) = (Cert.Spec.conv64 (Cert.Spec.pdot128 (Cert.Spec.sc0 (W0 m ρ c (Proc.devRef .tc main_arg10))) (Cert.Spec.conv128 (Cert.Spec.bndot64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4)))) (Cert.Spec.mean64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.var64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.v64_0 (W0 m ρ c (Proc.devRef .tc main_arg6))) (Cert.Spec.v64_0 (W0 m ρ c (Proc.devRef .tc main_arg7))) (Cert.Spec.w1_0 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_0 (W0 m ρ c (Proc.devRef .tc main_arg9)))) (Cert.Spec.w2_0 (W0 m ρ c (Proc.devRef .tc main_arg11)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v64_0 (W0 m ρ c (Proc.devRef .tc main_arg12)))) := (g3_h (W10 m ρ c)).trans (by rw [lin2_10 m ρ c, (KG10 m ρ c).g0, (KG10 m ρ c).g1, (KG10 m ρ c).g2, (KG10 m ρ c).g3, src1 m ρ c, dst1 m ρ c, norm1 m ρ c, self1 m ρ c, (KA10 m ρ c).a12])
/-- The same, as one block of its input. -/
theorem h_15 : W15 m ρ c (Proc.devRef .tc main_v99) = (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) := (hu_15 m ρ c).trans rfl
/-- What the stretch's own activations expression reads as. -/
theorem hx_15 : Cert.Spec.conv64 (W10 m ρ c (Proc.devRef .tc main_v79)) (W10 m ρ c (Proc.devRef .tc main_v1)) (W10 m ρ c (Proc.devRef .tc main_v3)) (W10 m ρ c (Proc.devRef .tc main_v26)) (W10 m ρ c (Proc.devRef .tc main_v28)) (Cert.Spec.v64_0 (W10 m ρ c (Proc.devRef .tc main_arg12))) = (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) :=
  ((by rw [lin2_10 m ρ c, (KG10 m ρ c).g0, (KG10 m ρ c).g1, (KG10 m ρ c).g2, (KG10 m ρ c).g3, src1 m ρ c, dst1 m ρ c, norm1 m ρ c, self1 m ρ c, (KA10 m ρ c).a12]) : _ = (Cert.Spec.conv64 (Cert.Spec.pdot128 (Cert.Spec.sc0 (W0 m ρ c (Proc.devRef .tc main_arg10))) (Cert.Spec.conv128 (Cert.Spec.bndot64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4)))) (Cert.Spec.mean64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.var64 (Cert.Spec.prelu64 (Cert.Spec.sc0 (W0 m ρ c (Proc.devRef .tc main_arg5))) (Cert.Spec.lin0 (W0 m ρ c (Proc.devRef .tc main_arg0)) (W0 m ρ c (Proc.devRef .tc main_arg3)) (W0 m ρ c (Proc.devRef .tc main_arg4))))) (Cert.Spec.v64_0 (W0 m ρ c (Proc.devRef .tc main_arg6))) (Cert.Spec.v64_0 (W0 m ρ c (Proc.devRef .tc main_arg7))) (Cert.Spec.w1_0 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_0 (W0 m ρ c (Proc.devRef .tc main_arg9)))) (Cert.Spec.w2_0 (W0 m ρ c (Proc.devRef .tc main_arg11)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v64_0 (W0 m ρ c (Proc.devRef .tc main_arg12))))).trans rfl

theorem w_15 : W15 m ρ c (Proc.devRef .tc main_v116) = (Cert.Spec.w1_1 (W0 m ρ c (Proc.devRef .tc main_arg8))) := (g3_w (W10 m ρ c)).trans (by rw [(KA10 m ρ c).a8])
theorem slope_15 : W15 m ρ c (Proc.devRef .tc main_v117) = (shapeCast S1x1 (Cert.Spec.sc1 (W0 m ρ c (Proc.devRef .tc main_arg5))) (by decide)) := (g3_slope (W10 m ρ c)).trans (by rw [(KA10 m ρ c).a5])
theorem mean_15 : W15 m ρ c (Proc.devRef .tc main_v118) = (shapeCast S1x64 (Cert.Spec.mean64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (by decide)) := (g3_mean (W10 m ρ c)).trans ((by rw [(KA10 m ρ c).a5, hx_15 m ρ c]) : _ = _)
theorem var_15 : W15 m ρ c (Proc.devRef .tc main_v119) = (shapeCast S1x64 (Cert.Spec.var64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (by decide)) := (g3_var (W10 m ρ c)).trans ((by rw [(KA10 m ρ c).a5, hx_15 m ρ c]) : _ = _)
theorem gamma_15 : W15 m ρ c (Proc.devRef .tc main_v120) = (shapeCast S1x64 (Cert.Spec.v64_1 (W0 m ρ c (Proc.devRef .tc main_arg6))) (by decide)) := (g3_gamma (W10 m ρ c)).trans (by rw [(KA10 m ρ c).a6])
theorem beta_15 : W15 m ρ c (Proc.devRef .tc main_v121) = (shapeCast S1x64 (Cert.Spec.v64_1 (W0 m ρ c (Proc.devRef .tc main_arg7))) (by decide)) := (g3_beta (W10 m ρ c)).trans (by rw [(KA10 m ρ c).a7])

/-- Region 3 writes only its output array: the argument arrays stay. -/
theorem KA16s : KeepsA (W16 m ρ c) (W15 m ρ c) := by
  unfold KeepsA
  exact ⟨W16_of_ne m ρ c main_arg0 (by decide), W16_of_ne m ρ c main_arg1 (by decide), W16_of_ne m ρ c main_arg2 (by decide), W16_of_ne m ρ c main_arg3 (by decide), W16_of_ne m ρ c main_arg4 (by decide), W16_of_ne m ρ c main_arg5 (by decide), W16_of_ne m ρ c main_arg6 (by decide), W16_of_ne m ρ c main_arg7 (by decide), W16_of_ne m ρ c main_arg8 (by decide), W16_of_ne m ρ c main_arg9 (by decide), W16_of_ne m ρ c main_arg10 (by decide), W16_of_ne m ρ c main_arg11 (by decide), W16_of_ne m ρ c main_arg12 (by decide), W16_of_ne m ρ c main_arg13 (by decide), W16_of_ne m ρ c main_arg14 (by decide), W16_of_ne m ρ c main_arg15 (by decide), W16_of_ne m ρ c main_arg16 (by decide), W16_of_ne m ρ c main_arg17 (by decide), W16_of_ne m ρ c main_arg18 (by decide), W16_of_ne m ρ c main_arg19 (by decide)⟩
/-- And the graph-structure buffers stay. -/
theorem KG16s : KeepsG (W16 m ρ c) (W15 m ρ c) := by
  unfold KeepsG
  exact ⟨W16_of_ne m ρ c main_v1 (by decide), W16_of_ne m ρ c main_v3 (by decide), W16_of_ne m ρ c main_v26 (by decide), W16_of_ne m ρ c main_v28 (by decide)⟩

theorem KA16 : KeepsA (W16 m ρ c) (W0 m ρ c) := (KA16s m ρ c).trans (KA15 m ρ c)
theorem KG16 : KeepsG (W16 m ρ c) (W1 m ρ c) := (KG16s m ρ c).trans (KG15 m ρ c)

/-- Region 3: rectify, normalise, contract — the reference's stage of the same inputs. -/
theorem lin1_16 : W16 m ρ c (Proc.devRef .tc main_v122) = (Cert.Spec.bndot64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12))))) (Cert.Spec.mean64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.var64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.v64_1 (W0 m ρ c (Proc.devRef .tc main_arg6))) (Cert.Spec.v64_1 (W0 m ρ c (Proc.devRef .tc main_arg7))) (Cert.Spec.w1_1 (W0 m ρ c (Proc.devRef .tc main_arg8)))) :=
  calc W16 m ρ c (Proc.devRef .tc main_v122) = (dat3 (V15 m ρ) c).arrAt 7 cfg3.N := W16_arr m ρ c 7
    _ = Cert.SpecG.bnlin (W15 m ρ c (Proc.devRef .tc main_v99)) (W15 m ρ c (Proc.devRef .tc main_v117)) (W15 m ρ c (Proc.devRef .tc main_v118)) (W15 m ρ c (Proc.devRef .tc main_v119)) (W15 m ρ c (Proc.devRef .tc main_v120)) (W15 m ρ c (Proc.devRef .tc main_v121)) (W15 m ρ c (Proc.devRef .tc main_v116)) := region3 (V15 m ρ) c
    _ = Cert.SpecG.bnlin (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (shapeCast S1x1 (Cert.Spec.sc1 (W0 m ρ c (Proc.devRef .tc main_arg5))) (by decide)) (shapeCast S1x64 (Cert.Spec.mean64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (by decide)) (shapeCast S1x64 (Cert.Spec.var64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (by decide)) (shapeCast S1x64 (Cert.Spec.v64_1 (W0 m ρ c (Proc.devRef .tc main_arg6))) (by decide)) (shapeCast S1x64 (Cert.Spec.v64_1 (W0 m ρ c (Proc.devRef .tc main_arg7))) (by decide)) (Cert.Spec.w1_1 (W0 m ρ c (Proc.devRef .tc main_arg8))) := by
        rw [h_15 m ρ c, slope_15 m ρ c, mean_15 m ρ c, var_15 m ρ c, gamma_15 m ρ c, beta_15 m ρ c, w_15 m ρ c]
    _ = (Cert.Spec.bndot64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12))))) (Cert.Spec.mean64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.var64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.v64_1 (W0 m ρ c (Proc.devRef .tc main_arg6))) (Cert.Spec.v64_1 (W0 m ρ c (Proc.devRef .tc main_arg7))) (Cert.Spec.w1_1 (W0 m ρ c (Proc.devRef .tc main_arg8)))) := Cert.Bridge.bnlin_bridge _ _ _ _ _ _ _ _ _

theorem KA17 : KeepsA (W17 m ρ c) (W0 m ρ c) := (g4_keepsA (W16 m ρ c)).trans (KA16 m ρ c)
theorem KG17 : KeepsG (W17 m ρ c) (W1 m ρ c) := (g4_keepsG (W16 m ρ c)).trans (KG16 m ρ c)
/-- The aggregation of the 128-wide rows. -/
theorem hh_17 : W17 m ρ c (Proc.devRef .tc main_v142) = (Cert.Spec.conv128 (Cert.Spec.bndot64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12))))) (Cert.Spec.mean64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.var64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.v64_1 (W0 m ρ c (Proc.devRef .tc main_arg6))) (Cert.Spec.v64_1 (W0 m ρ c (Proc.devRef .tc main_arg7))) (Cert.Spec.w1_1 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_1 (W0 m ρ c (Proc.devRef .tc main_arg9)))) := (g4_h (W16 m ρ c)).trans (by rw [lin1_16 m ρ c, (KG16 m ρ c).g0, (KG16 m ρ c).g1, (KG16 m ρ c).g2, (KG16 m ρ c).g3, src1 m ρ c, dst1 m ρ c, norm1 m ρ c, self1 m ρ c, (KA16 m ρ c).a9])
theorem w2_17 : W17 m ρ c (Proc.devRef .tc main_v146) = (Cert.Spec.w2_1 (W0 m ρ c (Proc.devRef .tc main_arg11))) := (g4_w (W16 m ρ c)).trans (by rw [(KA16 m ρ c).a11])
theorem slope2_17 : W17 m ρ c (Proc.devRef .tc main_v147) = (shapeCast S1x1 (Cert.Spec.sc1 (W0 m ρ c (Proc.devRef .tc main_arg10))) (by decide)) := (g4_slope (W16 m ρ c)).trans (by rw [(KA16 m ρ c).a10])

/-- Region 4 writes only its output array: the argument arrays stay. -/
theorem KA18s : KeepsA (W18 m ρ c) (W17 m ρ c) := by
  unfold KeepsA
  exact ⟨W18_of_ne m ρ c main_arg0 (by decide), W18_of_ne m ρ c main_arg1 (by decide), W18_of_ne m ρ c main_arg2 (by decide), W18_of_ne m ρ c main_arg3 (by decide), W18_of_ne m ρ c main_arg4 (by decide), W18_of_ne m ρ c main_arg5 (by decide), W18_of_ne m ρ c main_arg6 (by decide), W18_of_ne m ρ c main_arg7 (by decide), W18_of_ne m ρ c main_arg8 (by decide), W18_of_ne m ρ c main_arg9 (by decide), W18_of_ne m ρ c main_arg10 (by decide), W18_of_ne m ρ c main_arg11 (by decide), W18_of_ne m ρ c main_arg12 (by decide), W18_of_ne m ρ c main_arg13 (by decide), W18_of_ne m ρ c main_arg14 (by decide), W18_of_ne m ρ c main_arg15 (by decide), W18_of_ne m ρ c main_arg16 (by decide), W18_of_ne m ρ c main_arg17 (by decide), W18_of_ne m ρ c main_arg18 (by decide), W18_of_ne m ρ c main_arg19 (by decide)⟩
/-- And the graph-structure buffers stay. -/
theorem KG18s : KeepsG (W18 m ρ c) (W17 m ρ c) := by
  unfold KeepsG
  exact ⟨W18_of_ne m ρ c main_v1 (by decide), W18_of_ne m ρ c main_v3 (by decide), W18_of_ne m ρ c main_v26 (by decide), W18_of_ne m ρ c main_v28 (by decide)⟩

theorem KA18 : KeepsA (W18 m ρ c) (W0 m ρ c) := (KA18s m ρ c).trans (KA17 m ρ c)
theorem KG18 : KeepsG (W18 m ρ c) (W1 m ρ c) := (KG18s m ρ c).trans (KG17 m ρ c)

/-- Region 4: rectify, contract — the reference's stage of the same inputs. -/
theorem lin2_18 : W18 m ρ c (Proc.devRef .tc main_v148) = (Cert.Spec.pdot128 (Cert.Spec.sc1 (W0 m ρ c (Proc.devRef .tc main_arg10))) (Cert.Spec.conv128 (Cert.Spec.bndot64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12))))) (Cert.Spec.mean64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.var64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.v64_1 (W0 m ρ c (Proc.devRef .tc main_arg6))) (Cert.Spec.v64_1 (W0 m ρ c (Proc.devRef .tc main_arg7))) (Cert.Spec.w1_1 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_1 (W0 m ρ c (Proc.devRef .tc main_arg9)))) (Cert.Spec.w2_1 (W0 m ρ c (Proc.devRef .tc main_arg11)))) :=
  calc W18 m ρ c (Proc.devRef .tc main_v148) = (dat4 (V17 m ρ) c).arrAt 3 cfg4.N := W18_arr m ρ c 3
    _ = Cert.SpecG.plin (W17 m ρ c (Proc.devRef .tc main_v142)) (W17 m ρ c (Proc.devRef .tc main_v147)) (W17 m ρ c (Proc.devRef .tc main_v146)) := region4 (V17 m ρ) c
    _ = Cert.SpecG.plin (Cert.Spec.conv128 (Cert.Spec.bndot64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12))))) (Cert.Spec.mean64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.var64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.v64_1 (W0 m ρ c (Proc.devRef .tc main_arg6))) (Cert.Spec.v64_1 (W0 m ρ c (Proc.devRef .tc main_arg7))) (Cert.Spec.w1_1 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_1 (W0 m ρ c (Proc.devRef .tc main_arg9)))) (shapeCast S1x1 (Cert.Spec.sc1 (W0 m ρ c (Proc.devRef .tc main_arg10))) (by decide)) (Cert.Spec.w2_1 (W0 m ρ c (Proc.devRef .tc main_arg11))) := by
        rw [hh_17 m ρ c, slope2_17 m ρ c, w2_17 m ρ c]
    _ = (Cert.Spec.pdot128 (Cert.Spec.sc1 (W0 m ρ c (Proc.devRef .tc main_arg10))) (Cert.Spec.conv128 (Cert.Spec.bndot64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12))))) (Cert.Spec.mean64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.var64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.v64_1 (W0 m ρ c (Proc.devRef .tc main_arg6))) (Cert.Spec.v64_1 (W0 m ρ c (Proc.devRef .tc main_arg7))) (Cert.Spec.w1_1 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_1 (W0 m ρ c (Proc.devRef .tc main_arg9)))) (Cert.Spec.w2_1 (W0 m ρ c (Proc.devRef .tc main_arg11)))) := Cert.Bridge.plin_bridge _ _ _ _

end Cert.KVal

end
-- ==== Proof.KHost5.lean ====
/-
  The stretch after the second block's second stage, from any contents: the transformed 64-wide rows aggregated over the
  edges with the self loops and the bias — the block's output — and, of that output rectified with the third block's
  slope, the mean and the variance over the nodes, with the third block's parameters as rows.
-/
import proofs.«102494_j5102421148167_1_alg».proof.Proof.Gen.KernelIdeal.Frame
import proofs.«102494_j5102421148167_1_alg».proof.Proof.Gen.ReferenceIdeal
import proofs.«102494_j5102421148167_1_alg».proof.Proof.Spec
import proofs.«102494_j5102421148167_1_alg».proof.Proof.KHostA
set_option maxRecDepth 16384

noncomputable section

namespace Cert.KVal

open Cert.KernelIdeal Cert.KernelIdeal.Gen
open Idealize.ShloMosaic Idealize.ShloMosaic.TcCoe Idealize.SL.Sem Idealize.ShloMosaic.StableHlo

variable {F : FTy → Type} [FloatOps F] [Cert.KernelIdeal.Facts] [Cert.ReferenceIdeal.Facts]

/-- The block's output: the aggregated 64-wide rows with the bias. -/
theorem g5_h (W : Valuation τ sig (Elt F)) : G5 W (Proc.devRef .tc main_v168) = Cert.Spec.conv64 (W (Proc.devRef .tc main_v148)) (W (Proc.devRef .tc main_v1)) (W (Proc.devRef .tc main_v3)) (W (Proc.devRef .tc main_v26)) (W (Proc.devRef .tc main_v28)) (Cert.Spec.v64_1 (W (Proc.devRef .tc main_arg12))) := by
  unfold G5; after_results_simp <;> rfl

/-- The block's first weight matrix. -/
theorem g5_w (W : Valuation τ sig (Elt F)) : G5 W (Proc.devRef .tc main_v185) = Cert.Spec.w1_2 (W (Proc.devRef .tc main_arg8)) := by
  unfold G5; after_results_simp <;> rfl

/-- The first rectifier's slope as a [1, 1] array. -/
theorem g5_slope (W : Valuation τ sig (Elt F)) : G5 W (Proc.devRef .tc main_v186) = shapeCast S1x1 (Cert.Spec.sc2 (W (Proc.devRef .tc main_arg5))) (by decide) := by
  unfold G5; after_results_simp <;> rfl

/-- The mean of the rectified activations over the nodes, as a row. -/
theorem g5_mean (W : Valuation τ sig (Elt F)) : G5 W (Proc.devRef .tc main_v187) = shapeCast S1x64 (Cert.Spec.mean64 (Cert.Spec.prelu64 (Cert.Spec.sc2 (W (Proc.devRef .tc main_arg5))) (Cert.Spec.conv64 (W (Proc.devRef .tc main_v148)) (W (Proc.devRef .tc main_v1)) (W (Proc.devRef .tc main_v3)) (W (Proc.devRef .tc main_v26)) (W (Proc.devRef .tc main_v28)) (Cert.Spec.v64_1 (W (Proc.devRef .tc main_arg12)))))) (by decide) := by
  unfold G5; after_results_simp <;> rfl

/-- Their variance over the nodes, as a row. -/
theorem g5_var (W : Valuation τ sig (Elt F)) : G5 W (Proc.devRef .tc main_v188) = shapeCast S1x64 (Cert.Spec.var64 (Cert.Spec.prelu64 (Cert.Spec.sc2 (W (Proc.devRef .tc main_arg5))) (Cert.Spec.conv64 (W (Proc.devRef .tc main_v148)) (W (Proc.devRef .tc main_v1)) (W (Proc.devRef .tc main_v3)) (W (Proc.devRef .tc main_v26)) (W (Proc.devRef .tc main_v28)) (Cert.Spec.v64_1 (W (Proc.devRef .tc main_arg12)))))) (by decide) := by
  unfold G5; after_results_simp <;> rfl

/-- The normalisation's scale as a row. -/
theorem g5_gamma (W : Valuation τ sig (Elt F)) : G5 W (Proc.devRef .tc main_v189) = shapeCast S1x64 (Cert.Spec.v64_2 (W (Proc.devRef .tc main_arg6))) (by decide) := by
  unfold G5; after_results_simp <;> rfl

/-- The normalisation's shift as a row. -/
theorem g5_beta (W : Valuation τ sig (Elt F)) : G5 W (Proc.devRef .tc main_v190) = shapeCast S1x64 (Cert.Spec.v64_2 (W (Proc.devRef .tc main_arg7))) (by decide) := by
  unfold G5; after_results_simp <;> rfl

set_option maxHeartbeats 16000000 in
/-- The stretch writes none of the argument arrays. -/
theorem g5_keepsA (W : Valuation τ sig (Elt F)) : KeepsA (G5 W) W := by
  unfold KeepsA G5
  refine ⟨?_, ?_, ?_, ?_, ?_, ?_, ?_, ?_, ?_, ?_, ?_, ?_, ?_, ?_, ?_, ?_, ?_, ?_, ?_, ?_⟩ <;> (after_results_simp <;> rfl)

set_option maxHeartbeats 16000000 in
/-- The stretch writes none of the graph-structure buffers. -/
theorem g5_keepsG (W : Valuation τ sig (Elt F)) : KeepsG (G5 W) W := by
  unfold KeepsG G5
  refine ⟨?_, ?_, ?_, ?_⟩ <;> (after_results_simp <;> rfl)

end Cert.KVal

end
-- ==== Proof.KHost6.lean ====
/-
  The stretch after the third block's normalising stage, from any contents: the transformed 128-wide rows aggregated
  over the edges with the self loops and the bias, and the second stage's slope and weight matrix.
-/
import proofs.«102494_j5102421148167_1_alg».proof.Proof.Gen.KernelIdeal.Frame
import proofs.«102494_j5102421148167_1_alg».proof.Proof.Gen.ReferenceIdeal
import proofs.«102494_j5102421148167_1_alg».proof.Proof.Spec
import proofs.«102494_j5102421148167_1_alg».proof.Proof.KHostA
set_option maxRecDepth 16384

noncomputable section

namespace Cert.KVal

open Cert.KernelIdeal Cert.KernelIdeal.Gen
open Idealize.ShloMosaic Idealize.ShloMosaic.TcCoe Idealize.SL.Sem Idealize.ShloMosaic.StableHlo

variable {F : FTy → Type} [FloatOps F] [Cert.KernelIdeal.Facts] [Cert.ReferenceIdeal.Facts]

/-- The aggregated 128-wide rows with the bias. -/
theorem g6_h (W : Valuation τ sig (Elt F)) : G6 W (Proc.devRef .tc main_v211) = Cert.Spec.conv128 (W (Proc.devRef .tc main_v191)) (W (Proc.devRef .tc main_v1)) (W (Proc.devRef .tc main_v3)) (W (Proc.devRef .tc main_v26)) (W (Proc.devRef .tc main_v28)) (Cert.Spec.v128_2 (W (Proc.devRef .tc main_arg9))) := by
  unfold G6; after_results_simp <;> rfl

/-- The block's second weight matrix. -/
theorem g6_w (W : Valuation τ sig (Elt F)) : G6 W (Proc.devRef .tc main_v215) = Cert.Spec.w2_2 (W (Proc.devRef .tc main_arg11)) := by
  unfold G6; after_results_simp <;> rfl

/-- The second rectifier's slope as a [1, 1] array. -/
theorem g6_slope (W : Valuation τ sig (Elt F)) : G6 W (Proc.devRef .tc main_v216) = shapeCast S1x1 (Cert.Spec.sc2 (W (Proc.devRef .tc main_arg10))) (by decide) := by
  unfold G6; after_results_simp <;> rfl

set_option maxHeartbeats 16000000 in
/-- The stretch writes none of the argument arrays. -/
theorem g6_keepsA (W : Valuation τ sig (Elt F)) : KeepsA (G6 W) W := by
  unfold KeepsA G6
  refine ⟨?_, ?_, ?_, ?_, ?_, ?_, ?_, ?_, ?_, ?_, ?_, ?_, ?_, ?_, ?_, ?_, ?_, ?_, ?_, ?_⟩ <;> (after_results_simp <;> rfl)

set_option maxHeartbeats 16000000 in
/-- The stretch writes none of the graph-structure buffers. -/
theorem g6_keepsG (W : Valuation τ sig (Elt F)) : KeepsG (G6 W) W := by
  unfold KeepsG G6
  refine ⟨?_, ?_, ?_, ?_⟩ <;> (after_results_simp <;> rfl)

end Cert.KVal

end
-- ==== Proof.KRegion5.lean ====
/-
  A rectify, normalise and contract stage, block by block, is the stage on the whole array.
  Each of the ten grid points reads rows 5000·t … 5000·t + 4999 of the feature array, the whole slope, the whole
  per-feature rows (mean, variance, scale, shift) and the whole weight matrix, and writes rows 5000·t … 5000·t + 4999
  of the result: entry (p, q) of its block is ∑ₖ bn(h(5000·t + p, k))·w(k, q), where bn rectifies the entry, centres it
  by the feature's mean, scales it by the reciprocal square root of the feature's variance plus a small constant, and
  applies the feature's scale and shift; this is entry (5000·t + p, q) of the whole-array function. The ten row blocks
  cover all 50000 rows, so the result array ends holding the whole-array function of the arrays the stage reads.
-/
import proofs.«102494_j5102421148167_1_alg».proof.Proof.Gen.KernelIdeal.Frame
import proofs.«102494_j5102421148167_1_alg».proof.Proof.SpecG
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KVal

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, however spelt. -/
theorem zeroOff5 : (![0, 0] : Fin 2 → Nat) = fun _ => 0 := funext fun a => by fin_cases a <;> rfl

/-- One entry of the block product: the contraction over the 64 features of the rectified, normalised row against the
    weight column (the operand format changes are the identity on extended reals, the accumulator is zero). -/
theorem bnlinBlock5_at (x0 : Vec Ideal S5000x64 .f32) (x1 : Vec Ideal S1x1 .f32) (x2 x3 x4 x5 : Vec Ideal S1x64 .f32)
    (x6 : Vec Ideal S64x128 .f32) (p : Fin 5000) (q : Fin 128) :
    k5_pay1 (F := Ideal) x0 x1 x2 x3 x4 x5 x6 (ix2 p q)
      = ∑ k : Fin 64, Cert.SpecG.bn (x1 (ix2 (0 : Fin 1) (0 : Fin 1))) (x0 (ix2 p k)) (x2 (ix2 (0 : Fin 1) k)) (x3 (ix2 (0 : Fin 1) k))
          (x4 (ix2 (0 : Fin 1) k)) (x5 (ix2 (0 : Fin 1) k)) * x6 (ix2 k q) := by
  unfold k5_pay1
  simp only [matmul]
  rw [Ideal.matmul_constant_zero_apply,
    ← Equiv.sum_comp (contrEquiv1 dot_S5000x64_S64x128_S5000x128_1_0_0_1_n_n 64 rfl rfl).symm]
  refine Finset.sum_congr rfl fun k _ => ?_
  have c2 := contrEquiv1_symm_val dot_S5000x64_S64x128_S5000x128_1_0_0_1_n_n 64 rfl rfl k
  have l2 : dot_S5000x64_S64x128_S5000x128_1_0_0_1_n_n.lhsIdx (ix2 p q) ((contrEquiv1 _ 64 rfl rfl).symm k) = ix2 p k := by
    funext ax; apply Fin.ext
    match ax with
    | ⟨0, _⟩ => simp [DotDims.lhsIdx, dot_S5000x64_S64x128_S5000x128_1_0_0_1_n_n]; rfl
    | ⟨1, _⟩ => simp [DotDims.lhsIdx, dot_S5000x64_S64x128_S5000x128_1_0_0_1_n_n]; exact c2
  have r2 : dot_S5000x64_S64x128_S5000x128_1_0_0_1_n_n.rhsIdx (ix2 p q) ((contrEquiv1 _ 64 rfl rfl).symm k) = ix2 k q := by
    funext ax; apply Fin.ext
    match ax with
    | ⟨0, _⟩ => simp [DotDims.rhsIdx, dot_S5000x64_S64x128_S5000x128_1_0_0_1_n_n]; exact c2
    | ⟨1, _⟩ => simp [DotDims.rhsIdx, dot_S5000x64_S64x128_S5000x128_1_0_0_1_n_n]; rfl
  rw [l2, r2]
  simp only [shapeCast_self, truncf_apply, addf_apply, mulf_apply, subf_apply, select_apply, cmpf_apply, broadcast_apply,
    broadcastTo_1b_ab_apply]
  have ex : extractAt ![0, 0] x1 inpos_S1x1_p0_0 = x1 (ix2 (0 : Fin 1) (0 : Fin 1)) :=
    congrArg x1 (funext fun a => Fin.ext (by match a with | ⟨0, _⟩ => rfl | ⟨1, _⟩ => rfl))
  rw [ex]
  rfl

/-- An entry of a block whose rows are rows of the whole arrays is the whole-array stage's entry there. -/
theorem bnlinBlock5_eq (A0 : Cert.SpecG.Arr2 50000 64) (A1 : Cert.SpecG.Arr2 1 1) (A2 A3 A4 A5 : Cert.SpecG.Arr2 1 64)
    (A6 : Cert.SpecG.Arr2 64 128)
    (x0 : Vec Ideal S5000x64 .f32) (x1 : Vec Ideal S1x1 .f32) (x2 x3 x4 x5 : Vec Ideal S1x64 .f32) (x6 : Vec Ideal S64x128 .f32)
    (i : (⟨2, ![50000, 128]⟩ : Shape).Idx) (p : Fin 5000) (q : Fin 128)
    (h0 : ∀ k : Fin 64, x0 (ix2 p k) = A0 (ix2 (i 0 : Fin 50000) k))
    (h1 : x1 (ix2 (0 : Fin 1) (0 : Fin 1)) = A1 (ix2 (0 : Fin 1) (0 : Fin 1)))
    (h2 : ∀ k : Fin 64, x2 (ix2 (0 : Fin 1) k) = A2 (ix2 (0 : Fin 1) k))
    (h3 : ∀ k : Fin 64, x3 (ix2 (0 : Fin 1) k) = A3 (ix2 (0 : Fin 1) k))
    (h4 : ∀ k : Fin 64, x4 (ix2 (0 : Fin 1) k) = A4 (ix2 (0 : Fin 1) k))
    (h5 : ∀ k : Fin 64, x5 (ix2 (0 : Fin 1) k) = A5 (ix2 (0 : Fin 1) k))
    (h6 : ∀ k : Fin 64, x6 (ix2 k q) = A6 (ix2 k (i 1 : Fin 128))) :
    k5_pay1 (F := Ideal) x0 x1 x2 x3 x4 x5 x6 (ix2 p q) = Cert.SpecG.bnlin A0 A1 A2 A3 A4 A5 A6 i := by
  rw [bnlinBlock5_at]
  unfold Cert.SpecG.bnlin
  refine Finset.sum_congr rfl fun k _ => ?_
  rw [h0 k, h1, h2 k, h3 k, h4 k, h5 k, h6 k]

/-- The printed index maps over the ten points: the feature block and the result block are row block t, the slope, the
    per-feature rows and the weights are whole. -/
theorem blockIndex5 : ∀ t : Fin cfg5.N,
    win5_0.index t (0 : Fin 2) = win5_7.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

section
variable (V : (c : Dev nD) → (b : Ref sig .tc) → Buf (Elt Ideal) ((c : Thread nD τ).loc b))

set_option maxHeartbeats 4000000 in
/-- What point t writes back is row block t of the whole-array stage of the arrays as the region finds them. -/
theorem flushed5_eq (c : Dev nD) (t : Fin cfg5.N) :
    (dat5 (F := Ideal) V c).flushed 7 t = ((cfg5.win 7).blk t).view.read (Elt Ideal)
      (Cert.SpecG.bnlin (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))
        (V c (Pipeline.arrRef spec5 6))) := by
  show (cfg5.win 7).cut (grid5.coords t) ((dat5 V c).after 7 t) = _
  rw [after5_7]
  unfold out5_7
  rw [View.canon_unit_zero zeroOff5]
  simp only [View.ld_unit_zero (S := S5000x64) zeroOff5, View.ld_unit_zero (S := S1x1) zeroOff5, View.ld_unit_zero (S := S1x64) zeroOff5,
    View.ld_unit_zero (S := S64x128) zeroOff5]
  obtain ⟨e0, e1, e2, e3, f20, f21, f30, f31, f40, f41, f50, f51, e12, e13, e14, e15⟩ := blockIndex5 t
  funext j
  obtain ⟨p, q, rfl⟩ : ∃ (p : Fin 5000) (q : Fin 128), j = ix2 p q := ⟨j 0, j 1, eq_ix2 j⟩
  show k5_pay1 (iblk5 V c 0 t) (iblk5 V c 1 t) (iblk5 V c 2 t) (iblk5 V c 3 t) (iblk5 V c 4 t) (iblk5 V c 5 t) (iblk5 V c 6 t) (ix2 p q)
    = Cert.SpecG.bnlin _ _ _ _ _ _ _ (((cfg5.win 7).blk t).view.emb (ix2 p q))
  refine bnlinBlock5_eq _ _ _ _ _ _ _ _ _ _ _ _ _ _ _ p q (fun k => ?_) ?_ (fun k => ?_) (fun k => ?_) (fun k => ?_) (fun k => ?_) (fun k => ?_)
  · unfold iblk5
    rw [View.read_apply]
    show V c (Pipeline.arrRef spec5 0) _ = V c (Pipeline.arrRef spec5 0) _
    refine congrArg (V c (Pipeline.arrRef spec5 0)) (funext fun a => Fin.ext ?_)
    match a with
    | ⟨0, _⟩ => show win5_0.index t (0 : Fin 2) * 5000 + 1 * p.val = win5_7.index t (0 : Fin 2) * 5000 + 1 * p.val; rw [e0]
    | ⟨1, _⟩ => show win5_0.index t (1 : Fin 2) * 64 + 1 * k.val = k.val; rw [e1]; omega
  · unfold iblk5
    rw [View.read_apply]
    show V c (Pipeline.arrRef spec5 1) _ = V c (Pipeline.arrRef spec5 1) _
    refine congrArg (V c (Pipeline.arrRef spec5 1)) (funext fun a => Fin.ext ?_)
    match a with
    | ⟨0, _⟩ => show win5_1.index t (0 : Fin 2) * 1 + 1 * 0 = 0; rw [e2]
    | ⟨1, _⟩ => show win5_1.index t (1 : Fin 2) * 1 + 1 * 0 = 0; rw [e3]
  · unfold iblk5
    rw [View.read_apply]
    show V c (Pipeline.arrRef spec5 2) _ = V c (Pipeline.arrRef spec5 2) _
    refine congrArg (V c (Pipeline.arrRef spec5 2)) (funext fun a => Fin.ext ?_)
    match a with
    | ⟨0, _⟩ => show win5_2.index t (0 : Fin 2) * 1 + 1 * 0 = 0; rw [f20]
    | ⟨1, _⟩ => show win5_2.index t (1 : Fin 2) * 64 + 1 * k.val = k.val; rw [f21]; omega
  · unfold iblk5
    rw [View.read_apply]
    show V c (Pipeline.arrRef spec5 3) _ = V c (Pipeline.arrRef spec5 3) _
    refine congrArg (V c (Pipeline.arrRef spec5 3)) (funext fun a => Fin.ext ?_)
    match a with
    | ⟨0, _⟩ => show win5_3.index t (0 : Fin 2) * 1 + 1 * 0 = 0; rw [f30]
    | ⟨1, _⟩ => show win5_3.index t (1 : Fin 2) * 64 + 1 * k.val = k.val; rw [f31]; omega
  · unfold iblk5
    rw [View.read_apply]
    show V c (Pipeline.arrRef spec5 4) _ = V c (Pipeline.arrRef spec5 4) _
    refine congrArg (V c (Pipeline.arrRef spec5 4)) (funext fun a => Fin.ext ?_)
    match a with
    | ⟨0, _⟩ => show win5_4.index t (0 : Fin 2) * 1 + 1 * 0 = 0; rw [f40]
    | ⟨1, _⟩ => show win5_4.index t (1 : Fin 2) * 64 + 1 * k.val = k.val; rw [f41]; omega
  · unfold iblk5
    rw [View.read_apply]
    show V c (Pipeline.arrRef spec5 5) _ = V c (Pipeline.arrRef spec5 5) _
    refine congrArg (V c (Pipeline.arrRef spec5 5)) (funext fun a => Fin.ext ?_)
    match a with
    | ⟨0, _⟩ => show win5_5.index t (0 : Fin 2) * 1 + 1 * 0 = 0; rw [f50]
    | ⟨1, _⟩ => show win5_5.index t (1 : Fin 2) * 64 + 1 * k.val = k.val; rw [f51]; omega
  · unfold iblk5
    rw [View.read_apply]
    show V c (Pipeline.arrRef spec5 6) _ = V c (Pipeline.arrRef spec5 6) _
    refine congrArg (V c (Pipeline.arrRef spec5 6)) (funext fun a => Fin.ext ?_)
    match a with
    | ⟨0, _⟩ => show win5_6.index t (0 : Fin 2) * 64 + 1 * k.val = k.val; rw [e12]; omega
    | ⟨1, _⟩ => show win5_6.index t (1 : Fin 2) * 128 + 1 * q.val = win5_7.index t (1 : Fin 2) * 128 + 1 * q.val; rw [e13, e15]

/-- An index of the result array is in point t's block iff each coordinate is in the block's range on its axis. -/
theorem mem_block5 (t : Fin cfg5.N) (i : S50000x128.Idx) :
    i ∈ ((cfg5.win 7).blk t).view.set ↔ ∀ a : Fin 2, win5_7.index t a * S5000x128.size a ≤ (i a).val ∧ (i a).val < win5_7.index t a * S5000x128.size a + S5000x128.size a := by
  show i ∈ ((View.whole main_v191).slice (win5_7.rect t)).set ↔ _
  rw [View.set_slice_whole, Rect.mem_set_unit]
  exact Iff.rfl

/-- Row r of the result is in the block of point r / 5000: the ten blocks cover the array. -/
theorem covered5 (i : S50000x128.Idx) :
    ∃ t : Fin cfg5.N, (cfg5.win 7).flush t = true ∧ i ∈ ((cfg5.win 7).blk t).view.set := by
  have hi0 : (i 0).val < 50000 := (i 0).isLt
  have hi1 : (i 1).val < 128 := (i 1).isLt
  have hN : grid5.N = 10 := N_5
  have ht : (i 0).val / 5000 < grid5.N := by rw [hN]; omega
  obtain ⟨e0, e1, e2, e3, f20, f21, f30, f31, f40, f41, f50, f51, e12, e13, e14, e15⟩ := blockIndex5 ⟨(i 0).val / 5000, ht⟩
  refine ⟨⟨(i 0).val / 5000, ht⟩, flush5_7 _, ?_⟩
  rw [mem_block5]
  intro a
  match a with
  | ⟨0, _⟩ =>
    show win5_7.index ⟨(i 0).val / 5000, ht⟩ (0 : Fin 2) * 5000 ≤ (i 0).val ∧ (i 0).val < win5_7.index ⟨(i 0).val / 5000, ht⟩ (0 : Fin 2) * 5000 + 5000
    rw [e14]; show (i 0).val / 5000 * 5000 ≤ (i 0).val ∧ (i 0).val < (i 0).val / 5000 * 5000 + 5000; omega
  | ⟨1, _⟩ =>
    show win5_7.index ⟨(i 0).val / 5000, ht⟩ (1 : Fin 2) * 128 ≤ (i 1).val ∧ (i 1).val < win5_7.index ⟨(i 0).val / 5000, ht⟩ (1 : Fin 2) * 128 + 128
    rw [e15]; omega

/-- After the region the result array is the rectify, normalise and contract stage of the arrays the region finds. -/
theorem region5 (c : Dev nD) :
    (dat5 (F := Ideal) V c).arrAt 7 cfg5.N
      = Cert.SpecG.bnlin (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5))
          (V c (Pipeline.arrRef spec5 6)) :=
  (dat5 V c).arrAt_eq_of_cover 7 _ (fun t _ => flushed5_eq V c t) covered5

end

end Cert.KVal

end
-- ==== Proof.KRegion6.lean ====
/-
  A rectify-and-contract stage, block by block, is the stage on the whole array.
  Each of the ten grid points reads rows 5000·t … 5000·t + 4999 of the feature array, the whole slope and the whole
  weight matrix, and writes rows 5000·t … 5000·t + 4999 of the result: entry (p, q) of its block is
  ∑ₖ prelu(h(5000·t + p, k))·w(k, q), which is entry (5000·t + p, q) of the whole-array function. The ten row blocks
  cover all 50000 rows, so the result array ends holding the whole-array function of the arrays the stage reads.
-/
import proofs.«102494_j5102421148167_1_alg».proof.Proof.Gen.KernelIdeal.Frame
import proofs.«102494_j5102421148167_1_alg».proof.Proof.SpecG
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KVal

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, however spelt. -/
theorem zeroOff6 : (![0, 0] : Fin 2 → Nat) = fun _ => 0 := funext fun a => by fin_cases a <;> rfl

/-- One entry of the block product: the contraction over the 128 features of the rectified row against the weight
    column (the operand format changes are the identity on extended reals, the accumulator is zero). -/
theorem plinBlock6_at (x0 : Vec Ideal S5000x128 .f32) (x1 : Vec Ideal S1x1 .f32) (x2 : Vec Ideal S128x64 .f32) (p : Fin 5000) (q : Fin 64) :
    k6_pay1 (F := Ideal) x0 x1 x2 (ix2 p q)
      = ∑ k : Fin 128, Cert.SpecG.prelu (x1 (ix2 (0 : Fin 1) (0 : Fin 1))) (x0 (ix2 p k)) * x2 (ix2 k q) := by
  unfold k6_pay1
  simp only [matmul]
  rw [Ideal.matmul_constant_zero_apply,
    ← Equiv.sum_comp (contrEquiv1 dot_S5000x128_S128x64_S5000x64_1_0_0_1_n_n 128 rfl rfl).symm]
  refine Finset.sum_congr rfl fun k _ => ?_
  have c2 := contrEquiv1_symm_val dot_S5000x128_S128x64_S5000x64_1_0_0_1_n_n 128 rfl rfl k
  have l2 : dot_S5000x128_S128x64_S5000x64_1_0_0_1_n_n.lhsIdx (ix2 p q) ((contrEquiv1 _ 128 rfl rfl).symm k) = ix2 p k := by
    funext ax; apply Fin.ext
    match ax with
    | ⟨0, _⟩ => simp [DotDims.lhsIdx, dot_S5000x128_S128x64_S5000x64_1_0_0_1_n_n]; rfl
    | ⟨1, _⟩ => simp [DotDims.lhsIdx, dot_S5000x128_S128x64_S5000x64_1_0_0_1_n_n]; exact c2
  have r2 : dot_S5000x128_S128x64_S5000x64_1_0_0_1_n_n.rhsIdx (ix2 p q) ((contrEquiv1 _ 128 rfl rfl).symm k) = ix2 k q := by
    funext ax; apply Fin.ext
    match ax with
    | ⟨0, _⟩ => simp [DotDims.rhsIdx, dot_S5000x128_S128x64_S5000x64_1_0_0_1_n_n]; exact c2
    | ⟨1, _⟩ => simp [DotDims.rhsIdx, dot_S5000x128_S128x64_S5000x64_1_0_0_1_n_n]; rfl
  rw [l2, r2]
  simp only [shapeCast_self, truncf_apply, select_apply, cmpf_apply, broadcast_apply, mulf_apply]
  have ex : extractAt ![0, 0] x1 inpos_S1x1_p0_0 = x1 (ix2 (0 : Fin 1) (0 : Fin 1)) :=
    congrArg x1 (funext fun a => Fin.ext (by match a with | ⟨0, _⟩ => rfl | ⟨1, _⟩ => rfl))
  rw [ex]
  rfl

/-- An entry of a block whose rows are rows of the whole arrays is the whole-array stage's entry there. -/
theorem plinBlock6_eq (A0 : Cert.SpecG.Arr2 50000 128) (A1 : Cert.SpecG.Arr2 1 1) (A2 : Cert.SpecG.Arr2 128 64)
    (x0 : Vec Ideal S5000x128 .f32) (x1 : Vec Ideal S1x1 .f32) (x2 : Vec Ideal S128x64 .f32)
    (i : (⟨2, ![50000, 64]⟩ : Shape).Idx) (p : Fin 5000) (q : Fin 64)
    (h0 : ∀ k : Fin 128, x0 (ix2 p k) = A0 (ix2 (i 0 : Fin 50000) k))
    (h1 : x1 (ix2 (0 : Fin 1) (0 : Fin 1)) = A1 (ix2 (0 : Fin 1) (0 : Fin 1)))
    (h2 : ∀ k : Fin 128, x2 (ix2 k q) = A2 (ix2 k (i 1 : Fin 64))) :
    k6_pay1 (F := Ideal) x0 x1 x2 (ix2 p q) = Cert.SpecG.plin A0 A1 A2 i := by
  rw [plinBlock6_at]
  unfold Cert.SpecG.plin
  refine Finset.sum_congr rfl fun k _ => ?_
  rw [h0 k, h1, h2 k]

/-- The printed index maps over the ten points: the feature block and the result block are row block t, the slope and
    the weights are whole. -/
theorem blockIndex6 : ∀ t : Fin cfg6.N,
    win6_0.index t (0 : Fin 2) = win6_3.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

section
variable (V : (c : Dev nD) → (b : Ref sig .tc) → Buf (Elt Ideal) ((c : Thread nD τ).loc b))

set_option maxHeartbeats 4000000 in
/-- What point t writes back is row block t of the whole-array stage of the arrays as the region finds them. -/
theorem flushed6_eq (c : Dev nD) (t : Fin cfg6.N) :
    (dat6 (F := Ideal) V c).flushed 3 t = ((cfg6.win 3).blk t).view.read (Elt Ideal)
      (Cert.SpecG.plin (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero zeroOff6]
  simp only [View.ld_unit_zero (S := S5000x128) zeroOff6, View.ld_unit_zero (S := S1x1) zeroOff6, View.ld_unit_zero (S := S128x64) zeroOff6]
  obtain ⟨e0, e1, e2, e3, e4, e5, e6, e7⟩ := blockIndex6 t
  funext j
  obtain ⟨p, q, rfl⟩ : ∃ (p : Fin 5000) (q : Fin 64), j = ix2 p q := ⟨j 0, j 1, eq_ix2 j⟩
  show k6_pay1 (iblk6 V c 0 t) (iblk6 V c 1 t) (iblk6 V c 2 t) (ix2 p q)
    = Cert.SpecG.plin _ _ _ (((cfg6.win 3).blk t).view.emb (ix2 p q))
  refine plinBlock6_eq _ _ _ _ _ _ _ p q (fun k => ?_) ?_ (fun k => ?_)
  · unfold iblk6
    rw [View.read_apply]
    show V c (Pipeline.arrRef spec6 0) _ = V c (Pipeline.arrRef spec6 0) _
    refine congrArg (V c (Pipeline.arrRef spec6 0)) (funext fun a => Fin.ext ?_)
    match a with
    | ⟨0, _⟩ => show win6_0.index t (0 : Fin 2) * 5000 + 1 * p.val = win6_3.index t (0 : Fin 2) * 5000 + 1 * p.val; rw [e0]
    | ⟨1, _⟩ => show win6_0.index t (1 : Fin 2) * 128 + 1 * k.val = k.val; rw [e1]; omega
  · unfold iblk6
    rw [View.read_apply]
    show V c (Pipeline.arrRef spec6 1) _ = V c (Pipeline.arrRef spec6 1) _
    refine congrArg (V c (Pipeline.arrRef spec6 1)) (funext fun a => Fin.ext ?_)
    match a with
    | ⟨0, _⟩ => show win6_1.index t (0 : Fin 2) * 1 + 1 * 0 = 0; rw [e2]
    | ⟨1, _⟩ => show win6_1.index t (1 : Fin 2) * 1 + 1 * 0 = 0; rw [e3]
  · unfold iblk6
    rw [View.read_apply]
    show V c (Pipeline.arrRef spec6 2) _ = V c (Pipeline.arrRef spec6 2) _
    refine congrArg (V c (Pipeline.arrRef spec6 2)) (funext fun a => Fin.ext ?_)
    match a with
    | ⟨0, _⟩ => show win6_2.index t (0 : Fin 2) * 128 + 1 * k.val = k.val; rw [e4]; omega
    | ⟨1, _⟩ => show win6_2.index t (1 : Fin 2) * 64 + 1 * q.val = win6_3.index t (1 : Fin 2) * 64 + 1 * q.val; rw [e5, e7]

/-- An index of the result array is in point t's block iff each coordinate is in the block's range on its axis. -/
theorem mem_block6 (t : Fin cfg6.N) (i : S50000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v217).slice (win6_3.rect t)).set ↔ _
  rw [View.set_slice_whole, Rect.mem_set_unit]
  exact Iff.rfl

/-- Row r of the result is in the block of point r / 5000: the ten blocks cover the array. -/
theorem covered6 (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  have hN : grid6.N = 10 := N_6
  have ht : (i 0).val / 5000 < grid6.N := by rw [hN]; omega
  obtain ⟨e0, e1, e2, e3, e4, e5, e6, e7⟩ := blockIndex6 ⟨(i 0).val / 5000, ht⟩
  refine ⟨⟨(i 0).val / 5000, ht⟩, flush6_3 _, ?_⟩
  rw [mem_block6]
  intro a
  match a with
  | ⟨0, _⟩ =>
    show win6_3.index ⟨(i 0).val / 5000, ht⟩ (0 : Fin 2) * 5000 ≤ (i 0).val ∧ (i 0).val < win6_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win6_3.index ⟨(i 0).val / 5000, ht⟩ (1 : Fin 2) * 64 ≤ (i 1).val ∧ (i 1).val < win6_3.index ⟨(i 0).val / 5000, ht⟩ (1 : Fin 2) * 64 + 64
    rw [e7]; omega

/-- After the region the result array is the rectify-and-contract stage of the arrays the region finds. -/
theorem region6 (c : Dev nD) :
    (dat6 (F := Ideal) V c).arrAt 3 cfg6.N
      = Cert.SpecG.plin (V c (Pipeline.arrRef spec6 0)) (V c (Pipeline.arrRef spec6 1)) (V c (Pipeline.arrRef spec6 2)) :=
  (dat6 V c).arrAt_eq_of_cover 3 _ (fun t _ => flushed6_eq V c t) covered6

end

end Cert.KVal

end
-- ==== Proof.KChain4.lean ====
/-
  Block 2 of the kernel program's run, boundary by boundary: the second block's output as one block of the first's, the
  third block's statistics and parameters, its two regions as the reference's stages, the aggregation between them.
-/
import proofs.«102494_j5102421148167_1_alg».proof.Proof.Gen.KernelIdeal.Frame
import proofs.«102494_j5102421148167_1_alg».proof.Proof.Gen.ReferenceIdeal
import proofs.«102494_j5102421148167_1_alg».proof.Proof.Spec
import proofs.«102494_j5102421148167_1_alg».proof.Proof.SpecG
import proofs.«102494_j5102421148167_1_alg».proof.Proof.KHostA
import proofs.«102494_j5102421148167_1_alg».proof.Proof.KHost5
import proofs.«102494_j5102421148167_1_alg».proof.Proof.KHost6
import proofs.«102494_j5102421148167_1_alg».proof.Proof.KRegion5
import proofs.«102494_j5102421148167_1_alg».proof.Proof.KRegion6
import proofs.«102494_j5102421148167_1_alg».proof.Proof.Bridge
import proofs.«102494_j5102421148167_1_alg».proof.Proof.KChain1
import proofs.«102494_j5102421148167_1_alg».proof.Proof.KChain2
import proofs.«102494_j5102421148167_1_alg».proof.Proof.KChain3

set_option maxRecDepth 16384

noncomputable section

namespace Cert.KVal

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Block 2 -/

theorem KA23 : KeepsA (W23 m ρ c) (W0 m ρ c) := (g5_keepsA (W18 m ρ c)).trans (KA18 m ρ c)
theorem KG23 : KeepsG (W23 m ρ c) (W1 m ρ c) := (g5_keepsG (W18 m ρ c)).trans (KG18 m ρ c)
/-- The block's output, as the aggregation of the 64-wide rows. -/
theorem hu_23 : W23 m ρ c (Proc.devRef .tc main_v168) = (Cert.Spec.conv64 (Cert.Spec.pdot128 (Cert.Spec.sc1 (W0 m ρ c (Proc.devRef .tc main_arg10))) (Cert.Spec.conv128 (Cert.Spec.bndot64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12))))) (Cert.Spec.mean64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.var64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.v64_1 (W0 m ρ c (Proc.devRef .tc main_arg6))) (Cert.Spec.v64_1 (W0 m ρ c (Proc.devRef .tc main_arg7))) (Cert.Spec.w1_1 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_1 (W0 m ρ c (Proc.devRef .tc main_arg9)))) (Cert.Spec.w2_1 (W0 m ρ c (Proc.devRef .tc main_arg11)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v64_1 (W0 m ρ c (Proc.devRef .tc main_arg12)))) := (g5_h (W18 m ρ c)).trans (by rw [lin2_18 m ρ c, (KG18 m ρ c).g0, (KG18 m ρ c).g1, (KG18 m ρ c).g2, (KG18 m ρ c).g3, src1 m ρ c, dst1 m ρ c, norm1 m ρ c, self1 m ρ c, (KA18 m ρ c).a12])
/-- The same, as one block of its input. -/
theorem h_23 : W23 m ρ c (Proc.devRef .tc main_v168) = (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))) := (hu_23 m ρ c).trans rfl
/-- What the stretch's own activations expression reads as. -/
theorem hx_23 : Cert.Spec.conv64 (W18 m ρ c (Proc.devRef .tc main_v148)) (W18 m ρ c (Proc.devRef .tc main_v1)) (W18 m ρ c (Proc.devRef .tc main_v3)) (W18 m ρ c (Proc.devRef .tc main_v26)) (W18 m ρ c (Proc.devRef .tc main_v28)) (Cert.Spec.v64_1 (W18 m ρ c (Proc.devRef .tc main_arg12))) = (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))) :=
  ((by rw [lin2_18 m ρ c, (KG18 m ρ c).g0, (KG18 m ρ c).g1, (KG18 m ρ c).g2, (KG18 m ρ c).g3, src1 m ρ c, dst1 m ρ c, norm1 m ρ c, self1 m ρ c, (KA18 m ρ c).a12]) : _ = (Cert.Spec.conv64 (Cert.Spec.pdot128 (Cert.Spec.sc1 (W0 m ρ c (Proc.devRef .tc main_arg10))) (Cert.Spec.conv128 (Cert.Spec.bndot64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12))))) (Cert.Spec.mean64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.var64 (Cert.Spec.prelu64 (Cert.Spec.sc1 (W0 m ρ c (Proc.devRef .tc main_arg5))) (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))))) (Cert.Spec.v64_1 (W0 m ρ c (Proc.devRef .tc main_arg6))) (Cert.Spec.v64_1 (W0 m ρ c (Proc.devRef .tc main_arg7))) (Cert.Spec.w1_1 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_1 (W0 m ρ c (Proc.devRef .tc main_arg9)))) (Cert.Spec.w2_1 (W0 m ρ c (Proc.devRef .tc main_arg11)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v64_1 (W0 m ρ c (Proc.devRef .tc main_arg12))))).trans rfl

theorem w_23 : W23 m ρ c (Proc.devRef .tc main_v185) = (Cert.Spec.w1_2 (W0 m ρ c (Proc.devRef .tc main_arg8))) := (g5_w (W18 m ρ c)).trans (by rw [(KA18 m ρ c).a8])
theorem slope_23 : W23 m ρ c (Proc.devRef .tc main_v186) = (shapeCast S1x1 (Cert.Spec.sc2 (W0 m ρ c (Proc.devRef .tc main_arg5))) (by decide)) := (g5_slope (W18 m ρ c)).trans (by rw [(KA18 m ρ c).a5])
theorem mean_23 : W23 m ρ c (Proc.devRef .tc main_v187) = (shapeCast S1x64 (Cert.Spec.mean64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (by decide)) := (g5_mean (W18 m ρ c)).trans ((by rw [(KA18 m ρ c).a5, hx_23 m ρ c]) : _ = _)
theorem var_23 : W23 m ρ c (Proc.devRef .tc main_v188) = (shapeCast S1x64 (Cert.Spec.var64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (by decide)) := (g5_var (W18 m ρ c)).trans ((by rw [(KA18 m ρ c).a5, hx_23 m ρ c]) : _ = _)
theorem gamma_23 : W23 m ρ c (Proc.devRef .tc main_v189) = (shapeCast S1x64 (Cert.Spec.v64_2 (W0 m ρ c (Proc.devRef .tc main_arg6))) (by decide)) := (g5_gamma (W18 m ρ c)).trans (by rw [(KA18 m ρ c).a6])
theorem beta_23 : W23 m ρ c (Proc.devRef .tc main_v190) = (shapeCast S1x64 (Cert.Spec.v64_2 (W0 m ρ c (Proc.devRef .tc main_arg7))) (by decide)) := (g5_beta (W18 m ρ c)).trans (by rw [(KA18 m ρ c).a7])

/-- Region 5 writes only its output array: the argument arrays stay. -/
theorem KA24s : KeepsA (W24 m ρ c) (W23 m ρ c) := by
  unfold KeepsA
  exact ⟨W24_of_ne m ρ c main_arg0 (by decide), W24_of_ne m ρ c main_arg1 (by decide), W24_of_ne m ρ c main_arg2 (by decide), W24_of_ne m ρ c main_arg3 (by decide), W24_of_ne m ρ c main_arg4 (by decide), W24_of_ne m ρ c main_arg5 (by decide), W24_of_ne m ρ c main_arg6 (by decide), W24_of_ne m ρ c main_arg7 (by decide), W24_of_ne m ρ c main_arg8 (by decide), W24_of_ne m ρ c main_arg9 (by decide), W24_of_ne m ρ c main_arg10 (by decide), W24_of_ne m ρ c main_arg11 (by decide), W24_of_ne m ρ c main_arg12 (by decide), W24_of_ne m ρ c main_arg13 (by decide), W24_of_ne m ρ c main_arg14 (by decide), W24_of_ne m ρ c main_arg15 (by decide), W24_of_ne m ρ c main_arg16 (by decide), W24_of_ne m ρ c main_arg17 (by decide), W24_of_ne m ρ c main_arg18 (by decide), W24_of_ne m ρ c main_arg19 (by decide)⟩
/-- And the graph-structure buffers stay. -/
theorem KG24s : KeepsG (W24 m ρ c) (W23 m ρ c) := by
  unfold KeepsG
  exact ⟨W24_of_ne m ρ c main_v1 (by decide), W24_of_ne m ρ c main_v3 (by decide), W24_of_ne m ρ c main_v26 (by decide), W24_of_ne m ρ c main_v28 (by decide)⟩

theorem KA24 : KeepsA (W24 m ρ c) (W0 m ρ c) := (KA24s m ρ c).trans (KA23 m ρ c)
theorem KG24 : KeepsG (W24 m ρ c) (W1 m ρ c) := (KG24s m ρ c).trans (KG23 m ρ c)

/-- Region 5: rectify, normalise, contract — the reference's stage of the same inputs. -/
theorem lin1_24 : W24 m ρ c (Proc.devRef .tc main_v191) = (Cert.Spec.bndot64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12))))) (Cert.Spec.mean64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (Cert.Spec.var64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (Cert.Spec.v64_2 (W0 m ρ c (Proc.devRef .tc main_arg6))) (Cert.Spec.v64_2 (W0 m ρ c (Proc.devRef .tc main_arg7))) (Cert.Spec.w1_2 (W0 m ρ c (Proc.devRef .tc main_arg8)))) :=
  calc W24 m ρ c (Proc.devRef .tc main_v191) = (dat5 (V23 m ρ) c).arrAt 7 cfg5.N := W24_arr m ρ c 7
    _ = Cert.SpecG.bnlin (W23 m ρ c (Proc.devRef .tc main_v168)) (W23 m ρ c (Proc.devRef .tc main_v186)) (W23 m ρ c (Proc.devRef .tc main_v187)) (W23 m ρ c (Proc.devRef .tc main_v188)) (W23 m ρ c (Proc.devRef .tc main_v189)) (W23 m ρ c (Proc.devRef .tc main_v190)) (W23 m ρ c (Proc.devRef .tc main_v185)) := region5 (V23 m ρ) c
    _ = Cert.SpecG.bnlin (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))) (shapeCast S1x1 (Cert.Spec.sc2 (W0 m ρ c (Proc.devRef .tc main_arg5))) (by decide)) (shapeCast S1x64 (Cert.Spec.mean64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (by decide)) (shapeCast S1x64 (Cert.Spec.var64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (by decide)) (shapeCast S1x64 (Cert.Spec.v64_2 (W0 m ρ c (Proc.devRef .tc main_arg6))) (by decide)) (shapeCast S1x64 (Cert.Spec.v64_2 (W0 m ρ c (Proc.devRef .tc main_arg7))) (by decide)) (Cert.Spec.w1_2 (W0 m ρ c (Proc.devRef .tc main_arg8))) := by
        rw [h_23 m ρ c, slope_23 m ρ c, mean_23 m ρ c, var_23 m ρ c, gamma_23 m ρ c, beta_23 m ρ c, w_23 m ρ c]
    _ = (Cert.Spec.bndot64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12))))) (Cert.Spec.mean64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (Cert.Spec.var64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (Cert.Spec.v64_2 (W0 m ρ c (Proc.devRef .tc main_arg6))) (Cert.Spec.v64_2 (W0 m ρ c (Proc.devRef .tc main_arg7))) (Cert.Spec.w1_2 (W0 m ρ c (Proc.devRef .tc main_arg8)))) := Cert.Bridge.bnlin_bridge _ _ _ _ _ _ _ _ _

theorem KA25 : KeepsA (W25 m ρ c) (W0 m ρ c) := (g6_keepsA (W24 m ρ c)).trans (KA24 m ρ c)
theorem KG25 : KeepsG (W25 m ρ c) (W1 m ρ c) := (g6_keepsG (W24 m ρ c)).trans (KG24 m ρ c)
/-- The aggregation of the 128-wide rows. -/
theorem hh_25 : W25 m ρ c (Proc.devRef .tc main_v211) = (Cert.Spec.conv128 (Cert.Spec.bndot64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12))))) (Cert.Spec.mean64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (Cert.Spec.var64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (Cert.Spec.v64_2 (W0 m ρ c (Proc.devRef .tc main_arg6))) (Cert.Spec.v64_2 (W0 m ρ c (Proc.devRef .tc main_arg7))) (Cert.Spec.w1_2 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_2 (W0 m ρ c (Proc.devRef .tc main_arg9)))) := (g6_h (W24 m ρ c)).trans (by rw [lin1_24 m ρ c, (KG24 m ρ c).g0, (KG24 m ρ c).g1, (KG24 m ρ c).g2, (KG24 m ρ c).g3, src1 m ρ c, dst1 m ρ c, norm1 m ρ c, self1 m ρ c, (KA24 m ρ c).a9])
theorem w2_25 : W25 m ρ c (Proc.devRef .tc main_v215) = (Cert.Spec.w2_2 (W0 m ρ c (Proc.devRef .tc main_arg11))) := (g6_w (W24 m ρ c)).trans (by rw [(KA24 m ρ c).a11])
theorem slope2_25 : W25 m ρ c (Proc.devRef .tc main_v216) = (shapeCast S1x1 (Cert.Spec.sc2 (W0 m ρ c (Proc.devRef .tc main_arg10))) (by decide)) := (g6_slope (W24 m ρ c)).trans (by rw [(KA24 m ρ c).a10])

/-- Region 6 writes only its output array: the argument arrays stay. -/
theorem KA26s : KeepsA (W26 m ρ c) (W25 m ρ c) := by
  unfold KeepsA
  exact ⟨W26_of_ne m ρ c main_arg0 (by decide), W26_of_ne m ρ c main_arg1 (by decide), W26_of_ne m ρ c main_arg2 (by decide), W26_of_ne m ρ c main_arg3 (by decide), W26_of_ne m ρ c main_arg4 (by decide), W26_of_ne m ρ c main_arg5 (by decide), W26_of_ne m ρ c main_arg6 (by decide), W26_of_ne m ρ c main_arg7 (by decide), W26_of_ne m ρ c main_arg8 (by decide), W26_of_ne m ρ c main_arg9 (by decide), W26_of_ne m ρ c main_arg10 (by decide), W26_of_ne m ρ c main_arg11 (by decide), W26_of_ne m ρ c main_arg12 (by decide), W26_of_ne m ρ c main_arg13 (by decide), W26_of_ne m ρ c main_arg14 (by decide), W26_of_ne m ρ c main_arg15 (by decide), W26_of_ne m ρ c main_arg16 (by decide), W26_of_ne m ρ c main_arg17 (by decide), W26_of_ne m ρ c main_arg18 (by decide), W26_of_ne m ρ c main_arg19 (by decide)⟩
/-- And the graph-structure buffers stay. -/
theorem KG26s : KeepsG (W26 m ρ c) (W25 m ρ c) := by
  unfold KeepsG
  exact ⟨W26_of_ne m ρ c main_v1 (by decide), W26_of_ne m ρ c main_v3 (by decide), W26_of_ne m ρ c main_v26 (by decide), W26_of_ne m ρ c main_v28 (by decide)⟩

theorem KA26 : KeepsA (W26 m ρ c) (W0 m ρ c) := (KA26s m ρ c).trans (KA25 m ρ c)
theorem KG26 : KeepsG (W26 m ρ c) (W1 m ρ c) := (KG26s m ρ c).trans (KG25 m ρ c)

/-- Region 6: rectify, contract — the reference's stage of the same inputs. -/
theorem lin2_26 : W26 m ρ c (Proc.devRef .tc main_v217) = (Cert.Spec.pdot128 (Cert.Spec.sc2 (W0 m ρ c (Proc.devRef .tc main_arg10))) (Cert.Spec.conv128 (Cert.Spec.bndot64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12))))) (Cert.Spec.mean64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (Cert.Spec.var64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (Cert.Spec.v64_2 (W0 m ρ c (Proc.devRef .tc main_arg6))) (Cert.Spec.v64_2 (W0 m ρ c (Proc.devRef .tc main_arg7))) (Cert.Spec.w1_2 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_2 (W0 m ρ c (Proc.devRef .tc main_arg9)))) (Cert.Spec.w2_2 (W0 m ρ c (Proc.devRef .tc main_arg11)))) :=
  calc W26 m ρ c (Proc.devRef .tc main_v217) = (dat6 (V25 m ρ) c).arrAt 3 cfg6.N := W26_arr m ρ c 3
    _ = Cert.SpecG.plin (W25 m ρ c (Proc.devRef .tc main_v211)) (W25 m ρ c (Proc.devRef .tc main_v216)) (W25 m ρ c (Proc.devRef .tc main_v215)) := region6 (V25 m ρ) c
    _ = Cert.SpecG.plin (Cert.Spec.conv128 (Cert.Spec.bndot64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12))))) (Cert.Spec.mean64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (Cert.Spec.var64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (Cert.Spec.v64_2 (W0 m ρ c (Proc.devRef .tc main_arg6))) (Cert.Spec.v64_2 (W0 m ρ c (Proc.devRef .tc main_arg7))) (Cert.Spec.w1_2 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_2 (W0 m ρ c (Proc.devRef .tc main_arg9)))) (shapeCast S1x1 (Cert.Spec.sc2 (W0 m ρ c (Proc.devRef .tc main_arg10))) (by decide)) (Cert.Spec.w2_2 (W0 m ρ c (Proc.devRef .tc main_arg11))) := by
        rw [hh_25 m ρ c, slope2_25 m ρ c, w2_25 m ρ c]
    _ = (Cert.Spec.pdot128 (Cert.Spec.sc2 (W0 m ρ c (Proc.devRef .tc main_arg10))) (Cert.Spec.conv128 (Cert.Spec.bndot64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12))))) (Cert.Spec.mean64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (Cert.Spec.var64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (Cert.Spec.v64_2 (W0 m ρ c (Proc.devRef .tc main_arg6))) (Cert.Spec.v64_2 (W0 m ρ c (Proc.devRef .tc main_arg7))) (Cert.Spec.w1_2 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_2 (W0 m ρ c (Proc.devRef .tc main_arg9)))) (Cert.Spec.w2_2 (W0 m ρ c (Proc.devRef .tc main_arg11)))) := Cert.Bridge.plin_bridge _ _ _ _

end Cert.KVal

end
-- ==== Proof.KRun.lean ====
/-
  The idealized kernel program's run with its result named: every weakly fair execution terminates, nothing faulting,
  the argument arrays end as launched, and the result array ends at the last boundary's contents — the fold of the
  host stretches and the seven regions' write-backs over the launch memory — read at the result buffer.
-/
import proofs.«102494_j5102421148167_1_alg».proof.Proof.Gen.KernelIdeal.Frame

set_option maxRecDepth 16384

noncomputable section

namespace Cert.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.KernelIdeal.Facts]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents. -/
theorem run_value : θ_run defs (onTc (τ := τ) (main (F := F))) ⟨m, fun _ => 0, ρ⟩ (fun r => ∀ c : Dev nD,
      r.2.mem ((c.tc : Thread nD τ).loc main_v281) = W31 m ρ c (Proc.devRef .tc main_v281) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun s h c =>
      ⟨h c _ (mem_uc main_v281 (by decide)),
       (h c _ (mem_uc main_arg0 (by decide))).trans (W31_main_arg0 m ρ c),
       (h c _ (mem_uc main_arg1 (by decide))).trans (W31_main_arg1 m ρ c),
       (h c _ (mem_uc main_arg2 (by decide))).trans (W31_main_arg2 m ρ c),
       (h c _ (mem_uc main_arg3 (by decide))).trans (W31_main_arg3 m ρ c),
       (h c _ (mem_uc main_arg4 (by decide))).trans (W31_main_arg4 m ρ c),
       (h c _ (mem_uc main_arg5 (by decide))).trans (W31_main_arg5 m ρ c),
       (h c _ (mem_uc main_arg6 (by decide))).trans (W31_main_arg6 m ρ c),
       (h c _ (mem_uc main_arg7 (by decide))).trans (W31_main_arg7 m ρ c),
       (h c _ (mem_uc main_arg8 (by decide))).trans (W31_main_arg8 m ρ c),
       (h c _ (mem_uc main_arg9 (by decide))).trans (W31_main_arg9 m ρ c),
       (h c _ (mem_uc main_arg10 (by decide))).trans (W31_main_arg10 m ρ c),
       (h c _ (mem_uc main_arg11 (by decide))).trans (W31_main_arg11 m ρ c),
       (h c _ (mem_uc main_arg12 (by decide))).trans (W31_main_arg12 m ρ c),
       (h c _ (mem_uc main_arg13 (by decide))).trans (W31_main_arg13 m ρ c),
       (h c _ (mem_uc main_arg14 (by decide))).trans (W31_main_arg14 m ρ c),
       (h c _ (mem_uc main_arg15 (by decide))).trans (W31_main_arg15 m ρ c),
       (h c _ (mem_uc main_arg16 (by decide))).trans (W31_main_arg16 m ρ c),
       (h c _ (mem_uc main_arg17 (by decide))).trans (W31_main_arg17 m ρ c),
       (h c _ (mem_uc main_arg18 (by decide))).trans (W31_main_arg18 m ρ c),
       (h c _ (mem_uc main_arg19 (by decide))).trans (W31_main_arg19 m ρ c)⟩)

end Cert.KVal

end
-- ==== Proof.KChain5.lean ====
/-
  The last boundary of the kernel program's run: the third block's output, pooled per graph and sent through the
  head, is the network's one function of the launch contents of the twenty argument arrays.
-/
import proofs.«102494_j5102421148167_1_alg».proof.Proof.Gen.KernelIdeal.Frame
import proofs.«102494_j5102421148167_1_alg».proof.Proof.Gen.ReferenceIdeal
import proofs.«102494_j5102421148167_1_alg».proof.Proof.Spec
import proofs.«102494_j5102421148167_1_alg».proof.Proof.SpecG
import proofs.«102494_j5102421148167_1_alg».proof.Proof.KHostA
import proofs.«102494_j5102421148167_1_alg».proof.Proof.KHost7
import proofs.«102494_j5102421148167_1_alg».proof.Proof.KChain1
import proofs.«102494_j5102421148167_1_alg».proof.Proof.KChain2
import proofs.«102494_j5102421148167_1_alg».proof.Proof.KChain3
import proofs.«102494_j5102421148167_1_alg».proof.Proof.KChain4
import proofs.«102494_j5102421148167_1_alg».proof.Proof.KRun

set_option maxRecDepth 16384

noncomputable section

namespace Cert.KVal

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The last stretch: the third block's output, the pool and the head -/

/-- What the last stretch's own activations expression reads as: the third block of its input. -/
theorem hx_31 : Cert.Spec.conv64 (W26 m ρ c (Proc.devRef .tc main_v217)) (W26 m ρ c (Proc.devRef .tc main_v1)) (W26 m ρ c (Proc.devRef .tc main_v3)) (W26 m ρ c (Proc.devRef .tc main_v26)) (W26 m ρ c (Proc.devRef .tc main_v28)) (Cert.Spec.v64_2 (W26 m ρ c (Proc.devRef .tc main_arg12))) = (Cert.Spec.block (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc2 (W0 m ρ c (Proc.devRef .tc main_arg5))) (Cert.Spec.v64_2 (W0 m ρ c (Proc.devRef .tc main_arg6))) (Cert.Spec.v64_2 (W0 m ρ c (Proc.devRef .tc main_arg7))) (Cert.Spec.w1_2 (W0 m ρ c (Proc.devRef .tc main_arg8))) (Cert.Spec.v128_2 (W0 m ρ c (Proc.devRef .tc main_arg9))) (Cert.Spec.sc2 (W0 m ρ c (Proc.devRef .tc main_arg10))) (Cert.Spec.w2_2 (W0 m ρ c (Proc.devRef .tc main_arg11))) (Cert.Spec.v64_2 (W0 m ρ c (Proc.devRef .tc main_arg12)))) :=
  ((by rw [lin2_26 m ρ c, (KG26 m ρ c).g0, (KG26 m ρ c).g1, (KG26 m ρ c).g2, (KG26 m ρ c).g3, src1 m ρ c, dst1 m ρ c, norm1 m ρ c, self1 m ρ c, (KA26 m ρ c).a12]) : _ = (Cert.Spec.conv64 (Cert.Spec.pdot128 (Cert.Spec.sc2 (W0 m ρ c (Proc.devRef .tc main_arg10))) (Cert.Spec.conv128 (Cert.Spec.bndot64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12))))) (Cert.Spec.mean64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (Cert.Spec.var64 (Cert.Spec.prelu64 (Cert.Spec.sc2 (W0 m ρ c (Proc.devRef .tc main_arg5))) (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))))) (Cert.Spec.v64_2 (W0 m ρ c (Proc.devRef .tc main_arg6))) (Cert.Spec.v64_2 (W0 m ρ c (Proc.devRef .tc main_arg7))) (Cert.Spec.w1_2 (W0 m ρ c (Proc.devRef .tc main_arg8)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v128_2 (W0 m ρ c (Proc.devRef .tc main_arg9)))) (Cert.Spec.w2_2 (W0 m ρ c (Proc.devRef .tc main_arg11)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.v64_2 (W0 m ρ c (Proc.devRef .tc main_arg12))))).trans rfl

/-- The result buffer at the last boundary is the network's function of the launch contents of the argument arrays. -/
theorem out_31 : W31 m ρ c (Proc.devRef .tc main_v281) = Cert.Spec.out (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) (W0 m ρ c (Proc.devRef .tc main_arg18)) (W0 m ρ c (Proc.devRef .tc main_arg19)) :=
  (g7_out (W26 m ρ c)).trans (((by rw [hx_31 m ρ c, (KA26 m ρ c).a2, (KA26 m ρ c).a13, (KA26 m ρ c).a14, (KA26 m ρ c).a15, (KA26 m ρ c).a16, (KA26 m ρ c).a17, (KA26 m ρ c).a18, (KA26 m ρ c).a19]) :
    _ = Cert.Spec.head (Cert.Spec.pool (Cert.Spec.block (Cert.Spec.block (Cert.Spec.block (Cert.Spec.lin0 (W0 m ρ c (Proc.devRef .tc main_arg0)) (W0 m ρ c (Proc.devRef .tc main_arg3)) (W0 m ρ c (Proc.devRef .tc main_arg4))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc0 (W0 m ρ c (Proc.devRef .tc main_arg5))) (Cert.Spec.v64_0 (W0 m ρ c (Proc.devRef .tc main_arg6))) (Cert.Spec.v64_0 (W0 m ρ c (Proc.devRef .tc main_arg7))) (Cert.Spec.w1_0 (W0 m ρ c (Proc.devRef .tc main_arg8))) (Cert.Spec.v128_0 (W0 m ρ c (Proc.devRef .tc main_arg9))) (Cert.Spec.sc0 (W0 m ρ c (Proc.devRef .tc main_arg10))) (Cert.Spec.w2_0 (W0 m ρ c (Proc.devRef .tc main_arg11))) (Cert.Spec.v64_0 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc1 (W0 m ρ c (Proc.devRef .tc main_arg5))) (Cert.Spec.v64_1 (W0 m ρ c (Proc.devRef .tc main_arg6))) (Cert.Spec.v64_1 (W0 m ρ c (Proc.devRef .tc main_arg7))) (Cert.Spec.w1_1 (W0 m ρ c (Proc.devRef .tc main_arg8))) (Cert.Spec.v128_1 (W0 m ρ c (Proc.devRef .tc main_arg9))) (Cert.Spec.sc1 (W0 m ρ c (Proc.devRef .tc main_arg10))) (Cert.Spec.w2_1 (W0 m ρ c (Proc.devRef .tc main_arg11))) (Cert.Spec.v64_1 (W0 m ρ c (Proc.devRef .tc main_arg12)))) (Cert.Spec.src (W0 m ρ c (Proc.devRef .tc main_arg1))) (Cert.Spec.dst (W0 m ρ c (Proc.devRef .tc main_arg1))) (Cert.Spec.normE1 (Cert.Spec.src (W0 m ρ c (Proc.devRef .tc main_arg1))) (Cert.Spec.dst (W0 m ρ c (Proc.devRef .tc main_arg1)))) (Cert.Spec.selfS1 (Cert.Spec.dst (W0 m ρ c (Proc.devRef .tc main_arg1)))) (Cert.Spec.sc2 (W0 m ρ c (Proc.devRef .tc main_arg5))) (Cert.Spec.v64_2 (W0 m ρ c (Proc.devRef .tc main_arg6))) (Cert.Spec.v64_2 (W0 m ρ c (Proc.devRef .tc main_arg7))) (Cert.Spec.w1_2 (W0 m ρ c (Proc.devRef .tc main_arg8))) (Cert.Spec.v128_2 (W0 m ρ c (Proc.devRef .tc main_arg9))) (Cert.Spec.sc2 (W0 m ρ c (Proc.devRef .tc main_arg10))) (Cert.Spec.w2_2 (W0 m ρ c (Proc.devRef .tc main_arg11))) (Cert.Spec.v64_2 (W0 m ρ c (Proc.devRef .tc main_arg12)))) (W0 m ρ c (Proc.devRef .tc main_arg2))) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) (W0 m ρ c (Proc.devRef .tc main_arg18)) (W0 m ρ c (Proc.devRef .tc main_arg19))).trans rfl)

end Cert.KVal

end
-- ==== Proof.KValue.lean ====
/-
  The idealized kernel program's run with its result as the network's function of the argument arrays.
-/
import proofs.«102494_j5102421148167_1_alg».proof.Proof.Gen.KernelIdeal.Frame
import proofs.«102494_j5102421148167_1_alg».proof.Proof.Gen.ReferenceIdeal
import proofs.«102494_j5102421148167_1_alg».proof.Proof.Spec
import proofs.«102494_j5102421148167_1_alg».proof.Proof.SpecG
import proofs.«102494_j5102421148167_1_alg».proof.Proof.KHostA
import proofs.«102494_j5102421148167_1_alg».proof.Proof.KChain5
import proofs.«102494_j5102421148167_1_alg».proof.Proof.KRun

set_option maxRecDepth 16384

noncomputable section

namespace Cert.KVal

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The idealized kernel program's run: the result array ends at the network's function of the argument arrays as
    launched, and the argument arrays end unchanged. -/
theorem run : θ_run (defs (F := Ideal)) (onTc (τ := τ) (main (F := Ideal))) ⟨m, fun _ => 0, ρ⟩ (fun r => ∀ c : Dev nD,
      r.2.mem ((c.tc : Thread nD τ).loc main_v281) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans (out_31 m ρ c), (h c).2⟩) (run_value m ρ)

end Cert.KVal

end
-- ==== Proof.RefOps0.lean ====
/- Window 0 of the reference program's @main as a list of its host operations (each call's body over the call's
   own record), the window as the list run in order, and what the list touches and writes. -/
import proofs.«102494_j5102421148167_1_alg».proof.ReferenceIdeal
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of @main's window 0, in order: a call is its function's operations over the call's record. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg3 main_v4 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg4 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S50000x64 ![0, 1] bcast_S1x64_S50000x64_0_1 : (⟨S1x64, .f32⟩ : BufTy).Contents (Elt F) → (⟨S50000x64, .f32⟩ : BufTy).Contents (Elt F)),
    StableHlo.binary main_v4 main_v6 main_v7 (addf : (⟨S50000x64, .f32⟩ : BufTy).Contents (Elt F) → (⟨S50000x64, .f32⟩ : BufTy).Contents (Elt F) → (⟨S50000x64, .f32⟩ : BufTy).Contents (Elt F)),
    StableHlo.unary main_arg5 main_v8 ((extractStridedSlice S1 ![0] · slices_S3_S1_0) : (⟨S3, .f32⟩ : BufTy).Contents (Elt F) → (⟨S1, .f32⟩ : BufTy).Contents (Elt F)),
    StableHlo.reshape main_v8 main_v9 rfl shapeCasts_S1_S_,
    StableHlo.nullary main_cst (constant S_ .f32 0x00000000#32),
    StableHlo.unary main_cst main_v10 (broadcastInDim S50000x64 ![] bcast_S_S50000x64 : (⟨S_, .f32⟩ : BufTy).Contents (Elt F) → (⟨S50000x64, .f32⟩ : BufTy).Contents (Elt F)),
    StableHlo.binary main_v7 main_v10 main_v11 (cmpf .oge : (⟨S50000x64, .f32⟩ : BufTy).Contents (Elt F) → (⟨S50000x64, .f32⟩ : BufTy).Contents (Elt F) → (⟨S50000x64, .i1⟩ : BufTy).Contents (Elt F)),
    StableHlo.unary main_v9 main_v12 (broadcastInDim S50000x64 ![] bcast_S_S50000x64 : (⟨S_, .f32⟩ : BufTy).Contents (Elt F) → (⟨S50000x64, .f32⟩ : BufTy).Contents (Elt F)),
    StableHlo.binary main_v12 main_v7 main_v13 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v11 : StableHlo.TRef sig ⟨S50000x64, .i1⟩) (.of main_v7 : StableHlo.TRef sig ⟨S50000x64, .f32⟩) (.of main_v13 : StableHlo.TRef sig ⟨S50000x64, .f32⟩) main_call0.v0 select,
    StableHlo.unary main_arg6 main_v15 ((extractStridedSlice S1x64 ![0, 0] · slices_S3x64_S1x64_0_0) : (⟨S3x64, .f32⟩ : BufTy).Contents (Elt F) → (⟨S1x64, .f32⟩ : BufTy).Contents (Elt F)),
    StableHlo.reshape main_v15 main_v16 rfl shapeCasts_S1x64_S64,
    StableHlo.unary main_arg7 main_v17 ((extractStridedSlice S1x64 ![0, 0] · slices_S3x64_S1x64_0_0) : (⟨S3x64, .f32⟩ : BufTy).Contents (Elt F) → (⟨S1x64, .f32⟩ : BufTy).Contents (Elt F)),
    StableHlo.reshape main_v17 main_v18 rfl shapeCasts_S1x64_S64,
    StableHlo.nullary main_cst_0 (constant S_ .f32 0x00000000#32),
    StableHlo.binary main_v14 main_cst_0 main_v19 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_1 (constant S_ .f32 0x47435000#32),
    StableHlo.unary main_cst_1 main_v20 (broadcastInDim S64 ![] bcast_S_S64 : (⟨S_, .f32⟩ : BufTy).Contents (Elt F) → (⟨S64, .f32⟩ : BufTy).Contents (Elt F)),
    StableHlo.binary main_v19 main_v20 main_v21 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call1.cst (constant S_ .f32 0x00000000#32),
    StableHlo.TRef.binary (.of main_v14 : StableHlo.TRef sig ⟨S50000x64, .f32⟩) main_call1.cst main_call1.v0 (fun x v => Host.reduceAdd x v reducesTo_S50000x64_S64_d0 h_S_),
    StableHlo.TRef.unary main_call1.v0 main_call1.v1 (broadcastInDim S1x64 ![1] bcast_S64_S1x64_1),
    StableHlo.TRef.nullary main_call1.cst_0 (constant S_ .f32 0x47435000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S50000x64 ![0, 1] bcast_S1x64_S50000x64_0_1),
    StableHlo.TRef.binary (.of main_v14 : StableHlo.TRef sig ⟨S50000x64, .f32⟩) main_call1.v4 main_call1.v5 subf,
    StableHlo.TRef.binary main_call1.v5 main_call1.v5 main_call1.v6 mulf,
    StableHlo.TRef.unary (.of main_c : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v21 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S50000x64 ![0, 1] bcast_S1x64_S50000x64_0_1 : (⟨S1x64, .f32⟩ : BufTy).Contents (Elt F) → (⟨S50000x64, .f32⟩ : BufTy).Contents (Elt F)),
    StableHlo.binary main_v14 main_v24 main_v25 (subf : (⟨S50000x64, .f32⟩ : BufTy).Contents (Elt F) → (⟨S50000x64, .f32⟩ : BufTy).Contents (Elt F) → (⟨S50000x64, .f32⟩ : BufTy).Contents (Elt F)),
    StableHlo.nullary main_cst_2 (constant S_ .f32 0x3727C5AC#32),
    StableHlo.unary main_cst_2 main_v26 (broadcastInDim S64 ![] bcast_S_S64 : (⟨S_, .f32⟩ : BufTy).Contents (Elt F) → (⟨S64, .f32⟩ : BufTy).Contents (Elt F)),
    StableHlo.binary main_v22 main_v26 main_v27 (addf : (⟨S64, .f32⟩ : BufTy).Contents (Elt F) → (⟨S64, .f32⟩ : BufTy).Contents (Elt F) → (⟨S64, .f32⟩ : BufTy).Contents (Elt F)),
    StableHlo.unary main_v27 main_v28 (Host.rsqrt : (⟨S64, .f32⟩ : BufTy).Contents (Elt F) → (⟨S64, .f32⟩ : BufTy).Contents (Elt F)),
    StableHlo.unary main_v28 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S50000x64 ![0, 1] bcast_S1x64_S50000x64_0_1 : (⟨S1x64, .f32⟩ : BufTy).Contents (Elt F) → (⟨S50000x64, .f32⟩ : BufTy).Contents (Elt F)),
    StableHlo.binary main_v25 main_v30 main_v31 (mulf : (⟨S50000x64, .f32⟩ : BufTy).Contents (Elt F) → (⟨S50000x64, .f32⟩ : BufTy).Contents (Elt F) → (⟨S50000x64, .f32⟩ : BufTy).Contents (Elt F)),
    StableHlo.unary main_v16 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S50000x64 ![0, 1] bcast_S1x64_S50000x64_0_1 : (⟨S1x64, .f32⟩ : BufTy).Contents (Elt F) → (⟨S50000x64, .f32⟩ : BufTy).Contents (Elt F)),
    StableHlo.binary main_v31 main_v33 main_v34 (mulf : (⟨S50000x64, .f32⟩ : BufTy).Contents (Elt F) → (⟨S50000x64, .f32⟩ : BufTy).Contents (Elt F) → (⟨S50000x64, .f32⟩ : BufTy).Contents (Elt F)),
    StableHlo.unary main_v18 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S50000x64 ![0, 1] bcast_S1x64_S50000x64_0_1 : (⟨S1x64, .f32⟩ : BufTy).Contents (Elt F) → (⟨S50000x64, .f32⟩ : BufTy).Contents (Elt F)),
    StableHlo.binary main_v34 main_v36 main_v37 (addf : (⟨S50000x64, .f32⟩ : BufTy).Contents (Elt F) → (⟨S50000x64, .f32⟩ : BufTy).Contents (Elt F) → (⟨S50000x64, .f32⟩ : BufTy).Contents (Elt F)),
    StableHlo.unary main_arg8 main_v38 ((extractStridedSlice S1x64x128 ![0, 0, 0] · slices_S3x64x128_S1x64x128_0_0_0) : (⟨S3x64x128, .f32⟩ : BufTy).Contents (Elt F) → (⟨S1x64x128, .f32⟩ : BufTy).Contents (Elt F)),
    StableHlo.reshape main_v38 main_v39 rfl shapeCasts_S1x64x128_S64x128,
    StableHlo.unary main_arg9 main_v40 ((extractStridedSlice S1x128 ![0, 0] · slices_S3x128_S1x128_0_0) : (⟨S3x128, .f32⟩ : BufTy).Contents (Elt F) → (⟨S1x128, .f32⟩ : BufTy).Contents (Elt F)),
    StableHlo.reshape main_v40 main_v41 rfl shapeCasts_S1x128_S128,
    StableHlo.binary main_v37 main_v39 main_v42 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.nullary main_cst_3 (constant S_ .f32 0x3F800000#32),
    StableHlo.unary main_cst_3 main_v43 (broadcastInDim S800000 ![] bcast_S_S800000 : (⟨S_, .f32⟩ : BufTy).Contents (Elt F) → (⟨S800000, .f32⟩ : BufTy).Contents (Elt F)),
    StableHlo.nullary main_cst_4 (constant S_ .f32 0x00000000#32),
    StableHlo.unary main_cst_4 main_v44 (broadcastInDim S50000 ![] bcast_S_S50000 : (⟨S_, .f32⟩ : BufTy).Contents (Elt F) → (⟨S50000, .f32⟩ : BufTy).Contents (Elt F)),
    StableHlo.unary main_v3 main_v45 (broadcastInDim S800000x1 ![0] bcast_S800000_S800000x1_0 : (⟨S800000, .i32⟩ : BufTy).Contents (Elt F) → (⟨S800000x1, .i32⟩ : BufTy).Contents (Elt F)),
    StableHlo.ternary main_v44 main_v45 main_v43 main_v46 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_5 (constant S_ .f32 0x3F800000#32),
    StableHlo.unary main_cst_5 main_v47 (broadcastInDim S50000 ![] bcast_S_S50000 : (⟨S_, .f32⟩ : BufTy).Contents (Elt F) → (⟨S50000, .f32⟩ : BufTy).Contents (Elt F)),
    StableHlo.binary main_v46 main_v47 main_v48 (addf : (⟨S50000, .f32⟩ : BufTy).Contents (Elt F) → (⟨S50000, .f32⟩ : BufTy).Contents (Elt F) → (⟨S50000, .f32⟩ : BufTy).Contents (Elt F)),
    StableHlo.unary main_v48 main_v49 (Host.rsqrt : (⟨S50000, .f32⟩ : BufTy).Contents (Elt F) → (⟨S50000, .f32⟩ : BufTy).Contents (Elt F)),
    StableHlo.nullary main_c_6 (constantI S_ 32 0#32),
    StableHlo.unary main_c_6 main_v50 (broadcastInDim S800000 ![] bcast_S_S800000 : (⟨S_, .i32⟩ : BufTy).Contents (Elt F) → (⟨S800000, .i32⟩ : BufTy).Contents (Elt F)) ]

set_option maxRecDepth 8192 in
set_option maxHeartbeats 4000000 in
/-- The window is that straight line: the called functions unfold at their calls, and sequencing reassociates. -/
theorem part0_eq (c : Dev nD) : main_part0 (F := F) c = seq ops0 := by
  simp only [main_part0, fn_var.body, fn_where.body, fn_where_0.body, seq, bind_assoc, pure_bind] <;> rfl

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., unary_bufs_sub .., reshape_bufs_sub .., nullary_bufs_sub .., unary_bufs_sub .., binary_bufs_sub .., unary_bufs_sub .., binary_bufs_sub .., ternary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub ..⟩

set_option maxRecDepth 8192 in
set_option maxHeartbeats 4000000 in
/-- Every operation determines its results. -/
theorem ops0_fresh : ∀ op ∈ (ops0 : List (HloOp τ sig (Elt F))), op.fresh = ∅ := by
  intro _ h; (repeat (cases h with | head => rfl | tail _ h => ?_)); exact nomatch h

/-- The buffers the window's operations write. -/
abbrev ops0_W : List (Ref sig .tc) := [main_v0, main_v1, main_v2, main_v3, main_v4, main_v5, main_v6, main_v7, main_v8, main_v9, main_cst, main_v10, main_v11, main_v12, main_v13, main_v14, main_v15, main_v16, main_v17, main_v18, main_cst_0, main_v19, main_cst_1, main_v20, main_v21, main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v22, main_v23, main_v24, main_v25, main_cst_2, main_v26, main_v27, main_v28, main_v29, main_v30, main_v31, main_v32, main_v33, main_v34, main_v35, main_v36, main_v37, main_v38, main_v39, main_v40, main_v41, main_v42, main_cst_3, main_v43, main_cst_4, main_v44, main_v45, main_v46, main_cst_5, main_v47, main_v48, main_v49, main_c_6, main_v50]

set_option maxRecDepth 8192 in
set_option maxHeartbeats 4000000 in
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem ops0_keep (V : Valuation τ sig (Elt F)) (r : Ref sig .tc) (h : r ∉ ops0_W) :
    after ops0 V (Proc.devRef .tc r) = V (Proc.devRef .tc r) :=
  after_of_writes_sub ops0 V ops0_writes h

end Cert.RefRun

end
-- ==== Proof.RefOps1.lean ====
/- Window 1 of the reference program's @main as a list of its host operations (each call's body over the call's
   own record), the window as the list run in order, and what the list touches and writes. -/
import proofs.«102494_j5102421148167_1_alg».proof.ReferenceIdeal
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of @main's window 1, in order: a call is its function's operations over the call's record. -/
abbrev ops1 : List (HloOp τ sig (Elt F)) :=
  [ StableHlo.binary main_v1 main_v50 main_v51 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v52 (broadcastInDim S800000 ![] bcast_S_S800000 : (⟨S_, .i32⟩ : BufTy).Contents (Elt F) → (⟨S800000, .i32⟩ : BufTy).Contents (Elt F)),
    StableHlo.binary main_v1 main_v52 main_v53 (addi : (⟨S800000, .i32⟩ : BufTy).Contents (Elt F) → (⟨S800000, .i32⟩ : BufTy).Contents (Elt F) → (⟨S800000, .i32⟩ : BufTy).Contents (Elt F)),
    StableHlo.ternary main_v51 main_v53 main_v1 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v54 main_v55 (broadcastInDim S800000x1 ![0] bcast_S800000_S800000x1_0 : (⟨S800000, .i32⟩ : BufTy).Contents (Elt F) → (⟨S800000x1, .i32⟩ : BufTy).Contents (Elt F)),
    StableHlo.binary main_v49 main_v55 main_v56 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_8 (constantI S_ 32 0#32),
    StableHlo.unary main_c_8 main_v57 (broadcastInDim S800000 ![] bcast_S_S800000 : (⟨S_, .i32⟩ : BufTy).Contents (Elt F) → (⟨S800000, .i32⟩ : BufTy).Contents (Elt F)),
    StableHlo.binary main_v3 main_v57 main_v58 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v59 (broadcastInDim S800000 ![] bcast_S_S800000 : (⟨S_, .i32⟩ : BufTy).Contents (Elt F) → (⟨S800000, .i32⟩ : BufTy).Contents (Elt F)),
    StableHlo.binary main_v3 main_v59 main_v60 (addi : (⟨S800000, .i32⟩ : BufTy).Contents (Elt F) → (⟨S800000, .i32⟩ : BufTy).Contents (Elt F) → (⟨S800000, .i32⟩ : BufTy).Contents (Elt F)),
    StableHlo.ternary main_v58 main_v60 main_v3 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v61 main_v62 (broadcastInDim S800000x1 ![0] bcast_S800000_S800000x1_0 : (⟨S800000, .i32⟩ : BufTy).Contents (Elt F) → (⟨S800000x1, .i32⟩ : BufTy).Contents (Elt F)),
    StableHlo.binary main_v49 main_v62 main_v63 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v56 main_v63 main_v64 (mulf : (⟨S800000, .f32⟩ : BufTy).Contents (Elt F) → (⟨S800000, .f32⟩ : BufTy).Contents (Elt F) → (⟨S800000, .f32⟩ : BufTy).Contents (Elt F)),
    StableHlo.nullary main_c_10 (constantI S_ 32 0#32),
    StableHlo.unary main_c_10 main_v65 (broadcastInDim S800000 ![] bcast_S_S800000 : (⟨S_, .i32⟩ : BufTy).Contents (Elt F) → (⟨S800000, .i32⟩ : BufTy).Contents (Elt F)),
    StableHlo.binary main_v1 main_v65 main_v66 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v67 (broadcastInDim S800000 ![] bcast_S_S800000 : (⟨S_, .i32⟩ : BufTy).Contents (Elt F) → (⟨S800000, .i32⟩ : BufTy).Contents (Elt F)),
    StableHlo.binary main_v1 main_v67 main_v68 (addi : (⟨S800000, .i32⟩ : BufTy).Contents (Elt F) → (⟨S800000, .i32⟩ : BufTy).Contents (Elt F) → (⟨S800000, .i32⟩ : BufTy).Contents (Elt F)),
    StableHlo.ternary main_v66 main_v68 main_v1 main_v69 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v69 main_v70 (broadcastInDim S800000x1 ![0] bcast_S800000_S800000x1_0 : (⟨S800000, .i32⟩ : BufTy).Contents (Elt F) → (⟨S800000x1, .i32⟩ : BufTy).Contents (Elt F)),
    StableHlo.binary main_v42 main_v70 main_v71 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v64 main_v72 (broadcastInDim S800000x1 ![0] bcast_S800000_S800000x1_0 : (⟨S800000, .f32⟩ : BufTy).Contents (Elt F) → (⟨S800000x1, .f32⟩ : BufTy).Contents (Elt F)),
    StableHlo.unary main_v72 main_v73 (broadcastInDim S800000x128 ![0, 1] bcast_S800000x1_S800000x128_0_1 : (⟨S800000x1, .f32⟩ : BufTy).Contents (Elt F) → (⟨S800000x128, .f32⟩ : BufTy).Contents (Elt F)),
    StableHlo.binary main_v71 main_v73 main_v74 (mulf : (⟨S800000x128, .f32⟩ : BufTy).Contents (Elt F) → (⟨S800000x128, .f32⟩ : BufTy).Contents (Elt F) → (⟨S800000x128, .f32⟩ : BufTy).Contents (Elt F)),
    StableHlo.nullary main_cst_12 (constant S_ .f32 0x00000000#32),
    StableHlo.unary main_cst_12 main_v75 (broadcastInDim S50000x128 ![] bcast_S_S50000x128 : (⟨S_, .f32⟩ : BufTy).Contents (Elt F) → (⟨S50000x128, .f32⟩ : BufTy).Contents (Elt F)),
    StableHlo.unary main_v3 main_v76 (broadcastInDim S800000x1 ![0] bcast_S800000_S800000x1_0 : (⟨S800000, .i32⟩ : BufTy).Contents (Elt F) → (⟨S800000x1, .i32⟩ : BufTy).Contents (Elt F)),
    StableHlo.ternary main_v75 main_v76 main_v74 main_v77 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v49 main_v49 main_v78 (mulf : (⟨S50000, .f32⟩ : BufTy).Contents (Elt F) → (⟨S50000, .f32⟩ : BufTy).Contents (Elt F) → (⟨S50000, .f32⟩ : BufTy).Contents (Elt F)),
    StableHlo.unary main_v78 main_v79 (broadcastInDim S50000x1 ![0] bcast_S50000_S50000x1_0 : (⟨S50000, .f32⟩ : BufTy).Contents (Elt F) → (⟨S50000x1, .f32⟩ : BufTy).Contents (Elt F)),
    StableHlo.unary main_v79 main_v80 (broadcastInDim S50000x128 ![0, 1] bcast_S50000x1_S50000x128_0_1 : (⟨S50000x1, .f32⟩ : BufTy).Contents (Elt F) → (⟨S50000x128, .f32⟩ : BufTy).Contents (Elt F)),
    StableHlo.binary main_v42 main_v80 main_v81 (mulf : (⟨S50000x128, .f32⟩ : BufTy).Contents (Elt F) → (⟨S50000x128, .f32⟩ : BufTy).Contents (Elt F) → (⟨S50000x128, .f32⟩ : BufTy).Contents (Elt F)),
    StableHlo.binary main_v77 main_v81 main_v82 (addf : (⟨S50000x128, .f32⟩ : BufTy).Contents (Elt F) → (⟨S50000x128, .f32⟩ : BufTy).Contents (Elt F) → (⟨S50000x128, .f32⟩ : BufTy).Contents (Elt F)),
    StableHlo.unary main_v41 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v84 main_v85 (addf : (⟨S50000x128, .f32⟩ : BufTy).Contents (Elt F) → (⟨S50000x128, .f32⟩ : BufTy).Contents (Elt F) → (⟨S50000x128, .f32⟩ : BufTy).Contents (Elt F)),
    StableHlo.unary main_arg10 main_v86 ((extractStridedSlice S1 ![0] · slices_S3_S1_0) : (⟨S3, .f32⟩ : BufTy).Contents (Elt F) → (⟨S1, .f32⟩ : BufTy).Contents (Elt F)),
    StableHlo.reshape main_v86 main_v87 rfl shapeCasts_S1_S_,
    StableHlo.nullary main_cst_13 (constant S_ .f32 0x00000000#32),
    StableHlo.unary main_cst_13 main_v88 (broadcastInDim S50000x128 ![] bcast_S_S50000x128 : (⟨S_, .f32⟩ : BufTy).Contents (Elt F) → (⟨S50000x128, .f32⟩ : BufTy).Contents (Elt F)),
    StableHlo.binary main_v85 main_v88 main_v89 (cmpf .oge : (⟨S50000x128, .f32⟩ : BufTy).Contents (Elt F) → (⟨S50000x128, .f32⟩ : BufTy).Contents (Elt F) → (⟨S50000x128, .i1⟩ : BufTy).Contents (Elt F)),
    StableHlo.unary main_v87 main_v90 (broadcastInDim S50000x128 ![] bcast_S_S50000x128 : (⟨S_, .f32⟩ : BufTy).Contents (Elt F) → (⟨S50000x128, .f32⟩ : BufTy).Contents (Elt F)),
    StableHlo.binary main_v90 main_v85 main_v91 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v89 : StableHlo.TRef sig ⟨S50000x128, .i1⟩) (.of main_v85 : StableHlo.TRef sig ⟨S50000x128, .f32⟩) (.of main_v91 : StableHlo.TRef sig ⟨S50000x128, .f32⟩) main_call2.v0 select,
    StableHlo.unary main_arg11 main_v93 ((extractStridedSlice S1x128x64 ![0, 0, 0] · slices_S3x128x64_S1x128x64_0_0_0) : (⟨S3x128x64, .f32⟩ : BufTy).Contents (Elt F) → (⟨S1x128x64, .f32⟩ : BufTy).Contents (Elt F)),
    StableHlo.reshape main_v93 main_v94 rfl shapeCasts_S1x128x64_S128x64,
    StableHlo.unary main_arg12 main_v95 ((extractStridedSlice S1x64 ![0, 0] · slices_S3x64_S1x64_0_0) : (⟨S3x64, .f32⟩ : BufTy).Contents (Elt F) → (⟨S1x64, .f32⟩ : BufTy).Contents (Elt F)),
    StableHlo.reshape main_v95 main_v96 rfl shapeCasts_S1x64_S64,
    StableHlo.binary main_v92 main_v94 main_v97 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_cst_14 (constant S_ .f32 0x3F800000#32),
    StableHlo.unary main_cst_14 main_v98 (broadcastInDim S800000 ![] bcast_S_S800000 : (⟨S_, .f32⟩ : BufTy).Contents (Elt F) → (⟨S800000, .f32⟩ : BufTy).Contents (Elt F)),
    StableHlo.nullary main_cst_15 (constant S_ .f32 0x00000000#32),
    StableHlo.unary main_cst_15 main_v99 (broadcastInDim S50000 ![] bcast_S_S50000 : (⟨S_, .f32⟩ : BufTy).Contents (Elt F) → (⟨S50000, .f32⟩ : BufTy).Contents (Elt F)),
    StableHlo.unary main_v3 main_v100 (broadcastInDim S800000x1 ![0] bcast_S800000_S800000x1_0 : (⟨S800000, .i32⟩ : BufTy).Contents (Elt F) → (⟨S800000x1, .i32⟩ : BufTy).Contents (Elt F)),
    StableHlo.ternary main_v99 main_v100 main_v98 main_v101 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ]

set_option maxRecDepth 8192 in
set_option maxHeartbeats 4000000 in
/-- The window is that straight line: the called functions unfold at their calls, and sequencing reassociates. -/
theorem part1_eq (c : Dev nD) : main_part1 (F := F) c = seq ops1 := by
  simp only [main_part1, fn_where_1.body, seq, bind_assoc, pure_bind] <;> rfl

set_option maxRecDepth 8192 in
theorem ops1_sub : (ops1 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., reshape_bufs_sub .., nullary_bufs_sub .., unary_bufs_sub .., binary_bufs_sub .., unary_bufs_sub .., binary_bufs_sub .., ternary_bufs_sub .., unary_bufs_sub .., reshape_bufs_sub .., unary_bufs_sub .., reshape_bufs_sub .., binary_bufs_sub .., nullary_bufs_sub .., unary_bufs_sub .., nullary_bufs_sub .., unary_bufs_sub .., unary_bufs_sub .., ternary_bufs_sub ..⟩

set_option maxRecDepth 8192 in
set_option maxHeartbeats 4000000 in
/-- Every operation determines its results. -/
theorem ops1_fresh : ∀ op ∈ (ops1 : List (HloOp τ sig (Elt F))), op.fresh = ∅ := by
  intro _ h; (repeat (cases h with | head => rfl | tail _ h => ?_)); exact nomatch h

/-- The buffers the window's operations write. -/
abbrev ops1_W : List (Ref sig .tc) := [main_v51, main_c_7, main_v52, main_v53, main_v54, main_v55, main_v56, main_c_8, main_v57, main_v58, main_c_9, main_v59, main_v60, main_v61, main_v62, main_v63, main_v64, main_c_10, main_v65, main_v66, main_c_11, main_v67, main_v68, main_v69, main_v70, main_v71, main_v72, main_v73, main_v74, main_cst_12, main_v75, main_v76, main_v77, main_v78, main_v79, main_v80, main_v81, main_v82, main_v83, main_v84, main_v85, main_v86, main_v87, main_cst_13, main_v88, main_v89, main_v90, main_v91, main_v92, main_v93, main_v94, main_v95, main_v96, main_v97, main_cst_14, main_v98, main_cst_15, main_v99, main_v100, main_v101]

set_option maxRecDepth 8192 in
set_option maxHeartbeats 4000000 in
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem ops1_keep (V : Valuation τ sig (Elt F)) (r : Ref sig .tc) (h : r ∉ ops1_W) :
    after ops1 V (Proc.devRef .tc r) = V (Proc.devRef .tc r) :=
  after_of_writes_sub ops1 V ops1_writes h

end Cert.RefRun

end
-- ==== Proof.RefOps2.lean ====
/- Window 2 of the reference program's @main as a list of its host operations (each call's body over the call's
   own record), the window as the list run in order, and what the list touches and writes. -/
import proofs.«102494_j5102421148167_1_alg».proof.ReferenceIdeal
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of @main's window 2, in order: a call is its function's operations over the call's record. -/
abbrev ops2 : List (HloOp τ sig (Elt F)) :=
  [ StableHlo.nullary main_cst_16 (constant S_ .f32 0x3F800000#32),
    StableHlo.unary main_cst_16 main_v102 (broadcastInDim S50000 ![] bcast_S_S50000 : (⟨S_, .f32⟩ : BufTy).Contents (Elt F) → (⟨S50000, .f32⟩ : BufTy).Contents (Elt F)),
    StableHlo.binary main_v101 main_v102 main_v103 (addf : (⟨S50000, .f32⟩ : BufTy).Contents (Elt F) → (⟨S50000, .f32⟩ : BufTy).Contents (Elt F) → (⟨S50000, .f32⟩ : BufTy).Contents (Elt F)),
    StableHlo.unary main_v103 main_v104 (Host.rsqrt : (⟨S50000, .f32⟩ : BufTy).Contents (Elt F) → (⟨S50000, .f32⟩ : BufTy).Contents (Elt F)),
    StableHlo.nullary main_c_17 (constantI S_ 32 0#32),
    StableHlo.unary main_c_17 main_v105 (broadcastInDim S800000 ![] bcast_S_S800000 : (⟨S_, .i32⟩ : BufTy).Contents (Elt F) → (⟨S800000, .i32⟩ : BufTy).Contents (Elt F)),
    StableHlo.binary main_v1 main_v105 main_v106 (cmpi .slt : (⟨S800000, .i32⟩ : BufTy).Contents (Elt F) → (⟨S800000, .i32⟩ : BufTy).Contents (Elt F) → (⟨S800000, .i1⟩ : BufTy).Contents (Elt F)),
    StableHlo.nullary main_c_18 (constantI S_ 32 50000#32),
    StableHlo.unary main_c_18 main_v107 (broadcastInDim S800000 ![] bcast_S_S800000 : (⟨S_, .i32⟩ : BufTy).Contents (Elt F) → (⟨S800000, .i32⟩ : BufTy).Contents (Elt F)),
    StableHlo.binary main_v1 main_v107 main_v108 (addi : (⟨S800000, .i32⟩ : BufTy).Contents (Elt F) → (⟨S800000, .i32⟩ : BufTy).Contents (Elt F) → (⟨S800000, .i32⟩ : BufTy).Contents (Elt F)),
    StableHlo.ternary main_v106 main_v108 main_v1 main_v109 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v109 main_v110 (broadcastInDim S800000x1 ![0] bcast_S800000_S800000x1_0 : (⟨S800000, .i32⟩ : BufTy).Contents (Elt F) → (⟨S800000x1, .i32⟩ : BufTy).Contents (Elt F)),
    StableHlo.binary main_v104 main_v110 main_v111 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_19 (constantI S_ 32 0#32),
    StableHlo.unary main_c_19 main_v112 (broadcastInDim S800000 ![] bcast_S_S800000 : (⟨S_, .i32⟩ : BufTy).Contents (Elt F) → (⟨S800000, .i32⟩ : BufTy).Contents (Elt F)),
    StableHlo.binary main_v3 main_v112 main_v113 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v114 (broadcastInDim S800000 ![] bcast_S_S800000 : (⟨S_, .i32⟩ : BufTy).Contents (Elt F) → (⟨S800000, .i32⟩ : BufTy).Contents (Elt F)),
    StableHlo.binary main_v3 main_v114 main_v115 (addi : (⟨S800000, .i32⟩ : BufTy).Contents (Elt F) → (⟨S800000, .i32⟩ : BufTy).Contents (Elt F) → (⟨S800000, .i32⟩ : BufTy).Contents (Elt F)),
    StableHlo.ternary main_v113 main_v115 main_v3 main_v116 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v116 main_v117 (broadcastInDim S800000x1 ![0] bcast_S800000_S800000x1_0 : (⟨S800000, .i32⟩ : BufTy).Contents (Elt F) → (⟨S800000x1, .i32⟩ : BufTy).Contents (Elt F)),
    StableHlo.binary main_v104 main_v117 main_v118 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v111 main_v118 main_v119 (mulf : (⟨S800000, .f32⟩ : BufTy).Contents (Elt F) → (⟨S800000, .f32⟩ : BufTy).Contents (Elt F) → (⟨S800000, .f32⟩ : BufTy).Contents (Elt F)),
    StableHlo.nullary main_c_21 (constantI S_ 32 0#32),
    StableHlo.unary main_c_21 main_v120 (broadcastInDim S800000 ![] bcast_S_S800000 : (⟨S_, .i32⟩ : BufTy).Contents (Elt F) → (⟨S800000, .i32⟩ : BufTy).Contents (Elt F)),
    StableHlo.binary main_v1 main_v120 main_v121 (cmpi .slt : (⟨S800000, .i32⟩ : BufTy).Contents (Elt F) → (⟨S800000, .i32⟩ : BufTy).Contents (Elt F) → (⟨S800000, .i1⟩ : BufTy).Contents (Elt F)),
    StableHlo.nullary main_c_22 (constantI S_ 32 50000#32),
    StableHlo.unary main_c_22 main_v122 (broadcastInDim S800000 ![] bcast_S_S800000 : (⟨S_, .i32⟩ : BufTy).Contents (Elt F) → (⟨S800000, .i32⟩ : BufTy).Contents (Elt F)),
    StableHlo.binary main_v1 main_v122 main_v123 (addi : (⟨S800000, .i32⟩ : BufTy).Contents (Elt F) → (⟨S800000, .i32⟩ : BufTy).Contents (Elt F) → (⟨S800000, .i32⟩ : BufTy).Contents (Elt F)),
    StableHlo.ternary main_v121 main_v123 main_v1 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v124 main_v125 (broadcastInDim S800000x1 ![0] bcast_S800000_S800000x1_0 : (⟨S800000, .i32⟩ : BufTy).Contents (Elt F) → (⟨S800000x1, .i32⟩ : BufTy).Contents (Elt F)),
    StableHlo.binary main_v97 main_v125 main_v126 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v119 main_v127 (broadcastInDim S800000x1 ![0] bcast_S800000_S800000x1_0 : (⟨S800000, .f32⟩ : BufTy).Contents (Elt F) → (⟨S800000x1, .f32⟩ : BufTy).Contents (Elt F)),
    StableHlo.unary main_v127 main_v128 (broadcastInDim S800000x64 ![0, 1] bcast_S800000x1_S800000x64_0_1 : (⟨S800000x1, .f32⟩ : BufTy).Contents (Elt F) → (⟨S800000x64, .f32⟩ : BufTy).Contents (Elt F)),
    StableHlo.binary main_v126 main_v128 main_v129 (mulf : (⟨S800000x64, .f32⟩ : BufTy).Contents (Elt F) → (⟨S800000x64, .f32⟩ : BufTy).Contents (Elt F) → (⟨S800000x64, .f32⟩ : BufTy).Contents (Elt F)),
    StableHlo.nullary main_cst_23 (constant S_ .f32 0x00000000#32),
    StableHlo.unary main_cst_23 main_v130 (broadcastInDim S50000x64 ![] bcast_S_S50000x64 : (⟨S_, .f32⟩ : BufTy).Contents (Elt F) → (⟨S50000x64, .f32⟩ : BufTy).Contents (Elt F)),
    StableHlo.unary main_v3 main_v131 (broadcastInDim S800000x1 ![0] bcast_S800000_S800000x1_0 : (⟨S800000, .i32⟩ : BufTy).Contents (Elt F) → (⟨S800000x1, .i32⟩ : BufTy).Contents (Elt F)),
    StableHlo.ternary main_v130 main_v131 main_v129 main_v132 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v104 main_v104 main_v133 (mulf : (⟨S50000, .f32⟩ : BufTy).Contents (Elt F) → (⟨S50000, .f32⟩ : BufTy).Contents (Elt F) → (⟨S50000, .f32⟩ : BufTy).Contents (Elt F)),
    StableHlo.unary main_v133 main_v134 (broadcastInDim S50000x1 ![0] bcast_S50000_S50000x1_0 : (⟨S50000, .f32⟩ : BufTy).Contents (Elt F) → (⟨S50000x1, .f32⟩ : BufTy).Contents (Elt F)),
    StableHlo.unary main_v134 main_v135 (broadcastInDim S50000x64 ![0, 1] bcast_S50000x1_S50000x64_0_1 : (⟨S50000x1, .f32⟩ : BufTy).Contents (Elt F) → (⟨S50000x64, .f32⟩ : BufTy).Contents (Elt F)),
    StableHlo.binary main_v97 main_v135 main_v136 (mulf : (⟨S50000x64, .f32⟩ : BufTy).Contents (Elt F) → (⟨S50000x64, .f32⟩ : BufTy).Contents (Elt F) → (⟨S50000x64, .f32⟩ : BufTy).Contents (Elt F)),
    StableHlo.binary main_v132 main_v136 main_v137 (addf : (⟨S50000x64, .f32⟩ : BufTy).Contents (Elt F) → (⟨S50000x64, .f32⟩ : BufTy).Contents (Elt F) → (⟨S50000x64, .f32⟩ : BufTy).Contents (Elt F)),
    StableHlo.unary main_v96 main_v138 (broadcastInDim S1x64 ![1] bcast_S64_S1x64_1 : (⟨S64, .f32⟩ : BufTy).Contents (Elt F) → (⟨S1x64, .f32⟩ : BufTy).Contents (Elt F)),
    StableHlo.unary main_v138 main_v139 (broadcastInDim S50000x64 ![0, 1] bcast_S1x64_S50000x64_0_1 : (⟨S1x64, .f32⟩ : BufTy).Contents (Elt F) → (⟨S50000x64, .f32⟩ : BufTy).Contents (Elt F)),
    StableHlo.binary main_v137 main_v139 main_v140 (addf : (⟨S50000x64, .f32⟩ : BufTy).Contents (Elt F) → (⟨S50000x64, .f32⟩ : BufTy).Contents (Elt F) → (⟨S50000x64, .f32⟩ : BufTy).Contents (Elt F)),
    StableHlo.unary main_arg5 main_v141 ((extractStridedSlice S1 ![1] · slices_S3_S1_1) : (⟨S3, .f32⟩ : BufTy).Contents (Elt F) → (⟨S1, .f32⟩ : BufTy).Contents (Elt F)),
    StableHlo.reshape main_v141 main_v142 rfl shapeCasts_S1_S_,
    StableHlo.nullary main_cst_24 (constant S_ .f32 0x00000000#32),
    StableHlo.unary main_cst_24 main_v143 (broadcastInDim S50000x64 ![] bcast_S_S50000x64 : (⟨S_, .f32⟩ : BufTy).Contents (Elt F) → (⟨S50000x64, .f32⟩ : BufTy).Contents (Elt F)),
    StableHlo.binary main_v140 main_v143 main_v144 (cmpf .oge : (⟨S50000x64, .f32⟩ : BufTy).Contents (Elt F) → (⟨S50000x64, .f32⟩ : BufTy).Contents (Elt F) → (⟨S50000x64, .i1⟩ : BufTy).Contents (Elt F)),
    StableHlo.unary main_v142 main_v145 (broadcastInDim S50000x64 ![] bcast_S_S50000x64 : (⟨S_, .f32⟩ : BufTy).Contents (Elt F) → (⟨S50000x64, .f32⟩ : BufTy).Contents (Elt F)),
    StableHlo.binary main_v145 main_v140 main_v146 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v144 : StableHlo.TRef sig ⟨S50000x64, .i1⟩) (.of main_v140 : StableHlo.TRef sig ⟨S50000x64, .f32⟩) (.of main_v146 : StableHlo.TRef sig ⟨S50000x64, .f32⟩) main_call3.v0 select,
    StableHlo.unary main_arg6 main_v148 ((extractStridedSlice S1x64 ![1, 0] · slices_S3x64_S1x64_1_0) : (⟨S3x64, .f32⟩ : BufTy).Contents (Elt F) → (⟨S1x64, .f32⟩ : BufTy).Contents (Elt F)),
    StableHlo.reshape main_v148 main_v149 rfl shapeCasts_S1x64_S64,
    StableHlo.unary main_arg7 main_v150 ((extractStridedSlice S1x64 ![1, 0] · slices_S3x64_S1x64_1_0) : (⟨S3x64, .f32⟩ : BufTy).Contents (Elt F) → (⟨S1x64, .f32⟩ : BufTy).Contents (Elt F)),
    StableHlo.reshape main_v150 main_v151 rfl shapeCasts_S1x64_S64,
    StableHlo.nullary main_cst_25 (constant S_ .f32 0x00000000#32) ]

set_option maxRecDepth 8192 in
set_option maxHeartbeats 4000000 in
/-- The window is that straight line: the called functions unfold at their calls, and sequencing reassociates. -/
theorem part2_eq (c : Dev nD) : main_part2 (F := F) c = seq ops2 := by
  simp only [main_part2, fn_where.body, seq, bind_assoc, pure_bind] <;> rfl

set_option maxRecDepth 8192 in
theorem ops2_sub : (ops2 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., reshape_bufs_sub .., nullary_bufs_sub .., unary_bufs_sub .., binary_bufs_sub .., unary_bufs_sub .., binary_bufs_sub .., ternary_bufs_sub .., unary_bufs_sub .., reshape_bufs_sub .., unary_bufs_sub .., reshape_bufs_sub .., nullary_bufs_sub ..⟩

set_option maxRecDepth 8192 in
set_option maxHeartbeats 4000000 in
/-- Every operation determines its results. -/
theorem ops2_fresh : ∀ op ∈ (ops2 : List (HloOp τ sig (Elt F))), op.fresh = ∅ := by
  intro _ h; (repeat (cases h with | head => rfl | tail _ h => ?_)); exact nomatch h

/-- The buffers the window's operations write. -/
abbrev ops2_W : List (Ref sig .tc) := [main_cst_16, main_v102, main_v103, main_v104, main_c_17, main_v105, main_v106, main_c_18, main_v107, main_v108, main_v109, main_v110, main_v111, main_c_19, main_v112, main_v113, main_c_20, main_v114, main_v115, main_v116, main_v117, main_v118, main_v119, main_c_21, main_v120, main_v121, main_c_22, main_v122, main_v123, main_v124, main_v125, main_v126, main_v127, main_v128, main_v129, main_cst_23, main_v130, main_v131, main_v132, main_v133, main_v134, main_v135, main_v136, main_v137, main_v138, main_v139, main_v140, main_v141, main_v142, main_cst_24, main_v143, main_v144, main_v145, main_v146, main_v147, main_v148, main_v149, main_v150, main_v151, main_cst_25]

set_option maxRecDepth 8192 in
set_option maxHeartbeats 4000000 in
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem ops2_keep (V : Valuation τ sig (Elt F)) (r : Ref sig .tc) (h : r ∉ ops2_W) :
    after ops2 V (Proc.devRef .tc r) = V (Proc.devRef .tc r) :=
  after_of_writes_sub ops2 V ops2_writes h

end Cert.RefRun

end
-- ==== Proof.RefOps3.lean ====
/- Window 3 of the reference program's @main as a list of its host operations (each call's body over the call's
   own record), the window as the list run in order, and what the list touches and writes. -/
import proofs.«102494_j5102421148167_1_alg».proof.ReferenceIdeal
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of @main's window 3, in order: a call is its function's operations over the call's record. -/
abbrev ops3 : List (HloOp τ sig (Elt F)) :=
  [ StableHlo.binary main_v147 main_cst_25 main_v152 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_26 (constant S_ .f32 0x47435000#32),
    StableHlo.unary main_cst_26 main_v153 (broadcastInDim S64 ![] bcast_S_S64 : (⟨S_, .f32⟩ : BufTy).Contents (Elt F) → (⟨S64, .f32⟩ : BufTy).Contents (Elt F)),
    StableHlo.binary main_v152 main_v153 main_v154 (Host.divf : (⟨S64, .f32⟩ : BufTy).Contents (Elt F) → (⟨S64, .f32⟩ : BufTy).Contents (Elt F) → (⟨S64, .f32⟩ : BufTy).Contents (Elt F)),
    StableHlo.nullary main_c_27 (constantI S_ 32 0#32),
    StableHlo.TRef.nullary main_call4.cst (constant S_ .f32 0x00000000#32),
    StableHlo.TRef.binary (.of main_v147 : StableHlo.TRef sig ⟨S50000x64, .f32⟩) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v147 : StableHlo.TRef sig ⟨S50000x64, .f32⟩) main_call4.v4 main_call4.v5 subf,
    StableHlo.TRef.binary main_call4.v5 main_call4.v5 main_call4.v6 mulf,
    StableHlo.TRef.unary (.of main_c_27 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v154 main_v156 (broadcastInDim S1x64 ![1] bcast_S64_S1x64_1 : (⟨S64, .f32⟩ : BufTy).Contents (Elt F) → (⟨S1x64, .f32⟩ : BufTy).Contents (Elt F)),
    StableHlo.unary main_v156 main_v157 (broadcastInDim S50000x64 ![0, 1] bcast_S1x64_S50000x64_0_1 : (⟨S1x64, .f32⟩ : BufTy).Contents (Elt F) → (⟨S50000x64, .f32⟩ : BufTy).Contents (Elt F)),
    StableHlo.binary main_v147 main_v157 main_v158 (subf : (⟨S50000x64, .f32⟩ : BufTy).Contents (Elt F) → (⟨S50000x64, .f32⟩ : BufTy).Contents (Elt F) → (⟨S50000x64, .f32⟩ : BufTy).Contents (Elt F)),
    StableHlo.nullary main_cst_28 (constant S_ .f32 0x3727C5AC#32),
    StableHlo.unary main_cst_28 main_v159 (broadcastInDim S64 ![] bcast_S_S64 : (⟨S_, .f32⟩ : BufTy).Contents (Elt F) → (⟨S64, .f32⟩ : BufTy).Contents (Elt F)),
    StableHlo.binary main_v155 main_v159 main_v160 (addf : (⟨S64, .f32⟩ : BufTy).Contents (Elt F) → (⟨S64, .f32⟩ : BufTy).Contents (Elt F) → (⟨S64, .f32⟩ : BufTy).Contents (Elt F)),
    StableHlo.unary main_v160 main_v161 (Host.rsqrt : (⟨S64, .f32⟩ : BufTy).Contents (Elt F) → (⟨S64, .f32⟩ : BufTy).Contents (Elt F)),
    StableHlo.unary main_v161 main_v162 (broadcastInDim S1x64 ![1] bcast_S64_S1x64_1 : (⟨S64, .f32⟩ : BufTy).Contents (Elt F) → (⟨S1x64, .f32⟩ : BufTy).Contents (Elt F)),
    StableHlo.unary main_v162 main_v163 (broadcastInDim S50000x64 ![0, 1] bcast_S1x64_S50000x64_0_1 : (⟨S1x64, .f32⟩ : BufTy).Contents (Elt F) → (⟨S50000x64, .f32⟩ : BufTy).Contents (Elt F)),
    StableHlo.binary main_v158 main_v163 main_v164 (mulf : (⟨S50000x64, .f32⟩ : BufTy).Contents (Elt F) → (⟨S50000x64, .f32⟩ : BufTy).Contents (Elt F) → (⟨S50000x64, .f32⟩ : BufTy).Contents (Elt F)),
    StableHlo.unary main_v149 main_v165 (broadcastInDim S1x64 ![1] bcast_S64_S1x64_1 : (⟨S64, .f32⟩ : BufTy).Contents (Elt F) → (⟨S1x64, .f32⟩ : BufTy).Contents (Elt F)),
    StableHlo.unary main_v165 main_v166 (broadcastInDim S50000x64 ![0, 1] bcast_S1x64_S50000x64_0_1 : (⟨S1x64, .f32⟩ : BufTy).Contents (Elt F) → (⟨S50000x64, .f32⟩ : BufTy).Contents (Elt F)),
    StableHlo.binary main_v164 main_v166 main_v167 (mulf : (⟨S50000x64, .f32⟩ : BufTy).Contents (Elt F) → (⟨S50000x64, .f32⟩ : BufTy).Contents (Elt F) → (⟨S50000x64, .f32⟩ : BufTy).Contents (Elt F)),
    StableHlo.unary main_v151 main_v168 (broadcastInDim S1x64 ![1] bcast_S64_S1x64_1 : (⟨S64, .f32⟩ : BufTy).Contents (Elt F) → (⟨S1x64, .f32⟩ : BufTy).Contents (Elt F)),
    StableHlo.unary main_v168 main_v169 (broadcastInDim S50000x64 ![0, 1] bcast_S1x64_S50000x64_0_1 : (⟨S1x64, .f32⟩ : BufTy).Contents (Elt F) → (⟨S50000x64, .f32⟩ : BufTy).Contents (Elt F)),
    StableHlo.binary main_v167 main_v169 main_v170 (addf : (⟨S50000x64, .f32⟩ : BufTy).Contents (Elt F) → (⟨S50000x64, .f32⟩ : BufTy).Contents (Elt F) → (⟨S50000x64, .f32⟩ : BufTy).Contents (Elt F)),
    StableHlo.unary main_arg8 main_v171 ((extractStridedSlice S1x64x128 ![1, 0, 0] · slices_S3x64x128_S1x64x128_1_0_0) : (⟨S3x64x128, .f32⟩ : BufTy).Contents (Elt F) → (⟨S1x64x128, .f32⟩ : BufTy).Contents (Elt F)),
    StableHlo.reshape main_v171 main_v172 rfl shapeCasts_S1x64x128_S64x128,
    StableHlo.unary main_arg9 main_v173 ((extractStridedSlice S1x128 ![1, 0] · slices_S3x128_S1x128_1_0) : (⟨S3x128, .f32⟩ : BufTy).Contents (Elt F) → (⟨S1x128, .f32⟩ : BufTy).Contents (Elt F)),
    StableHlo.reshape main_v173 main_v174 rfl shapeCasts_S1x128_S128,
    StableHlo.binary main_v170 main_v172 main_v175 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.nullary main_cst_29 (constant S_ .f32 0x3F800000#32),
    StableHlo.unary main_cst_29 main_v176 (broadcastInDim S800000 ![] bcast_S_S800000 : (⟨S_, .f32⟩ : BufTy).Contents (Elt F) → (⟨S800000, .f32⟩ : BufTy).Contents (Elt F)),
    StableHlo.nullary main_cst_30 (constant S_ .f32 0x00000000#32),
    StableHlo.unary main_cst_30 main_v177 (broadcastInDim S50000 ![] bcast_S_S50000 : (⟨S_, .f32⟩ : BufTy).Contents (Elt F) → (⟨S50000, .f32⟩ : BufTy).Contents (Elt F)),
    StableHlo.unary main_v3 main_v178 (broadcastInDim S800000x1 ![0] bcast_S800000_S800000x1_0 : (⟨S800000, .i32⟩ : BufTy).Contents (Elt F) → (⟨S800000x1, .i32⟩ : BufTy).Contents (Elt F)),
    StableHlo.ternary main_v177 main_v178 main_v176 main_v179 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_31 (constant S_ .f32 0x3F800000#32),
    StableHlo.unary main_cst_31 main_v180 (broadcastInDim S50000 ![] bcast_S_S50000 : (⟨S_, .f32⟩ : BufTy).Contents (Elt F) → (⟨S50000, .f32⟩ : BufTy).Contents (Elt F)),
    StableHlo.binary main_v179 main_v180 main_v181 (addf : (⟨S50000, .f32⟩ : BufTy).Contents (Elt F) → (⟨S50000, .f32⟩ : BufTy).Contents (Elt F) → (⟨S50000, .f32⟩ : BufTy).Contents (Elt F)),
    StableHlo.unary main_v181 main_v182 (Host.rsqrt : (⟨S50000, .f32⟩ : BufTy).Contents (Elt F) → (⟨S50000, .f32⟩ : BufTy).Contents (Elt F)),
    StableHlo.nullary main_c_32 (constantI S_ 32 0#32),
    StableHlo.unary main_c_32 main_v183 (broadcastInDim S800000 ![] bcast_S_S800000 : (⟨S_, .i32⟩ : BufTy).Contents (Elt F) → (⟨S800000, .i32⟩ : BufTy).Contents (Elt F)),
    StableHlo.binary main_v1 main_v183 main_v184 (cmpi .slt : (⟨S800000, .i32⟩ : BufTy).Contents (Elt F) → (⟨S800000, .i32⟩ : BufTy).Contents (Elt F) → (⟨S800000, .i1⟩ : BufTy).Contents (Elt F)),
    StableHlo.nullary main_c_33 (constantI S_ 32 50000#32),
    StableHlo.unary main_c_33 main_v185 (broadcastInDim S800000 ![] bcast_S_S800000 : (⟨S_, .i32⟩ : BufTy).Contents (Elt F) → (⟨S800000, .i32⟩ : BufTy).Contents (Elt F)),
    StableHlo.binary main_v1 main_v185 main_v186 (addi : (⟨S800000, .i32⟩ : BufTy).Contents (Elt F) → (⟨S800000, .i32⟩ : BufTy).Contents (Elt F) → (⟨S800000, .i32⟩ : BufTy).Contents (Elt F)),
    StableHlo.ternary main_v184 main_v186 main_v1 main_v187 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v187 main_v188 (broadcastInDim S800000x1 ![0] bcast_S800000_S800000x1_0 : (⟨S800000, .i32⟩ : BufTy).Contents (Elt F) → (⟨S800000x1, .i32⟩ : BufTy).Contents (Elt F)),
    StableHlo.binary main_v182 main_v188 main_v189 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_34 (constantI S_ 32 0#32),
    StableHlo.unary main_c_34 main_v190 (broadcastInDim S800000 ![] bcast_S_S800000 : (⟨S_, .i32⟩ : BufTy).Contents (Elt F) → (⟨S800000, .i32⟩ : BufTy).Contents (Elt F)),
    StableHlo.binary main_v3 main_v190 main_v191 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v192 (broadcastInDim S800000 ![] bcast_S_S800000 : (⟨S_, .i32⟩ : BufTy).Contents (Elt F) → (⟨S800000, .i32⟩ : BufTy).Contents (Elt F)),
    StableHlo.binary main_v3 main_v192 main_v193 (addi : (⟨S800000, .i32⟩ : BufTy).Contents (Elt F) → (⟨S800000, .i32⟩ : BufTy).Contents (Elt F) → (⟨S800000, .i32⟩ : BufTy).Contents (Elt F)),
    StableHlo.ternary main_v191 main_v193 main_v3 main_v194 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v194 main_v195 (broadcastInDim S800000x1 ![0] bcast_S800000_S800000x1_0 : (⟨S800000, .i32⟩ : BufTy).Contents (Elt F) → (⟨S800000x1, .i32⟩ : BufTy).Contents (Elt F)),
    StableHlo.binary main_v182 main_v195 main_v196 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v189 main_v196 main_v197 (mulf : (⟨S800000, .f32⟩ : BufTy).Contents (Elt F) → (⟨S800000, .f32⟩ : BufTy).Contents (Elt F) → (⟨S800000, .f32⟩ : BufTy).Contents (Elt F)),
    StableHlo.nullary main_c_36 (constantI S_ 32 0#32),
    StableHlo.unary main_c_36 main_v198 (broadcastInDim S800000 ![] bcast_S_S800000 : (⟨S_, .i32⟩ : BufTy).Contents (Elt F) → (⟨S800000, .i32⟩ : BufTy).Contents (Elt F)),
    StableHlo.binary main_v1 main_v198 main_v199 (cmpi .slt : (⟨S800000, .i32⟩ : BufTy).Contents (Elt F) → (⟨S800000, .i32⟩ : BufTy).Contents (Elt F) → (⟨S800000, .i1⟩ : BufTy).Contents (Elt F)),
    StableHlo.nullary main_c_37 (constantI S_ 32 50000#32) ]

set_option maxRecDepth 8192 in
set_option maxHeartbeats 4000000 in
/-- The window is that straight line: the called functions unfold at their calls, and sequencing reassociates. -/
theorem part3_eq (c : Dev nD) : main_part3 (F := F) c = seq ops3 := by
  simp only [main_part3, fn_var.body, fn_where_0.body, seq, bind_assoc, pure_bind] <;> rfl

set_option maxRecDepth 8192 in
theorem ops3_sub : (ops3 : List (HloOp τ sig (Elt F))).Forall fun op => op.bufs ⊆ tcRefs τ sig :=
  ⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub ..⟩

set_option maxRecDepth 8192 in
set_option maxHeartbeats 4000000 in
/-- Every operation determines its results. -/
theorem ops3_fresh : ∀ op ∈ (ops3 : List (HloOp τ sig (Elt F))), op.fresh = ∅ := by
  intro _ h; (repeat (cases h with | head => rfl | tail _ h => ?_)); exact nomatch h

/-- The buffers the window's operations write. -/
abbrev ops3_W : List (Ref sig .tc) := [main_v152, main_cst_26, main_v153, main_v154, main_c_27, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v155, main_v156, main_v157, main_v158, main_cst_28, main_v159, main_v160, main_v161, main_v162, main_v163, main_v164, main_v165, main_v166, main_v167, main_v168, main_v169, main_v170, main_v171, main_v172, main_v173, main_v174, main_v175, main_cst_29, main_v176, main_cst_30, main_v177, main_v178, main_v179, main_cst_31, main_v180, main_v181, main_v182, main_c_32, main_v183, main_v184, main_c_33, main_v185, main_v186, main_v187, main_v188, main_v189, main_c_34, main_v190, main_v191, main_c_35, main_v192, main_v193, main_v194, main_v195, main_v196, main_v197, main_c_36, main_v198, main_v199, main_c_37]

set_option maxRecDepth 8192 in
set_option maxHeartbeats 4000000 in
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem ops3_keep (V : Valuation τ sig (Elt F)) (r : Ref sig .tc) (h : r ∉ ops3_W) :
    after ops3 V (Proc.devRef .tc r) = V (Proc.devRef .tc r) :=
  after_of_writes_sub ops3 V ops3_writes h

end Cert.RefRun

end
-- ==== Proof.RefOps4.lean ====
/- Window 4 of the reference program's @main as a list of its host operations (each call's body over the call's
   own record), the window as the list run in order, and what the list touches and writes. -/
import proofs.«102494_j5102421148167_1_alg».proof.ReferenceIdeal
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of @main's window 4, in order: a call is its function's operations over the call's record. -/
abbrev ops4 : List (HloOp τ sig (Elt F)) :=
  [ StableHlo.unary main_c_37 main_v200 (broadcastInDim S800000 ![] bcast_S_S800000 : (⟨S_, .i32⟩ : BufTy).Contents (Elt F) → (⟨S800000, .i32⟩ : BufTy).Contents (Elt F)),
    StableHlo.binary main_v1 main_v200 main_v201 (addi : (⟨S800000, .i32⟩ : BufTy).Contents (Elt F) → (⟨S800000, .i32⟩ : BufTy).Contents (Elt F) → (⟨S800000, .i32⟩ : BufTy).Contents (Elt F)),
    StableHlo.ternary main_v199 main_v201 main_v1 main_v202 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v202 main_v203 (broadcastInDim S800000x1 ![0] bcast_S800000_S800000x1_0 : (⟨S800000, .i32⟩ : BufTy).Contents (Elt F) → (⟨S800000x1, .i32⟩ : BufTy).Contents (Elt F)),
    StableHlo.binary main_v175 main_v203 main_v204 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v197 main_v205 (broadcastInDim S800000x1 ![0] bcast_S800000_S800000x1_0 : (⟨S800000, .f32⟩ : BufTy).Contents (Elt F) → (⟨S800000x1, .f32⟩ : BufTy).Contents (Elt F)),
    StableHlo.unary main_v205 main_v206 (broadcastInDim S800000x128 ![0, 1] bcast_S800000x1_S800000x128_0_1 : (⟨S800000x1, .f32⟩ : BufTy).Contents (Elt F) → (⟨S800000x128, .f32⟩ : BufTy).Contents (Elt F)),
    StableHlo.binary main_v204 main_v206 main_v207 (mulf : (⟨S800000x128, .f32⟩ : BufTy).Contents (Elt F) → (⟨S800000x128, .f32⟩ : BufTy).Contents (Elt F) → (⟨S800000x128, .f32⟩ : BufTy).Contents (Elt F)),
    StableHlo.nullary main_cst_38 (constant S_ .f32 0x00000000#32),
    StableHlo.unary main_cst_38 main_v208 (broadcastInDim S50000x128 ![] bcast_S_S50000x128 : (⟨S_, .f32⟩ : BufTy).Contents (Elt F) → (⟨S50000x128, .f32⟩ : BufTy).Contents (Elt F)),
    StableHlo.unary main_v3 main_v209 (broadcastInDim S800000x1 ![0] bcast_S800000_S800000x1_0 : (⟨S800000, .i32⟩ : BufTy).Contents (Elt F) → (⟨S800000x1, .i32⟩ : BufTy).Contents (Elt F)),
    StableHlo.ternary main_v208 main_v209 main_v207 main_v210 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v182 main_v182 main_v211 (mulf : (⟨S50000, .f32⟩ : BufTy).Contents (Elt F) → (⟨S50000, .f32⟩ : BufTy).Contents (Elt F) → (⟨S50000, .f32⟩ : BufTy).Contents (Elt F)),
    StableHlo.unary main_v211 main_v212 (broadcastInDim S50000x1 ![0] bcast_S50000_S50000x1_0 : (⟨S50000, .f32⟩ : BufTy).Contents (Elt F) → (⟨S50000x1, .f32⟩ : BufTy).Contents (Elt F)),
    StableHlo.unary main_v212 main_v213 (broadcastInDim S50000x128 ![0, 1] bcast_S50000x1_S50000x128_0_1 : (⟨S50000x1, .f32⟩ : BufTy).Contents (Elt F) → (⟨S50000x128, .f32⟩ : BufTy).Contents (Elt F)),
    StableHlo.binary main_v175 main_v213 main_v214 (mulf : (⟨S50000x128, .f32⟩ : BufTy).Contents (Elt F) → (⟨S50000x128, .f32⟩ : BufTy).Contents (Elt F) → (⟨S50000x128, .f32⟩ : BufTy).Contents (Elt F)),
    StableHlo.binary main_v210 main_v214 main_v215 (addf : (⟨S50000x128, .f32⟩ : BufTy).Contents (Elt F) → (⟨S50000x128, .f32⟩ : BufTy).Contents (Elt F) → (⟨S50000x128, .f32⟩ : BufTy).Contents (Elt F)),
    StableHlo.unary main_v174 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S50000x128 ![0, 1] bcast_S1x128_S50000x128_0_1 : (⟨S1x128, .f32⟩ : BufTy).Contents (Elt F) → (⟨S50000x128, .f32⟩ : BufTy).Contents (Elt F)),
    StableHlo.binary main_v215 main_v217 main_v218 (addf : (⟨S50000x128, .f32⟩ : BufTy).Contents (Elt F) → (⟨S50000x128, .f32⟩ : BufTy).Contents (Elt F) → (⟨S50000x128, .f32⟩ : BufTy).Contents (Elt F)),
    StableHlo.unary main_arg10 main_v219 ((extractStridedSlice S1 ![1] · slices_S3_S1_1) : (⟨S3, .f32⟩ : BufTy).Contents (Elt F) → (⟨S1, .f32⟩ : BufTy).Contents (Elt F)),
    StableHlo.reshape main_v219 main_v220 rfl shapeCasts_S1_S_,
    StableHlo.nullary main_cst_39 (constant S_ .f32 0x00000000#32),
    StableHlo.unary main_cst_39 main_v221 (broadcastInDim S50000x128 ![] bcast_S_S50000x128 : (⟨S_, .f32⟩ : BufTy).Contents (Elt F) → (⟨S50000x128, .f32⟩ : BufTy).Contents (Elt F)),
    StableHlo.binary main_v218 main_v221 main_v222 (cmpf .oge : (⟨S50000x128, .f32⟩ : BufTy).Contents (Elt F) → (⟨S50000x128, .f32⟩ : BufTy).Contents (Elt F) → (⟨S50000x128, .i1⟩ : BufTy).Contents (Elt F)),
    StableHlo.unary main_v220 main_v223 (broadcastInDim S50000x128 ![] bcast_S_S50000x128 : (⟨S_, .f32⟩ : BufTy).Contents (Elt F) → (⟨S50000x128, .f32⟩ : BufTy).Contents (Elt F)),
    StableHlo.binary main_v223 main_v218 main_v224 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v222 : StableHlo.TRef sig ⟨S50000x128, .i1⟩) (.of main_v218 : StableHlo.TRef sig ⟨S50000x128, .f32⟩) (.of main_v224 : StableHlo.TRef sig ⟨S50000x128, .f32⟩) main_call5.v0 select,
    StableHlo.unary main_arg11 main_v226 ((extractStridedSlice S1x128x64 ![1, 0, 0] · slices_S3x128x64_S1x128x64_1_0_0) : (⟨S3x128x64, .f32⟩ : BufTy).Contents (Elt F) → (⟨S1x128x64, .f32⟩ : BufTy).Contents (Elt F)),
    StableHlo.reshape main_v226 main_v227 rfl shapeCasts_S1x128x64_S128x64,
    StableHlo.unary main_arg12 main_v228 ((extractStridedSlice S1x64 ![1, 0] · slices_S3x64_S1x64_1_0) : (⟨S3x64, .f32⟩ : BufTy).Contents (Elt F) → (⟨S1x64, .f32⟩ : BufTy).Contents (Elt F)),
    StableHlo.reshape main_v228 main_v229 rfl shapeCasts_S1x64_S64,
    StableHlo.binary main_v225 main_v227 main_v230 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_cst_40 (constant S_ .f32 0x3F800000#32),
    StableHlo.unary main_cst_40 main_v231 (broadcastInDim S800000 ![] bcast_S_S800000 : (⟨S_, .f32⟩ : BufTy).Contents (Elt F) → (⟨S800000, .f32⟩ : BufTy).Contents (Elt F)),
    StableHlo.nullary main_cst_41 (constant S_ .f32 0x00000000#32),
    StableHlo.unary main_cst_41 main_v232 (broadcastInDim S50000 ![] bcast_S_S50000 : (⟨S_, .f32⟩ : BufTy).Contents (Elt F) → (⟨S50000, .f32⟩ : BufTy).Contents (Elt F)),
    StableHlo.unary main_v3 main_v233 (broadcastInDim S800000x1 ![0] bcast_S800000_S800000x1_0 : (⟨S800000, .i32⟩ : BufTy).Contents (Elt F) → (⟨S800000x1, .i32⟩ : BufTy).Contents (Elt F)),
    StableHlo.ternary main_v232 main_v233 main_v231 main_v234 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_42 (constant S_ .f32 0x3F800000#32),
    StableHlo.unary main_cst_42 main_v235 (broadcastInDim S50000 ![] bcast_S_S50000 : (⟨S_, .f32⟩ : BufTy).Contents (Elt F) → (⟨S50000, .f32⟩ : BufTy).Contents (Elt F)),
    StableHlo.binary main_v234 main_v235 main_v236 (addf : (⟨S50000, .f32⟩ : BufTy).Contents (Elt F) → (⟨S50000, .f32⟩ : BufTy).Contents (Elt F) → (⟨S50000, .f32⟩ : BufTy).Contents (Elt F)),
    StableHlo.unary main_v236 main_v237 (Host.rsqrt : (⟨S50000, .f32⟩ : BufTy).Contents (Elt F) → (⟨S50000, .f32⟩ : BufTy).Contents (Elt F)),
    StableHlo.nullary main_c_43 (constantI S_ 32 0#32),
    StableHlo.unary main_c_43 main_v238 (broadcastInDim S800000 ![] bcast_S_S800000 : (⟨S_, .i32⟩ : BufTy).Contents (Elt F) → (⟨S800000, .i32⟩ : BufTy).Contents (Elt F)),
    StableHlo.binary main_v1 main_v238 main_v239 (cmpi .slt : (⟨S800000, .i32⟩ : BufTy).Contents (Elt F) → (⟨S800000, .i32⟩ : BufTy).Contents (Elt F) → (⟨S800000, .i1⟩ : BufTy).Contents (Elt F)),
    StableHlo.nullary main_c_44 (constantI S_ 32 50000#32),
    StableHlo.unary main_c_44 main_v240 (broadcastInDim S800000 ![] bcast_S_S800000 : (⟨S_, .i32⟩ : BufTy).Contents (Elt F) → (⟨S800000, .i32⟩ : BufTy).Contents (Elt F)),
    StableHlo.binary main_v1 main_v240 main_v241 (addi : (⟨S800000, .i32⟩ : BufTy).Contents (Elt F) → (⟨S800000, .i32⟩ : BufTy).Contents (Elt F) → (⟨S800000, .i32⟩ : BufTy).Contents (Elt F)),
    StableHlo.ternary main_v239 main_v241 main_v1 main_v242 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v242 main_v243 (broadcastInDim S800000x1 ![0] bcast_S800000_S800000x1_0 : (⟨S800000, .i32⟩ : BufTy).Contents (Elt F) → (⟨S800000x1, .i32⟩ : BufTy).Contents (Elt F)),
    StableHlo.binary main_v237 main_v243 main_v244 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_45 (constantI S_ 32 0#32),
    StableHlo.unary main_c_45 main_v245 (broadcastInDim S800000 ![] bcast_S_S800000 : (⟨S_, .i32⟩ : BufTy).Contents (Elt F) → (⟨S800000, .i32⟩ : BufTy).Contents (Elt F)),
    StableHlo.binary main_v3 main_v245 main_v246 (cmpi .slt : (⟨S800000, .i32⟩ : BufTy).Contents (Elt F) → (⟨S800000, .i32⟩ : BufTy).Contents (Elt F) → (⟨S800000, .i1⟩ : BufTy).Contents (Elt F)),
    StableHlo.nullary main_c_46 (constantI S_ 32 50000#32),
    StableHlo.unary main_c_46 main_v247 (broadcastInDim S800000 ![] bcast_S_S800000 : (⟨S_, .i32⟩ : BufTy).Contents (Elt F) → (⟨S800000, .i32⟩ : BufTy).Contents (Elt F)),
    StableHlo.binary main_v3 main_v247 main_v248 (addi : (⟨S800000, .i32⟩ : BufTy).Contents (Elt F) → (⟨S800000, .i32⟩ : BufTy).Contents (Elt F) → (⟨S800000, .i32⟩ : BufTy).Contents (Elt F)),
    StableHlo.ternary main_v246 main_v248 main_v3 main_v249 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v249 main_v250 (broadcastInDim S800000x1 ![0] bcast_S800000_S800000x1_0 : (⟨S800000, .i32⟩ : BufTy).Contents (Elt F) → (⟨S800000x1, .i32⟩ : BufTy).Contents (Elt F)) ]

set_option maxRecDepth 8192 in
set_option maxHeartbeats 4000000 in
/-- The window is that straight line: the called functions unfold at their calls, and sequencing reassociates. -/
theorem part4_eq (c : Dev nD) : main_part4 (F := F) c = seq ops4 := by
  simp only [main_part4, fn_where_1.body, seq, bind_assoc, pure_bind] <;> rfl

set_option maxRecDepth 8192 in
theorem ops4_sub : (ops4 : List (HloOp τ sig (Elt F))).Forall fun op => op.bufs ⊆ tcRefs τ sig :=
  ⟨unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., reshape_bufs_sub .., nullary_bufs_sub .., unary_bufs_sub .., binary_bufs_sub .., unary_bufs_sub .., binary_bufs_sub .., ternary_bufs_sub .., unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

set_option maxRecDepth 8192 in
set_option maxHeartbeats 4000000 in
/-- Every operation determines its results. -/
theorem ops4_fresh : ∀ op ∈ (ops4 : List (HloOp τ sig (Elt F))), op.fresh = ∅ := by
  intro _ h; (repeat (cases h with | head => rfl | tail _ h => ?_)); exact nomatch h

/-- The buffers the window's operations write. -/
abbrev ops4_W : List (Ref sig .tc) := [main_v200, main_v201, main_v202, main_v203, main_v204, main_v205, main_v206, main_v207, main_cst_38, main_v208, main_v209, main_v210, main_v211, main_v212, main_v213, main_v214, main_v215, main_v216, main_v217, main_v218, main_v219, main_v220, main_cst_39, main_v221, main_v222, main_v223, main_v224, main_v225, main_v226, main_v227, main_v228, main_v229, main_v230, main_cst_40, main_v231, main_cst_41, main_v232, main_v233, main_v234, main_cst_42, main_v235, main_v236, main_v237, main_c_43, main_v238, main_v239, main_c_44, main_v240, main_v241, main_v242, main_v243, main_v244, main_c_45, main_v245, main_v246, main_c_46, main_v247, main_v248, main_v249, main_v250]

set_option maxRecDepth 8192 in
set_option maxHeartbeats 4000000 in
theorem ops4_writes : (ops4 : List (HloOp τ sig (Elt F))).Forall fun op => op.writes ⊆ (ops4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem ops4_keep (V : Valuation τ sig (Elt F)) (r : Ref sig .tc) (h : r ∉ ops4_W) :
    after ops4 V (Proc.devRef .tc r) = V (Proc.devRef .tc r) :=
  after_of_writes_sub ops4 V ops4_writes h

end Cert.RefRun

end
-- ==== Proof.RefOps5.lean ====
/- Window 5 of the reference program's @main as a list of its host operations (each call's body over the call's
   own record), the window as the list run in order, and what the list touches and writes. -/
import proofs.«102494_j5102421148167_1_alg».proof.ReferenceIdeal
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of @main's window 5, in order: a call is its function's operations over the call's record. -/
abbrev ops5 : List (HloOp τ sig (Elt F)) :=
  [ StableHlo.binary main_v237 main_v250 main_v251 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v244 main_v251 main_v252 (mulf : (⟨S800000, .f32⟩ : BufTy).Contents (Elt F) → (⟨S800000, .f32⟩ : BufTy).Contents (Elt F) → (⟨S800000, .f32⟩ : BufTy).Contents (Elt F)),
    StableHlo.nullary main_c_47 (constantI S_ 32 0#32),
    StableHlo.unary main_c_47 main_v253 (broadcastInDim S800000 ![] bcast_S_S800000 : (⟨S_, .i32⟩ : BufTy).Contents (Elt F) → (⟨S800000, .i32⟩ : BufTy).Contents (Elt F)),
    StableHlo.binary main_v1 main_v253 main_v254 (cmpi .slt : (⟨S800000, .i32⟩ : BufTy).Contents (Elt F) → (⟨S800000, .i32⟩ : BufTy).Contents (Elt F) → (⟨S800000, .i1⟩ : BufTy).Contents (Elt F)),
    StableHlo.nullary main_c_48 (constantI S_ 32 50000#32),
    StableHlo.unary main_c_48 main_v255 (broadcastInDim S800000 ![] bcast_S_S800000 : (⟨S_, .i32⟩ : BufTy).Contents (Elt F) → (⟨S800000, .i32⟩ : BufTy).Contents (Elt F)),
    StableHlo.binary main_v1 main_v255 main_v256 (addi : (⟨S800000, .i32⟩ : BufTy).Contents (Elt F) → (⟨S800000, .i32⟩ : BufTy).Contents (Elt F) → (⟨S800000, .i32⟩ : BufTy).Contents (Elt F)),
    StableHlo.ternary main_v254 main_v256 main_v1 main_v257 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v257 main_v258 (broadcastInDim S800000x1 ![0] bcast_S800000_S800000x1_0 : (⟨S800000, .i32⟩ : BufTy).Contents (Elt F) → (⟨S800000x1, .i32⟩ : BufTy).Contents (Elt F)),
    StableHlo.binary main_v230 main_v258 main_v259 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v252 main_v260 (broadcastInDim S800000x1 ![0] bcast_S800000_S800000x1_0 : (⟨S800000, .f32⟩ : BufTy).Contents (Elt F) → (⟨S800000x1, .f32⟩ : BufTy).Contents (Elt F)),
    StableHlo.unary main_v260 main_v261 (broadcastInDim S800000x64 ![0, 1] bcast_S800000x1_S800000x64_0_1 : (⟨S800000x1, .f32⟩ : BufTy).Contents (Elt F) → (⟨S800000x64, .f32⟩ : BufTy).Contents (Elt F)),
    StableHlo.binary main_v259 main_v261 main_v262 (mulf : (⟨S800000x64, .f32⟩ : BufTy).Contents (Elt F) → (⟨S800000x64, .f32⟩ : BufTy).Contents (Elt F) → (⟨S800000x64, .f32⟩ : BufTy).Contents (Elt F)),
    StableHlo.nullary main_cst_49 (constant S_ .f32 0x00000000#32),
    StableHlo.unary main_cst_49 main_v263 (broadcastInDim S50000x64 ![] bcast_S_S50000x64 : (⟨S_, .f32⟩ : BufTy).Contents (Elt F) → (⟨S50000x64, .f32⟩ : BufTy).Contents (Elt F)),
    StableHlo.unary main_v3 main_v264 (broadcastInDim S800000x1 ![0] bcast_S800000_S800000x1_0 : (⟨S800000, .i32⟩ : BufTy).Contents (Elt F) → (⟨S800000x1, .i32⟩ : BufTy).Contents (Elt F)),
    StableHlo.ternary main_v263 main_v264 main_v262 main_v265 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v237 main_v237 main_v266 (mulf : (⟨S50000, .f32⟩ : BufTy).Contents (Elt F) → (⟨S50000, .f32⟩ : BufTy).Contents (Elt F) → (⟨S50000, .f32⟩ : BufTy).Contents (Elt F)),
    StableHlo.unary main_v266 main_v267 (broadcastInDim S50000x1 ![0] bcast_S50000_S50000x1_0 : (⟨S50000, .f32⟩ : BufTy).Contents (Elt F) → (⟨S50000x1, .f32⟩ : BufTy).Contents (Elt F)),
    StableHlo.unary main_v267 main_v268 (broadcastInDim S50000x64 ![0, 1] bcast_S50000x1_S50000x64_0_1 : (⟨S50000x1, .f32⟩ : BufTy).Contents (Elt F) → (⟨S50000x64, .f32⟩ : BufTy).Contents (Elt F)),
    StableHlo.binary main_v230 main_v268 main_v269 (mulf : (⟨S50000x64, .f32⟩ : BufTy).Contents (Elt F) → (⟨S50000x64, .f32⟩ : BufTy).Contents (Elt F) → (⟨S50000x64, .f32⟩ : BufTy).Contents (Elt F)),
    StableHlo.binary main_v265 main_v269 main_v270 (addf : (⟨S50000x64, .f32⟩ : BufTy).Contents (Elt F) → (⟨S50000x64, .f32⟩ : BufTy).Contents (Elt F) → (⟨S50000x64, .f32⟩ : BufTy).Contents (Elt F)),
    StableHlo.unary main_v229 main_v271 (broadcastInDim S1x64 ![1] bcast_S64_S1x64_1 : (⟨S64, .f32⟩ : BufTy).Contents (Elt F) → (⟨S1x64, .f32⟩ : BufTy).Contents (Elt F)),
    StableHlo.unary main_v271 main_v272 (broadcastInDim S50000x64 ![0, 1] bcast_S1x64_S50000x64_0_1 : (⟨S1x64, .f32⟩ : BufTy).Contents (Elt F) → (⟨S50000x64, .f32⟩ : BufTy).Contents (Elt F)),
    StableHlo.binary main_v270 main_v272 main_v273 (addf : (⟨S50000x64, .f32⟩ : BufTy).Contents (Elt F) → (⟨S50000x64, .f32⟩ : BufTy).Contents (Elt F) → (⟨S50000x64, .f32⟩ : BufTy).Contents (Elt F)),
    StableHlo.unary main_arg5 main_v274 ((extractStridedSlice S1 ![2] · slices_S3_S1_2) : (⟨S3, .f32⟩ : BufTy).Contents (Elt F) → (⟨S1, .f32⟩ : BufTy).Contents (Elt F)),
    StableHlo.reshape main_v274 main_v275 rfl shapeCasts_S1_S_,
    StableHlo.nullary main_cst_50 (constant S_ .f32 0x00000000#32),
    StableHlo.unary main_cst_50 main_v276 (broadcastInDim S50000x64 ![] bcast_S_S50000x64 : (⟨S_, .f32⟩ : BufTy).Contents (Elt F) → (⟨S50000x64, .f32⟩ : BufTy).Contents (Elt F)),
    StableHlo.binary main_v273 main_v276 main_v277 (cmpf .oge : (⟨S50000x64, .f32⟩ : BufTy).Contents (Elt F) → (⟨S50000x64, .f32⟩ : BufTy).Contents (Elt F) → (⟨S50000x64, .i1⟩ : BufTy).Contents (Elt F)),
    StableHlo.unary main_v275 main_v278 (broadcastInDim S50000x64 ![] bcast_S_S50000x64 : (⟨S_, .f32⟩ : BufTy).Contents (Elt F) → (⟨S50000x64, .f32⟩ : BufTy).Contents (Elt F)),
    StableHlo.binary main_v278 main_v273 main_v279 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v277 : StableHlo.TRef sig ⟨S50000x64, .i1⟩) (.of main_v273 : StableHlo.TRef sig ⟨S50000x64, .f32⟩) (.of main_v279 : StableHlo.TRef sig ⟨S50000x64, .f32⟩) main_call6.v0 select,
    StableHlo.unary main_arg6 main_v281 ((extractStridedSlice S1x64 ![2, 0] · slices_S3x64_S1x64_2_0) : (⟨S3x64, .f32⟩ : BufTy).Contents (Elt F) → (⟨S1x64, .f32⟩ : BufTy).Contents (Elt F)),
    StableHlo.reshape main_v281 main_v282 rfl shapeCasts_S1x64_S64,
    StableHlo.unary main_arg7 main_v283 ((extractStridedSlice S1x64 ![2, 0] · slices_S3x64_S1x64_2_0) : (⟨S3x64, .f32⟩ : BufTy).Contents (Elt F) → (⟨S1x64, .f32⟩ : BufTy).Contents (Elt F)),
    StableHlo.reshape main_v283 main_v284 rfl shapeCasts_S1x64_S64,
    StableHlo.nullary main_cst_51 (constant S_ .f32 0x00000000#32),
    StableHlo.binary main_v280 main_cst_51 main_v285 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_52 (constant S_ .f32 0x47435000#32),
    StableHlo.unary main_cst_52 main_v286 (broadcastInDim S64 ![] bcast_S_S64 : (⟨S_, .f32⟩ : BufTy).Contents (Elt F) → (⟨S64, .f32⟩ : BufTy).Contents (Elt F)),
    StableHlo.binary main_v285 main_v286 main_v287 (Host.divf : (⟨S64, .f32⟩ : BufTy).Contents (Elt F) → (⟨S64, .f32⟩ : BufTy).Contents (Elt F) → (⟨S64, .f32⟩ : BufTy).Contents (Elt F)),
    StableHlo.nullary main_c_53 (constantI S_ 32 0#32),
    StableHlo.TRef.nullary main_call7.cst (constant S_ .f32 0x00000000#32),
    StableHlo.TRef.binary (.of main_v280 : StableHlo.TRef sig ⟨S50000x64, .f32⟩) main_call7.cst main_call7.v0 (fun x v => Host.reduceAdd x v reducesTo_S50000x64_S64_d0 h_S_),
    StableHlo.TRef.unary main_call7.v0 main_call7.v1 (broadcastInDim S1x64 ![1] bcast_S64_S1x64_1),
    StableHlo.TRef.nullary main_call7.cst_0 (constant S_ .f32 0x47435000#32),
    StableHlo.TRef.unary main_call7.cst_0 main_call7.v2 (broadcastInDim S1x64 ![] bcast_S_S1x64),
    StableHlo.TRef.binary main_call7.v1 main_call7.v2 main_call7.v3 Host.divf,
    StableHlo.TRef.unary main_call7.v3 main_call7.v4 (broadcastInDim S50000x64 ![0, 1] bcast_S1x64_S50000x64_0_1),
    StableHlo.TRef.binary (.of main_v280 : StableHlo.TRef sig ⟨S50000x64, .f32⟩) main_call7.v4 main_call7.v5 subf,
    StableHlo.TRef.binary main_call7.v5 main_call7.v5 main_call7.v6 mulf,
    StableHlo.TRef.unary (.of main_c_53 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x64_S64_d0 h_S_),
    StableHlo.TRef.unary main_call7.v8 main_call7.v10 (broadcastInDim S64 ![] bcast_S_S64),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S64 ![] bcast_S_S64),
    StableHlo.TRef.ternary main_call7.v12 main_call7.v11 main_call7.call0.v1 main_call7.call0.v2 (fun p a b => select (broadcastInDim S64 ![] bcast_S_S64 p) a b),
    StableHlo.unary main_v287 main_v289 (broadcastInDim S1x64 ![1] bcast_S64_S1x64_1 : (⟨S64, .f32⟩ : BufTy).Contents (Elt F) → (⟨S1x64, .f32⟩ : BufTy).Contents (Elt F)),
    StableHlo.unary main_v289 main_v290 (broadcastInDim S50000x64 ![0, 1] bcast_S1x64_S50000x64_0_1 : (⟨S1x64, .f32⟩ : BufTy).Contents (Elt F) → (⟨S50000x64, .f32⟩ : BufTy).Contents (Elt F)),
    StableHlo.binary main_v280 main_v290 main_v291 (subf : (⟨S50000x64, .f32⟩ : BufTy).Contents (Elt F) → (⟨S50000x64, .f32⟩ : BufTy).Contents (Elt F) → (⟨S50000x64, .f32⟩ : BufTy).Contents (Elt F)),
    StableHlo.nullary main_cst_54 (constant S_ .f32 0x3727C5AC#32),
    StableHlo.unary main_cst_54 main_v292 (broadcastInDim S64 ![] bcast_S_S64 : (⟨S_, .f32⟩ : BufTy).Contents (Elt F) → (⟨S64, .f32⟩ : BufTy).Contents (Elt F)),
    StableHlo.binary main_v288 main_v292 main_v293 (addf : (⟨S64, .f32⟩ : BufTy).Contents (Elt F) → (⟨S64, .f32⟩ : BufTy).Contents (Elt F) → (⟨S64, .f32⟩ : BufTy).Contents (Elt F)),
    StableHlo.unary main_v293 main_v294 (Host.rsqrt : (⟨S64, .f32⟩ : BufTy).Contents (Elt F) → (⟨S64, .f32⟩ : BufTy).Contents (Elt F)),
    StableHlo.unary main_v294 main_v295 (broadcastInDim S1x64 ![1] bcast_S64_S1x64_1 : (⟨S64, .f32⟩ : BufTy).Contents (Elt F) → (⟨S1x64, .f32⟩ : BufTy).Contents (Elt F)),
    StableHlo.unary main_v295 main_v296 (broadcastInDim S50000x64 ![0, 1] bcast_S1x64_S50000x64_0_1 : (⟨S1x64, .f32⟩ : BufTy).Contents (Elt F) → (⟨S50000x64, .f32⟩ : BufTy).Contents (Elt F)),
    StableHlo.binary main_v291 main_v296 main_v297 (mulf : (⟨S50000x64, .f32⟩ : BufTy).Contents (Elt F) → (⟨S50000x64, .f32⟩ : BufTy).Contents (Elt F) → (⟨S50000x64, .f32⟩ : BufTy).Contents (Elt F)),
    StableHlo.unary main_v282 main_v298 (broadcastInDim S1x64 ![1] bcast_S64_S1x64_1 : (⟨S64, .f32⟩ : BufTy).Contents (Elt F) → (⟨S1x64, .f32⟩ : BufTy).Contents (Elt F)),
    StableHlo.unary main_v298 main_v299 (broadcastInDim S50000x64 ![0, 1] bcast_S1x64_S50000x64_0_1 : (⟨S1x64, .f32⟩ : BufTy).Contents (Elt F) → (⟨S50000x64, .f32⟩ : BufTy).Contents (Elt F)),
    StableHlo.binary main_v297 main_v299 main_v300 (mulf : (⟨S50000x64, .f32⟩ : BufTy).Contents (Elt F) → (⟨S50000x64, .f32⟩ : BufTy).Contents (Elt F) → (⟨S50000x64, .f32⟩ : BufTy).Contents (Elt F)),
    StableHlo.unary main_v284 main_v301 (broadcastInDim S1x64 ![1] bcast_S64_S1x64_1 : (⟨S64, .f32⟩ : BufTy).Contents (Elt F) → (⟨S1x64, .f32⟩ : BufTy).Contents (Elt F)),
    StableHlo.unary main_v301 main_v302 (broadcastInDim S50000x64 ![0, 1] bcast_S1x64_S50000x64_0_1 : (⟨S1x64, .f32⟩ : BufTy).Contents (Elt F) → (⟨S50000x64, .f32⟩ : BufTy).Contents (Elt F)) ]

set_option maxRecDepth 8192 in
set_option maxHeartbeats 4000000 in
/-- The window is that straight line: the called functions unfold at their calls, and sequencing reassociates. -/
theorem part5_eq (c : Dev nD) : main_part5 (F := F) c = seq ops5 := by
  simp only [main_part5, fn_var.body, fn_where.body, fn_where_0.body, seq, bind_assoc, pure_bind] <;> rfl

set_option maxRecDepth 8192 in
theorem ops5_sub : (ops5 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., reshape_bufs_sub .., nullary_bufs_sub .., unary_bufs_sub .., binary_bufs_sub .., unary_bufs_sub .., binary_bufs_sub .., ternary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩

set_option maxRecDepth 8192 in
set_option maxHeartbeats 4000000 in
/-- Every operation determines its results. -/
theorem ops5_fresh : ∀ op ∈ (ops5 : List (HloOp τ sig (Elt F))), op.fresh = ∅ := by
  intro _ h; (repeat (cases h with | head => rfl | tail _ h => ?_)); exact nomatch h

/-- The buffers the window's operations write. -/
abbrev ops5_W : List (Ref sig .tc) := [main_v251, main_v252, main_c_47, main_v253, main_v254, main_c_48, main_v255, main_v256, main_v257, main_v258, main_v259, main_v260, main_v261, main_v262, main_cst_49, main_v263, main_v264, main_v265, main_v266, main_v267, main_v268, main_v269, main_v270, main_v271, main_v272, main_v273, main_v274, main_v275, main_cst_50, main_v276, main_v277, main_v278, main_v279, main_v280, main_v281, main_v282, main_v283, main_v284, main_cst_51, main_v285, main_cst_52, main_v286, main_v287, main_c_53, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v288, main_v289, main_v290, main_v291, main_cst_54, main_v292, main_v293, main_v294, main_v295, main_v296, main_v297, main_v298, main_v299, main_v300, main_v301, main_v302]

set_option maxRecDepth 8192 in
set_option maxHeartbeats 4000000 in
theorem ops5_writes : (ops5 : List (HloOp τ sig (Elt F))).Forall fun op => op.writes ⊆ (ops5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem ops5_keep (V : Valuation τ sig (Elt F)) (r : Ref sig .tc) (h : r ∉ ops5_W) :
    after ops5 V (Proc.devRef .tc r) = V (Proc.devRef .tc r) :=
  after_of_writes_sub ops5 V ops5_writes h

end Cert.RefRun

end
-- ==== Proof.RefOps6.lean ====
/- Window 6 of the reference program's @main as a list of its host operations (each call's body over the call's
   own record), the window as the list run in order, and what the list touches and writes. -/
import proofs.«102494_j5102421148167_1_alg».proof.ReferenceIdeal
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of @main's window 6, in order: a call is its function's operations over the call's record. -/
abbrev ops6 : List (HloOp τ sig (Elt F)) :=
  [ StableHlo.binary main_v300 main_v302 main_v303 (addf : (⟨S50000x64, .f32⟩ : BufTy).Contents (Elt F) → (⟨S50000x64, .f32⟩ : BufTy).Contents (Elt F) → (⟨S50000x64, .f32⟩ : BufTy).Contents (Elt F)),
    StableHlo.unary main_arg8 main_v304 ((extractStridedSlice S1x64x128 ![2, 0, 0] · slices_S3x64x128_S1x64x128_2_0_0) : (⟨S3x64x128, .f32⟩ : BufTy).Contents (Elt F) → (⟨S1x64x128, .f32⟩ : BufTy).Contents (Elt F)),
    StableHlo.reshape main_v304 main_v305 rfl shapeCasts_S1x64x128_S64x128,
    StableHlo.unary main_arg9 main_v306 ((extractStridedSlice S1x128 ![2, 0] · slices_S3x128_S1x128_2_0) : (⟨S3x128, .f32⟩ : BufTy).Contents (Elt F) → (⟨S1x128, .f32⟩ : BufTy).Contents (Elt F)),
    StableHlo.reshape main_v306 main_v307 rfl shapeCasts_S1x128_S128,
    StableHlo.binary main_v303 main_v305 main_v308 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.nullary main_cst_55 (constant S_ .f32 0x3F800000#32),
    StableHlo.unary main_cst_55 main_v309 (broadcastInDim S800000 ![] bcast_S_S800000 : (⟨S_, .f32⟩ : BufTy).Contents (Elt F) → (⟨S800000, .f32⟩ : BufTy).Contents (Elt F)),
    StableHlo.nullary main_cst_56 (constant S_ .f32 0x00000000#32),
    StableHlo.unary main_cst_56 main_v310 (broadcastInDim S50000 ![] bcast_S_S50000 : (⟨S_, .f32⟩ : BufTy).Contents (Elt F) → (⟨S50000, .f32⟩ : BufTy).Contents (Elt F)),
    StableHlo.unary main_v3 main_v311 (broadcastInDim S800000x1 ![0] bcast_S800000_S800000x1_0 : (⟨S800000, .i32⟩ : BufTy).Contents (Elt F) → (⟨S800000x1, .i32⟩ : BufTy).Contents (Elt F)),
    StableHlo.ternary main_v310 main_v311 main_v309 main_v312 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_57 (constant S_ .f32 0x3F800000#32),
    StableHlo.unary main_cst_57 main_v313 (broadcastInDim S50000 ![] bcast_S_S50000 : (⟨S_, .f32⟩ : BufTy).Contents (Elt F) → (⟨S50000, .f32⟩ : BufTy).Contents (Elt F)),
    StableHlo.binary main_v312 main_v313 main_v314 (addf : (⟨S50000, .f32⟩ : BufTy).Contents (Elt F) → (⟨S50000, .f32⟩ : BufTy).Contents (Elt F) → (⟨S50000, .f32⟩ : BufTy).Contents (Elt F)),
    StableHlo.unary main_v314 main_v315 (Host.rsqrt : (⟨S50000, .f32⟩ : BufTy).Contents (Elt F) → (⟨S50000, .f32⟩ : BufTy).Contents (Elt F)),
    StableHlo.nullary main_c_58 (constantI S_ 32 0#32),
    StableHlo.unary main_c_58 main_v316 (broadcastInDim S800000 ![] bcast_S_S800000 : (⟨S_, .i32⟩ : BufTy).Contents (Elt F) → (⟨S800000, .i32⟩ : BufTy).Contents (Elt F)),
    StableHlo.binary main_v1 main_v316 main_v317 (cmpi .slt : (⟨S800000, .i32⟩ : BufTy).Contents (Elt F) → (⟨S800000, .i32⟩ : BufTy).Contents (Elt F) → (⟨S800000, .i1⟩ : BufTy).Contents (Elt F)),
    StableHlo.nullary main_c_59 (constantI S_ 32 50000#32),
    StableHlo.unary main_c_59 main_v318 (broadcastInDim S800000 ![] bcast_S_S800000 : (⟨S_, .i32⟩ : BufTy).Contents (Elt F) → (⟨S800000, .i32⟩ : BufTy).Contents (Elt F)),
    StableHlo.binary main_v1 main_v318 main_v319 (addi : (⟨S800000, .i32⟩ : BufTy).Contents (Elt F) → (⟨S800000, .i32⟩ : BufTy).Contents (Elt F) → (⟨S800000, .i32⟩ : BufTy).Contents (Elt F)),
    StableHlo.ternary main_v317 main_v319 main_v1 main_v320 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v320 main_v321 (broadcastInDim S800000x1 ![0] bcast_S800000_S800000x1_0 : (⟨S800000, .i32⟩ : BufTy).Contents (Elt F) → (⟨S800000x1, .i32⟩ : BufTy).Contents (Elt F)),
    StableHlo.binary main_v315 main_v321 main_v322 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_60 (constantI S_ 32 0#32),
    StableHlo.unary main_c_60 main_v323 (broadcastInDim S800000 ![] bcast_S_S800000 : (⟨S_, .i32⟩ : BufTy).Contents (Elt F) → (⟨S800000, .i32⟩ : BufTy).Contents (Elt F)),
    StableHlo.binary main_v3 main_v323 main_v324 (cmpi .slt : (⟨S800000, .i32⟩ : BufTy).Contents (Elt F) → (⟨S800000, .i32⟩ : BufTy).Contents (Elt F) → (⟨S800000, .i1⟩ : BufTy).Contents (Elt F)),
    StableHlo.nullary main_c_61 (constantI S_ 32 50000#32),
    StableHlo.unary main_c_61 main_v325 (broadcastInDim S800000 ![] bcast_S_S800000 : (⟨S_, .i32⟩ : BufTy).Contents (Elt F) → (⟨S800000, .i32⟩ : BufTy).Contents (Elt F)),
    StableHlo.binary main_v3 main_v325 main_v326 (addi : (⟨S800000, .i32⟩ : BufTy).Contents (Elt F) → (⟨S800000, .i32⟩ : BufTy).Contents (Elt F) → (⟨S800000, .i32⟩ : BufTy).Contents (Elt F)),
    StableHlo.ternary main_v324 main_v326 main_v3 main_v327 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v327 main_v328 (broadcastInDim S800000x1 ![0] bcast_S800000_S800000x1_0 : (⟨S800000, .i32⟩ : BufTy).Contents (Elt F) → (⟨S800000x1, .i32⟩ : BufTy).Contents (Elt F)),
    StableHlo.binary main_v315 main_v328 main_v329 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v322 main_v329 main_v330 (mulf : (⟨S800000, .f32⟩ : BufTy).Contents (Elt F) → (⟨S800000, .f32⟩ : BufTy).Contents (Elt F) → (⟨S800000, .f32⟩ : BufTy).Contents (Elt F)),
    StableHlo.nullary main_c_62 (constantI S_ 32 0#32),
    StableHlo.unary main_c_62 main_v331 (broadcastInDim S800000 ![] bcast_S_S800000 : (⟨S_, .i32⟩ : BufTy).Contents (Elt F) → (⟨S800000, .i32⟩ : BufTy).Contents (Elt F)),
    StableHlo.binary main_v1 main_v331 main_v332 (cmpi .slt : (⟨S800000, .i32⟩ : BufTy).Contents (Elt F) → (⟨S800000, .i32⟩ : BufTy).Contents (Elt F) → (⟨S800000, .i1⟩ : BufTy).Contents (Elt F)),
    StableHlo.nullary main_c_63 (constantI S_ 32 50000#32),
    StableHlo.unary main_c_63 main_v333 (broadcastInDim S800000 ![] bcast_S_S800000 : (⟨S_, .i32⟩ : BufTy).Contents (Elt F) → (⟨S800000, .i32⟩ : BufTy).Contents (Elt F)),
    StableHlo.binary main_v1 main_v333 main_v334 (addi : (⟨S800000, .i32⟩ : BufTy).Contents (Elt F) → (⟨S800000, .i32⟩ : BufTy).Contents (Elt F) → (⟨S800000, .i32⟩ : BufTy).Contents (Elt F)),
    StableHlo.ternary main_v332 main_v334 main_v1 main_v335 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v335 main_v336 (broadcastInDim S800000x1 ![0] bcast_S800000_S800000x1_0 : (⟨S800000, .i32⟩ : BufTy).Contents (Elt F) → (⟨S800000x1, .i32⟩ : BufTy).Contents (Elt F)),
    StableHlo.binary main_v308 main_v336 main_v337 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v330 main_v338 (broadcastInDim S800000x1 ![0] bcast_S800000_S800000x1_0 : (⟨S800000, .f32⟩ : BufTy).Contents (Elt F) → (⟨S800000x1, .f32⟩ : BufTy).Contents (Elt F)),
    StableHlo.unary main_v338 main_v339 (broadcastInDim S800000x128 ![0, 1] bcast_S800000x1_S800000x128_0_1 : (⟨S800000x1, .f32⟩ : BufTy).Contents (Elt F) → (⟨S800000x128, .f32⟩ : BufTy).Contents (Elt F)),
    StableHlo.binary main_v337 main_v339 main_v340 (mulf : (⟨S800000x128, .f32⟩ : BufTy).Contents (Elt F) → (⟨S800000x128, .f32⟩ : BufTy).Contents (Elt F) → (⟨S800000x128, .f32⟩ : BufTy).Contents (Elt F)),
    StableHlo.nullary main_cst_64 (constant S_ .f32 0x00000000#32),
    StableHlo.unary main_cst_64 main_v341 (broadcastInDim S50000x128 ![] bcast_S_S50000x128 : (⟨S_, .f32⟩ : BufTy).Contents (Elt F) → (⟨S50000x128, .f32⟩ : BufTy).Contents (Elt F)),
    StableHlo.unary main_v3 main_v342 (broadcastInDim S800000x1 ![0] bcast_S800000_S800000x1_0 : (⟨S800000, .i32⟩ : BufTy).Contents (Elt F) → (⟨S800000x1, .i32⟩ : BufTy).Contents (Elt F)),
    StableHlo.ternary main_v341 main_v342 main_v340 main_v343 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v315 main_v315 main_v344 (mulf : (⟨S50000, .f32⟩ : BufTy).Contents (Elt F) → (⟨S50000, .f32⟩ : BufTy).Contents (Elt F) → (⟨S50000, .f32⟩ : BufTy).Contents (Elt F)),
    StableHlo.unary main_v344 main_v345 (broadcastInDim S50000x1 ![0] bcast_S50000_S50000x1_0 : (⟨S50000, .f32⟩ : BufTy).Contents (Elt F) → (⟨S50000x1, .f32⟩ : BufTy).Contents (Elt F)),
    StableHlo.unary main_v345 main_v346 (broadcastInDim S50000x128 ![0, 1] bcast_S50000x1_S50000x128_0_1 : (⟨S50000x1, .f32⟩ : BufTy).Contents (Elt F) → (⟨S50000x128, .f32⟩ : BufTy).Contents (Elt F)),
    StableHlo.binary main_v308 main_v346 main_v347 (mulf : (⟨S50000x128, .f32⟩ : BufTy).Contents (Elt F) → (⟨S50000x128, .f32⟩ : BufTy).Contents (Elt F) → (⟨S50000x128, .f32⟩ : BufTy).Contents (Elt F)),
    StableHlo.binary main_v343 main_v347 main_v348 (addf : (⟨S50000x128, .f32⟩ : BufTy).Contents (Elt F) → (⟨S50000x128, .f32⟩ : BufTy).Contents (Elt F) → (⟨S50000x128, .f32⟩ : BufTy).Contents (Elt F)),
    StableHlo.unary main_v307 main_v349 (broadcastInDim S1x128 ![1] bcast_S128_S1x128_1 : (⟨S128, .f32⟩ : BufTy).Contents (Elt F) → (⟨S1x128, .f32⟩ : BufTy).Contents (Elt F)),
    StableHlo.unary main_v349 main_v350 (broadcastInDim S50000x128 ![0, 1] bcast_S1x128_S50000x128_0_1 : (⟨S1x128, .f32⟩ : BufTy).Contents (Elt F) → (⟨S50000x128, .f32⟩ : BufTy).Contents (Elt F)),
    StableHlo.binary main_v348 main_v350 main_v351 (addf : (⟨S50000x128, .f32⟩ : BufTy).Contents (Elt F) → (⟨S50000x128, .f32⟩ : BufTy).Contents (Elt F) → (⟨S50000x128, .f32⟩ : BufTy).Contents (Elt F)),
    StableHlo.unary main_arg10 main_v352 ((extractStridedSlice S1 ![2] · slices_S3_S1_2) : (⟨S3, .f32⟩ : BufTy).Contents (Elt F) → (⟨S1, .f32⟩ : BufTy).Contents (Elt F)) ]

set_option maxRecDepth 8192 in
set_option maxHeartbeats 4000000 in
theorem part6_eq (c : Dev nD) : main_part6 (F := F) c = seq ops6 := rfl

set_option maxRecDepth 8192 in
theorem ops6_sub : (ops6 : List (HloOp τ sig (Elt F))).Forall fun op => op.bufs ⊆ tcRefs τ sig :=
  ⟨binary_bufs_sub .., unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub ..⟩

set_option maxRecDepth 8192 in
set_option maxHeartbeats 4000000 in
/-- Every operation determines its results. -/
theorem ops6_fresh : ∀ op ∈ (ops6 : List (HloOp τ sig (Elt F))), op.fresh = ∅ := by
  intro _ h; (repeat (cases h with | head => rfl | tail _ h => ?_)); exact nomatch h

/-- The buffers the window's operations write. -/
abbrev ops6_W : List (Ref sig .tc) := [main_v303, main_v304, main_v305, main_v306, main_v307, main_v308, main_cst_55, main_v309, main_cst_56, main_v310, main_v311, main_v312, main_cst_57, main_v313, main_v314, main_v315, main_c_58, main_v316, main_v317, main_c_59, main_v318, main_v319, main_v320, main_v321, main_v322, main_c_60, main_v323, main_v324, main_c_61, main_v325, main_v326, main_v327, main_v328, main_v329, main_v330, main_c_62, main_v331, main_v332, main_c_63, main_v333, main_v334, main_v335, main_v336, main_v337, main_v338, main_v339, main_v340, main_cst_64, main_v341, main_v342, main_v343, main_v344, main_v345, main_v346, main_v347, main_v348, main_v349, main_v350, main_v351, main_v352]

set_option maxRecDepth 8192 in
set_option maxHeartbeats 4000000 in
theorem ops6_writes : (ops6 : List (HloOp τ sig (Elt F))).Forall fun op => op.writes ⊆ (ops6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem ops6_keep (V : Valuation τ sig (Elt F)) (r : Ref sig .tc) (h : r ∉ ops6_W) :
    after ops6 V (Proc.devRef .tc r) = V (Proc.devRef .tc r) :=
  after_of_writes_sub ops6 V ops6_writes h

end Cert.RefRun

end
-- ==== Proof.RefOps7.lean ====
/- Window 7 of the reference program's @main as a list of its host operations (each call's body over the call's
   own record), the window as the list run in order, and what the list touches and writes. -/
import proofs.«102494_j5102421148167_1_alg».proof.ReferenceIdeal
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of @main's window 7, in order: a call is its function's operations over the call's record. -/
abbrev ops7 : List (HloOp τ sig (Elt F)) :=
  [ StableHlo.reshape main_v352 main_v353 rfl shapeCasts_S1_S_,
    StableHlo.nullary main_cst_65 (constant S_ .f32 0x00000000#32),
    StableHlo.unary main_cst_65 main_v354 (broadcastInDim S50000x128 ![] bcast_S_S50000x128 : (⟨S_, .f32⟩ : BufTy).Contents (Elt F) → (⟨S50000x128, .f32⟩ : BufTy).Contents (Elt F)),
    StableHlo.binary main_v351 main_v354 main_v355 (cmpf .oge : (⟨S50000x128, .f32⟩ : BufTy).Contents (Elt F) → (⟨S50000x128, .f32⟩ : BufTy).Contents (Elt F) → (⟨S50000x128, .i1⟩ : BufTy).Contents (Elt F)),
    StableHlo.unary main_v353 main_v356 (broadcastInDim S50000x128 ![] bcast_S_S50000x128 : (⟨S_, .f32⟩ : BufTy).Contents (Elt F) → (⟨S50000x128, .f32⟩ : BufTy).Contents (Elt F)),
    StableHlo.binary main_v356 main_v351 main_v357 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v355 : StableHlo.TRef sig ⟨S50000x128, .i1⟩) (.of main_v351 : StableHlo.TRef sig ⟨S50000x128, .f32⟩) (.of main_v357 : StableHlo.TRef sig ⟨S50000x128, .f32⟩) main_call8.v0 select,
    StableHlo.unary main_arg11 main_v359 ((extractStridedSlice S1x128x64 ![2, 0, 0] · slices_S3x128x64_S1x128x64_2_0_0) : (⟨S3x128x64, .f32⟩ : BufTy).Contents (Elt F) → (⟨S1x128x64, .f32⟩ : BufTy).Contents (Elt F)),
    StableHlo.reshape main_v359 main_v360 rfl shapeCasts_S1x128x64_S128x64,
    StableHlo.unary main_arg12 main_v361 ((extractStridedSlice S1x64 ![2, 0] · slices_S3x64_S1x64_2_0) : (⟨S3x64, .f32⟩ : BufTy).Contents (Elt F) → (⟨S1x64, .f32⟩ : BufTy).Contents (Elt F)),
    StableHlo.reshape main_v361 main_v362 rfl shapeCasts_S1x64_S64,
    StableHlo.binary main_v358 main_v360 main_v363 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_cst_66 (constant S_ .f32 0x3F800000#32),
    StableHlo.unary main_cst_66 main_v364 (broadcastInDim S800000 ![] bcast_S_S800000 : (⟨S_, .f32⟩ : BufTy).Contents (Elt F) → (⟨S800000, .f32⟩ : BufTy).Contents (Elt F)),
    StableHlo.nullary main_cst_67 (constant S_ .f32 0x00000000#32),
    StableHlo.unary main_cst_67 main_v365 (broadcastInDim S50000 ![] bcast_S_S50000 : (⟨S_, .f32⟩ : BufTy).Contents (Elt F) → (⟨S50000, .f32⟩ : BufTy).Contents (Elt F)),
    StableHlo.unary main_v3 main_v366 (broadcastInDim S800000x1 ![0] bcast_S800000_S800000x1_0 : (⟨S800000, .i32⟩ : BufTy).Contents (Elt F) → (⟨S800000x1, .i32⟩ : BufTy).Contents (Elt F)),
    StableHlo.ternary main_v365 main_v366 main_v364 main_v367 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_68 (constant S_ .f32 0x3F800000#32),
    StableHlo.unary main_cst_68 main_v368 (broadcastInDim S50000 ![] bcast_S_S50000 : (⟨S_, .f32⟩ : BufTy).Contents (Elt F) → (⟨S50000, .f32⟩ : BufTy).Contents (Elt F)),
    StableHlo.binary main_v367 main_v368 main_v369 (addf : (⟨S50000, .f32⟩ : BufTy).Contents (Elt F) → (⟨S50000, .f32⟩ : BufTy).Contents (Elt F) → (⟨S50000, .f32⟩ : BufTy).Contents (Elt F)),
    StableHlo.unary main_v369 main_v370 (Host.rsqrt : (⟨S50000, .f32⟩ : BufTy).Contents (Elt F) → (⟨S50000, .f32⟩ : BufTy).Contents (Elt F)),
    StableHlo.nullary main_c_69 (constantI S_ 32 0#32),
    StableHlo.unary main_c_69 main_v371 (broadcastInDim S800000 ![] bcast_S_S800000 : (⟨S_, .i32⟩ : BufTy).Contents (Elt F) → (⟨S800000, .i32⟩ : BufTy).Contents (Elt F)),
    StableHlo.binary main_v1 main_v371 main_v372 (cmpi .slt : (⟨S800000, .i32⟩ : BufTy).Contents (Elt F) → (⟨S800000, .i32⟩ : BufTy).Contents (Elt F) → (⟨S800000, .i1⟩ : BufTy).Contents (Elt F)),
    StableHlo.nullary main_c_70 (constantI S_ 32 50000#32),
    StableHlo.unary main_c_70 main_v373 (broadcastInDim S800000 ![] bcast_S_S800000 : (⟨S_, .i32⟩ : BufTy).Contents (Elt F) → (⟨S800000, .i32⟩ : BufTy).Contents (Elt F)),
    StableHlo.binary main_v1 main_v373 main_v374 (addi : (⟨S800000, .i32⟩ : BufTy).Contents (Elt F) → (⟨S800000, .i32⟩ : BufTy).Contents (Elt F) → (⟨S800000, .i32⟩ : BufTy).Contents (Elt F)),
    StableHlo.ternary main_v372 main_v374 main_v1 main_v375 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v375 main_v376 (broadcastInDim S800000x1 ![0] bcast_S800000_S800000x1_0 : (⟨S800000, .i32⟩ : BufTy).Contents (Elt F) → (⟨S800000x1, .i32⟩ : BufTy).Contents (Elt F)),
    StableHlo.binary main_v370 main_v376 main_v377 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_71 (constantI S_ 32 0#32),
    StableHlo.unary main_c_71 main_v378 (broadcastInDim S800000 ![] bcast_S_S800000 : (⟨S_, .i32⟩ : BufTy).Contents (Elt F) → (⟨S800000, .i32⟩ : BufTy).Contents (Elt F)),
    StableHlo.binary main_v3 main_v378 main_v379 (cmpi .slt : (⟨S800000, .i32⟩ : BufTy).Contents (Elt F) → (⟨S800000, .i32⟩ : BufTy).Contents (Elt F) → (⟨S800000, .i1⟩ : BufTy).Contents (Elt F)),
    StableHlo.nullary main_c_72 (constantI S_ 32 50000#32),
    StableHlo.unary main_c_72 main_v380 (broadcastInDim S800000 ![] bcast_S_S800000 : (⟨S_, .i32⟩ : BufTy).Contents (Elt F) → (⟨S800000, .i32⟩ : BufTy).Contents (Elt F)),
    StableHlo.binary main_v3 main_v380 main_v381 (addi : (⟨S800000, .i32⟩ : BufTy).Contents (Elt F) → (⟨S800000, .i32⟩ : BufTy).Contents (Elt F) → (⟨S800000, .i32⟩ : BufTy).Contents (Elt F)),
    StableHlo.ternary main_v379 main_v381 main_v3 main_v382 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v382 main_v383 (broadcastInDim S800000x1 ![0] bcast_S800000_S800000x1_0 : (⟨S800000, .i32⟩ : BufTy).Contents (Elt F) → (⟨S800000x1, .i32⟩ : BufTy).Contents (Elt F)),
    StableHlo.binary main_v370 main_v383 main_v384 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v377 main_v384 main_v385 (mulf : (⟨S800000, .f32⟩ : BufTy).Contents (Elt F) → (⟨S800000, .f32⟩ : BufTy).Contents (Elt F) → (⟨S800000, .f32⟩ : BufTy).Contents (Elt F)),
    StableHlo.nullary main_c_73 (constantI S_ 32 0#32),
    StableHlo.unary main_c_73 main_v386 (broadcastInDim S800000 ![] bcast_S_S800000 : (⟨S_, .i32⟩ : BufTy).Contents (Elt F) → (⟨S800000, .i32⟩ : BufTy).Contents (Elt F)),
    StableHlo.binary main_v1 main_v386 main_v387 (cmpi .slt : (⟨S800000, .i32⟩ : BufTy).Contents (Elt F) → (⟨S800000, .i32⟩ : BufTy).Contents (Elt F) → (⟨S800000, .i1⟩ : BufTy).Contents (Elt F)),
    StableHlo.nullary main_c_74 (constantI S_ 32 50000#32),
    StableHlo.unary main_c_74 main_v388 (broadcastInDim S800000 ![] bcast_S_S800000 : (⟨S_, .i32⟩ : BufTy).Contents (Elt F) → (⟨S800000, .i32⟩ : BufTy).Contents (Elt F)),
    StableHlo.binary main_v1 main_v388 main_v389 (addi : (⟨S800000, .i32⟩ : BufTy).Contents (Elt F) → (⟨S800000, .i32⟩ : BufTy).Contents (Elt F) → (⟨S800000, .i32⟩ : BufTy).Contents (Elt F)),
    StableHlo.ternary main_v387 main_v389 main_v1 main_v390 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v390 main_v391 (broadcastInDim S800000x1 ![0] bcast_S800000_S800000x1_0 : (⟨S800000, .i32⟩ : BufTy).Contents (Elt F) → (⟨S800000x1, .i32⟩ : BufTy).Contents (Elt F)),
    StableHlo.binary main_v363 main_v391 main_v392 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v385 main_v393 (broadcastInDim S800000x1 ![0] bcast_S800000_S800000x1_0 : (⟨S800000, .f32⟩ : BufTy).Contents (Elt F) → (⟨S800000x1, .f32⟩ : BufTy).Contents (Elt F)),
    StableHlo.unary main_v393 main_v394 (broadcastInDim S800000x64 ![0, 1] bcast_S800000x1_S800000x64_0_1 : (⟨S800000x1, .f32⟩ : BufTy).Contents (Elt F) → (⟨S800000x64, .f32⟩ : BufTy).Contents (Elt F)),
    StableHlo.binary main_v392 main_v394 main_v395 (mulf : (⟨S800000x64, .f32⟩ : BufTy).Contents (Elt F) → (⟨S800000x64, .f32⟩ : BufTy).Contents (Elt F) → (⟨S800000x64, .f32⟩ : BufTy).Contents (Elt F)),
    StableHlo.nullary main_cst_75 (constant S_ .f32 0x00000000#32),
    StableHlo.unary main_cst_75 main_v396 (broadcastInDim S50000x64 ![] bcast_S_S50000x64 : (⟨S_, .f32⟩ : BufTy).Contents (Elt F) → (⟨S50000x64, .f32⟩ : BufTy).Contents (Elt F)),
    StableHlo.unary main_v3 main_v397 (broadcastInDim S800000x1 ![0] bcast_S800000_S800000x1_0 : (⟨S800000, .i32⟩ : BufTy).Contents (Elt F) → (⟨S800000x1, .i32⟩ : BufTy).Contents (Elt F)),
    StableHlo.ternary main_v396 main_v397 main_v395 main_v398 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v370 main_v370 main_v399 (mulf : (⟨S50000, .f32⟩ : BufTy).Contents (Elt F) → (⟨S50000, .f32⟩ : BufTy).Contents (Elt F) → (⟨S50000, .f32⟩ : BufTy).Contents (Elt F)),
    StableHlo.unary main_v399 main_v400 (broadcastInDim S50000x1 ![0] bcast_S50000_S50000x1_0 : (⟨S50000, .f32⟩ : BufTy).Contents (Elt F) → (⟨S50000x1, .f32⟩ : BufTy).Contents (Elt F)),
    StableHlo.unary main_v400 main_v401 (broadcastInDim S50000x64 ![0, 1] bcast_S50000x1_S50000x64_0_1 : (⟨S50000x1, .f32⟩ : BufTy).Contents (Elt F) → (⟨S50000x64, .f32⟩ : BufTy).Contents (Elt F)) ]

set_option maxRecDepth 8192 in
set_option maxHeartbeats 4000000 in
/-- The window is that straight line: the called functions unfold at their calls, and sequencing reassociates. -/
theorem part7_eq (c : Dev nD) : main_part7 (F := F) c = seq ops7 := by
  simp only [main_part7, fn_where_1.body, seq, bind_assoc, pure_bind] <;> rfl

set_option maxRecDepth 8192 in
theorem ops7_sub : (ops7 : List (HloOp τ sig (Elt F))).Forall fun op => op.bufs ⊆ tcRefs τ sig :=
  ⟨reshape_bufs_sub .., nullary_bufs_sub .., unary_bufs_sub .., binary_bufs_sub .., unary_bufs_sub .., binary_bufs_sub .., ternary_bufs_sub .., unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub ..⟩

set_option maxRecDepth 8192 in
set_option maxHeartbeats 4000000 in
/-- Every operation determines its results. -/
theorem ops7_fresh : ∀ op ∈ (ops7 : List (HloOp τ sig (Elt F))), op.fresh = ∅ := by
  intro _ h; (repeat (cases h with | head => rfl | tail _ h => ?_)); exact nomatch h

/-- The buffers the window's operations write. -/
abbrev ops7_W : List (Ref sig .tc) := [main_v353, main_cst_65, main_v354, main_v355, main_v356, main_v357, main_v358, main_v359, main_v360, main_v361, main_v362, main_v363, main_cst_66, main_v364, main_cst_67, main_v365, main_v366, main_v367, main_cst_68, main_v368, main_v369, main_v370, main_c_69, main_v371, main_v372, main_c_70, main_v373, main_v374, main_v375, main_v376, main_v377, main_c_71, main_v378, main_v379, main_c_72, main_v380, main_v381, main_v382, main_v383, main_v384, main_v385, main_c_73, main_v386, main_v387, main_c_74, main_v388, main_v389, main_v390, main_v391, main_v392, main_v393, main_v394, main_v395, main_cst_75, main_v396, main_v397, main_v398, main_v399, main_v400, main_v401]

set_option maxRecDepth 8192 in
set_option maxHeartbeats 4000000 in
theorem ops7_writes : (ops7 : List (HloOp τ sig (Elt F))).Forall fun op => op.writes ⊆ (ops7_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem ops7_keep (V : Valuation τ sig (Elt F)) (r : Ref sig .tc) (h : r ∉ ops7_W) :
    after ops7 V (Proc.devRef .tc r) = V (Proc.devRef .tc r) :=
  after_of_writes_sub ops7 V ops7_writes h

end Cert.RefRun

end
-- ==== Proof.RefOps8.lean ====
/- Window 8 of the reference program's @main as a list of its host operations (each call's body over the call's
   own record), the window as the list run in order, and what the list touches and writes. -/
import proofs.«102494_j5102421148167_1_alg».proof.ReferenceIdeal
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of @main's window 8, in order: a call is its function's operations over the call's record. -/
abbrev ops8 : List (HloOp τ sig (Elt F)) :=
  [ StableHlo.binary main_v363 main_v401 main_v402 (mulf : (⟨S50000x64, .f32⟩ : BufTy).Contents (Elt F) → (⟨S50000x64, .f32⟩ : BufTy).Contents (Elt F) → (⟨S50000x64, .f32⟩ : BufTy).Contents (Elt F)),
    StableHlo.binary main_v398 main_v402 main_v403 (addf : (⟨S50000x64, .f32⟩ : BufTy).Contents (Elt F) → (⟨S50000x64, .f32⟩ : BufTy).Contents (Elt F) → (⟨S50000x64, .f32⟩ : BufTy).Contents (Elt F)),
    StableHlo.unary main_v362 main_v404 (broadcastInDim S1x64 ![1] bcast_S64_S1x64_1 : (⟨S64, .f32⟩ : BufTy).Contents (Elt F) → (⟨S1x64, .f32⟩ : BufTy).Contents (Elt F)),
    StableHlo.unary main_v404 main_v405 (broadcastInDim S50000x64 ![0, 1] bcast_S1x64_S50000x64_0_1 : (⟨S1x64, .f32⟩ : BufTy).Contents (Elt F) → (⟨S50000x64, .f32⟩ : BufTy).Contents (Elt F)),
    StableHlo.binary main_v403 main_v405 main_v406 (addf : (⟨S50000x64, .f32⟩ : BufTy).Contents (Elt F) → (⟨S50000x64, .f32⟩ : BufTy).Contents (Elt F) → (⟨S50000x64, .f32⟩ : BufTy).Contents (Elt F)),
    StableHlo.nullary main_cst_76 (constant S_ .f32 0x00000000#32),
    StableHlo.unary main_cst_76 main_v407 (broadcastInDim S64x64 ![] bcast_S_S64x64 : (⟨S_, .f32⟩ : BufTy).Contents (Elt F) → (⟨S64x64, .f32⟩ : BufTy).Contents (Elt F)),
    StableHlo.unary main_arg2 main_v408 (broadcastInDim S50000x1 ![0] bcast_S50000_S50000x1_0 : (⟨S50000, .i32⟩ : BufTy).Contents (Elt F) → (⟨S50000x1, .i32⟩ : BufTy).Contents (Elt F)),
    StableHlo.ternary main_v407 main_v408 main_v406 main_v409 ((fun x i u => Host.scatterAdd scatter_S64x64_S50000x1_S50000x64_1_0_0_1 x i u) : (⟨S64x64, .f32⟩ : BufTy).Contents (Elt F) → (⟨S50000x1, .i32⟩ : BufTy).Contents (Elt F) → (⟨S50000x64, .f32⟩ : BufTy).Contents (Elt F) → (⟨S64x64, .f32⟩ : BufTy).Contents (Elt F)),
    StableHlo.nullary main_cst_77 (constant S_ .f32 0x3F800000#32),
    StableHlo.unary main_cst_77 main_v410 (broadcastInDim S50000 ![] bcast_S_S50000 : (⟨S_, .f32⟩ : BufTy).Contents (Elt F) → (⟨S50000, .f32⟩ : BufTy).Contents (Elt F)),
    StableHlo.nullary main_cst_78 (constant S_ .f32 0x00000000#32),
    StableHlo.unary main_cst_78 main_v411 (broadcastInDim S64 ![] bcast_S_S64 : (⟨S_, .f32⟩ : BufTy).Contents (Elt F) → (⟨S64, .f32⟩ : BufTy).Contents (Elt F)),
    StableHlo.unary main_arg2 main_v412 (broadcastInDim S50000x1 ![0] bcast_S50000_S50000x1_0 : (⟨S50000, .i32⟩ : BufTy).Contents (Elt F) → (⟨S50000x1, .i32⟩ : BufTy).Contents (Elt F)),
    StableHlo.ternary main_v411 main_v412 main_v410 main_v413 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_79 (constant S_ .f32 0x3F800000#32),
    StableHlo.unary main_cst_79 main_v414 (broadcastInDim S64 ![] bcast_S_S64 : (⟨S_, .f32⟩ : BufTy).Contents (Elt F) → (⟨S64, .f32⟩ : BufTy).Contents (Elt F)),
    StableHlo.binary main_v413 main_v414 main_v415 (maximumf : (⟨S64, .f32⟩ : BufTy).Contents (Elt F) → (⟨S64, .f32⟩ : BufTy).Contents (Elt F) → (⟨S64, .f32⟩ : BufTy).Contents (Elt F)),
    StableHlo.unary main_v415 main_v416 (broadcastInDim S64x1 ![0] bcast_S64_S64x1_0 : (⟨S64, .f32⟩ : BufTy).Contents (Elt F) → (⟨S64x1, .f32⟩ : BufTy).Contents (Elt F)),
    StableHlo.unary main_v416 main_v417 (broadcastInDim S64x64 ![0, 1] bcast_S64x1_S64x64_0_1 : (⟨S64x1, .f32⟩ : BufTy).Contents (Elt F) → (⟨S64x64, .f32⟩ : BufTy).Contents (Elt F)),
    StableHlo.binary main_v409 main_v417 main_v418 (Host.divf : (⟨S64x64, .f32⟩ : BufTy).Contents (Elt F) → (⟨S64x64, .f32⟩ : BufTy).Contents (Elt F) → (⟨S64x64, .f32⟩ : BufTy).Contents (Elt F)),
    StableHlo.nullary main_cst_80 (constant S_ .f32 0x00000000#32),
    StableHlo.binary main_v418 main_cst_80 main_v419 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    StableHlo.nullary main_cst_81 (constant S_ .f32 0x42800000#32),
    StableHlo.unary main_cst_81 main_v420 (broadcastInDim S64 ![] bcast_S_S64 : (⟨S_, .f32⟩ : BufTy).Contents (Elt F) → (⟨S64, .f32⟩ : BufTy).Contents (Elt F)),
    StableHlo.binary main_v419 main_v420 main_v421 (Host.divf : (⟨S64, .f32⟩ : BufTy).Contents (Elt F) → (⟨S64, .f32⟩ : BufTy).Contents (Elt F) → (⟨S64, .f32⟩ : BufTy).Contents (Elt F)),
    StableHlo.nullary main_c_82 (constantI S_ 32 0#32),
    StableHlo.TRef.nullary main_call9.cst (constant S_ .f32 0x00000000#32),
    StableHlo.TRef.binary (.of main_v418 : StableHlo.TRef sig ⟨S64x64, .f32⟩) main_call9.cst main_call9.v0 (fun x v => Host.reduceAdd x v reducesTo_S64x64_S64_d0 h_S_),
    StableHlo.TRef.unary main_call9.v0 main_call9.v1 (broadcastInDim S1x64 ![1] bcast_S64_S1x64_1),
    StableHlo.TRef.nullary main_call9.cst_0 (constant S_ .f32 0x42800000#32),
    StableHlo.TRef.unary main_call9.cst_0 main_call9.v2 (broadcastInDim S1x64 ![] bcast_S_S1x64),
    StableHlo.TRef.binary main_call9.v1 main_call9.v2 main_call9.v3 Host.divf,
    StableHlo.TRef.unary main_call9.v3 main_call9.v4 (broadcastInDim S64x64 ![0, 1] bcast_S1x64_S64x64_0_1),
    StableHlo.TRef.binary (.of main_v418 : StableHlo.TRef sig ⟨S64x64, .f32⟩) main_call9.v4 main_call9.v5 subf,
    StableHlo.TRef.binary main_call9.v5 main_call9.v5 main_call9.v6 mulf,
    StableHlo.TRef.unary (.of main_c_82 : StableHlo.TRef sig ⟨S_, .i32⟩) main_call9.v7 (sitofp .f32),
    StableHlo.TRef.nullary main_call9.cst_1 (constant S_ .f32 0x42800000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S64x64_S64_d0 h_S_),
    StableHlo.TRef.unary main_call9.v8 main_call9.v10 (broadcastInDim S64 ![] bcast_S_S64),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S64 ![] bcast_S_S64),
    StableHlo.TRef.ternary main_call9.v12 main_call9.v11 main_call9.call0.v1 main_call9.call0.v2 (fun p a b => select (broadcastInDim S64 ![] bcast_S_S64 p) a b),
    StableHlo.unary main_v421 main_v423 (broadcastInDim S1x64 ![1] bcast_S64_S1x64_1 : (⟨S64, .f32⟩ : BufTy).Contents (Elt F) → (⟨S1x64, .f32⟩ : BufTy).Contents (Elt F)),
    StableHlo.unary main_v423 main_v424 (broadcastInDim S64x64 ![0, 1] bcast_S1x64_S64x64_0_1 : (⟨S1x64, .f32⟩ : BufTy).Contents (Elt F) → (⟨S64x64, .f32⟩ : BufTy).Contents (Elt F)),
    StableHlo.binary main_v418 main_v424 main_v425 (subf : (⟨S64x64, .f32⟩ : BufTy).Contents (Elt F) → (⟨S64x64, .f32⟩ : BufTy).Contents (Elt F) → (⟨S64x64, .f32⟩ : BufTy).Contents (Elt F)),
    StableHlo.nullary main_cst_83 (constant S_ .f32 0x3727C5AC#32),
    StableHlo.unary main_cst_83 main_v426 (broadcastInDim S64 ![] bcast_S_S64 : (⟨S_, .f32⟩ : BufTy).Contents (Elt F) → (⟨S64, .f32⟩ : BufTy).Contents (Elt F)),
    StableHlo.binary main_v422 main_v426 main_v427 (addf : (⟨S64, .f32⟩ : BufTy).Contents (Elt F) → (⟨S64, .f32⟩ : BufTy).Contents (Elt F) → (⟨S64, .f32⟩ : BufTy).Contents (Elt F)),
    StableHlo.unary main_v427 main_v428 (Host.rsqrt : (⟨S64, .f32⟩ : BufTy).Contents (Elt F) → (⟨S64, .f32⟩ : BufTy).Contents (Elt F)),
    StableHlo.unary main_v428 main_v429 (broadcastInDim S1x64 ![1] bcast_S64_S1x64_1 : (⟨S64, .f32⟩ : BufTy).Contents (Elt F) → (⟨S1x64, .f32⟩ : BufTy).Contents (Elt F)),
    StableHlo.unary main_v429 main_v430 (broadcastInDim S64x64 ![0, 1] bcast_S1x64_S64x64_0_1 : (⟨S1x64, .f32⟩ : BufTy).Contents (Elt F) → (⟨S64x64, .f32⟩ : BufTy).Contents (Elt F)),
    StableHlo.binary main_v425 main_v430 main_v431 (mulf : (⟨S64x64, .f32⟩ : BufTy).Contents (Elt F) → (⟨S64x64, .f32⟩ : BufTy).Contents (Elt F) → (⟨S64x64, .f32⟩ : BufTy).Contents (Elt F)),
    StableHlo.unary main_arg13 main_v432 (broadcastInDim S1x64 ![1] bcast_S64_S1x64_1 : (⟨S64, .f32⟩ : BufTy).Contents (Elt F) → (⟨S1x64, .f32⟩ : BufTy).Contents (Elt F)),
    StableHlo.unary main_v432 main_v433 (broadcastInDim S64x64 ![0, 1] bcast_S1x64_S64x64_0_1 : (⟨S1x64, .f32⟩ : BufTy).Contents (Elt F) → (⟨S64x64, .f32⟩ : BufTy).Contents (Elt F)),
    StableHlo.binary main_v431 main_v433 main_v434 (mulf : (⟨S64x64, .f32⟩ : BufTy).Contents (Elt F) → (⟨S64x64, .f32⟩ : BufTy).Contents (Elt F) → (⟨S64x64, .f32⟩ : BufTy).Contents (Elt F)),
    StableHlo.unary main_arg14 main_v435 (broadcastInDim S1x64 ![1] bcast_S64_S1x64_1 : (⟨S64, .f32⟩ : BufTy).Contents (Elt F) → (⟨S1x64, .f32⟩ : BufTy).Contents (Elt F)),
    StableHlo.unary main_v435 main_v436 (broadcastInDim S64x64 ![0, 1] bcast_S1x64_S64x64_0_1 : (⟨S1x64, .f32⟩ : BufTy).Contents (Elt F) → (⟨S64x64, .f32⟩ : BufTy).Contents (Elt F)),
    StableHlo.binary main_v434 main_v436 main_v437 (addf : (⟨S64x64, .f32⟩ : BufTy).Contents (Elt F) → (⟨S64x64, .f32⟩ : BufTy).Contents (Elt F) → (⟨S64x64, .f32⟩ : BufTy).Contents (Elt F)),
    StableHlo.binary main_v437 main_arg15 main_v438 ((fun l r => Host.dotGeneral dot_S64x64_S64x256_S64x256_1_0_0_1_n_n none l r) : (⟨S64x64, .f32⟩ : BufTy).Contents (Elt F) → (⟨S64x256, .f32⟩ : BufTy).Contents (Elt F) → (⟨S64x256, .f32⟩ : BufTy).Contents (Elt F)),
    StableHlo.unary main_arg16 main_v439 (broadcastInDim S1x256 ![1] bcast_S256_S1x256_1 : (⟨S256, .f32⟩ : BufTy).Contents (Elt F) → (⟨S1x256, .f32⟩ : BufTy).Contents (Elt F)),
    StableHlo.unary main_v439 main_v440 (broadcastInDim S64x256 ![0, 1] bcast_S1x256_S64x256_0_1 : (⟨S1x256, .f32⟩ : BufTy).Contents (Elt F) → (⟨S64x256, .f32⟩ : BufTy).Contents (Elt F)),
    StableHlo.binary main_v438 main_v440 main_v441 (addf : (⟨S64x256, .f32⟩ : BufTy).Contents (Elt F) → (⟨S64x256, .f32⟩ : BufTy).Contents (Elt F) → (⟨S64x256, .f32⟩ : BufTy).Contents (Elt F)),
    StableHlo.nullary main_cst_84 (constant S_ .f32 0x00000000#32),
    StableHlo.unary main_cst_84 main_v442 (broadcastInDim S64x256 ![] bcast_S_S64x256 : (⟨S_, .f32⟩ : BufTy).Contents (Elt F) → (⟨S64x256, .f32⟩ : BufTy).Contents (Elt F)),
    StableHlo.binary main_v441 main_v442 main_v443 (cmpf .oge : (⟨S64x256, .f32⟩ : BufTy).Contents (Elt F) → (⟨S64x256, .f32⟩ : BufTy).Contents (Elt F) → (⟨S64x256, .i1⟩ : BufTy).Contents (Elt F)),
    StableHlo.unary main_arg17 main_v444 (broadcastInDim S64x256 ![] bcast_S_S64x256 : (⟨S_, .f32⟩ : BufTy).Contents (Elt F) → (⟨S64x256, .f32⟩ : BufTy).Contents (Elt F)),
    StableHlo.binary main_v444 main_v441 main_v445 (mulf : (⟨S64x256, .f32⟩ : BufTy).Contents (Elt F) → (⟨S64x256, .f32⟩ : BufTy).Contents (Elt F) → (⟨S64x256, .f32⟩ : BufTy).Contents (Elt F)),
    StableHlo.TRef.ternary (.of main_v443 : StableHlo.TRef sig ⟨S64x256, .i1⟩) (.of main_v441 : StableHlo.TRef sig ⟨S64x256, .f32⟩) (.of main_v445 : StableHlo.TRef sig ⟨S64x256, .f32⟩) main_call10.v0 select,
    StableHlo.binary main_v446 main_arg18 main_v447 ((fun l r => Host.dotGeneral dot_S64x256_S256x10_S64x10_1_0_0_1_n_n none l r) : (⟨S64x256, .f32⟩ : BufTy).Contents (Elt F) → (⟨S256x10, .f32⟩ : BufTy).Contents (Elt F) → (⟨S64x10, .f32⟩ : BufTy).Contents (Elt F)),
    StableHlo.unary main_arg19 main_v448 (broadcastInDim S1x10 ![1] bcast_S10_S1x10_1 : (⟨S10, .f32⟩ : BufTy).Contents (Elt F) → (⟨S1x10, .f32⟩ : BufTy).Contents (Elt F)),
    StableHlo.unary main_v448 main_v449 (broadcastInDim S64x10 ![0, 1] bcast_S1x10_S64x10_0_1 : (⟨S1x10, .f32⟩ : BufTy).Contents (Elt F) → (⟨S64x10, .f32⟩ : BufTy).Contents (Elt F)),
    StableHlo.binary main_v447 main_v449 main_v450 (addf : (⟨S64x10, .f32⟩ : BufTy).Contents (Elt F) → (⟨S64x10, .f32⟩ : BufTy).Contents (Elt F) → (⟨S64x10, .f32⟩ : BufTy).Contents (Elt F)) ]

set_option maxRecDepth 8192 in
set_option maxHeartbeats 4000000 in
/-- The window is that straight line: the called functions unfold at their calls, and sequencing reassociates. -/
theorem part8_eq (c : Dev nD) : main_part8 (F := F) c = seq ops8 := by
  simp only [main_part8, fn_var_2.body, fn_where_0.body, fn_where_3.body, seq, bind_assoc, pure_bind] <;> rfl

set_option maxRecDepth 8192 in
theorem ops8_sub : (ops8 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., ternary_bufs_sub .., binary_bufs_sub .., unary_bufs_sub .., unary_bufs_sub .., binary_bufs_sub ..⟩

set_option maxRecDepth 8192 in
set_option maxHeartbeats 4000000 in
/-- Every operation determines its results. -/
theorem ops8_fresh : ∀ op ∈ (ops8 : List (HloOp τ sig (Elt F))), op.fresh = ∅ := by
  intro _ h; (repeat (cases h with | head => rfl | tail _ h => ?_)); exact nomatch h

/-- The buffers the window's operations write. -/
abbrev ops8_W : List (Ref sig .tc) := [main_v402, main_v403, main_v404, main_v405, main_v406, main_cst_76, main_v407, main_v408, main_v409, main_cst_77, main_v410, main_cst_78, main_v411, main_v412, main_v413, main_cst_79, main_v414, main_v415, main_v416, main_v417, main_v418, main_cst_80, main_v419, main_cst_81, main_v420, main_v421, main_c_82, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v422, main_v423, main_v424, main_v425, main_cst_83, main_v426, main_v427, main_v428, main_v429, main_v430, main_v431, main_v432, main_v433, main_v434, main_v435, main_v436, main_v437, main_v438, main_v439, main_v440, main_v441, main_cst_84, main_v442, main_v443, main_v444, main_v445, main_v446, main_v447, main_v448, main_v449, main_v450]

set_option maxRecDepth 8192 in
set_option maxHeartbeats 4000000 in
theorem ops8_writes : (ops8 : List (HloOp τ sig (Elt F))).Forall fun op => op.writes ⊆ (ops8_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem ops8_keep (V : Valuation τ sig (Elt F)) (r : Ref sig .tc) (h : r ∉ ops8_W) :
    after ops8 V (Proc.devRef .tc r) = V (Proc.devRef .tc r) :=
  after_of_writes_sub ops8 V ops8_writes h

end Cert.RefRun

end
-- ==== Proof.RefOps.lean ====
/- The reference program's @main as ONE list of host operations: its nine windows' lists joined, the program as that
   list run in order, and what the list touches, determines and writes. -/
import proofs.«102494_j5102421148167_1_alg».proof.Proof.RefOps0
import proofs.«102494_j5102421148167_1_alg».proof.Proof.RefOps1
import proofs.«102494_j5102421148167_1_alg».proof.Proof.RefOps2
import proofs.«102494_j5102421148167_1_alg».proof.Proof.RefOps3
import proofs.«102494_j5102421148167_1_alg».proof.Proof.RefOps4
import proofs.«102494_j5102421148167_1_alg».proof.Proof.RefOps5
import proofs.«102494_j5102421148167_1_alg».proof.Proof.RefOps6
import proofs.«102494_j5102421148167_1_alg».proof.Proof.RefOps7
import proofs.«102494_j5102421148167_1_alg».proof.Proof.RefOps8
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main's operations, in order: the nine windows' lists, joined. -/
abbrev ops : List (HloOp τ sig (Elt F)) :=
  ops0 ++ (ops1 ++ (ops2 ++ (ops3 ++ (ops4 ++ (ops5 ++ (ops6 ++ (ops7 ++ (ops8))))))))

/-- @main runs its windows in order, each window is its list run in order, and lists run one after the other are
    their concatenation run as one. -/
theorem main_eq (c : Dev nD) : main (F := F) c = seq ops := by
  simp only [ops, seq_append, ← part0_eq c, ← part1_eq c, ← part2_eq c, ← part3_eq c, ← part4_eq c, ← part5_eq c, ← part6_eq c, ← part7_eq c, ← part8_eq c]
  rfl

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h]

/-- Every operation determines its results. -/
theorem ops_fresh : ∀ op ∈ (ops : List (HloOp τ sig (Elt F))), op.fresh = ∅ := by
  intro op h
  simp only [ops, List.mem_append] at h
  rcases h with h | h | h | h | h | h | h | h | h
  exacts [ops0_fresh op h, ops1_fresh op h, ops2_fresh op h, ops3_fresh op h, ops4_fresh op h, ops5_fresh op h, ops6_fresh op h, ops7_fresh op h, ops8_fresh op h]

/-- The contents after the whole list are the windows' folds, nested in order. -/
theorem after_ops (V : Valuation τ sig (Elt F)) :
    after ops V = after ops8 (after ops7 (after ops6 (after ops5 (after ops4 (after ops3 (after ops2 (after ops1 (after ops0 (V))))))))) := by
  simp only [ops, after_append]

/-- A buffer no window writes keeps its contents through the whole list. -/
theorem ops_keep (V : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) :
    after ops V (Proc.devRef .tc r) = V (Proc.devRef .tc r) := by
  rw [after_ops, ops8_keep _ r h8, ops7_keep _ r h7, ops6_keep _ r h6, ops5_keep _ r h5, ops4_keep _ r h4, ops3_keep _ r h3, ops2_keep _ r h2, ops1_keep _ r h1, ops0_keep _ r h0]

end Cert.RefRun

end
-- ==== Proof.RefRun.lean ====
/- The reference program's run: every weakly fair execution of @main terminates with every buffer at the fold of the
   operations' results over the launch contents; no operation writes an argument array, so each ends as launched. -/
import proofs.«102494_j5102421148167_1_alg».proof.Proof.RefOps
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-! No operation writes an argument array: each is in no window's list of written buffers. -/
theorem arg_kept_0 (V : Valuation τ sig (Elt F)) : after ops V (Proc.devRef .tc main_arg0) = V (Proc.devRef .tc main_arg0) :=
  ops_keep V main_arg0 (by decide) (by decide) (by decide) (by decide) (by decide) (by decide) (by decide) (by decide) (by decide)
theorem arg_kept_1 (V : Valuation τ sig (Elt F)) : after ops V (Proc.devRef .tc main_arg1) = V (Proc.devRef .tc main_arg1) :=
  ops_keep V main_arg1 (by decide) (by decide) (by decide) (by decide) (by decide) (by decide) (by decide) (by decide) (by decide)
theorem arg_kept_2 (V : Valuation τ sig (Elt F)) : after ops V (Proc.devRef .tc main_arg2) = V (Proc.devRef .tc main_arg2) :=
  ops_keep V main_arg2 (by decide) (by decide) (by decide) (by decide) (by decide) (by decide) (by decide) (by decide) (by decide)
theorem arg_kept_3 (V : Valuation τ sig (Elt F)) : after ops V (Proc.devRef .tc main_arg3) = V (Proc.devRef .tc main_arg3) :=
  ops_keep V main_arg3 (by decide) (by decide) (by decide) (by decide) (by decide) (by decide) (by decide) (by decide) (by decide)
theorem arg_kept_4 (V : Valuation τ sig (Elt F)) : after ops V (Proc.devRef .tc main_arg4) = V (Proc.devRef .tc main_arg4) :=
  ops_keep V main_arg4 (by decide) (by decide) (by decide) (by decide) (by decide) (by decide) (by decide) (by decide) (by decide)
theorem arg_kept_5 (V : Valuation τ sig (Elt F)) : after ops V (Proc.devRef .tc main_arg5) = V (Proc.devRef .tc main_arg5) :=
  ops_keep V main_arg5 (by decide) (by decide) (by decide) (by decide) (by decide) (by decide) (by decide) (by decide) (by decide)
theorem arg_kept_6 (V : Valuation τ sig (Elt F)) : after ops V (Proc.devRef .tc main_arg6) = V (Proc.devRef .tc main_arg6) :=
  ops_keep V main_arg6 (by decide) (by decide) (by decide) (by decide) (by decide) (by decide) (by decide) (by decide) (by decide)
theorem arg_kept_7 (V : Valuation τ sig (Elt F)) : after ops V (Proc.devRef .tc main_arg7) = V (Proc.devRef .tc main_arg7) :=
  ops_keep V main_arg7 (by decide) (by decide) (by decide) (by decide) (by decide) (by decide) (by decide) (by decide) (by decide)
theorem arg_kept_8 (V : Valuation τ sig (Elt F)) : after ops V (Proc.devRef .tc main_arg8) = V (Proc.devRef .tc main_arg8) :=
  ops_keep V main_arg8 (by decide) (by decide) (by decide) (by decide) (by decide) (by decide) (by decide) (by decide) (by decide)
theorem arg_kept_9 (V : Valuation τ sig (Elt F)) : after ops V (Proc.devRef .tc main_arg9) = V (Proc.devRef .tc main_arg9) :=
  ops_keep V main_arg9 (by decide) (by decide) (by decide) (by decide) (by decide) (by decide) (by decide) (by decide) (by decide)
theorem arg_kept_10 (V : Valuation τ sig (Elt F)) : after ops V (Proc.devRef .tc main_arg10) = V (Proc.devRef .tc main_arg10) :=
  ops_keep V main_arg10 (by decide) (by decide) (by decide) (by decide) (by decide) (by decide) (by decide) (by decide) (by decide)
theorem arg_kept_11 (V : Valuation τ sig (Elt F)) : after ops V (Proc.devRef .tc main_arg11) = V (Proc.devRef .tc main_arg11) :=
  ops_keep V main_arg11 (by decide) (by decide) (by decide) (by decide) (by decide) (by decide) (by decide) (by decide) (by decide)
theorem arg_kept_12 (V : Valuation τ sig (Elt F)) : after ops V (Proc.devRef .tc main_arg12) = V (Proc.devRef .tc main_arg12) :=
  ops_keep V main_arg12 (by decide) (by decide) (by decide) (by decide) (by decide) (by decide) (by decide) (by decide) (by decide)
theorem arg_kept_13 (V : Valuation τ sig (Elt F)) : after ops V (Proc.devRef .tc main_arg13) = V (Proc.devRef .tc main_arg13) :=
  ops_keep V main_arg13 (by decide) (by decide) (by decide) (by decide) (by decide) (by decide) (by decide) (by decide) (by decide)
theorem arg_kept_14 (V : Valuation τ sig (Elt F)) : after ops V (Proc.devRef .tc main_arg14) = V (Proc.devRef .tc main_arg14) :=
  ops_keep V main_arg14 (by decide) (by decide) (by decide) (by decide) (by decide) (by decide) (by decide) (by decide) (by decide)
theorem arg_kept_15 (V : Valuation τ sig (Elt F)) : after ops V (Proc.devRef .tc main_arg15) = V (Proc.devRef .tc main_arg15) :=
  ops_keep V main_arg15 (by decide) (by decide) (by decide) (by decide) (by decide) (by decide) (by decide) (by decide) (by decide)
theorem arg_kept_16 (V : Valuation τ sig (Elt F)) : after ops V (Proc.devRef .tc main_arg16) = V (Proc.devRef .tc main_arg16) :=
  ops_keep V main_arg16 (by decide) (by decide) (by decide) (by decide) (by decide) (by decide) (by decide) (by decide) (by decide)
theorem arg_kept_17 (V : Valuation τ sig (Elt F)) : after ops V (Proc.devRef .tc main_arg17) = V (Proc.devRef .tc main_arg17) :=
  ops_keep V main_arg17 (by decide) (by decide) (by decide) (by decide) (by decide) (by decide) (by decide) (by decide) (by decide)
theorem arg_kept_18 (V : Valuation τ sig (Elt F)) : after ops V (Proc.devRef .tc main_arg18) = V (Proc.devRef .tc main_arg18) :=
  ops_keep V main_arg18 (by decide) (by decide) (by decide) (by decide) (by decide) (by decide) (by decide) (by decide) (by decide)
theorem arg_kept_19 (V : Valuation τ sig (Elt F)) : after ops V (Proc.devRef .tc main_arg19) = V (Proc.devRef .tc main_arg19) :=
  ops_keep V main_arg19 (by decide) (by decide) (by decide) (by decide) (by decide) (by decide) (by decide) (by decide) (by decide)

/-- @main runs (terminates, no fault) and its argument arrays end unchanged. -/
theorem frame (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(h c main_arg0).trans (arg_kept_0 _),
      (h c main_arg1).trans (arg_kept_1 _),
      (h c main_arg2).trans (arg_kept_2 _),
      (h c main_arg3).trans (arg_kept_3 _),
      (h c main_arg4).trans (arg_kept_4 _),
      (h c main_arg5).trans (arg_kept_5 _),
      (h c main_arg6).trans (arg_kept_6 _),
      (h c main_arg7).trans (arg_kept_7 _),
      (h c main_arg8).trans (arg_kept_8 _),
      (h c main_arg9).trans (arg_kept_9 _),
      (h c main_arg10).trans (arg_kept_10 _),
      (h c main_arg11).trans (arg_kept_11 _),
      (h c main_arg12).trans (arg_kept_12 _),
      (h c main_arg13).trans (arg_kept_13 _),
      (h c main_arg14).trans (arg_kept_14 _),
      (h c main_arg15).trans (arg_kept_15 _),
      (h c main_arg16).trans (arg_kept_16 _),
      (h c main_arg17).trans (arg_kept_17 _),
      (h c main_arg18).trans (arg_kept_18 _),
      (h c main_arg19).trans (arg_kept_19 _)⟩)
    (run_after m g)

end Cert.RefRun

end
-- ==== Proof.RefStPre.lean ====
/- The first stage of the reference program: the edge list's two rows and the first dense layer. -/
import proofs.«102494_j5102421148167_1_alg».proof.ReferenceIdeal
import proofs.«102494_j5102421148167_1_alg».proof.Proof.Spec
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The edge list's rows and the first dense layer (operations 1 … 8 of 622). -/
abbrev sPre : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg3 main_v4 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg4 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S50000x64 ![0, 1] bcast_S1x64_S50000x64_0_1 : (⟨S1x64, .f32⟩ : BufTy).Contents (Elt F) → (⟨S50000x64, .f32⟩ : BufTy).Contents (Elt F)),
    StableHlo.binary main_v4 main_v6 main_v7 (addf : (⟨S50000x64, .f32⟩ : BufTy).Contents (Elt F) → (⟨S50000x64, .f32⟩ : BufTy).Contents (Elt F) → (⟨S50000x64, .f32⟩ : BufTy).Contents (Elt F)) ]

/-- The buffers the stage's operations write. -/
abbrev sPre_W : List (Ref sig .tc) := [main_v0, main_v1, main_v2, main_v3, main_v4, main_v5, main_v6, main_v7]

set_option maxRecDepth 8192 in
set_option maxHeartbeats 4000000 in
theorem sPre_writes : (sPre : List (HloOp τ sig (Elt F))).Forall fun op => op.writes ⊆ (sPre_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stage does not write keeps its contents through it. -/
theorem sPre_keep (V : Valuation τ sig (Elt F)) (r : Ref sig .tc) (h : r ∉ sPre_W) :
    after sPre V (Proc.devRef .tc r) = V (Proc.devRef .tc r) :=
  after_of_writes_sub sPre V sPre_writes h

set_option maxRecDepth 8192 in
set_option maxHeartbeats 4000000 in
/-- The sources of the edges. -/
theorem sPre_src (V : Valuation τ sig (Elt F)) :
    after sPre V (Proc.devRef .tc main_v1) = Cert.Spec.src (V (Proc.devRef .tc main_arg1)) := by
  simp only [sPre]
  after_results_simp
  rfl

set_option maxRecDepth 8192 in
set_option maxHeartbeats 4000000 in
/-- The targets of the edges. -/
theorem sPre_dst (V : Valuation τ sig (Elt F)) :
    after sPre V (Proc.devRef .tc main_v3) = Cert.Spec.dst (V (Proc.devRef .tc main_arg1)) := by
  simp only [sPre]
  after_results_simp
  rfl

set_option maxRecDepth 8192 in
set_option maxHeartbeats 4000000 in
/-- The first dense layer. -/
theorem sPre_lin0 (V : Valuation τ sig (Elt F)) :
    after sPre V (Proc.devRef .tc main_v7) = Cert.Spec.lin0 (V (Proc.devRef .tc main_arg0)) (V (Proc.devRef .tc main_arg3)) (V (Proc.devRef .tc main_arg4)) := by
  simp only [sPre]
  after_results_simp
  rfl

end Cert.RefRun

end
-- ==== Proof.RefStBlk0.lean ====
/- Block 1 of the reference program in four stages: rectify, normalise and contract; aggregate 128-wide rows;
   rectify and contract; aggregate 64-wide rows. Each stage's value over an arbitrary valuation, then the block's. -/
import proofs.«102494_j5102421148167_1_alg».proof.ReferenceIdeal
import proofs.«102494_j5102421148167_1_alg».proof.Proof.Spec
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- Block 1: the rectifier, the statistics, the normalisation and the first contraction (operations 9 … 69 of 622). -/
abbrev sA0 : List (HloOp τ sig (Elt F)) :=
  [ StableHlo.unary main_arg5 main_v8 ((extractStridedSlice S1 ![0] · slices_S3_S1_0) : (⟨S3, .f32⟩ : BufTy).Contents (Elt F) → (⟨S1, .f32⟩ : BufTy).Contents (Elt F)),
    StableHlo.reshape main_v8 main_v9 rfl shapeCasts_S1_S_,
    StableHlo.nullary main_cst (constant S_ .f32 0x00000000#32),
    StableHlo.unary main_cst main_v10 (broadcastInDim S50000x64 ![] bcast_S_S50000x64 : (⟨S_, .f32⟩ : BufTy).Contents (Elt F) → (⟨S50000x64, .f32⟩ : BufTy).Contents (Elt F)),
    StableHlo.binary main_v7 main_v10 main_v11 (cmpf .oge : (⟨S50000x64, .f32⟩ : BufTy).Contents (Elt F) → (⟨S50000x64, .f32⟩ : BufTy).Contents (Elt F) → (⟨S50000x64, .i1⟩ : BufTy).Contents (Elt F)),
    StableHlo.unary main_v9 main_v12 (broadcastInDim S50000x64 ![] bcast_S_S50000x64 : (⟨S_, .f32⟩ : BufTy).Contents (Elt F) → (⟨S50000x64, .f32⟩ : BufTy).Contents (Elt F)),
    StableHlo.binary main_v12 main_v7 main_v13 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v11 : StableHlo.TRef sig ⟨S50000x64, .i1⟩) (.of main_v7 : StableHlo.TRef sig ⟨S50000x64, .f32⟩) (.of main_v13 : StableHlo.TRef sig ⟨S50000x64, .f32⟩) main_call0.v0 select,
    StableHlo.unary main_arg6 main_v15 ((extractStridedSlice S1x64 ![0, 0] · slices_S3x64_S1x64_0_0) : (⟨S3x64, .f32⟩ : BufTy).Contents (Elt F) → (⟨S1x64, .f32⟩ : BufTy).Contents (Elt F)),
    StableHlo.reshape main_v15 main_v16 rfl shapeCasts_S1x64_S64,
    StableHlo.unary main_arg7 main_v17 ((extractStridedSlice S1x64 ![0, 0] · slices_S3x64_S1x64_0_0) : (⟨S3x64, .f32⟩ : BufTy).Contents (Elt F) → (⟨S1x64, .f32⟩ : BufTy).Contents (Elt F)),
    StableHlo.reshape main_v17 main_v18 rfl shapeCasts_S1x64_S64,
    StableHlo.nullary main_cst_0 (constant S_ .f32 0x00000000#32),
    StableHlo.binary main_v14 main_cst_0 main_v19 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_1 (constant S_ .f32 0x47435000#32),
    StableHlo.unary main_cst_1 main_v20 (broadcastInDim S64 ![] bcast_S_S64 : (⟨S_, .f32⟩ : BufTy).Contents (Elt F) → (⟨S64, .f32⟩ : BufTy).Contents (Elt F)),
    StableHlo.binary main_v19 main_v20 main_v21 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call1.cst (constant S_ .f32 0x00000000#32),
    StableHlo.TRef.binary (.of main_v14 : StableHlo.TRef sig ⟨S50000x64, .f32⟩) main_call1.cst main_call1.v0 (fun x v => Host.reduceAdd x v reducesTo_S50000x64_S64_d0 h_S_),
    StableHlo.TRef.unary main_call1.v0 main_call1.v1 (broadcastInDim S1x64 ![1] bcast_S64_S1x64_1),
    StableHlo.TRef.nullary main_call1.cst_0 (constant S_ .f32 0x47435000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S50000x64 ![0, 1] bcast_S1x64_S50000x64_0_1),
    StableHlo.TRef.binary (.of main_v14 : StableHlo.TRef sig ⟨S50000x64, .f32⟩) main_call1.v4 main_call1.v5 subf,
    StableHlo.TRef.binary main_call1.v5 main_call1.v5 main_call1.v6 mulf,
    StableHlo.TRef.unary (.of main_c : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v21 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S50000x64 ![0, 1] bcast_S1x64_S50000x64_0_1 : (⟨S1x64, .f32⟩ : BufTy).Contents (Elt F) → (⟨S50000x64, .f32⟩ : BufTy).Contents (Elt F)),
    StableHlo.binary main_v14 main_v24 main_v25 (subf : (⟨S50000x64, .f32⟩ : BufTy).Contents (Elt F) → (⟨S50000x64, .f32⟩ : BufTy).Contents (Elt F) → (⟨S50000x64, .f32⟩ : BufTy).Contents (Elt F)),
    StableHlo.nullary main_cst_2 (constant S_ .f32 0x3727C5AC#32),
    StableHlo.unary main_cst_2 main_v26 (broadcastInDim S64 ![] bcast_S_S64 : (⟨S_, .f32⟩ : BufTy).Contents (Elt F) → (⟨S64, .f32⟩ : BufTy).Contents (Elt F)),
    StableHlo.binary main_v22 main_v26 main_v27 (addf : (⟨S64, .f32⟩ : BufTy).Contents (Elt F) → (⟨S64, .f32⟩ : BufTy).Contents (Elt F) → (⟨S64, .f32⟩ : BufTy).Contents (Elt F)),
    StableHlo.unary main_v27 main_v28 (Host.rsqrt : (⟨S64, .f32⟩ : BufTy).Contents (Elt F) → (⟨S64, .f32⟩ : BufTy).Contents (Elt F)),
    StableHlo.unary main_v28 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S50000x64 ![0, 1] bcast_S1x64_S50000x64_0_1 : (⟨S1x64, .f32⟩ : BufTy).Contents (Elt F) → (⟨S50000x64, .f32⟩ : BufTy).Contents (Elt F)),
    StableHlo.binary main_v25 main_v30 main_v31 (mulf : (⟨S50000x64, .f32⟩ : BufTy).Contents (Elt F) → (⟨S50000x64, .f32⟩ : BufTy).Contents (Elt F) → (⟨S50000x64, .f32⟩ : BufTy).Contents (Elt F)),
    StableHlo.unary main_v16 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S50000x64 ![0, 1] bcast_S1x64_S50000x64_0_1 : (⟨S1x64, .f32⟩ : BufTy).Contents (Elt F) → (⟨S50000x64, .f32⟩ : BufTy).Contents (Elt F)),
    StableHlo.binary main_v31 main_v33 main_v34 (mulf : (⟨S50000x64, .f32⟩ : BufTy).Contents (Elt F) → (⟨S50000x64, .f32⟩ : BufTy).Contents (Elt F) → (⟨S50000x64, .f32⟩ : BufTy).Contents (Elt F)),
    StableHlo.unary main_v18 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S50000x64 ![0, 1] bcast_S1x64_S50000x64_0_1 : (⟨S1x64, .f32⟩ : BufTy).Contents (Elt F) → (⟨S50000x64, .f32⟩ : BufTy).Contents (Elt F)),
    StableHlo.binary main_v34 main_v36 main_v37 (addf : (⟨S50000x64, .f32⟩ : BufTy).Contents (Elt F) → (⟨S50000x64, .f32⟩ : BufTy).Contents (Elt F) → (⟨S50000x64, .f32⟩ : BufTy).Contents (Elt F)),
    StableHlo.unary main_arg8 main_v38 ((extractStridedSlice S1x64x128 ![0, 0, 0] · slices_S3x64x128_S1x64x128_0_0_0) : (⟨S3x64x128, .f32⟩ : BufTy).Contents (Elt F) → (⟨S1x64x128, .f32⟩ : BufTy).Contents (Elt F)),
    StableHlo.reshape main_v38 main_v39 rfl shapeCasts_S1x64x128_S64x128,
    StableHlo.unary main_arg9 main_v40 ((extractStridedSlice S1x128 ![0, 0] · slices_S3x128_S1x128_0_0) : (⟨S3x128, .f32⟩ : BufTy).Contents (Elt F) → (⟨S1x128, .f32⟩ : BufTy).Contents (Elt F)),
    StableHlo.reshape main_v40 main_v41 rfl shapeCasts_S1x128_S128,
    StableHlo.binary main_v37 main_v39 main_v42 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)) ]

/-- The buffers the stage's operations write. -/
abbrev sA0_W : List (Ref sig .tc) := [main_v8, main_v9, main_cst, main_v10, main_v11, main_v12, main_v13, main_v14, main_v15, main_v16, main_v17, main_v18, main_cst_0, main_v19, main_cst_1, main_v20, main_v21, main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v22, main_v23, main_v24, main_v25, main_cst_2, main_v26, main_v27, main_v28, main_v29, main_v30, main_v31, main_v32, main_v33, main_v34, main_v35, main_v36, main_v37, main_v38, main_v39, main_v40, main_v41, main_v42]

set_option maxRecDepth 8192 in
set_option maxHeartbeats 4000000 in
theorem sA0_writes : (sA0 : List (HloOp τ sig (Elt F))).Forall fun op => op.writes ⊆ (sA0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stage does not write keeps its contents through it. -/
theorem sA0_keep (V : Valuation τ sig (Elt F)) (r : Ref sig .tc) (h : r ∉ sA0_W) :
    after sA0 V (Proc.devRef .tc r) = V (Proc.devRef .tc r) :=
  after_of_writes_sub sA0 V sA0_writes h

set_option maxRecDepth 8192 in
set_option maxHeartbeats 4000000 in
/-- The rectified rows, normalised over the node axis, scaled, shifted and contracted. -/
theorem sA0_lin (V : Valuation τ sig (Elt F)) :
    after sA0 V (Proc.devRef .tc main_v42) = Cert.Spec.bndot64 (Cert.Spec.prelu64 (Cert.Spec.sc0 (V (Proc.devRef .tc main_arg5))) (V (Proc.devRef .tc main_v7))) (Cert.Spec.mean64 (Cert.Spec.prelu64 (Cert.Spec.sc0 (V (Proc.devRef .tc main_arg5))) (V (Proc.devRef .tc main_v7)))) (Cert.Spec.var64 (Cert.Spec.prelu64 (Cert.Spec.sc0 (V (Proc.devRef .tc main_arg5))) (V (Proc.devRef .tc main_v7)))) (Cert.Spec.v64_0 (V (Proc.devRef .tc main_arg6))) (Cert.Spec.v64_0 (V (Proc.devRef .tc main_arg7))) (Cert.Spec.w1_0 (V (Proc.devRef .tc main_arg8))) := by
  simp only [sA0]
  after_results_simp
  rfl

set_option maxRecDepth 8192 in
set_option maxHeartbeats 4000000 in
/-- The first convolution's bias row. -/
theorem sA0_bias (V : Valuation τ sig (Elt F)) :
    after sA0 V (Proc.devRef .tc main_v41) = Cert.Spec.v128_0 (V (Proc.devRef .tc main_arg9)) := by
  simp only [sA0]
  after_results_simp
  rfl

/-- Block 1: the aggregation of the 128-wide rows (operations 70 … 122 of 622). -/
abbrev sB0 : List (HloOp τ sig (Elt F)) :=
  [ StableHlo.nullary main_cst_3 (constant S_ .f32 0x3F800000#32),
    StableHlo.unary main_cst_3 main_v43 (broadcastInDim S800000 ![] bcast_S_S800000 : (⟨S_, .f32⟩ : BufTy).Contents (Elt F) → (⟨S800000, .f32⟩ : BufTy).Contents (Elt F)),
    StableHlo.nullary main_cst_4 (constant S_ .f32 0x00000000#32),
    StableHlo.unary main_cst_4 main_v44 (broadcastInDim S50000 ![] bcast_S_S50000 : (⟨S_, .f32⟩ : BufTy).Contents (Elt F) → (⟨S50000, .f32⟩ : BufTy).Contents (Elt F)),
    StableHlo.unary main_v3 main_v45 (broadcastInDim S800000x1 ![0] bcast_S800000_S800000x1_0 : (⟨S800000, .i32⟩ : BufTy).Contents (Elt F) → (⟨S800000x1, .i32⟩ : BufTy).Contents (Elt F)),
    StableHlo.ternary main_v44 main_v45 main_v43 main_v46 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_5 (constant S_ .f32 0x3F800000#32),
    StableHlo.unary main_cst_5 main_v47 (broadcastInDim S50000 ![] bcast_S_S50000 : (⟨S_, .f32⟩ : BufTy).Contents (Elt F) → (⟨S50000, .f32⟩ : BufTy).Contents (Elt F)),
    StableHlo.binary main_v46 main_v47 main_v48 (addf : (⟨S50000, .f32⟩ : BufTy).Contents (Elt F) → (⟨S50000, .f32⟩ : BufTy).Contents (Elt F) → (⟨S50000, .f32⟩ : BufTy).Contents (Elt F)),
    StableHlo.unary main_v48 main_v49 (Host.rsqrt : (⟨S50000, .f32⟩ : BufTy).Contents (Elt F) → (⟨S50000, .f32⟩ : BufTy).Contents (Elt F)),
    StableHlo.nullary main_c_6 (constantI S_ 32 0#32),
    StableHlo.unary main_c_6 main_v50 (broadcastInDim S800000 ![] bcast_S_S800000 : (⟨S_, .i32⟩ : BufTy).Contents (Elt F) → (⟨S800000, .i32⟩ : BufTy).Contents (Elt F)),
    StableHlo.binary main_v1 main_v50 main_v51 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v52 (broadcastInDim S800000 ![] bcast_S_S800000 : (⟨S_, .i32⟩ : BufTy).Contents (Elt F) → (⟨S800000, .i32⟩ : BufTy).Contents (Elt F)),
    StableHlo.binary main_v1 main_v52 main_v53 (addi : (⟨S800000, .i32⟩ : BufTy).Contents (Elt F) → (⟨S800000, .i32⟩ : BufTy).Contents (Elt F) → (⟨S800000, .i32⟩ : BufTy).Contents (Elt F)),
    StableHlo.ternary main_v51 main_v53 main_v1 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v54 main_v55 (broadcastInDim S800000x1 ![0] bcast_S800000_S800000x1_0 : (⟨S800000, .i32⟩ : BufTy).Contents (Elt F) → (⟨S800000x1, .i32⟩ : BufTy).Contents (Elt F)),
    StableHlo.binary main_v49 main_v55 main_v56 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_8 (constantI S_ 32 0#32),
    StableHlo.unary main_c_8 main_v57 (broadcastInDim S800000 ![] bcast_S_S800000 : (⟨S_, .i32⟩ : BufTy).Contents (Elt F) → (⟨S800000, .i32⟩ : BufTy).Contents (Elt F)),
    StableHlo.binary main_v3 main_v57 main_v58 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v59 (broadcastInDim S800000 ![] bcast_S_S800000 : (⟨S_, .i32⟩ : BufTy).Contents (Elt F) → (⟨S800000, .i32⟩ : BufTy).Contents (Elt F)),
    StableHlo.binary main_v3 main_v59 main_v60 (addi : (⟨S800000, .i32⟩ : BufTy).Contents (Elt F) → (⟨S800000, .i32⟩ : BufTy).Contents (Elt F) → (⟨S800000, .i32⟩ : BufTy).Contents (Elt F)),
    StableHlo.ternary main_v58 main_v60 main_v3 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v61 main_v62 (broadcastInDim S800000x1 ![0] bcast_S800000_S800000x1_0 : (⟨S800000, .i32⟩ : BufTy).Contents (Elt F) → (⟨S800000x1, .i32⟩ : BufTy).Contents (Elt F)),
    StableHlo.binary main_v49 main_v62 main_v63 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v56 main_v63 main_v64 (mulf : (⟨S800000, .f32⟩ : BufTy).Contents (Elt F) → (⟨S800000, .f32⟩ : BufTy).Contents (Elt F) → (⟨S800000, .f32⟩ : BufTy).Contents (Elt F)),
    StableHlo.nullary main_c_10 (constantI S_ 32 0#32),
    StableHlo.unary main_c_10 main_v65 (broadcastInDim S800000 ![] bcast_S_S800000 : (⟨S_, .i32⟩ : BufTy).Contents (Elt F) → (⟨S800000, .i32⟩ : BufTy).Contents (Elt F)),
    StableHlo.binary main_v1 main_v65 main_v66 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v67 (broadcastInDim S800000 ![] bcast_S_S800000 : (⟨S_, .i32⟩ : BufTy).Contents (Elt F) → (⟨S800000, .i32⟩ : BufTy).Contents (Elt F)),
    StableHlo.binary main_v1 main_v67 main_v68 (addi : (⟨S800000, .i32⟩ : BufTy).Contents (Elt F) → (⟨S800000, .i32⟩ : BufTy).Contents (Elt F) → (⟨S800000, .i32⟩ : BufTy).Contents (Elt F)),
    StableHlo.ternary main_v66 main_v68 main_v1 main_v69 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v69 main_v70 (broadcastInDim S800000x1 ![0] bcast_S800000_S800000x1_0 : (⟨S800000, .i32⟩ : BufTy).Contents (Elt F) → (⟨S800000x1, .i32⟩ : BufTy).Contents (Elt F)),
    StableHlo.binary main_v42 main_v70 main_v71 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v64 main_v72 (broadcastInDim S800000x1 ![0] bcast_S800000_S800000x1_0 : (⟨S800000, .f32⟩ : BufTy).Contents (Elt F) → (⟨S800000x1, .f32⟩ : BufTy).Contents (Elt F)),
    StableHlo.unary main_v72 main_v73 (broadcastInDim S800000x128 ![0, 1] bcast_S800000x1_S800000x128_0_1 : (⟨S800000x1, .f32⟩ : BufTy).Contents (Elt F) → (⟨S800000x128, .f32⟩ : BufTy).Contents (Elt F)),
    StableHlo.binary main_v71 main_v73 main_v74 (mulf : (⟨S800000x128, .f32⟩ : BufTy).Contents (Elt F) → (⟨S800000x128, .f32⟩ : BufTy).Contents (Elt F) → (⟨S800000x128, .f32⟩ : BufTy).Contents (Elt F)),
    StableHlo.nullary main_cst_12 (constant S_ .f32 0x00000000#32),
    StableHlo.unary main_cst_12 main_v75 (broadcastInDim S50000x128 ![] bcast_S_S50000x128 : (⟨S_, .f32⟩ : BufTy).Contents (Elt F) → (⟨S50000x128, .f32⟩ : BufTy).Contents (Elt F)),
    StableHlo.unary main_v3 main_v76 (broadcastInDim S800000x1 ![0] bcast_S800000_S800000x1_0 : (⟨S800000, .i32⟩ : BufTy).Contents (Elt F) → (⟨S800000x1, .i32⟩ : BufTy).Contents (Elt F)),
    StableHlo.ternary main_v75 main_v76 main_v74 main_v77 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v49 main_v49 main_v78 (mulf : (⟨S50000, .f32⟩ : BufTy).Contents (Elt F) → (⟨S50000, .f32⟩ : BufTy).Contents (Elt F) → (⟨S50000, .f32⟩ : BufTy).Contents (Elt F)),
    StableHlo.unary main_v78 main_v79 (broadcastInDim S50000x1 ![0] bcast_S50000_S50000x1_0 : (⟨S50000, .f32⟩ : BufTy).Contents (Elt F) → (⟨S50000x1, .f32⟩ : BufTy).Contents (Elt F)),
    StableHlo.unary main_v79 main_v80 (broadcastInDim S50000x128 ![0, 1] bcast_S50000x1_S50000x128_0_1 : (⟨S50000x1, .f32⟩ : BufTy).Contents (Elt F) → (⟨S50000x128, .f32⟩ : BufTy).Contents (Elt F)),
    StableHlo.binary main_v42 main_v80 main_v81 (mulf : (⟨S50000x128, .f32⟩ : BufTy).Contents (Elt F) → (⟨S50000x128, .f32⟩ : BufTy).Contents (Elt F) → (⟨S50000x128, .f32⟩ : BufTy).Contents (Elt F)),
    StableHlo.binary main_v77 main_v81 main_v82 (addf : (⟨S50000x128, .f32⟩ : BufTy).Contents (Elt F) → (⟨S50000x128, .f32⟩ : BufTy).Contents (Elt F) → (⟨S50000x128, .f32⟩ : BufTy).Contents (Elt F)),
    StableHlo.unary main_v41 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v84 main_v85 (addf : (⟨S50000x128, .f32⟩ : BufTy).Contents (Elt F) → (⟨S50000x128, .f32⟩ : BufTy).Contents (Elt F) → (⟨S50000x128, .f32⟩ : BufTy).Contents (Elt F)) ]

/-- The buffers the stage's operations write. -/
abbrev sB0_W : List (Ref sig .tc) := [main_cst_3, main_v43, main_cst_4, main_v44, main_v45, main_v46, main_cst_5, main_v47, main_v48, main_v49, main_c_6, main_v50, main_v51, main_c_7, main_v52, main_v53, main_v54, main_v55, main_v56, main_c_8, main_v57, main_v58, main_c_9, main_v59, main_v60, main_v61, main_v62, main_v63, main_v64, main_c_10, main_v65, main_v66, main_c_11, main_v67, main_v68, main_v69, main_v70, main_v71, main_v72, main_v73, main_v74, main_cst_12, main_v75, main_v76, main_v77, main_v78, main_v79, main_v80, main_v81, main_v82, main_v83, main_v84, main_v85]

set_option maxRecDepth 8192 in
set_option maxHeartbeats 4000000 in
theorem sB0_writes : (sB0 : List (HloOp τ sig (Elt F))).Forall fun op => op.writes ⊆ (sB0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stage does not write keeps its contents through it. -/
theorem sB0_keep (V : Valuation τ sig (Elt F)) (r : Ref sig .tc) (h : r ∉ sB0_W) :
    after sB0 V (Proc.devRef .tc r) = V (Proc.devRef .tc r) :=
  after_of_writes_sub sB0 V sB0_writes h

set_option maxRecDepth 8192 in
set_option maxHeartbeats 4000000 in
/-- The 128-wide rows aggregated over the edges with the edge weights, the self loops and the bias added. -/
theorem sB0_conv (V : Valuation τ sig (Elt F)) :
    after sB0 V (Proc.devRef .tc main_v85) = Cert.Spec.conv128 (V (Proc.devRef .tc main_v42)) (V (Proc.devRef .tc main_v1)) (V (Proc.devRef .tc main_v3)) (Cert.Spec.normE1 (V (Proc.devRef .tc main_v1)) (V (Proc.devRef .tc main_v3))) (Cert.Spec.selfS1 (V (Proc.devRef .tc main_v3))) (V (Proc.devRef .tc main_v41)) := by
  simp only [sB0]
  after_results_simp
  rfl

/-- Block 1: the rectifier and the second contraction (operations 123 … 135 of 622). -/
abbrev sC0 : List (HloOp τ sig (Elt F)) :=
  [ StableHlo.unary main_arg10 main_v86 ((extractStridedSlice S1 ![0] · slices_S3_S1_0) : (⟨S3, .f32⟩ : BufTy).Contents (Elt F) → (⟨S1, .f32⟩ : BufTy).Contents (Elt F)),
    StableHlo.reshape main_v86 main_v87 rfl shapeCasts_S1_S_,
    StableHlo.nullary main_cst_13 (constant S_ .f32 0x00000000#32),
    StableHlo.unary main_cst_13 main_v88 (broadcastInDim S50000x128 ![] bcast_S_S50000x128 : (⟨S_, .f32⟩ : BufTy).Contents (Elt F) → (⟨S50000x128, .f32⟩ : BufTy).Contents (Elt F)),
    StableHlo.binary main_v85 main_v88 main_v89 (cmpf .oge : (⟨S50000x128, .f32⟩ : BufTy).Contents (Elt F) → (⟨S50000x128, .f32⟩ : BufTy).Contents (Elt F) → (⟨S50000x128, .i1⟩ : BufTy).Contents (Elt F)),
    StableHlo.unary main_v87 main_v90 (broadcastInDim S50000x128 ![] bcast_S_S50000x128 : (⟨S_, .f32⟩ : BufTy).Contents (Elt F) → (⟨S50000x128, .f32⟩ : BufTy).Contents (Elt F)),
    StableHlo.binary main_v90 main_v85 main_v91 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v89 : StableHlo.TRef sig ⟨S50000x128, .i1⟩) (.of main_v85 : StableHlo.TRef sig ⟨S50000x128, .f32⟩) (.of main_v91 : StableHlo.TRef sig ⟨S50000x128, .f32⟩) main_call2.v0 select,
    StableHlo.unary main_arg11 main_v93 ((extractStridedSlice S1x128x64 ![0, 0, 0] · slices_S3x128x64_S1x128x64_0_0_0) : (⟨S3x128x64, .f32⟩ : BufTy).Contents (Elt F) → (⟨S1x128x64, .f32⟩ : BufTy).Contents (Elt F)),
    StableHlo.reshape main_v93 main_v94 rfl shapeCasts_S1x128x64_S128x64,
    StableHlo.unary main_arg12 main_v95 ((extractStridedSlice S1x64 ![0, 0] · slices_S3x64_S1x64_0_0) : (⟨S3x64, .f32⟩ : BufTy).Contents (Elt F) → (⟨S1x64, .f32⟩ : BufTy).Contents (Elt F)),
    StableHlo.reshape main_v95 main_v96 rfl shapeCasts_S1x64_S64,
    StableHlo.binary main_v92 main_v94 main_v97 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- The buffers the stage's operations write. -/
abbrev sC0_W : List (Ref sig .tc) := [main_v86, main_v87, main_cst_13, main_v88, main_v89, main_v90, main_v91, main_v92, main_v93, main_v94, main_v95, main_v96, main_v97]

set_option maxRecDepth 8192 in
set_option maxHeartbeats 4000000 in
theorem sC0_writes : (sC0 : List (HloOp τ sig (Elt F))).Forall fun op => op.writes ⊆ (sC0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stage does not write keeps its contents through it. -/
theorem sC0_keep (V : Valuation τ sig (Elt F)) (r : Ref sig .tc) (h : r ∉ sC0_W) :
    after sC0 V (Proc.devRef .tc r) = V (Proc.devRef .tc r) :=
  after_of_writes_sub sC0 V sC0_writes h

set_option maxRecDepth 8192 in
set_option maxHeartbeats 4000000 in
/-- The rectified rows contracted. -/
theorem sC0_lin (V : Valuation τ sig (Elt F)) :
    after sC0 V (Proc.devRef .tc main_v97) = Cert.Spec.pdot128 (Cert.Spec.sc0 (V (Proc.devRef .tc main_arg10))) (V (Proc.devRef .tc main_v85)) (Cert.Spec.w2_0 (V (Proc.devRef .tc main_arg11))) := by
  simp only [sC0]
  after_results_simp
  rfl

set_option maxRecDepth 8192 in
set_option maxHeartbeats 4000000 in
/-- The second convolution's bias row. -/
theorem sC0_bias (V : Valuation τ sig (Elt F)) :
    after sC0 V (Proc.devRef .tc main_v96) = Cert.Spec.v64_0 (V (Proc.devRef .tc main_arg12)) := by
  simp only [sC0]
  after_results_simp
  rfl

/-- Block 1: the aggregation of the 64-wide rows (operations 136 … 188 of 622). -/
abbrev sD0 : List (HloOp τ sig (Elt F)) :=
  [ StableHlo.nullary main_cst_14 (constant S_ .f32 0x3F800000#32),
    StableHlo.unary main_cst_14 main_v98 (broadcastInDim S800000 ![] bcast_S_S800000 : (⟨S_, .f32⟩ : BufTy).Contents (Elt F) → (⟨S800000, .f32⟩ : BufTy).Contents (Elt F)),
    StableHlo.nullary main_cst_15 (constant S_ .f32 0x00000000#32),
    StableHlo.unary main_cst_15 main_v99 (broadcastInDim S50000 ![] bcast_S_S50000 : (⟨S_, .f32⟩ : BufTy).Contents (Elt F) → (⟨S50000, .f32⟩ : BufTy).Contents (Elt F)),
    StableHlo.unary main_v3 main_v100 (broadcastInDim S800000x1 ![0] bcast_S800000_S800000x1_0 : (⟨S800000, .i32⟩ : BufTy).Contents (Elt F) → (⟨S800000x1, .i32⟩ : BufTy).Contents (Elt F)),
    StableHlo.ternary main_v99 main_v100 main_v98 main_v101 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_16 (constant S_ .f32 0x3F800000#32),
    StableHlo.unary main_cst_16 main_v102 (broadcastInDim S50000 ![] bcast_S_S50000 : (⟨S_, .f32⟩ : BufTy).Contents (Elt F) → (⟨S50000, .f32⟩ : BufTy).Contents (Elt F)),
    StableHlo.binary main_v101 main_v102 main_v103 (addf : (⟨S50000, .f32⟩ : BufTy).Contents (Elt F) → (⟨S50000, .f32⟩ : BufTy).Contents (Elt F) → (⟨S50000, .f32⟩ : BufTy).Contents (Elt F)),
    StableHlo.unary main_v103 main_v104 (Host.rsqrt : (⟨S50000, .f32⟩ : BufTy).Contents (Elt F) → (⟨S50000, .f32⟩ : BufTy).Contents (Elt F)),
    StableHlo.nullary main_c_17 (constantI S_ 32 0#32),
    StableHlo.unary main_c_17 main_v105 (broadcastInDim S800000 ![] bcast_S_S800000 : (⟨S_, .i32⟩ : BufTy).Contents (Elt F) → (⟨S800000, .i32⟩ : BufTy).Contents (Elt F)),
    StableHlo.binary main_v1 main_v105 main_v106 (cmpi .slt : (⟨S800000, .i32⟩ : BufTy).Contents (Elt F) → (⟨S800000, .i32⟩ : BufTy).Contents (Elt F) → (⟨S800000, .i1⟩ : BufTy).Contents (Elt F)),
    StableHlo.nullary main_c_18 (constantI S_ 32 50000#32),
    StableHlo.unary main_c_18 main_v107 (broadcastInDim S800000 ![] bcast_S_S800000 : (⟨S_, .i32⟩ : BufTy).Contents (Elt F) → (⟨S800000, .i32⟩ : BufTy).Contents (Elt F)),
    StableHlo.binary main_v1 main_v107 main_v108 (addi : (⟨S800000, .i32⟩ : BufTy).Contents (Elt F) → (⟨S800000, .i32⟩ : BufTy).Contents (Elt F) → (⟨S800000, .i32⟩ : BufTy).Contents (Elt F)),
    StableHlo.ternary main_v106 main_v108 main_v1 main_v109 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v109 main_v110 (broadcastInDim S800000x1 ![0] bcast_S800000_S800000x1_0 : (⟨S800000, .i32⟩ : BufTy).Contents (Elt F) → (⟨S800000x1, .i32⟩ : BufTy).Contents (Elt F)),
    StableHlo.binary main_v104 main_v110 main_v111 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_19 (constantI S_ 32 0#32),
    StableHlo.unary main_c_19 main_v112 (broadcastInDim S800000 ![] bcast_S_S800000 : (⟨S_, .i32⟩ : BufTy).Contents (Elt F) → (⟨S800000, .i32⟩ : BufTy).Contents (Elt F)),
    StableHlo.binary main_v3 main_v112 main_v113 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v114 (broadcastInDim S800000 ![] bcast_S_S800000 : (⟨S_, .i32⟩ : BufTy).Contents (Elt F) → (⟨S800000, .i32⟩ : BufTy).Contents (Elt F)),
    StableHlo.binary main_v3 main_v114 main_v115 (addi : (⟨S800000, .i32⟩ : BufTy).Contents (Elt F) → (⟨S800000, .i32⟩ : BufTy).Contents (Elt F) → (⟨S800000, .i32⟩ : BufTy).Contents (Elt F)),
    StableHlo.ternary main_v113 main_v115 main_v3 main_v116 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v116 main_v117 (broadcastInDim S800000x1 ![0] bcast_S800000_S800000x1_0 : (⟨S800000, .i32⟩ : BufTy).Contents (Elt F) → (⟨S800000x1, .i32⟩ : BufTy).Contents (Elt F)),
    StableHlo.binary main_v104 main_v117 main_v118 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v111 main_v118 main_v119 (mulf : (⟨S800000, .f32⟩ : BufTy).Contents (Elt F) → (⟨S800000, .f32⟩ : BufTy).Contents (Elt F) → (⟨S800000, .f32⟩ : BufTy).Contents (Elt F)),
    StableHlo.nullary main_c_21 (constantI S_ 32 0#32),
    StableHlo.unary main_c_21 main_v120 (broadcastInDim S800000 ![] bcast_S_S800000 : (⟨S_, .i32⟩ : BufTy).Contents (Elt F) → (⟨S800000, .i32⟩ : BufTy).Contents (Elt F)),
    StableHlo.binary main_v1 main_v120 main_v121 (cmpi .slt : (⟨S800000, .i32⟩ : BufTy).Contents (Elt F) → (⟨S800000, .i32⟩ : BufTy).Contents (Elt F) → (⟨S800000, .i1⟩ : BufTy).Contents (Elt F)),
    StableHlo.nullary main_c_22 (constantI S_ 32 50000#32),
    StableHlo.unary main_c_22 main_v122 (broadcastInDim S800000 ![] bcast_S_S800000 : (⟨S_, .i32⟩ : BufTy).Contents (Elt F) → (⟨S800000, .i32⟩ : BufTy).Contents (Elt F)),
    StableHlo.binary main_v1 main_v122 main_v123 (addi : (⟨S800000, .i32⟩ : BufTy).Contents (Elt F) → (⟨S800000, .i32⟩ : BufTy).Contents (Elt F) → (⟨S800000, .i32⟩ : BufTy).Contents (Elt F)),
    StableHlo.ternary main_v121 main_v123 main_v1 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v124 main_v125 (broadcastInDim S800000x1 ![0] bcast_S800000_S800000x1_0 : (⟨S800000, .i32⟩ : BufTy).Contents (Elt F) → (⟨S800000x1, .i32⟩ : BufTy).Contents (Elt F)),
    StableHlo.binary main_v97 main_v125 main_v126 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v119 main_v127 (broadcastInDim S800000x1 ![0] bcast_S800000_S800000x1_0 : (⟨S800000, .f32⟩ : BufTy).Contents (Elt F) → (⟨S800000x1, .f32⟩ : BufTy).Contents (Elt F)),
    StableHlo.unary main_v127 main_v128 (broadcastInDim S800000x64 ![0, 1] bcast_S800000x1_S800000x64_0_1 : (⟨S800000x1, .f32⟩ : BufTy).Contents (Elt F) → (⟨S800000x64, .f32⟩ : BufTy).Contents (Elt F)),
    StableHlo.binary main_v126 main_v128 main_v129 (mulf : (⟨S800000x64, .f32⟩ : BufTy).Contents (Elt F) → (⟨S800000x64, .f32⟩ : BufTy).Contents (Elt F) → (⟨S800000x64, .f32⟩ : BufTy).Contents (Elt F)),
    StableHlo.nullary main_cst_23 (constant S_ .f32 0x00000000#32),
    StableHlo.unary main_cst_23 main_v130 (broadcastInDim S50000x64 ![] bcast_S_S50000x64 : (⟨S_, .f32⟩ : BufTy).Contents (Elt F) → (⟨S50000x64, .f32⟩ : BufTy).Contents (Elt F)),
    StableHlo.unary main_v3 main_v131 (broadcastInDim S800000x1 ![0] bcast_S800000_S800000x1_0 : (⟨S800000, .i32⟩ : BufTy).Contents (Elt F) → (⟨S800000x1, .i32⟩ : BufTy).Contents (Elt F)),
    StableHlo.ternary main_v130 main_v131 main_v129 main_v132 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v104 main_v104 main_v133 (mulf : (⟨S50000, .f32⟩ : BufTy).Contents (Elt F) → (⟨S50000, .f32⟩ : BufTy).Contents (Elt F) → (⟨S50000, .f32⟩ : BufTy).Contents (Elt F)),
    StableHlo.unary main_v133 main_v134 (broadcastInDim S50000x1 ![0] bcast_S50000_S50000x1_0 : (⟨S50000, .f32⟩ : BufTy).Contents (Elt F) → (⟨S50000x1, .f32⟩ : BufTy).Contents (Elt F)),
    StableHlo.unary main_v134 main_v135 (broadcastInDim S50000x64 ![0, 1] bcast_S50000x1_S50000x64_0_1 : (⟨S50000x1, .f32⟩ : BufTy).Contents (Elt F) → (⟨S50000x64, .f32⟩ : BufTy).Contents (Elt F)),
    StableHlo.binary main_v97 main_v135 main_v136 (mulf : (⟨S50000x64, .f32⟩ : BufTy).Contents (Elt F) → (⟨S50000x64, .f32⟩ : BufTy).Contents (Elt F) → (⟨S50000x64, .f32⟩ : BufTy).Contents (Elt F)),
    StableHlo.binary main_v132 main_v136 main_v137 (addf : (⟨S50000x64, .f32⟩ : BufTy).Contents (Elt F) → (⟨S50000x64, .f32⟩ : BufTy).Contents (Elt F) → (⟨S50000x64, .f32⟩ : BufTy).Contents (Elt F)),
    StableHlo.unary main_v96 main_v138 (broadcastInDim S1x64 ![1] bcast_S64_S1x64_1 : (⟨S64, .f32⟩ : BufTy).Contents (Elt F) → (⟨S1x64, .f32⟩ : BufTy).Contents (Elt F)),
    StableHlo.unary main_v138 main_v139 (broadcastInDim S50000x64 ![0, 1] bcast_S1x64_S50000x64_0_1 : (⟨S1x64, .f32⟩ : BufTy).Contents (Elt F) → (⟨S50000x64, .f32⟩ : BufTy).Contents (Elt F)),
    StableHlo.binary main_v137 main_v139 main_v140 (addf : (⟨S50000x64, .f32⟩ : BufTy).Contents (Elt F) → (⟨S50000x64, .f32⟩ : BufTy).Contents (Elt F) → (⟨S50000x64, .f32⟩ : BufTy).Contents (Elt F)) ]

/-- The buffers the stage's operations write. -/
abbrev sD0_W : List (Ref sig .tc) := [main_cst_14, main_v98, main_cst_15, main_v99, main_v100, main_v101, main_cst_16, main_v102, main_v103, main_v104, main_c_17, main_v105, main_v106, main_c_18, main_v107, main_v108, main_v109, main_v110, main_v111, main_c_19, main_v112, main_v113, main_c_20, main_v114, main_v115, main_v116, main_v117, main_v118, main_v119, main_c_21, main_v120, main_v121, main_c_22, main_v122, main_v123, main_v124, main_v125, main_v126, main_v127, main_v128, main_v129, main_cst_23, main_v130, main_v131, main_v132, main_v133, main_v134, main_v135, main_v136, main_v137, main_v138, main_v139, main_v140]

set_option maxRecDepth 8192 in
set_option maxHeartbeats 4000000 in
theorem sD0_writes : (sD0 : List (HloOp τ sig (Elt F))).Forall fun op => op.writes ⊆ (sD0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stage does not write keeps its contents through it. -/
theorem sD0_keep (V : Valuation τ sig (Elt F)) (r : Ref sig .tc) (h : r ∉ sD0_W) :
    after sD0 V (Proc.devRef .tc r) = V (Proc.devRef .tc r) :=
  after_of_writes_sub sD0 V sD0_writes h

set_option maxRecDepth 8192 in
set_option maxHeartbeats 4000000 in
/-- The 64-wide rows aggregated over the edges with the edge weights, the self loops and the bias added. -/
theorem sD0_conv (V : Valuation τ sig (Elt F)) :
    after sD0 V (Proc.devRef .tc main_v140) = Cert.Spec.conv64 (V (Proc.devRef .tc main_v97)) (V (Proc.devRef .tc main_v1)) (V (Proc.devRef .tc main_v3)) (Cert.Spec.normE1 (V (Proc.devRef .tc main_v1)) (V (Proc.devRef .tc main_v3))) (Cert.Spec.selfS1 (V (Proc.devRef .tc main_v3))) (V (Proc.devRef .tc main_v96)) := by
  simp only [sD0]
  after_results_simp
  rfl

/-- Block 1's operations: its four stages in order. -/
abbrev blk0 : List (HloOp τ sig (Elt F)) := sA0 ++ (sB0 ++ (sC0 ++ sD0))

/-- The buffers block 1 writes. -/
abbrev blk0_W : List (Ref sig .tc) := sA0_W ++ (sB0_W ++ (sC0_W ++ sD0_W))

/-- A buffer no stage of the block writes keeps its contents through the block. -/
theorem blk0_keep (V : Valuation τ sig (Elt F)) (r : Ref sig .tc) (hA : r ∉ sA0_W) (hB : r ∉ sB0_W) (hC : r ∉ sC0_W) (hD : r ∉ sD0_W) :
    after blk0 V (Proc.devRef .tc r) = V (Proc.devRef .tc r) := by
  simp only [blk0, after_append]
  rw [sD0_keep _ r hD, sC0_keep _ r hC, sB0_keep _ r hB, sA0_keep _ r hA]

set_option maxRecDepth 8192 in
set_option maxHeartbeats 4000000 in
/-- Block 1 over an arbitrary valuation: the block function of the incoming rows, the edge list's rows and the block's parameters. -/
theorem blk0_val (V : Valuation τ sig (Elt F)) :
    after blk0 V (Proc.devRef .tc main_v140) = Cert.Spec.block (V (Proc.devRef .tc main_v7)) (V (Proc.devRef .tc main_v1)) (V (Proc.devRef .tc main_v3)) (Cert.Spec.normE1 (V (Proc.devRef .tc main_v1)) (V (Proc.devRef .tc main_v3))) (Cert.Spec.selfS1 (V (Proc.devRef .tc main_v3))) (Cert.Spec.sc0 (V (Proc.devRef .tc main_arg5))) (Cert.Spec.v64_0 (V (Proc.devRef .tc main_arg6))) (Cert.Spec.v64_0 (V (Proc.devRef .tc main_arg7))) (Cert.Spec.w1_0 (V (Proc.devRef .tc main_arg8))) (Cert.Spec.v128_0 (V (Proc.devRef .tc main_arg9))) (Cert.Spec.sc0 (V (Proc.devRef .tc main_arg10))) (Cert.Spec.w2_0 (V (Proc.devRef .tc main_arg11))) (Cert.Spec.v64_0 (V (Proc.devRef .tc main_arg12))) := by
  simp only [blk0, after_append]
  rw [sD0_conv, sC0_lin, sC0_bias, sC0_keep _ main_v1 (by decide), sB0_keep _ main_v1 (by decide), sA0_keep _ main_v1 (by decide), sC0_keep _ main_v3 (by decide), sB0_keep _ main_v3 (by decide), sA0_keep _ main_v3 (by decide), sB0_keep _ main_arg10 (by decide), sA0_keep _ main_arg10 (by decide), sB0_keep _ main_arg11 (by decide), sA0_keep _ main_arg11 (by decide), sB0_keep _ main_arg12 (by decide), sA0_keep _ main_arg12 (by decide), sB0_conv, sA0_lin, sA0_bias, sA0_keep _ main_v1 (by decide), sA0_keep _ main_v3 (by decide)]
  rfl

end Cert.RefRun

end
-- ==== Proof.RefStBlk1.lean ====
/- Block 2 of the reference program in four stages: rectify, normalise and contract; aggregate 128-wide rows;
   rectify and contract; aggregate 64-wide rows. Each stage's value over an arbitrary valuation, then the block's. -/
import proofs.«102494_j5102421148167_1_alg».proof.ReferenceIdeal
import proofs.«102494_j5102421148167_1_alg».proof.Proof.Spec
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- Block 2: the rectifier, the statistics, the normalisation and the first contraction (operations 189 … 249 of 622). -/
abbrev sA1 : List (HloOp τ sig (Elt F)) :=
  [ StableHlo.unary main_arg5 main_v141 ((extractStridedSlice S1 ![1] · slices_S3_S1_1) : (⟨S3, .f32⟩ : BufTy).Contents (Elt F) → (⟨S1, .f32⟩ : BufTy).Contents (Elt F)),
    StableHlo.reshape main_v141 main_v142 rfl shapeCasts_S1_S_,
    StableHlo.nullary main_cst_24 (constant S_ .f32 0x00000000#32),
    StableHlo.unary main_cst_24 main_v143 (broadcastInDim S50000x64 ![] bcast_S_S50000x64 : (⟨S_, .f32⟩ : BufTy).Contents (Elt F) → (⟨S50000x64, .f32⟩ : BufTy).Contents (Elt F)),
    StableHlo.binary main_v140 main_v143 main_v144 (cmpf .oge : (⟨S50000x64, .f32⟩ : BufTy).Contents (Elt F) → (⟨S50000x64, .f32⟩ : BufTy).Contents (Elt F) → (⟨S50000x64, .i1⟩ : BufTy).Contents (Elt F)),
    StableHlo.unary main_v142 main_v145 (broadcastInDim S50000x64 ![] bcast_S_S50000x64 : (⟨S_, .f32⟩ : BufTy).Contents (Elt F) → (⟨S50000x64, .f32⟩ : BufTy).Contents (Elt F)),
    StableHlo.binary main_v145 main_v140 main_v146 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v144 : StableHlo.TRef sig ⟨S50000x64, .i1⟩) (.of main_v140 : StableHlo.TRef sig ⟨S50000x64, .f32⟩) (.of main_v146 : StableHlo.TRef sig ⟨S50000x64, .f32⟩) main_call3.v0 select,
    StableHlo.unary main_arg6 main_v148 ((extractStridedSlice S1x64 ![1, 0] · slices_S3x64_S1x64_1_0) : (⟨S3x64, .f32⟩ : BufTy).Contents (Elt F) → (⟨S1x64, .f32⟩ : BufTy).Contents (Elt F)),
    StableHlo.reshape main_v148 main_v149 rfl shapeCasts_S1x64_S64,
    StableHlo.unary main_arg7 main_v150 ((extractStridedSlice S1x64 ![1, 0] · slices_S3x64_S1x64_1_0) : (⟨S3x64, .f32⟩ : BufTy).Contents (Elt F) → (⟨S1x64, .f32⟩ : BufTy).Contents (Elt F)),
    StableHlo.reshape main_v150 main_v151 rfl shapeCasts_S1x64_S64,
    StableHlo.nullary main_cst_25 (constant S_ .f32 0x00000000#32),
    StableHlo.binary main_v147 main_cst_25 main_v152 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_26 (constant S_ .f32 0x47435000#32),
    StableHlo.unary main_cst_26 main_v153 (broadcastInDim S64 ![] bcast_S_S64 : (⟨S_, .f32⟩ : BufTy).Contents (Elt F) → (⟨S64, .f32⟩ : BufTy).Contents (Elt F)),
    StableHlo.binary main_v152 main_v153 main_v154 (Host.divf : (⟨S64, .f32⟩ : BufTy).Contents (Elt F) → (⟨S64, .f32⟩ : BufTy).Contents (Elt F) → (⟨S64, .f32⟩ : BufTy).Contents (Elt F)),
    StableHlo.nullary main_c_27 (constantI S_ 32 0#32),
    StableHlo.TRef.nullary main_call4.cst (constant S_ .f32 0x00000000#32),
    StableHlo.TRef.binary (.of main_v147 : StableHlo.TRef sig ⟨S50000x64, .f32⟩) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v147 : StableHlo.TRef sig ⟨S50000x64, .f32⟩) main_call4.v4 main_call4.v5 subf,
    StableHlo.TRef.binary main_call4.v5 main_call4.v5 main_call4.v6 mulf,
    StableHlo.TRef.unary (.of main_c_27 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v154 main_v156 (broadcastInDim S1x64 ![1] bcast_S64_S1x64_1 : (⟨S64, .f32⟩ : BufTy).Contents (Elt F) → (⟨S1x64, .f32⟩ : BufTy).Contents (Elt F)),
    StableHlo.unary main_v156 main_v157 (broadcastInDim S50000x64 ![0, 1] bcast_S1x64_S50000x64_0_1 : (⟨S1x64, .f32⟩ : BufTy).Contents (Elt F) → (⟨S50000x64, .f32⟩ : BufTy).Contents (Elt F)),
    StableHlo.binary main_v147 main_v157 main_v158 (subf : (⟨S50000x64, .f32⟩ : BufTy).Contents (Elt F) → (⟨S50000x64, .f32⟩ : BufTy).Contents (Elt F) → (⟨S50000x64, .f32⟩ : BufTy).Contents (Elt F)),
    StableHlo.nullary main_cst_28 (constant S_ .f32 0x3727C5AC#32),
    StableHlo.unary main_cst_28 main_v159 (broadcastInDim S64 ![] bcast_S_S64 : (⟨S_, .f32⟩ : BufTy).Contents (Elt F) → (⟨S64, .f32⟩ : BufTy).Contents (Elt F)),
    StableHlo.binary main_v155 main_v159 main_v160 (addf : (⟨S64, .f32⟩ : BufTy).Contents (Elt F) → (⟨S64, .f32⟩ : BufTy).Contents (Elt F) → (⟨S64, .f32⟩ : BufTy).Contents (Elt F)),
    StableHlo.unary main_v160 main_v161 (Host.rsqrt : (⟨S64, .f32⟩ : BufTy).Contents (Elt F) → (⟨S64, .f32⟩ : BufTy).Contents (Elt F)),
    StableHlo.unary main_v161 main_v162 (broadcastInDim S1x64 ![1] bcast_S64_S1x64_1 : (⟨S64, .f32⟩ : BufTy).Contents (Elt F) → (⟨S1x64, .f32⟩ : BufTy).Contents (Elt F)),
    StableHlo.unary main_v162 main_v163 (broadcastInDim S50000x64 ![0, 1] bcast_S1x64_S50000x64_0_1 : (⟨S1x64, .f32⟩ : BufTy).Contents (Elt F) → (⟨S50000x64, .f32⟩ : BufTy).Contents (Elt F)),
    StableHlo.binary main_v158 main_v163 main_v164 (mulf : (⟨S50000x64, .f32⟩ : BufTy).Contents (Elt F) → (⟨S50000x64, .f32⟩ : BufTy).Contents (Elt F) → (⟨S50000x64, .f32⟩ : BufTy).Contents (Elt F)),
    StableHlo.unary main_v149 main_v165 (broadcastInDim S1x64 ![1] bcast_S64_S1x64_1 : (⟨S64, .f32⟩ : BufTy).Contents (Elt F) → (⟨S1x64, .f32⟩ : BufTy).Contents (Elt F)),
    StableHlo.unary main_v165 main_v166 (broadcastInDim S50000x64 ![0, 1] bcast_S1x64_S50000x64_0_1 : (⟨S1x64, .f32⟩ : BufTy).Contents (Elt F) → (⟨S50000x64, .f32⟩ : BufTy).Contents (Elt F)),
    StableHlo.binary main_v164 main_v166 main_v167 (mulf : (⟨S50000x64, .f32⟩ : BufTy).Contents (Elt F) → (⟨S50000x64, .f32⟩ : BufTy).Contents (Elt F) → (⟨S50000x64, .f32⟩ : BufTy).Contents (Elt F)),
    StableHlo.unary main_v151 main_v168 (broadcastInDim S1x64 ![1] bcast_S64_S1x64_1 : (⟨S64, .f32⟩ : BufTy).Contents (Elt F) → (⟨S1x64, .f32⟩ : BufTy).Contents (Elt F)),
    StableHlo.unary main_v168 main_v169 (broadcastInDim S50000x64 ![0, 1] bcast_S1x64_S50000x64_0_1 : (⟨S1x64, .f32⟩ : BufTy).Contents (Elt F) → (⟨S50000x64, .f32⟩ : BufTy).Contents (Elt F)),
    StableHlo.binary main_v167 main_v169 main_v170 (addf : (⟨S50000x64, .f32⟩ : BufTy).Contents (Elt F) → (⟨S50000x64, .f32⟩ : BufTy).Contents (Elt F) → (⟨S50000x64, .f32⟩ : BufTy).Contents (Elt F)),
    StableHlo.unary main_arg8 main_v171 ((extractStridedSlice S1x64x128 ![1, 0, 0] · slices_S3x64x128_S1x64x128_1_0_0) : (⟨S3x64x128, .f32⟩ : BufTy).Contents (Elt F) → (⟨S1x64x128, .f32⟩ : BufTy).Contents (Elt F)),
    StableHlo.reshape main_v171 main_v172 rfl shapeCasts_S1x64x128_S64x128,
    StableHlo.unary main_arg9 main_v173 ((extractStridedSlice S1x128 ![1, 0] · slices_S3x128_S1x128_1_0) : (⟨S3x128, .f32⟩ : BufTy).Contents (Elt F) → (⟨S1x128, .f32⟩ : BufTy).Contents (Elt F)),
    StableHlo.reshape main_v173 main_v174 rfl shapeCasts_S1x128_S128,
    StableHlo.binary main_v170 main_v172 main_v175 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)) ]

/-- The buffers the stage's operations write. -/
abbrev sA1_W : List (Ref sig .tc) := [main_v141, main_v142, main_cst_24, main_v143, main_v144, main_v145, main_v146, main_v147, main_v148, main_v149, main_v150, main_v151, main_cst_25, main_v152, main_cst_26, main_v153, main_v154, main_c_27, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v155, main_v156, main_v157, main_v158, main_cst_28, main_v159, main_v160, main_v161, main_v162, main_v163, main_v164, main_v165, main_v166, main_v167, main_v168, main_v169, main_v170, main_v171, main_v172, main_v173, main_v174, main_v175]

set_option maxRecDepth 8192 in
set_option maxHeartbeats 4000000 in
theorem sA1_writes : (sA1 : List (HloOp τ sig (Elt F))).Forall fun op => op.writes ⊆ (sA1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stage does not write keeps its contents through it. -/
theorem sA1_keep (V : Valuation τ sig (Elt F)) (r : Ref sig .tc) (h : r ∉ sA1_W) :
    after sA1 V (Proc.devRef .tc r) = V (Proc.devRef .tc r) :=
  after_of_writes_sub sA1 V sA1_writes h

set_option maxRecDepth 8192 in
set_option maxHeartbeats 4000000 in
/-- The rectified rows, normalised over the node axis, scaled, shifted and contracted. -/
theorem sA1_lin (V : Valuation τ sig (Elt F)) :
    after sA1 V (Proc.devRef .tc main_v175) = Cert.Spec.bndot64 (Cert.Spec.prelu64 (Cert.Spec.sc1 (V (Proc.devRef .tc main_arg5))) (V (Proc.devRef .tc main_v140))) (Cert.Spec.mean64 (Cert.Spec.prelu64 (Cert.Spec.sc1 (V (Proc.devRef .tc main_arg5))) (V (Proc.devRef .tc main_v140)))) (Cert.Spec.var64 (Cert.Spec.prelu64 (Cert.Spec.sc1 (V (Proc.devRef .tc main_arg5))) (V (Proc.devRef .tc main_v140)))) (Cert.Spec.v64_1 (V (Proc.devRef .tc main_arg6))) (Cert.Spec.v64_1 (V (Proc.devRef .tc main_arg7))) (Cert.Spec.w1_1 (V (Proc.devRef .tc main_arg8))) := by
  simp only [sA1]
  after_results_simp
  rfl

set_option maxRecDepth 8192 in
set_option maxHeartbeats 4000000 in
/-- The first convolution's bias row. -/
theorem sA1_bias (V : Valuation τ sig (Elt F)) :
    after sA1 V (Proc.devRef .tc main_v174) = Cert.Spec.v128_1 (V (Proc.devRef .tc main_arg9)) := by
  simp only [sA1]
  after_results_simp
  rfl

/-- Block 2: the aggregation of the 128-wide rows (operations 250 … 302 of 622). -/
abbrev sB1 : List (HloOp τ sig (Elt F)) :=
  [ StableHlo.nullary main_cst_29 (constant S_ .f32 0x3F800000#32),
    StableHlo.unary main_cst_29 main_v176 (broadcastInDim S800000 ![] bcast_S_S800000 : (⟨S_, .f32⟩ : BufTy).Contents (Elt F) → (⟨S800000, .f32⟩ : BufTy).Contents (Elt F)),
    StableHlo.nullary main_cst_30 (constant S_ .f32 0x00000000#32),
    StableHlo.unary main_cst_30 main_v177 (broadcastInDim S50000 ![] bcast_S_S50000 : (⟨S_, .f32⟩ : BufTy).Contents (Elt F) → (⟨S50000, .f32⟩ : BufTy).Contents (Elt F)),
    StableHlo.unary main_v3 main_v178 (broadcastInDim S800000x1 ![0] bcast_S800000_S800000x1_0 : (⟨S800000, .i32⟩ : BufTy).Contents (Elt F) → (⟨S800000x1, .i32⟩ : BufTy).Contents (Elt F)),
    StableHlo.ternary main_v177 main_v178 main_v176 main_v179 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_31 (constant S_ .f32 0x3F800000#32),
    StableHlo.unary main_cst_31 main_v180 (broadcastInDim S50000 ![] bcast_S_S50000 : (⟨S_, .f32⟩ : BufTy).Contents (Elt F) → (⟨S50000, .f32⟩ : BufTy).Contents (Elt F)),
    StableHlo.binary main_v179 main_v180 main_v181 (addf : (⟨S50000, .f32⟩ : BufTy).Contents (Elt F) → (⟨S50000, .f32⟩ : BufTy).Contents (Elt F) → (⟨S50000, .f32⟩ : BufTy).Contents (Elt F)),
    StableHlo.unary main_v181 main_v182 (Host.rsqrt : (⟨S50000, .f32⟩ : BufTy).Contents (Elt F) → (⟨S50000, .f32⟩ : BufTy).Contents (Elt F)),
    StableHlo.nullary main_c_32 (constantI S_ 32 0#32),
    StableHlo.unary main_c_32 main_v183 (broadcastInDim S800000 ![] bcast_S_S800000 : (⟨S_, .i32⟩ : BufTy).Contents (Elt F) → (⟨S800000, .i32⟩ : BufTy).Contents (Elt F)),
    StableHlo.binary main_v1 main_v183 main_v184 (cmpi .slt : (⟨S800000, .i32⟩ : BufTy).Contents (Elt F) → (⟨S800000, .i32⟩ : BufTy).Contents (Elt F) → (⟨S800000, .i1⟩ : BufTy).Contents (Elt F)),
    StableHlo.nullary main_c_33 (constantI S_ 32 50000#32),
    StableHlo.unary main_c_33 main_v185 (broadcastInDim S800000 ![] bcast_S_S800000 : (⟨S_, .i32⟩ : BufTy).Contents (Elt F) → (⟨S800000, .i32⟩ : BufTy).Contents (Elt F)),
    StableHlo.binary main_v1 main_v185 main_v186 (addi : (⟨S800000, .i32⟩ : BufTy).Contents (Elt F) → (⟨S800000, .i32⟩ : BufTy).Contents (Elt F) → (⟨S800000, .i32⟩ : BufTy).Contents (Elt F)),
    StableHlo.ternary main_v184 main_v186 main_v1 main_v187 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v187 main_v188 (broadcastInDim S800000x1 ![0] bcast_S800000_S800000x1_0 : (⟨S800000, .i32⟩ : BufTy).Contents (Elt F) → (⟨S800000x1, .i32⟩ : BufTy).Contents (Elt F)),
    StableHlo.binary main_v182 main_v188 main_v189 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_34 (constantI S_ 32 0#32),
    StableHlo.unary main_c_34 main_v190 (broadcastInDim S800000 ![] bcast_S_S800000 : (⟨S_, .i32⟩ : BufTy).Contents (Elt F) → (⟨S800000, .i32⟩ : BufTy).Contents (Elt F)),
    StableHlo.binary main_v3 main_v190 main_v191 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v192 (broadcastInDim S800000 ![] bcast_S_S800000 : (⟨S_, .i32⟩ : BufTy).Contents (Elt F) → (⟨S800000, .i32⟩ : BufTy).Contents (Elt F)),
    StableHlo.binary main_v3 main_v192 main_v193 (addi : (⟨S800000, .i32⟩ : BufTy).Contents (Elt F) → (⟨S800000, .i32⟩ : BufTy).Contents (Elt F) → (⟨S800000, .i32⟩ : BufTy).Contents (Elt F)),
    StableHlo.ternary main_v191 main_v193 main_v3 main_v194 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v194 main_v195 (broadcastInDim S800000x1 ![0] bcast_S800000_S800000x1_0 : (⟨S800000, .i32⟩ : BufTy).Contents (Elt F) → (⟨S800000x1, .i32⟩ : BufTy).Contents (Elt F)),
    StableHlo.binary main_v182 main_v195 main_v196 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v189 main_v196 main_v197 (mulf : (⟨S800000, .f32⟩ : BufTy).Contents (Elt F) → (⟨S800000, .f32⟩ : BufTy).Contents (Elt F) → (⟨S800000, .f32⟩ : BufTy).Contents (Elt F)),
    StableHlo.nullary main_c_36 (constantI S_ 32 0#32),
    StableHlo.unary main_c_36 main_v198 (broadcastInDim S800000 ![] bcast_S_S800000 : (⟨S_, .i32⟩ : BufTy).Contents (Elt F) → (⟨S800000, .i32⟩ : BufTy).Contents (Elt F)),
    StableHlo.binary main_v1 main_v198 main_v199 (cmpi .slt : (⟨S800000, .i32⟩ : BufTy).Contents (Elt F) → (⟨S800000, .i32⟩ : BufTy).Contents (Elt F) → (⟨S800000, .i1⟩ : BufTy).Contents (Elt F)),
    StableHlo.nullary main_c_37 (constantI S_ 32 50000#32),
    StableHlo.unary main_c_37 main_v200 (broadcastInDim S800000 ![] bcast_S_S800000 : (⟨S_, .i32⟩ : BufTy).Contents (Elt F) → (⟨S800000, .i32⟩ : BufTy).Contents (Elt F)),
    StableHlo.binary main_v1 main_v200 main_v201 (addi : (⟨S800000, .i32⟩ : BufTy).Contents (Elt F) → (⟨S800000, .i32⟩ : BufTy).Contents (Elt F) → (⟨S800000, .i32⟩ : BufTy).Contents (Elt F)),
    StableHlo.ternary main_v199 main_v201 main_v1 main_v202 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v202 main_v203 (broadcastInDim S800000x1 ![0] bcast_S800000_S800000x1_0 : (⟨S800000, .i32⟩ : BufTy).Contents (Elt F) → (⟨S800000x1, .i32⟩ : BufTy).Contents (Elt F)),
    StableHlo.binary main_v175 main_v203 main_v204 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v197 main_v205 (broadcastInDim S800000x1 ![0] bcast_S800000_S800000x1_0 : (⟨S800000, .f32⟩ : BufTy).Contents (Elt F) → (⟨S800000x1, .f32⟩ : BufTy).Contents (Elt F)),
    StableHlo.unary main_v205 main_v206 (broadcastInDim S800000x128 ![0, 1] bcast_S800000x1_S800000x128_0_1 : (⟨S800000x1, .f32⟩ : BufTy).Contents (Elt F) → (⟨S800000x128, .f32⟩ : BufTy).Contents (Elt F)),
    StableHlo.binary main_v204 main_v206 main_v207 (mulf : (⟨S800000x128, .f32⟩ : BufTy).Contents (Elt F) → (⟨S800000x128, .f32⟩ : BufTy).Contents (Elt F) → (⟨S800000x128, .f32⟩ : BufTy).Contents (Elt F)),
    StableHlo.nullary main_cst_38 (constant S_ .f32 0x00000000#32),
    StableHlo.unary main_cst_38 main_v208 (broadcastInDim S50000x128 ![] bcast_S_S50000x128 : (⟨S_, .f32⟩ : BufTy).Contents (Elt F) → (⟨S50000x128, .f32⟩ : BufTy).Contents (Elt F)),
    StableHlo.unary main_v3 main_v209 (broadcastInDim S800000x1 ![0] bcast_S800000_S800000x1_0 : (⟨S800000, .i32⟩ : BufTy).Contents (Elt F) → (⟨S800000x1, .i32⟩ : BufTy).Contents (Elt F)),
    StableHlo.ternary main_v208 main_v209 main_v207 main_v210 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v182 main_v182 main_v211 (mulf : (⟨S50000, .f32⟩ : BufTy).Contents (Elt F) → (⟨S50000, .f32⟩ : BufTy).Contents (Elt F) → (⟨S50000, .f32⟩ : BufTy).Contents (Elt F)),
    StableHlo.unary main_v211 main_v212 (broadcastInDim S50000x1 ![0] bcast_S50000_S50000x1_0 : (⟨S50000, .f32⟩ : BufTy).Contents (Elt F) → (⟨S50000x1, .f32⟩ : BufTy).Contents (Elt F)),
    StableHlo.unary main_v212 main_v213 (broadcastInDim S50000x128 ![0, 1] bcast_S50000x1_S50000x128_0_1 : (⟨S50000x1, .f32⟩ : BufTy).Contents (Elt F) → (⟨S50000x128, .f32⟩ : BufTy).Contents (Elt F)),
    StableHlo.binary main_v175 main_v213 main_v214 (mulf : (⟨S50000x128, .f32⟩ : BufTy).Contents (Elt F) → (⟨S50000x128, .f32⟩ : BufTy).Contents (Elt F) → (⟨S50000x128, .f32⟩ : BufTy).Contents (Elt F)),
    StableHlo.binary main_v210 main_v214 main_v215 (addf : (⟨S50000x128, .f32⟩ : BufTy).Contents (Elt F) → (⟨S50000x128, .f32⟩ : BufTy).Contents (Elt F) → (⟨S50000x128, .f32⟩ : BufTy).Contents (Elt F)),
    StableHlo.unary main_v174 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S50000x128 ![0, 1] bcast_S1x128_S50000x128_0_1 : (⟨S1x128, .f32⟩ : BufTy).Contents (Elt F) → (⟨S50000x128, .f32⟩ : BufTy).Contents (Elt F)),
    StableHlo.binary main_v215 main_v217 main_v218 (addf : (⟨S50000x128, .f32⟩ : BufTy).Contents (Elt F) → (⟨S50000x128, .f32⟩ : BufTy).Contents (Elt F) → (⟨S50000x128, .f32⟩ : BufTy).Contents (Elt F)) ]

/-- The buffers the stage's operations write. -/
abbrev sB1_W : List (Ref sig .tc) := [main_cst_29, main_v176, main_cst_30, main_v177, main_v178, main_v179, main_cst_31, main_v180, main_v181, main_v182, main_c_32, main_v183, main_v184, main_c_33, main_v185, main_v186, main_v187, main_v188, main_v189, main_c_34, main_v190, main_v191, main_c_35, main_v192, main_v193, main_v194, main_v195, main_v196, main_v197, main_c_36, main_v198, main_v199, main_c_37, main_v200, main_v201, main_v202, main_v203, main_v204, main_v205, main_v206, main_v207, main_cst_38, main_v208, main_v209, main_v210, main_v211, main_v212, main_v213, main_v214, main_v215, main_v216, main_v217, main_v218]

set_option maxRecDepth 8192 in
set_option maxHeartbeats 4000000 in
theorem sB1_writes : (sB1 : List (HloOp τ sig (Elt F))).Forall fun op => op.writes ⊆ (sB1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stage does not write keeps its contents through it. -/
theorem sB1_keep (V : Valuation τ sig (Elt F)) (r : Ref sig .tc) (h : r ∉ sB1_W) :
    after sB1 V (Proc.devRef .tc r) = V (Proc.devRef .tc r) :=
  after_of_writes_sub sB1 V sB1_writes h

set_option maxRecDepth 8192 in
set_option maxHeartbeats 4000000 in
/-- The 128-wide rows aggregated over the edges with the edge weights, the self loops and the bias added. -/
theorem sB1_conv (V : Valuation τ sig (Elt F)) :
    after sB1 V (Proc.devRef .tc main_v218) = Cert.Spec.conv128 (V (Proc.devRef .tc main_v175)) (V (Proc.devRef .tc main_v1)) (V (Proc.devRef .tc main_v3)) (Cert.Spec.normE1 (V (Proc.devRef .tc main_v1)) (V (Proc.devRef .tc main_v3))) (Cert.Spec.selfS1 (V (Proc.devRef .tc main_v3))) (V (Proc.devRef .tc main_v174)) := by
  simp only [sB1]
  after_results_simp
  rfl

/-- Block 2: the rectifier and the second contraction (operations 303 … 315 of 622). -/
abbrev sC1 : List (HloOp τ sig (Elt F)) :=
  [ StableHlo.unary main_arg10 main_v219 ((extractStridedSlice S1 ![1] · slices_S3_S1_1) : (⟨S3, .f32⟩ : BufTy).Contents (Elt F) → (⟨S1, .f32⟩ : BufTy).Contents (Elt F)),
    StableHlo.reshape main_v219 main_v220 rfl shapeCasts_S1_S_,
    StableHlo.nullary main_cst_39 (constant S_ .f32 0x00000000#32),
    StableHlo.unary main_cst_39 main_v221 (broadcastInDim S50000x128 ![] bcast_S_S50000x128 : (⟨S_, .f32⟩ : BufTy).Contents (Elt F) → (⟨S50000x128, .f32⟩ : BufTy).Contents (Elt F)),
    StableHlo.binary main_v218 main_v221 main_v222 (cmpf .oge : (⟨S50000x128, .f32⟩ : BufTy).Contents (Elt F) → (⟨S50000x128, .f32⟩ : BufTy).Contents (Elt F) → (⟨S50000x128, .i1⟩ : BufTy).Contents (Elt F)),
    StableHlo.unary main_v220 main_v223 (broadcastInDim S50000x128 ![] bcast_S_S50000x128 : (⟨S_, .f32⟩ : BufTy).Contents (Elt F) → (⟨S50000x128, .f32⟩ : BufTy).Contents (Elt F)),
    StableHlo.binary main_v223 main_v218 main_v224 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v222 : StableHlo.TRef sig ⟨S50000x128, .i1⟩) (.of main_v218 : StableHlo.TRef sig ⟨S50000x128, .f32⟩) (.of main_v224 : StableHlo.TRef sig ⟨S50000x128, .f32⟩) main_call5.v0 select,
    StableHlo.unary main_arg11 main_v226 ((extractStridedSlice S1x128x64 ![1, 0, 0] · slices_S3x128x64_S1x128x64_1_0_0) : (⟨S3x128x64, .f32⟩ : BufTy).Contents (Elt F) → (⟨S1x128x64, .f32⟩ : BufTy).Contents (Elt F)),
    StableHlo.reshape main_v226 main_v227 rfl shapeCasts_S1x128x64_S128x64,
    StableHlo.unary main_arg12 main_v228 ((extractStridedSlice S1x64 ![1, 0] · slices_S3x64_S1x64_1_0) : (⟨S3x64, .f32⟩ : BufTy).Contents (Elt F) → (⟨S1x64, .f32⟩ : BufTy).Contents (Elt F)),
    StableHlo.reshape main_v228 main_v229 rfl shapeCasts_S1x64_S64,
    StableHlo.binary main_v225 main_v227 main_v230 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- The buffers the stage's operations write. -/
abbrev sC1_W : List (Ref sig .tc) := [main_v219, main_v220, main_cst_39, main_v221, main_v222, main_v223, main_v224, main_v225, main_v226, main_v227, main_v228, main_v229, main_v230]

set_option maxRecDepth 8192 in
set_option maxHeartbeats 4000000 in
theorem sC1_writes : (sC1 : List (HloOp τ sig (Elt F))).Forall fun op => op.writes ⊆ (sC1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stage does not write keeps its contents through it. -/
theorem sC1_keep (V : Valuation τ sig (Elt F)) (r : Ref sig .tc) (h : r ∉ sC1_W) :
    after sC1 V (Proc.devRef .tc r) = V (Proc.devRef .tc r) :=
  after_of_writes_sub sC1 V sC1_writes h

set_option maxRecDepth 8192 in
set_option maxHeartbeats 4000000 in
/-- The rectified rows contracted. -/
theorem sC1_lin (V : Valuation τ sig (Elt F)) :
    after sC1 V (Proc.devRef .tc main_v230) = Cert.Spec.pdot128 (Cert.Spec.sc1 (V (Proc.devRef .tc main_arg10))) (V (Proc.devRef .tc main_v218)) (Cert.Spec.w2_1 (V (Proc.devRef .tc main_arg11))) := by
  simp only [sC1]
  after_results_simp
  rfl

set_option maxRecDepth 8192 in
set_option maxHeartbeats 4000000 in
/-- The second convolution's bias row. -/
theorem sC1_bias (V : Valuation τ sig (Elt F)) :
    after sC1 V (Proc.devRef .tc main_v229) = Cert.Spec.v64_1 (V (Proc.devRef .tc main_arg12)) := by
  simp only [sC1]
  after_results_simp
  rfl

/-- Block 2: the aggregation of the 64-wide rows (operations 316 … 368 of 622). -/
abbrev sD1 : List (HloOp τ sig (Elt F)) :=
  [ StableHlo.nullary main_cst_40 (constant S_ .f32 0x3F800000#32),
    StableHlo.unary main_cst_40 main_v231 (broadcastInDim S800000 ![] bcast_S_S800000 : (⟨S_, .f32⟩ : BufTy).Contents (Elt F) → (⟨S800000, .f32⟩ : BufTy).Contents (Elt F)),
    StableHlo.nullary main_cst_41 (constant S_ .f32 0x00000000#32),
    StableHlo.unary main_cst_41 main_v232 (broadcastInDim S50000 ![] bcast_S_S50000 : (⟨S_, .f32⟩ : BufTy).Contents (Elt F) → (⟨S50000, .f32⟩ : BufTy).Contents (Elt F)),
    StableHlo.unary main_v3 main_v233 (broadcastInDim S800000x1 ![0] bcast_S800000_S800000x1_0 : (⟨S800000, .i32⟩ : BufTy).Contents (Elt F) → (⟨S800000x1, .i32⟩ : BufTy).Contents (Elt F)),
    StableHlo.ternary main_v232 main_v233 main_v231 main_v234 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_42 (constant S_ .f32 0x3F800000#32),
    StableHlo.unary main_cst_42 main_v235 (broadcastInDim S50000 ![] bcast_S_S50000 : (⟨S_, .f32⟩ : BufTy).Contents (Elt F) → (⟨S50000, .f32⟩ : BufTy).Contents (Elt F)),
    StableHlo.binary main_v234 main_v235 main_v236 (addf : (⟨S50000, .f32⟩ : BufTy).Contents (Elt F) → (⟨S50000, .f32⟩ : BufTy).Contents (Elt F) → (⟨S50000, .f32⟩ : BufTy).Contents (Elt F)),
    StableHlo.unary main_v236 main_v237 (Host.rsqrt : (⟨S50000, .f32⟩ : BufTy).Contents (Elt F) → (⟨S50000, .f32⟩ : BufTy).Contents (Elt F)),
    StableHlo.nullary main_c_43 (constantI S_ 32 0#32),
    StableHlo.unary main_c_43 main_v238 (broadcastInDim S800000 ![] bcast_S_S800000 : (⟨S_, .i32⟩ : BufTy).Contents (Elt F) → (⟨S800000, .i32⟩ : BufTy).Contents (Elt F)),
    StableHlo.binary main_v1 main_v238 main_v239 (cmpi .slt : (⟨S800000, .i32⟩ : BufTy).Contents (Elt F) → (⟨S800000, .i32⟩ : BufTy).Contents (Elt F) → (⟨S800000, .i1⟩ : BufTy).Contents (Elt F)),
    StableHlo.nullary main_c_44 (constantI S_ 32 50000#32),
    StableHlo.unary main_c_44 main_v240 (broadcastInDim S800000 ![] bcast_S_S800000 : (⟨S_, .i32⟩ : BufTy).Contents (Elt F) → (⟨S800000, .i32⟩ : BufTy).Contents (Elt F)),
    StableHlo.binary main_v1 main_v240 main_v241 (addi : (⟨S800000, .i32⟩ : BufTy).Contents (Elt F) → (⟨S800000, .i32⟩ : BufTy).Contents (Elt F) → (⟨S800000, .i32⟩ : BufTy).Contents (Elt F)),
    StableHlo.ternary main_v239 main_v241 main_v1 main_v242 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v242 main_v243 (broadcastInDim S800000x1 ![0] bcast_S800000_S800000x1_0 : (⟨S800000, .i32⟩ : BufTy).Contents (Elt F) → (⟨S800000x1, .i32⟩ : BufTy).Contents (Elt F)),
    StableHlo.binary main_v237 main_v243 main_v244 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_45 (constantI S_ 32 0#32),
    StableHlo.unary main_c_45 main_v245 (broadcastInDim S800000 ![] bcast_S_S800000 : (⟨S_, .i32⟩ : BufTy).Contents (Elt F) → (⟨S800000, .i32⟩ : BufTy).Contents (Elt F)),
    StableHlo.binary main_v3 main_v245 main_v246 (cmpi .slt : (⟨S800000, .i32⟩ : BufTy).Contents (Elt F) → (⟨S800000, .i32⟩ : BufTy).Contents (Elt F) → (⟨S800000, .i1⟩ : BufTy).Contents (Elt F)),
    StableHlo.nullary main_c_46 (constantI S_ 32 50000#32),
    StableHlo.unary main_c_46 main_v247 (broadcastInDim S800000 ![] bcast_S_S800000 : (⟨S_, .i32⟩ : BufTy).Contents (Elt F) → (⟨S800000, .i32⟩ : BufTy).Contents (Elt F)),
    StableHlo.binary main_v3 main_v247 main_v248 (addi : (⟨S800000, .i32⟩ : BufTy).Contents (Elt F) → (⟨S800000, .i32⟩ : BufTy).Contents (Elt F) → (⟨S800000, .i32⟩ : BufTy).Contents (Elt F)),
    StableHlo.ternary main_v246 main_v248 main_v3 main_v249 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v249 main_v250 (broadcastInDim S800000x1 ![0] bcast_S800000_S800000x1_0 : (⟨S800000, .i32⟩ : BufTy).Contents (Elt F) → (⟨S800000x1, .i32⟩ : BufTy).Contents (Elt F)),
    StableHlo.binary main_v237 main_v250 main_v251 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v244 main_v251 main_v252 (mulf : (⟨S800000, .f32⟩ : BufTy).Contents (Elt F) → (⟨S800000, .f32⟩ : BufTy).Contents (Elt F) → (⟨S800000, .f32⟩ : BufTy).Contents (Elt F)),
    StableHlo.nullary main_c_47 (constantI S_ 32 0#32),
    StableHlo.unary main_c_47 main_v253 (broadcastInDim S800000 ![] bcast_S_S800000 : (⟨S_, .i32⟩ : BufTy).Contents (Elt F) → (⟨S800000, .i32⟩ : BufTy).Contents (Elt F)),
    StableHlo.binary main_v1 main_v253 main_v254 (cmpi .slt : (⟨S800000, .i32⟩ : BufTy).Contents (Elt F) → (⟨S800000, .i32⟩ : BufTy).Contents (Elt F) → (⟨S800000, .i1⟩ : BufTy).Contents (Elt F)),
    StableHlo.nullary main_c_48 (constantI S_ 32 50000#32),
    StableHlo.unary main_c_48 main_v255 (broadcastInDim S800000 ![] bcast_S_S800000 : (⟨S_, .i32⟩ : BufTy).Contents (Elt F) → (⟨S800000, .i32⟩ : BufTy).Contents (Elt F)),
    StableHlo.binary main_v1 main_v255 main_v256 (addi : (⟨S800000, .i32⟩ : BufTy).Contents (Elt F) → (⟨S800000, .i32⟩ : BufTy).Contents (Elt F) → (⟨S800000, .i32⟩ : BufTy).Contents (Elt F)),
    StableHlo.ternary main_v254 main_v256 main_v1 main_v257 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v257 main_v258 (broadcastInDim S800000x1 ![0] bcast_S800000_S800000x1_0 : (⟨S800000, .i32⟩ : BufTy).Contents (Elt F) → (⟨S800000x1, .i32⟩ : BufTy).Contents (Elt F)),
    StableHlo.binary main_v230 main_v258 main_v259 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v252 main_v260 (broadcastInDim S800000x1 ![0] bcast_S800000_S800000x1_0 : (⟨S800000, .f32⟩ : BufTy).Contents (Elt F) → (⟨S800000x1, .f32⟩ : BufTy).Contents (Elt F)),
    StableHlo.unary main_v260 main_v261 (broadcastInDim S800000x64 ![0, 1] bcast_S800000x1_S800000x64_0_1 : (⟨S800000x1, .f32⟩ : BufTy).Contents (Elt F) → (⟨S800000x64, .f32⟩ : BufTy).Contents (Elt F)),
    StableHlo.binary main_v259 main_v261 main_v262 (mulf : (⟨S800000x64, .f32⟩ : BufTy).Contents (Elt F) → (⟨S800000x64, .f32⟩ : BufTy).Contents (Elt F) → (⟨S800000x64, .f32⟩ : BufTy).Contents (Elt F)),
    StableHlo.nullary main_cst_49 (constant S_ .f32 0x00000000#32),
    StableHlo.unary main_cst_49 main_v263 (broadcastInDim S50000x64 ![] bcast_S_S50000x64 : (⟨S_, .f32⟩ : BufTy).Contents (Elt F) → (⟨S50000x64, .f32⟩ : BufTy).Contents (Elt F)),
    StableHlo.unary main_v3 main_v264 (broadcastInDim S800000x1 ![0] bcast_S800000_S800000x1_0 : (⟨S800000, .i32⟩ : BufTy).Contents (Elt F) → (⟨S800000x1, .i32⟩ : BufTy).Contents (Elt F)),
    StableHlo.ternary main_v263 main_v264 main_v262 main_v265 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v237 main_v237 main_v266 (mulf : (⟨S50000, .f32⟩ : BufTy).Contents (Elt F) → (⟨S50000, .f32⟩ : BufTy).Contents (Elt F) → (⟨S50000, .f32⟩ : BufTy).Contents (Elt F)),
    StableHlo.unary main_v266 main_v267 (broadcastInDim S50000x1 ![0] bcast_S50000_S50000x1_0 : (⟨S50000, .f32⟩ : BufTy).Contents (Elt F) → (⟨S50000x1, .f32⟩ : BufTy).Contents (Elt F)),
    StableHlo.unary main_v267 main_v268 (broadcastInDim S50000x64 ![0, 1] bcast_S50000x1_S50000x64_0_1 : (⟨S50000x1, .f32⟩ : BufTy).Contents (Elt F) → (⟨S50000x64, .f32⟩ : BufTy).Contents (Elt F)),
    StableHlo.binary main_v230 main_v268 main_v269 (mulf : (⟨S50000x64, .f32⟩ : BufTy).Contents (Elt F) → (⟨S50000x64, .f32⟩ : BufTy).Contents (Elt F) → (⟨S50000x64, .f32⟩ : BufTy).Contents (Elt F)),
    StableHlo.binary main_v265 main_v269 main_v270 (addf : (⟨S50000x64, .f32⟩ : BufTy).Contents (Elt F) → (⟨S50000x64, .f32⟩ : BufTy).Contents (Elt F) → (⟨S50000x64, .f32⟩ : BufTy).Contents (Elt F)),
    StableHlo.unary main_v229 main_v271 (broadcastInDim S1x64 ![1] bcast_S64_S1x64_1 : (⟨S64, .f32⟩ : BufTy).Contents (Elt F) → (⟨S1x64, .f32⟩ : BufTy).Contents (Elt F)),
    StableHlo.unary main_v271 main_v272 (broadcastInDim S50000x64 ![0, 1] bcast_S1x64_S50000x64_0_1 : (⟨S1x64, .f32⟩ : BufTy).Contents (Elt F) → (⟨S50000x64, .f32⟩ : BufTy).Contents (Elt F)),
    StableHlo.binary main_v270 main_v272 main_v273 (addf : (⟨S50000x64, .f32⟩ : BufTy).Contents (Elt F) → (⟨S50000x64, .f32⟩ : BufTy).Contents (Elt F) → (⟨S50000x64, .f32⟩ : BufTy).Contents (Elt F)) ]

/-- The buffers the stage's operations write. -/
abbrev sD1_W : List (Ref sig .tc) := [main_cst_40, main_v231, main_cst_41, main_v232, main_v233, main_v234, main_cst_42, main_v235, main_v236, main_v237, main_c_43, main_v238, main_v239, main_c_44, main_v240, main_v241, main_v242, main_v243, main_v244, main_c_45, main_v245, main_v246, main_c_46, main_v247, main_v248, main_v249, main_v250, main_v251, main_v252, main_c_47, main_v253, main_v254, main_c_48, main_v255, main_v256, main_v257, main_v258, main_v259, main_v260, main_v261, main_v262, main_cst_49, main_v263, main_v264, main_v265, main_v266, main_v267, main_v268, main_v269, main_v270, main_v271, main_v272, main_v273]

set_option maxRecDepth 8192 in
set_option maxHeartbeats 4000000 in
theorem sD1_writes : (sD1 : List (HloOp τ sig (Elt F))).Forall fun op => op.writes ⊆ (sD1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stage does not write keeps its contents through it. -/
theorem sD1_keep (V : Valuation τ sig (Elt F)) (r : Ref sig .tc) (h : r ∉ sD1_W) :
    after sD1 V (Proc.devRef .tc r) = V (Proc.devRef .tc r) :=
  after_of_writes_sub sD1 V sD1_writes h

set_option maxRecDepth 8192 in
set_option maxHeartbeats 4000000 in
/-- The 64-wide rows aggregated over the edges with the edge weights, the self loops and the bias added. -/
theorem sD1_conv (V : Valuation τ sig (Elt F)) :
    after sD1 V (Proc.devRef .tc main_v273) = Cert.Spec.conv64 (V (Proc.devRef .tc main_v230)) (V (Proc.devRef .tc main_v1)) (V (Proc.devRef .tc main_v3)) (Cert.Spec.normE1 (V (Proc.devRef .tc main_v1)) (V (Proc.devRef .tc main_v3))) (Cert.Spec.selfS1 (V (Proc.devRef .tc main_v3))) (V (Proc.devRef .tc main_v229)) := by
  simp only [sD1]
  after_results_simp
  rfl

/-- Block 2's operations: its four stages in order. -/
abbrev blk1 : List (HloOp τ sig (Elt F)) := sA1 ++ (sB1 ++ (sC1 ++ sD1))

/-- The buffers block 2 writes. -/
abbrev blk1_W : List (Ref sig .tc) := sA1_W ++ (sB1_W ++ (sC1_W ++ sD1_W))

/-- A buffer no stage of the block writes keeps its contents through the block. -/
theorem blk1_keep (V : Valuation τ sig (Elt F)) (r : Ref sig .tc) (hA : r ∉ sA1_W) (hB : r ∉ sB1_W) (hC : r ∉ sC1_W) (hD : r ∉ sD1_W) :
    after blk1 V (Proc.devRef .tc r) = V (Proc.devRef .tc r) := by
  simp only [blk1, after_append]
  rw [sD1_keep _ r hD, sC1_keep _ r hC, sB1_keep _ r hB, sA1_keep _ r hA]

set_option maxRecDepth 8192 in
set_option maxHeartbeats 4000000 in
/-- Block 2 over an arbitrary valuation: the block function of the incoming rows, the edge list's rows and the block's parameters. -/
theorem blk1_val (V : Valuation τ sig (Elt F)) :
    after blk1 V (Proc.devRef .tc main_v273) = Cert.Spec.block (V (Proc.devRef .tc main_v140)) (V (Proc.devRef .tc main_v1)) (V (Proc.devRef .tc main_v3)) (Cert.Spec.normE1 (V (Proc.devRef .tc main_v1)) (V (Proc.devRef .tc main_v3))) (Cert.Spec.selfS1 (V (Proc.devRef .tc main_v3))) (Cert.Spec.sc1 (V (Proc.devRef .tc main_arg5))) (Cert.Spec.v64_1 (V (Proc.devRef .tc main_arg6))) (Cert.Spec.v64_1 (V (Proc.devRef .tc main_arg7))) (Cert.Spec.w1_1 (V (Proc.devRef .tc main_arg8))) (Cert.Spec.v128_1 (V (Proc.devRef .tc main_arg9))) (Cert.Spec.sc1 (V (Proc.devRef .tc main_arg10))) (Cert.Spec.w2_1 (V (Proc.devRef .tc main_arg11))) (Cert.Spec.v64_1 (V (Proc.devRef .tc main_arg12))) := by
  simp only [blk1, after_append]
  rw [sD1_conv, sC1_lin, sC1_bias, sC1_keep _ main_v1 (by decide), sB1_keep _ main_v1 (by decide), sA1_keep _ main_v1 (by decide), sC1_keep _ main_v3 (by decide), sB1_keep _ main_v3 (by decide), sA1_keep _ main_v3 (by decide), sB1_keep _ main_arg10 (by decide), sA1_keep _ main_arg10 (by decide), sB1_keep _ main_arg11 (by decide), sA1_keep _ main_arg11 (by decide), sB1_keep _ main_arg12 (by decide), sA1_keep _ main_arg12 (by decide), sB1_conv, sA1_lin, sA1_bias, sA1_keep _ main_v1 (by decide), sA1_keep _ main_v3 (by decide)]
  rfl

end Cert.RefRun

end
-- ==== Proof.RefStBlk2.lean ====
/- Block 3 of the reference program in four stages: rectify, normalise and contract; aggregate 128-wide rows;
   rectify and contract; aggregate 64-wide rows. Each stage's value over an arbitrary valuation, then the block's. -/
import proofs.«102494_j5102421148167_1_alg».proof.ReferenceIdeal
import proofs.«102494_j5102421148167_1_alg».proof.Proof.Spec
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- Block 3: the rectifier, the statistics, the normalisation and the first contraction (operations 369 … 429 of 622). -/
abbrev sA2 : List (HloOp τ sig (Elt F)) :=
  [ StableHlo.unary main_arg5 main_v274 ((extractStridedSlice S1 ![2] · slices_S3_S1_2) : (⟨S3, .f32⟩ : BufTy).Contents (Elt F) → (⟨S1, .f32⟩ : BufTy).Contents (Elt F)),
    StableHlo.reshape main_v274 main_v275 rfl shapeCasts_S1_S_,
    StableHlo.nullary main_cst_50 (constant S_ .f32 0x00000000#32),
    StableHlo.unary main_cst_50 main_v276 (broadcastInDim S50000x64 ![] bcast_S_S50000x64 : (⟨S_, .f32⟩ : BufTy).Contents (Elt F) → (⟨S50000x64, .f32⟩ : BufTy).Contents (Elt F)),
    StableHlo.binary main_v273 main_v276 main_v277 (cmpf .oge : (⟨S50000x64, .f32⟩ : BufTy).Contents (Elt F) → (⟨S50000x64, .f32⟩ : BufTy).Contents (Elt F) → (⟨S50000x64, .i1⟩ : BufTy).Contents (Elt F)),
    StableHlo.unary main_v275 main_v278 (broadcastInDim S50000x64 ![] bcast_S_S50000x64 : (⟨S_, .f32⟩ : BufTy).Contents (Elt F) → (⟨S50000x64, .f32⟩ : BufTy).Contents (Elt F)),
    StableHlo.binary main_v278 main_v273 main_v279 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v277 : StableHlo.TRef sig ⟨S50000x64, .i1⟩) (.of main_v273 : StableHlo.TRef sig ⟨S50000x64, .f32⟩) (.of main_v279 : StableHlo.TRef sig ⟨S50000x64, .f32⟩) main_call6.v0 select,
    StableHlo.unary main_arg6 main_v281 ((extractStridedSlice S1x64 ![2, 0] · slices_S3x64_S1x64_2_0) : (⟨S3x64, .f32⟩ : BufTy).Contents (Elt F) → (⟨S1x64, .f32⟩ : BufTy).Contents (Elt F)),
    StableHlo.reshape main_v281 main_v282 rfl shapeCasts_S1x64_S64,
    StableHlo.unary main_arg7 main_v283 ((extractStridedSlice S1x64 ![2, 0] · slices_S3x64_S1x64_2_0) : (⟨S3x64, .f32⟩ : BufTy).Contents (Elt F) → (⟨S1x64, .f32⟩ : BufTy).Contents (Elt F)),
    StableHlo.reshape main_v283 main_v284 rfl shapeCasts_S1x64_S64,
    StableHlo.nullary main_cst_51 (constant S_ .f32 0x00000000#32),
    StableHlo.binary main_v280 main_cst_51 main_v285 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_52 (constant S_ .f32 0x47435000#32),
    StableHlo.unary main_cst_52 main_v286 (broadcastInDim S64 ![] bcast_S_S64 : (⟨S_, .f32⟩ : BufTy).Contents (Elt F) → (⟨S64, .f32⟩ : BufTy).Contents (Elt F)),
    StableHlo.binary main_v285 main_v286 main_v287 (Host.divf : (⟨S64, .f32⟩ : BufTy).Contents (Elt F) → (⟨S64, .f32⟩ : BufTy).Contents (Elt F) → (⟨S64, .f32⟩ : BufTy).Contents (Elt F)),
    StableHlo.nullary main_c_53 (constantI S_ 32 0#32),
    StableHlo.TRef.nullary main_call7.cst (constant S_ .f32 0x00000000#32),
    StableHlo.TRef.binary (.of main_v280 : StableHlo.TRef sig ⟨S50000x64, .f32⟩) main_call7.cst main_call7.v0 (fun x v => Host.reduceAdd x v reducesTo_S50000x64_S64_d0 h_S_),
    StableHlo.TRef.unary main_call7.v0 main_call7.v1 (broadcastInDim S1x64 ![1] bcast_S64_S1x64_1),
    StableHlo.TRef.nullary main_call7.cst_0 (constant S_ .f32 0x47435000#32),
    StableHlo.TRef.unary main_call7.cst_0 main_call7.v2 (broadcastInDim S1x64 ![] bcast_S_S1x64),
    StableHlo.TRef.binary main_call7.v1 main_call7.v2 main_call7.v3 Host.divf,
    StableHlo.TRef.unary main_call7.v3 main_call7.v4 (broadcastInDim S50000x64 ![0, 1] bcast_S1x64_S50000x64_0_1),
    StableHlo.TRef.binary (.of main_v280 : StableHlo.TRef sig ⟨S50000x64, .f32⟩) main_call7.v4 main_call7.v5 subf,
    StableHlo.TRef.binary main_call7.v5 main_call7.v5 main_call7.v6 mulf,
    StableHlo.TRef.unary (.of main_c_53 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x64_S64_d0 h_S_),
    StableHlo.TRef.unary main_call7.v8 main_call7.v10 (broadcastInDim S64 ![] bcast_S_S64),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S64 ![] bcast_S_S64),
    StableHlo.TRef.ternary main_call7.v12 main_call7.v11 main_call7.call0.v1 main_call7.call0.v2 (fun p a b => select (broadcastInDim S64 ![] bcast_S_S64 p) a b),
    StableHlo.unary main_v287 main_v289 (broadcastInDim S1x64 ![1] bcast_S64_S1x64_1 : (⟨S64, .f32⟩ : BufTy).Contents (Elt F) → (⟨S1x64, .f32⟩ : BufTy).Contents (Elt F)),
    StableHlo.unary main_v289 main_v290 (broadcastInDim S50000x64 ![0, 1] bcast_S1x64_S50000x64_0_1 : (⟨S1x64, .f32⟩ : BufTy).Contents (Elt F) → (⟨S50000x64, .f32⟩ : BufTy).Contents (Elt F)),
    StableHlo.binary main_v280 main_v290 main_v291 (subf : (⟨S50000x64, .f32⟩ : BufTy).Contents (Elt F) → (⟨S50000x64, .f32⟩ : BufTy).Contents (Elt F) → (⟨S50000x64, .f32⟩ : BufTy).Contents (Elt F)),
    StableHlo.nullary main_cst_54 (constant S_ .f32 0x3727C5AC#32),
    StableHlo.unary main_cst_54 main_v292 (broadcastInDim S64 ![] bcast_S_S64 : (⟨S_, .f32⟩ : BufTy).Contents (Elt F) → (⟨S64, .f32⟩ : BufTy).Contents (Elt F)),
    StableHlo.binary main_v288 main_v292 main_v293 (addf : (⟨S64, .f32⟩ : BufTy).Contents (Elt F) → (⟨S64, .f32⟩ : BufTy).Contents (Elt F) → (⟨S64, .f32⟩ : BufTy).Contents (Elt F)),
    StableHlo.unary main_v293 main_v294 (Host.rsqrt : (⟨S64, .f32⟩ : BufTy).Contents (Elt F) → (⟨S64, .f32⟩ : BufTy).Contents (Elt F)),
    StableHlo.unary main_v294 main_v295 (broadcastInDim S1x64 ![1] bcast_S64_S1x64_1 : (⟨S64, .f32⟩ : BufTy).Contents (Elt F) → (⟨S1x64, .f32⟩ : BufTy).Contents (Elt F)),
    StableHlo.unary main_v295 main_v296 (broadcastInDim S50000x64 ![0, 1] bcast_S1x64_S50000x64_0_1 : (⟨S1x64, .f32⟩ : BufTy).Contents (Elt F) → (⟨S50000x64, .f32⟩ : BufTy).Contents (Elt F)),
    StableHlo.binary main_v291 main_v296 main_v297 (mulf : (⟨S50000x64, .f32⟩ : BufTy).Contents (Elt F) → (⟨S50000x64, .f32⟩ : BufTy).Contents (Elt F) → (⟨S50000x64, .f32⟩ : BufTy).Contents (Elt F)),
    StableHlo.unary main_v282 main_v298 (broadcastInDim S1x64 ![1] bcast_S64_S1x64_1 : (⟨S64, .f32⟩ : BufTy).Contents (Elt F) → (⟨S1x64, .f32⟩ : BufTy).Contents (Elt F)),
    StableHlo.unary main_v298 main_v299 (broadcastInDim S50000x64 ![0, 1] bcast_S1x64_S50000x64_0_1 : (⟨S1x64, .f32⟩ : BufTy).Contents (Elt F) → (⟨S50000x64, .f32⟩ : BufTy).Contents (Elt F)),
    StableHlo.binary main_v297 main_v299 main_v300 (mulf : (⟨S50000x64, .f32⟩ : BufTy).Contents (Elt F) → (⟨S50000x64, .f32⟩ : BufTy).Contents (Elt F) → (⟨S50000x64, .f32⟩ : BufTy).Contents (Elt F)),
    StableHlo.unary main_v284 main_v301 (broadcastInDim S1x64 ![1] bcast_S64_S1x64_1 : (⟨S64, .f32⟩ : BufTy).Contents (Elt F) → (⟨S1x64, .f32⟩ : BufTy).Contents (Elt F)),
    StableHlo.unary main_v301 main_v302 (broadcastInDim S50000x64 ![0, 1] bcast_S1x64_S50000x64_0_1 : (⟨S1x64, .f32⟩ : BufTy).Contents (Elt F) → (⟨S50000x64, .f32⟩ : BufTy).Contents (Elt F)),
    StableHlo.binary main_v300 main_v302 main_v303 (addf : (⟨S50000x64, .f32⟩ : BufTy).Contents (Elt F) → (⟨S50000x64, .f32⟩ : BufTy).Contents (Elt F) → (⟨S50000x64, .f32⟩ : BufTy).Contents (Elt F)),
    StableHlo.unary main_arg8 main_v304 ((extractStridedSlice S1x64x128 ![2, 0, 0] · slices_S3x64x128_S1x64x128_2_0_0) : (⟨S3x64x128, .f32⟩ : BufTy).Contents (Elt F) → (⟨S1x64x128, .f32⟩ : BufTy).Contents (Elt F)),
    StableHlo.reshape main_v304 main_v305 rfl shapeCasts_S1x64x128_S64x128,
    StableHlo.unary main_arg9 main_v306 ((extractStridedSlice S1x128 ![2, 0] · slices_S3x128_S1x128_2_0) : (⟨S3x128, .f32⟩ : BufTy).Contents (Elt F) → (⟨S1x128, .f32⟩ : BufTy).Contents (Elt F)),
    StableHlo.reshape main_v306 main_v307 rfl shapeCasts_S1x128_S128,
    StableHlo.binary main_v303 main_v305 main_v308 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)) ]

/-- The buffers the stage's operations write. -/
abbrev sA2_W : List (Ref sig .tc) := [main_v274, main_v275, main_cst_50, main_v276, main_v277, main_v278, main_v279, main_v280, main_v281, main_v282, main_v283, main_v284, main_cst_51, main_v285, main_cst_52, main_v286, main_v287, main_c_53, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v288, main_v289, main_v290, main_v291, main_cst_54, main_v292, main_v293, main_v294, main_v295, main_v296, main_v297, main_v298, main_v299, main_v300, main_v301, main_v302, main_v303, main_v304, main_v305, main_v306, main_v307, main_v308]

set_option maxRecDepth 8192 in
set_option maxHeartbeats 4000000 in
theorem sA2_writes : (sA2 : List (HloOp τ sig (Elt F))).Forall fun op => op.writes ⊆ (sA2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stage does not write keeps its contents through it. -/
theorem sA2_keep (V : Valuation τ sig (Elt F)) (r : Ref sig .tc) (h : r ∉ sA2_W) :
    after sA2 V (Proc.devRef .tc r) = V (Proc.devRef .tc r) :=
  after_of_writes_sub sA2 V sA2_writes h

set_option maxRecDepth 8192 in
set_option maxHeartbeats 4000000 in
/-- The rectified rows, normalised over the node axis, scaled, shifted and contracted. -/
theorem sA2_lin (V : Valuation τ sig (Elt F)) :
    after sA2 V (Proc.devRef .tc main_v308) = Cert.Spec.bndot64 (Cert.Spec.prelu64 (Cert.Spec.sc2 (V (Proc.devRef .tc main_arg5))) (V (Proc.devRef .tc main_v273))) (Cert.Spec.mean64 (Cert.Spec.prelu64 (Cert.Spec.sc2 (V (Proc.devRef .tc main_arg5))) (V (Proc.devRef .tc main_v273)))) (Cert.Spec.var64 (Cert.Spec.prelu64 (Cert.Spec.sc2 (V (Proc.devRef .tc main_arg5))) (V (Proc.devRef .tc main_v273)))) (Cert.Spec.v64_2 (V (Proc.devRef .tc main_arg6))) (Cert.Spec.v64_2 (V (Proc.devRef .tc main_arg7))) (Cert.Spec.w1_2 (V (Proc.devRef .tc main_arg8))) := by
  simp only [sA2]
  after_results_simp
  rfl

set_option maxRecDepth 8192 in
set_option maxHeartbeats 4000000 in
/-- The first convolution's bias row. -/
theorem sA2_bias (V : Valuation τ sig (Elt F)) :
    after sA2 V (Proc.devRef .tc main_v307) = Cert.Spec.v128_2 (V (Proc.devRef .tc main_arg9)) := by
  simp only [sA2]
  after_results_simp
  rfl

/-- Block 3: the aggregation of the 128-wide rows (operations 430 … 482 of 622). -/
abbrev sB2 : List (HloOp τ sig (Elt F)) :=
  [ StableHlo.nullary main_cst_55 (constant S_ .f32 0x3F800000#32),
    StableHlo.unary main_cst_55 main_v309 (broadcastInDim S800000 ![] bcast_S_S800000 : (⟨S_, .f32⟩ : BufTy).Contents (Elt F) → (⟨S800000, .f32⟩ : BufTy).Contents (Elt F)),
    StableHlo.nullary main_cst_56 (constant S_ .f32 0x00000000#32),
    StableHlo.unary main_cst_56 main_v310 (broadcastInDim S50000 ![] bcast_S_S50000 : (⟨S_, .f32⟩ : BufTy).Contents (Elt F) → (⟨S50000, .f32⟩ : BufTy).Contents (Elt F)),
    StableHlo.unary main_v3 main_v311 (broadcastInDim S800000x1 ![0] bcast_S800000_S800000x1_0 : (⟨S800000, .i32⟩ : BufTy).Contents (Elt F) → (⟨S800000x1, .i32⟩ : BufTy).Contents (Elt F)),
    StableHlo.ternary main_v310 main_v311 main_v309 main_v312 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_57 (constant S_ .f32 0x3F800000#32),
    StableHlo.unary main_cst_57 main_v313 (broadcastInDim S50000 ![] bcast_S_S50000 : (⟨S_, .f32⟩ : BufTy).Contents (Elt F) → (⟨S50000, .f32⟩ : BufTy).Contents (Elt F)),
    StableHlo.binary main_v312 main_v313 main_v314 (addf : (⟨S50000, .f32⟩ : BufTy).Contents (Elt F) → (⟨S50000, .f32⟩ : BufTy).Contents (Elt F) → (⟨S50000, .f32⟩ : BufTy).Contents (Elt F)),
    StableHlo.unary main_v314 main_v315 (Host.rsqrt : (⟨S50000, .f32⟩ : BufTy).Contents (Elt F) → (⟨S50000, .f32⟩ : BufTy).Contents (Elt F)),
    StableHlo.nullary main_c_58 (constantI S_ 32 0#32),
    StableHlo.unary main_c_58 main_v316 (broadcastInDim S800000 ![] bcast_S_S800000 : (⟨S_, .i32⟩ : BufTy).Contents (Elt F) → (⟨S800000, .i32⟩ : BufTy).Contents (Elt F)),
    StableHlo.binary main_v1 main_v316 main_v317 (cmpi .slt : (⟨S800000, .i32⟩ : BufTy).Contents (Elt F) → (⟨S800000, .i32⟩ : BufTy).Contents (Elt F) → (⟨S800000, .i1⟩ : BufTy).Contents (Elt F)),
    StableHlo.nullary main_c_59 (constantI S_ 32 50000#32),
    StableHlo.unary main_c_59 main_v318 (broadcastInDim S800000 ![] bcast_S_S800000 : (⟨S_, .i32⟩ : BufTy).Contents (Elt F) → (⟨S800000, .i32⟩ : BufTy).Contents (Elt F)),
    StableHlo.binary main_v1 main_v318 main_v319 (addi : (⟨S800000, .i32⟩ : BufTy).Contents (Elt F) → (⟨S800000, .i32⟩ : BufTy).Contents (Elt F) → (⟨S800000, .i32⟩ : BufTy).Contents (Elt F)),
    StableHlo.ternary main_v317 main_v319 main_v1 main_v320 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v320 main_v321 (broadcastInDim S800000x1 ![0] bcast_S800000_S800000x1_0 : (⟨S800000, .i32⟩ : BufTy).Contents (Elt F) → (⟨S800000x1, .i32⟩ : BufTy).Contents (Elt F)),
    StableHlo.binary main_v315 main_v321 main_v322 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_60 (constantI S_ 32 0#32),
    StableHlo.unary main_c_60 main_v323 (broadcastInDim S800000 ![] bcast_S_S800000 : (⟨S_, .i32⟩ : BufTy).Contents (Elt F) → (⟨S800000, .i32⟩ : BufTy).Contents (Elt F)),
    StableHlo.binary main_v3 main_v323 main_v324 (cmpi .slt : (⟨S800000, .i32⟩ : BufTy).Contents (Elt F) → (⟨S800000, .i32⟩ : BufTy).Contents (Elt F) → (⟨S800000, .i1⟩ : BufTy).Contents (Elt F)),
    StableHlo.nullary main_c_61 (constantI S_ 32 50000#32),
    StableHlo.unary main_c_61 main_v325 (broadcastInDim S800000 ![] bcast_S_S800000 : (⟨S_, .i32⟩ : BufTy).Contents (Elt F) → (⟨S800000, .i32⟩ : BufTy).Contents (Elt F)),
    StableHlo.binary main_v3 main_v325 main_v326 (addi : (⟨S800000, .i32⟩ : BufTy).Contents (Elt F) → (⟨S800000, .i32⟩ : BufTy).Contents (Elt F) → (⟨S800000, .i32⟩ : BufTy).Contents (Elt F)),
    StableHlo.ternary main_v324 main_v326 main_v3 main_v327 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v327 main_v328 (broadcastInDim S800000x1 ![0] bcast_S800000_S800000x1_0 : (⟨S800000, .i32⟩ : BufTy).Contents (Elt F) → (⟨S800000x1, .i32⟩ : BufTy).Contents (Elt F)),
    StableHlo.binary main_v315 main_v328 main_v329 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v322 main_v329 main_v330 (mulf : (⟨S800000, .f32⟩ : BufTy).Contents (Elt F) → (⟨S800000, .f32⟩ : BufTy).Contents (Elt F) → (⟨S800000, .f32⟩ : BufTy).Contents (Elt F)),
    StableHlo.nullary main_c_62 (constantI S_ 32 0#32),
    StableHlo.unary main_c_62 main_v331 (broadcastInDim S800000 ![] bcast_S_S800000 : (⟨S_, .i32⟩ : BufTy).Contents (Elt F) → (⟨S800000, .i32⟩ : BufTy).Contents (Elt F)),
    StableHlo.binary main_v1 main_v331 main_v332 (cmpi .slt : (⟨S800000, .i32⟩ : BufTy).Contents (Elt F) → (⟨S800000, .i32⟩ : BufTy).Contents (Elt F) → (⟨S800000, .i1⟩ : BufTy).Contents (Elt F)),
    StableHlo.nullary main_c_63 (constantI S_ 32 50000#32),
    StableHlo.unary main_c_63 main_v333 (broadcastInDim S800000 ![] bcast_S_S800000 : (⟨S_, .i32⟩ : BufTy).Contents (Elt F) → (⟨S800000, .i32⟩ : BufTy).Contents (Elt F)),
    StableHlo.binary main_v1 main_v333 main_v334 (addi : (⟨S800000, .i32⟩ : BufTy).Contents (Elt F) → (⟨S800000, .i32⟩ : BufTy).Contents (Elt F) → (⟨S800000, .i32⟩ : BufTy).Contents (Elt F)),
    StableHlo.ternary main_v332 main_v334 main_v1 main_v335 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v335 main_v336 (broadcastInDim S800000x1 ![0] bcast_S800000_S800000x1_0 : (⟨S800000, .i32⟩ : BufTy).Contents (Elt F) → (⟨S800000x1, .i32⟩ : BufTy).Contents (Elt F)),
    StableHlo.binary main_v308 main_v336 main_v337 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v330 main_v338 (broadcastInDim S800000x1 ![0] bcast_S800000_S800000x1_0 : (⟨S800000, .f32⟩ : BufTy).Contents (Elt F) → (⟨S800000x1, .f32⟩ : BufTy).Contents (Elt F)),
    StableHlo.unary main_v338 main_v339 (broadcastInDim S800000x128 ![0, 1] bcast_S800000x1_S800000x128_0_1 : (⟨S800000x1, .f32⟩ : BufTy).Contents (Elt F) → (⟨S800000x128, .f32⟩ : BufTy).Contents (Elt F)),
    StableHlo.binary main_v337 main_v339 main_v340 (mulf : (⟨S800000x128, .f32⟩ : BufTy).Contents (Elt F) → (⟨S800000x128, .f32⟩ : BufTy).Contents (Elt F) → (⟨S800000x128, .f32⟩ : BufTy).Contents (Elt F)),
    StableHlo.nullary main_cst_64 (constant S_ .f32 0x00000000#32),
    StableHlo.unary main_cst_64 main_v341 (broadcastInDim S50000x128 ![] bcast_S_S50000x128 : (⟨S_, .f32⟩ : BufTy).Contents (Elt F) → (⟨S50000x128, .f32⟩ : BufTy).Contents (Elt F)),
    StableHlo.unary main_v3 main_v342 (broadcastInDim S800000x1 ![0] bcast_S800000_S800000x1_0 : (⟨S800000, .i32⟩ : BufTy).Contents (Elt F) → (⟨S800000x1, .i32⟩ : BufTy).Contents (Elt F)),
    StableHlo.ternary main_v341 main_v342 main_v340 main_v343 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v315 main_v315 main_v344 (mulf : (⟨S50000, .f32⟩ : BufTy).Contents (Elt F) → (⟨S50000, .f32⟩ : BufTy).Contents (Elt F) → (⟨S50000, .f32⟩ : BufTy).Contents (Elt F)),
    StableHlo.unary main_v344 main_v345 (broadcastInDim S50000x1 ![0] bcast_S50000_S50000x1_0 : (⟨S50000, .f32⟩ : BufTy).Contents (Elt F) → (⟨S50000x1, .f32⟩ : BufTy).Contents (Elt F)),
    StableHlo.unary main_v345 main_v346 (broadcastInDim S50000x128 ![0, 1] bcast_S50000x1_S50000x128_0_1 : (⟨S50000x1, .f32⟩ : BufTy).Contents (Elt F) → (⟨S50000x128, .f32⟩ : BufTy).Contents (Elt F)),
    StableHlo.binary main_v308 main_v346 main_v347 (mulf : (⟨S50000x128, .f32⟩ : BufTy).Contents (Elt F) → (⟨S50000x128, .f32⟩ : BufTy).Contents (Elt F) → (⟨S50000x128, .f32⟩ : BufTy).Contents (Elt F)),
    StableHlo.binary main_v343 main_v347 main_v348 (addf : (⟨S50000x128, .f32⟩ : BufTy).Contents (Elt F) → (⟨S50000x128, .f32⟩ : BufTy).Contents (Elt F) → (⟨S50000x128, .f32⟩ : BufTy).Contents (Elt F)),
    StableHlo.unary main_v307 main_v349 (broadcastInDim S1x128 ![1] bcast_S128_S1x128_1 : (⟨S128, .f32⟩ : BufTy).Contents (Elt F) → (⟨S1x128, .f32⟩ : BufTy).Contents (Elt F)),
    StableHlo.unary main_v349 main_v350 (broadcastInDim S50000x128 ![0, 1] bcast_S1x128_S50000x128_0_1 : (⟨S1x128, .f32⟩ : BufTy).Contents (Elt F) → (⟨S50000x128, .f32⟩ : BufTy).Contents (Elt F)),
    StableHlo.binary main_v348 main_v350 main_v351 (addf : (⟨S50000x128, .f32⟩ : BufTy).Contents (Elt F) → (⟨S50000x128, .f32⟩ : BufTy).Contents (Elt F) → (⟨S50000x128, .f32⟩ : BufTy).Contents (Elt F)) ]

/-- The buffers the stage's operations write. -/
abbrev sB2_W : List (Ref sig .tc) := [main_cst_55, main_v309, main_cst_56, main_v310, main_v311, main_v312, main_cst_57, main_v313, main_v314, main_v315, main_c_58, main_v316, main_v317, main_c_59, main_v318, main_v319, main_v320, main_v321, main_v322, main_c_60, main_v323, main_v324, main_c_61, main_v325, main_v326, main_v327, main_v328, main_v329, main_v330, main_c_62, main_v331, main_v332, main_c_63, main_v333, main_v334, main_v335, main_v336, main_v337, main_v338, main_v339, main_v340, main_cst_64, main_v341, main_v342, main_v343, main_v344, main_v345, main_v346, main_v347, main_v348, main_v349, main_v350, main_v351]

set_option maxRecDepth 8192 in
set_option maxHeartbeats 4000000 in
theorem sB2_writes : (sB2 : List (HloOp τ sig (Elt F))).Forall fun op => op.writes ⊆ (sB2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stage does not write keeps its contents through it. -/
theorem sB2_keep (V : Valuation τ sig (Elt F)) (r : Ref sig .tc) (h : r ∉ sB2_W) :
    after sB2 V (Proc.devRef .tc r) = V (Proc.devRef .tc r) :=
  after_of_writes_sub sB2 V sB2_writes h

set_option maxRecDepth 8192 in
set_option maxHeartbeats 4000000 in
/-- The 128-wide rows aggregated over the edges with the edge weights, the self loops and the bias added. -/
theorem sB2_conv (V : Valuation τ sig (Elt F)) :
    after sB2 V (Proc.devRef .tc main_v351) = Cert.Spec.conv128 (V (Proc.devRef .tc main_v308)) (V (Proc.devRef .tc main_v1)) (V (Proc.devRef .tc main_v3)) (Cert.Spec.normE1 (V (Proc.devRef .tc main_v1)) (V (Proc.devRef .tc main_v3))) (Cert.Spec.selfS1 (V (Proc.devRef .tc main_v3))) (V (Proc.devRef .tc main_v307)) := by
  simp only [sB2]
  after_results_simp
  rfl

/-- Block 3: the rectifier and the second contraction (operations 483 … 495 of 622). -/
abbrev sC2 : List (HloOp τ sig (Elt F)) :=
  [ StableHlo.unary main_arg10 main_v352 ((extractStridedSlice S1 ![2] · slices_S3_S1_2) : (⟨S3, .f32⟩ : BufTy).Contents (Elt F) → (⟨S1, .f32⟩ : BufTy).Contents (Elt F)),
    StableHlo.reshape main_v352 main_v353 rfl shapeCasts_S1_S_,
    StableHlo.nullary main_cst_65 (constant S_ .f32 0x00000000#32),
    StableHlo.unary main_cst_65 main_v354 (broadcastInDim S50000x128 ![] bcast_S_S50000x128 : (⟨S_, .f32⟩ : BufTy).Contents (Elt F) → (⟨S50000x128, .f32⟩ : BufTy).Contents (Elt F)),
    StableHlo.binary main_v351 main_v354 main_v355 (cmpf .oge : (⟨S50000x128, .f32⟩ : BufTy).Contents (Elt F) → (⟨S50000x128, .f32⟩ : BufTy).Contents (Elt F) → (⟨S50000x128, .i1⟩ : BufTy).Contents (Elt F)),
    StableHlo.unary main_v353 main_v356 (broadcastInDim S50000x128 ![] bcast_S_S50000x128 : (⟨S_, .f32⟩ : BufTy).Contents (Elt F) → (⟨S50000x128, .f32⟩ : BufTy).Contents (Elt F)),
    StableHlo.binary main_v356 main_v351 main_v357 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v355 : StableHlo.TRef sig ⟨S50000x128, .i1⟩) (.of main_v351 : StableHlo.TRef sig ⟨S50000x128, .f32⟩) (.of main_v357 : StableHlo.TRef sig ⟨S50000x128, .f32⟩) main_call8.v0 select,
    StableHlo.unary main_arg11 main_v359 ((extractStridedSlice S1x128x64 ![2, 0, 0] · slices_S3x128x64_S1x128x64_2_0_0) : (⟨S3x128x64, .f32⟩ : BufTy).Contents (Elt F) → (⟨S1x128x64, .f32⟩ : BufTy).Contents (Elt F)),
    StableHlo.reshape main_v359 main_v360 rfl shapeCasts_S1x128x64_S128x64,
    StableHlo.unary main_arg12 main_v361 ((extractStridedSlice S1x64 ![2, 0] · slices_S3x64_S1x64_2_0) : (⟨S3x64, .f32⟩ : BufTy).Contents (Elt F) → (⟨S1x64, .f32⟩ : BufTy).Contents (Elt F)),
    StableHlo.reshape main_v361 main_v362 rfl shapeCasts_S1x64_S64,
    StableHlo.binary main_v358 main_v360 main_v363 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- The buffers the stage's operations write. -/
abbrev sC2_W : List (Ref sig .tc) := [main_v352, main_v353, main_cst_65, main_v354, main_v355, main_v356, main_v357, main_v358, main_v359, main_v360, main_v361, main_v362, main_v363]

set_option maxRecDepth 8192 in
set_option maxHeartbeats 4000000 in
theorem sC2_writes : (sC2 : List (HloOp τ sig (Elt F))).Forall fun op => op.writes ⊆ (sC2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stage does not write keeps its contents through it. -/
theorem sC2_keep (V : Valuation τ sig (Elt F)) (r : Ref sig .tc) (h : r ∉ sC2_W) :
    after sC2 V (Proc.devRef .tc r) = V (Proc.devRef .tc r) :=
  after_of_writes_sub sC2 V sC2_writes h

set_option maxRecDepth 8192 in
set_option maxHeartbeats 4000000 in
/-- The rectified rows contracted. -/
theorem sC2_lin (V : Valuation τ sig (Elt F)) :
    after sC2 V (Proc.devRef .tc main_v363) = Cert.Spec.pdot128 (Cert.Spec.sc2 (V (Proc.devRef .tc main_arg10))) (V (Proc.devRef .tc main_v351)) (Cert.Spec.w2_2 (V (Proc.devRef .tc main_arg11))) := by
  simp only [sC2]
  after_results_simp
  rfl

set_option maxRecDepth 8192 in
set_option maxHeartbeats 4000000 in
/-- The second convolution's bias row. -/
theorem sC2_bias (V : Valuation τ sig (Elt F)) :
    after sC2 V (Proc.devRef .tc main_v362) = Cert.Spec.v64_2 (V (Proc.devRef .tc main_arg12)) := by
  simp only [sC2]
  after_results_simp
  rfl

/-- Block 3: the aggregation of the 64-wide rows (operations 496 … 548 of 622). -/
abbrev sD2 : List (HloOp τ sig (Elt F)) :=
  [ StableHlo.nullary main_cst_66 (constant S_ .f32 0x3F800000#32),
    StableHlo.unary main_cst_66 main_v364 (broadcastInDim S800000 ![] bcast_S_S800000 : (⟨S_, .f32⟩ : BufTy).Contents (Elt F) → (⟨S800000, .f32⟩ : BufTy).Contents (Elt F)),
    StableHlo.nullary main_cst_67 (constant S_ .f32 0x00000000#32),
    StableHlo.unary main_cst_67 main_v365 (broadcastInDim S50000 ![] bcast_S_S50000 : (⟨S_, .f32⟩ : BufTy).Contents (Elt F) → (⟨S50000, .f32⟩ : BufTy).Contents (Elt F)),
    StableHlo.unary main_v3 main_v366 (broadcastInDim S800000x1 ![0] bcast_S800000_S800000x1_0 : (⟨S800000, .i32⟩ : BufTy).Contents (Elt F) → (⟨S800000x1, .i32⟩ : BufTy).Contents (Elt F)),
    StableHlo.ternary main_v365 main_v366 main_v364 main_v367 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_68 (constant S_ .f32 0x3F800000#32),
    StableHlo.unary main_cst_68 main_v368 (broadcastInDim S50000 ![] bcast_S_S50000 : (⟨S_, .f32⟩ : BufTy).Contents (Elt F) → (⟨S50000, .f32⟩ : BufTy).Contents (Elt F)),
    StableHlo.binary main_v367 main_v368 main_v369 (addf : (⟨S50000, .f32⟩ : BufTy).Contents (Elt F) → (⟨S50000, .f32⟩ : BufTy).Contents (Elt F) → (⟨S50000, .f32⟩ : BufTy).Contents (Elt F)),
    StableHlo.unary main_v369 main_v370 (Host.rsqrt : (⟨S50000, .f32⟩ : BufTy).Contents (Elt F) → (⟨S50000, .f32⟩ : BufTy).Contents (Elt F)),
    StableHlo.nullary main_c_69 (constantI S_ 32 0#32),
    StableHlo.unary main_c_69 main_v371 (broadcastInDim S800000 ![] bcast_S_S800000 : (⟨S_, .i32⟩ : BufTy).Contents (Elt F) → (⟨S800000, .i32⟩ : BufTy).Contents (Elt F)),
    StableHlo.binary main_v1 main_v371 main_v372 (cmpi .slt : (⟨S800000, .i32⟩ : BufTy).Contents (Elt F) → (⟨S800000, .i32⟩ : BufTy).Contents (Elt F) → (⟨S800000, .i1⟩ : BufTy).Contents (Elt F)),
    StableHlo.nullary main_c_70 (constantI S_ 32 50000#32),
    StableHlo.unary main_c_70 main_v373 (broadcastInDim S800000 ![] bcast_S_S800000 : (⟨S_, .i32⟩ : BufTy).Contents (Elt F) → (⟨S800000, .i32⟩ : BufTy).Contents (Elt F)),
    StableHlo.binary main_v1 main_v373 main_v374 (addi : (⟨S800000, .i32⟩ : BufTy).Contents (Elt F) → (⟨S800000, .i32⟩ : BufTy).Contents (Elt F) → (⟨S800000, .i32⟩ : BufTy).Contents (Elt F)),
    StableHlo.ternary main_v372 main_v374 main_v1 main_v375 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v375 main_v376 (broadcastInDim S800000x1 ![0] bcast_S800000_S800000x1_0 : (⟨S800000, .i32⟩ : BufTy).Contents (Elt F) → (⟨S800000x1, .i32⟩ : BufTy).Contents (Elt F)),
    StableHlo.binary main_v370 main_v376 main_v377 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_71 (constantI S_ 32 0#32),
    StableHlo.unary main_c_71 main_v378 (broadcastInDim S800000 ![] bcast_S_S800000 : (⟨S_, .i32⟩ : BufTy).Contents (Elt F) → (⟨S800000, .i32⟩ : BufTy).Contents (Elt F)),
    StableHlo.binary main_v3 main_v378 main_v379 (cmpi .slt : (⟨S800000, .i32⟩ : BufTy).Contents (Elt F) → (⟨S800000, .i32⟩ : BufTy).Contents (Elt F) → (⟨S800000, .i1⟩ : BufTy).Contents (Elt F)),
    StableHlo.nullary main_c_72 (constantI S_ 32 50000#32),
    StableHlo.unary main_c_72 main_v380 (broadcastInDim S800000 ![] bcast_S_S800000 : (⟨S_, .i32⟩ : BufTy).Contents (Elt F) → (⟨S800000, .i32⟩ : BufTy).Contents (Elt F)),
    StableHlo.binary main_v3 main_v380 main_v381 (addi : (⟨S800000, .i32⟩ : BufTy).Contents (Elt F) → (⟨S800000, .i32⟩ : BufTy).Contents (Elt F) → (⟨S800000, .i32⟩ : BufTy).Contents (Elt F)),
    StableHlo.ternary main_v379 main_v381 main_v3 main_v382 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v382 main_v383 (broadcastInDim S800000x1 ![0] bcast_S800000_S800000x1_0 : (⟨S800000, .i32⟩ : BufTy).Contents (Elt F) → (⟨S800000x1, .i32⟩ : BufTy).Contents (Elt F)),
    StableHlo.binary main_v370 main_v383 main_v384 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v377 main_v384 main_v385 (mulf : (⟨S800000, .f32⟩ : BufTy).Contents (Elt F) → (⟨S800000, .f32⟩ : BufTy).Contents (Elt F) → (⟨S800000, .f32⟩ : BufTy).Contents (Elt F)),
    StableHlo.nullary main_c_73 (constantI S_ 32 0#32),
    StableHlo.unary main_c_73 main_v386 (broadcastInDim S800000 ![] bcast_S_S800000 : (⟨S_, .i32⟩ : BufTy).Contents (Elt F) → (⟨S800000, .i32⟩ : BufTy).Contents (Elt F)),
    StableHlo.binary main_v1 main_v386 main_v387 (cmpi .slt : (⟨S800000, .i32⟩ : BufTy).Contents (Elt F) → (⟨S800000, .i32⟩ : BufTy).Contents (Elt F) → (⟨S800000, .i1⟩ : BufTy).Contents (Elt F)),
    StableHlo.nullary main_c_74 (constantI S_ 32 50000#32),
    StableHlo.unary main_c_74 main_v388 (broadcastInDim S800000 ![] bcast_S_S800000 : (⟨S_, .i32⟩ : BufTy).Contents (Elt F) → (⟨S800000, .i32⟩ : BufTy).Contents (Elt F)),
    StableHlo.binary main_v1 main_v388 main_v389 (addi : (⟨S800000, .i32⟩ : BufTy).Contents (Elt F) → (⟨S800000, .i32⟩ : BufTy).Contents (Elt F) → (⟨S800000, .i32⟩ : BufTy).Contents (Elt F)),
    StableHlo.ternary main_v387 main_v389 main_v1 main_v390 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v390 main_v391 (broadcastInDim S800000x1 ![0] bcast_S800000_S800000x1_0 : (⟨S800000, .i32⟩ : BufTy).Contents (Elt F) → (⟨S800000x1, .i32⟩ : BufTy).Contents (Elt F)),
    StableHlo.binary main_v363 main_v391 main_v392 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v385 main_v393 (broadcastInDim S800000x1 ![0] bcast_S800000_S800000x1_0 : (⟨S800000, .f32⟩ : BufTy).Contents (Elt F) → (⟨S800000x1, .f32⟩ : BufTy).Contents (Elt F)),
    StableHlo.unary main_v393 main_v394 (broadcastInDim S800000x64 ![0, 1] bcast_S800000x1_S800000x64_0_1 : (⟨S800000x1, .f32⟩ : BufTy).Contents (Elt F) → (⟨S800000x64, .f32⟩ : BufTy).Contents (Elt F)),
    StableHlo.binary main_v392 main_v394 main_v395 (mulf : (⟨S800000x64, .f32⟩ : BufTy).Contents (Elt F) → (⟨S800000x64, .f32⟩ : BufTy).Contents (Elt F) → (⟨S800000x64, .f32⟩ : BufTy).Contents (Elt F)),
    StableHlo.nullary main_cst_75 (constant S_ .f32 0x00000000#32),
    StableHlo.unary main_cst_75 main_v396 (broadcastInDim S50000x64 ![] bcast_S_S50000x64 : (⟨S_, .f32⟩ : BufTy).Contents (Elt F) → (⟨S50000x64, .f32⟩ : BufTy).Contents (Elt F)),
    StableHlo.unary main_v3 main_v397 (broadcastInDim S800000x1 ![0] bcast_S800000_S800000x1_0 : (⟨S800000, .i32⟩ : BufTy).Contents (Elt F) → (⟨S800000x1, .i32⟩ : BufTy).Contents (Elt F)),
    StableHlo.ternary main_v396 main_v397 main_v395 main_v398 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v370 main_v370 main_v399 (mulf : (⟨S50000, .f32⟩ : BufTy).Contents (Elt F) → (⟨S50000, .f32⟩ : BufTy).Contents (Elt F) → (⟨S50000, .f32⟩ : BufTy).Contents (Elt F)),
    StableHlo.unary main_v399 main_v400 (broadcastInDim S50000x1 ![0] bcast_S50000_S50000x1_0 : (⟨S50000, .f32⟩ : BufTy).Contents (Elt F) → (⟨S50000x1, .f32⟩ : BufTy).Contents (Elt F)),
    StableHlo.unary main_v400 main_v401 (broadcastInDim S50000x64 ![0, 1] bcast_S50000x1_S50000x64_0_1 : (⟨S50000x1, .f32⟩ : BufTy).Contents (Elt F) → (⟨S50000x64, .f32⟩ : BufTy).Contents (Elt F)),
    StableHlo.binary main_v363 main_v401 main_v402 (mulf : (⟨S50000x64, .f32⟩ : BufTy).Contents (Elt F) → (⟨S50000x64, .f32⟩ : BufTy).Contents (Elt F) → (⟨S50000x64, .f32⟩ : BufTy).Contents (Elt F)),
    StableHlo.binary main_v398 main_v402 main_v403 (addf : (⟨S50000x64, .f32⟩ : BufTy).Contents (Elt F) → (⟨S50000x64, .f32⟩ : BufTy).Contents (Elt F) → (⟨S50000x64, .f32⟩ : BufTy).Contents (Elt F)),
    StableHlo.unary main_v362 main_v404 (broadcastInDim S1x64 ![1] bcast_S64_S1x64_1 : (⟨S64, .f32⟩ : BufTy).Contents (Elt F) → (⟨S1x64, .f32⟩ : BufTy).Contents (Elt F)),
    StableHlo.unary main_v404 main_v405 (broadcastInDim S50000x64 ![0, 1] bcast_S1x64_S50000x64_0_1 : (⟨S1x64, .f32⟩ : BufTy).Contents (Elt F) → (⟨S50000x64, .f32⟩ : BufTy).Contents (Elt F)),
    StableHlo.binary main_v403 main_v405 main_v406 (addf : (⟨S50000x64, .f32⟩ : BufTy).Contents (Elt F) → (⟨S50000x64, .f32⟩ : BufTy).Contents (Elt F) → (⟨S50000x64, .f32⟩ : BufTy).Contents (Elt F)) ]

/-- The buffers the stage's operations write. -/
abbrev sD2_W : List (Ref sig .tc) := [main_cst_66, main_v364, main_cst_67, main_v365, main_v366, main_v367, main_cst_68, main_v368, main_v369, main_v370, main_c_69, main_v371, main_v372, main_c_70, main_v373, main_v374, main_v375, main_v376, main_v377, main_c_71, main_v378, main_v379, main_c_72, main_v380, main_v381, main_v382, main_v383, main_v384, main_v385, main_c_73, main_v386, main_v387, main_c_74, main_v388, main_v389, main_v390, main_v391, main_v392, main_v393, main_v394, main_v395, main_cst_75, main_v396, main_v397, main_v398, main_v399, main_v400, main_v401, main_v402, main_v403, main_v404, main_v405, main_v406]

set_option maxRecDepth 8192 in
set_option maxHeartbeats 4000000 in
theorem sD2_writes : (sD2 : List (HloOp τ sig (Elt F))).Forall fun op => op.writes ⊆ (sD2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stage does not write keeps its contents through it. -/
theorem sD2_keep (V : Valuation τ sig (Elt F)) (r : Ref sig .tc) (h : r ∉ sD2_W) :
    after sD2 V (Proc.devRef .tc r) = V (Proc.devRef .tc r) :=
  after_of_writes_sub sD2 V sD2_writes h

set_option maxRecDepth 8192 in
set_option maxHeartbeats 4000000 in
/-- The 64-wide rows aggregated over the edges with the edge weights, the self loops and the bias added. -/
theorem sD2_conv (V : Valuation τ sig (Elt F)) :
    after sD2 V (Proc.devRef .tc main_v406) = Cert.Spec.conv64 (V (Proc.devRef .tc main_v363)) (V (Proc.devRef .tc main_v1)) (V (Proc.devRef .tc main_v3)) (Cert.Spec.normE1 (V (Proc.devRef .tc main_v1)) (V (Proc.devRef .tc main_v3))) (Cert.Spec.selfS1 (V (Proc.devRef .tc main_v3))) (V (Proc.devRef .tc main_v362)) := by
  simp only [sD2]
  after_results_simp
  rfl

/-- Block 3's operations: its four stages in order. -/
abbrev blk2 : List (HloOp τ sig (Elt F)) := sA2 ++ (sB2 ++ (sC2 ++ sD2))

/-- The buffers block 3 writes. -/
abbrev blk2_W : List (Ref sig .tc) := sA2_W ++ (sB2_W ++ (sC2_W ++ sD2_W))

/-- A buffer no stage of the block writes keeps its contents through the block. -/
theorem blk2_keep (V : Valuation τ sig (Elt F)) (r : Ref sig .tc) (hA : r ∉ sA2_W) (hB : r ∉ sB2_W) (hC : r ∉ sC2_W) (hD : r ∉ sD2_W) :
    after blk2 V (Proc.devRef .tc r) = V (Proc.devRef .tc r) := by
  simp only [blk2, after_append]
  rw [sD2_keep _ r hD, sC2_keep _ r hC, sB2_keep _ r hB, sA2_keep _ r hA]

set_option maxRecDepth 8192 in
set_option maxHeartbeats 4000000 in
/-- Block 3 over an arbitrary valuation: the block function of the incoming rows, the edge list's rows and the block's parameters. -/
theorem blk2_val (V : Valuation τ sig (Elt F)) :
    after blk2 V (Proc.devRef .tc main_v406) = Cert.Spec.block (V (Proc.devRef .tc main_v273)) (V (Proc.devRef .tc main_v1)) (V (Proc.devRef .tc main_v3)) (Cert.Spec.normE1 (V (Proc.devRef .tc main_v1)) (V (Proc.devRef .tc main_v3))) (Cert.Spec.selfS1 (V (Proc.devRef .tc main_v3))) (Cert.Spec.sc2 (V (Proc.devRef .tc main_arg5))) (Cert.Spec.v64_2 (V (Proc.devRef .tc main_arg6))) (Cert.Spec.v64_2 (V (Proc.devRef .tc main_arg7))) (Cert.Spec.w1_2 (V (Proc.devRef .tc main_arg8))) (Cert.Spec.v128_2 (V (Proc.devRef .tc main_arg9))) (Cert.Spec.sc2 (V (Proc.devRef .tc main_arg10))) (Cert.Spec.w2_2 (V (Proc.devRef .tc main_arg11))) (Cert.Spec.v64_2 (V (Proc.devRef .tc main_arg12))) := by
  simp only [blk2, after_append]
  rw [sD2_conv, sC2_lin, sC2_bias, sC2_keep _ main_v1 (by decide), sB2_keep _ main_v1 (by decide), sA2_keep _ main_v1 (by decide), sC2_keep _ main_v3 (by decide), sB2_keep _ main_v3 (by decide), sA2_keep _ main_v3 (by decide), sB2_keep _ main_arg10 (by decide), sA2_keep _ main_arg10 (by decide), sB2_keep _ main_arg11 (by decide), sA2_keep _ main_arg11 (by decide), sB2_keep _ main_arg12 (by decide), sA2_keep _ main_arg12 (by decide), sB2_conv, sA2_lin, sA2_bias, sA2_keep _ main_v1 (by decide), sA2_keep _ main_v3 (by decide)]
  rfl

end Cert.RefRun

end
-- ==== Proof.RefStEnd.lean ====
/- The last two stages of the reference program: the mean pool per graph, and the normalisation with the two dense layers. -/
import proofs.«102494_j5102421148167_1_alg».proof.ReferenceIdeal
import proofs.«102494_j5102421148167_1_alg».proof.Proof.Spec
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The mean pool per graph (operations 549 … 564 of 622). -/
abbrev sPool : List (HloOp τ sig (Elt F)) :=
  [ StableHlo.nullary main_cst_76 (constant S_ .f32 0x00000000#32),
    StableHlo.unary main_cst_76 main_v407 (broadcastInDim S64x64 ![] bcast_S_S64x64 : (⟨S_, .f32⟩ : BufTy).Contents (Elt F) → (⟨S64x64, .f32⟩ : BufTy).Contents (Elt F)),
    StableHlo.unary main_arg2 main_v408 (broadcastInDim S50000x1 ![0] bcast_S50000_S50000x1_0 : (⟨S50000, .i32⟩ : BufTy).Contents (Elt F) → (⟨S50000x1, .i32⟩ : BufTy).Contents (Elt F)),
    StableHlo.ternary main_v407 main_v408 main_v406 main_v409 ((fun x i u => Host.scatterAdd scatter_S64x64_S50000x1_S50000x64_1_0_0_1 x i u) : (⟨S64x64, .f32⟩ : BufTy).Contents (Elt F) → (⟨S50000x1, .i32⟩ : BufTy).Contents (Elt F) → (⟨S50000x64, .f32⟩ : BufTy).Contents (Elt F) → (⟨S64x64, .f32⟩ : BufTy).Contents (Elt F)),
    StableHlo.nullary main_cst_77 (constant S_ .f32 0x3F800000#32),
    StableHlo.unary main_cst_77 main_v410 (broadcastInDim S50000 ![] bcast_S_S50000 : (⟨S_, .f32⟩ : BufTy).Contents (Elt F) → (⟨S50000, .f32⟩ : BufTy).Contents (Elt F)),
    StableHlo.nullary main_cst_78 (constant S_ .f32 0x00000000#32),
    StableHlo.unary main_cst_78 main_v411 (broadcastInDim S64 ![] bcast_S_S64 : (⟨S_, .f32⟩ : BufTy).Contents (Elt F) → (⟨S64, .f32⟩ : BufTy).Contents (Elt F)),
    StableHlo.unary main_arg2 main_v412 (broadcastInDim S50000x1 ![0] bcast_S50000_S50000x1_0 : (⟨S50000, .i32⟩ : BufTy).Contents (Elt F) → (⟨S50000x1, .i32⟩ : BufTy).Contents (Elt F)),
    StableHlo.ternary main_v411 main_v412 main_v410 main_v413 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_79 (constant S_ .f32 0x3F800000#32),
    StableHlo.unary main_cst_79 main_v414 (broadcastInDim S64 ![] bcast_S_S64 : (⟨S_, .f32⟩ : BufTy).Contents (Elt F) → (⟨S64, .f32⟩ : BufTy).Contents (Elt F)),
    StableHlo.binary main_v413 main_v414 main_v415 (maximumf : (⟨S64, .f32⟩ : BufTy).Contents (Elt F) → (⟨S64, .f32⟩ : BufTy).Contents (Elt F) → (⟨S64, .f32⟩ : BufTy).Contents (Elt F)),
    StableHlo.unary main_v415 main_v416 (broadcastInDim S64x1 ![0] bcast_S64_S64x1_0 : (⟨S64, .f32⟩ : BufTy).Contents (Elt F) → (⟨S64x1, .f32⟩ : BufTy).Contents (Elt F)),
    StableHlo.unary main_v416 main_v417 (broadcastInDim S64x64 ![0, 1] bcast_S64x1_S64x64_0_1 : (⟨S64x1, .f32⟩ : BufTy).Contents (Elt F) → (⟨S64x64, .f32⟩ : BufTy).Contents (Elt F)),
    StableHlo.binary main_v409 main_v417 main_v418 (Host.divf : (⟨S64x64, .f32⟩ : BufTy).Contents (Elt F) → (⟨S64x64, .f32⟩ : BufTy).Contents (Elt F) → (⟨S64x64, .f32⟩ : BufTy).Contents (Elt F)) ]

/-- The buffers the stage's operations write. -/
abbrev sPool_W : List (Ref sig .tc) := [main_cst_76, main_v407, main_v408, main_v409, main_cst_77, main_v410, main_cst_78, main_v411, main_v412, main_v413, main_cst_79, main_v414, main_v415, main_v416, main_v417, main_v418]

set_option maxRecDepth 8192 in
set_option maxHeartbeats 4000000 in
theorem sPool_writes : (sPool : List (HloOp τ sig (Elt F))).Forall fun op => op.writes ⊆ (sPool_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stage does not write keeps its contents through it. -/
theorem sPool_keep (V : Valuation τ sig (Elt F)) (r : Ref sig .tc) (h : r ∉ sPool_W) :
    after sPool V (Proc.devRef .tc r) = V (Proc.devRef .tc r) :=
  after_of_writes_sub sPool V sPool_writes h

set_option maxRecDepth 8192 in
set_option maxHeartbeats 4000000 in
/-- The sum of each graph's rows over its node count, at least one. -/
theorem sPool_val (V : Valuation τ sig (Elt F)) :
    after sPool V (Proc.devRef .tc main_v418) = Cert.Spec.pool (V (Proc.devRef .tc main_v406)) (V (Proc.devRef .tc main_arg2)) := by
  simp only [sPool]
  after_results_simp
  rfl

/-- The normalisation over the graph axis and the two dense layers (operations 565 … 622 of 622). -/
abbrev sHead : List (HloOp τ sig (Elt F)) :=
  [ StableHlo.nullary main_cst_80 (constant S_ .f32 0x00000000#32),
    StableHlo.binary main_v418 main_cst_80 main_v419 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    StableHlo.nullary main_cst_81 (constant S_ .f32 0x42800000#32),
    StableHlo.unary main_cst_81 main_v420 (broadcastInDim S64 ![] bcast_S_S64 : (⟨S_, .f32⟩ : BufTy).Contents (Elt F) → (⟨S64, .f32⟩ : BufTy).Contents (Elt F)),
    StableHlo.binary main_v419 main_v420 main_v421 (Host.divf : (⟨S64, .f32⟩ : BufTy).Contents (Elt F) → (⟨S64, .f32⟩ : BufTy).Contents (Elt F) → (⟨S64, .f32⟩ : BufTy).Contents (Elt F)),
    StableHlo.nullary main_c_82 (constantI S_ 32 0#32),
    StableHlo.TRef.nullary main_call9.cst (constant S_ .f32 0x00000000#32),
    StableHlo.TRef.binary (.of main_v418 : StableHlo.TRef sig ⟨S64x64, .f32⟩) main_call9.cst main_call9.v0 (fun x v => Host.reduceAdd x v reducesTo_S64x64_S64_d0 h_S_),
    StableHlo.TRef.unary main_call9.v0 main_call9.v1 (broadcastInDim S1x64 ![1] bcast_S64_S1x64_1),
    StableHlo.TRef.nullary main_call9.cst_0 (constant S_ .f32 0x42800000#32),
    StableHlo.TRef.unary main_call9.cst_0 main_call9.v2 (broadcastInDim S1x64 ![] bcast_S_S1x64),
    StableHlo.TRef.binary main_call9.v1 main_call9.v2 main_call9.v3 Host.divf,
    StableHlo.TRef.unary main_call9.v3 main_call9.v4 (broadcastInDim S64x64 ![0, 1] bcast_S1x64_S64x64_0_1),
    StableHlo.TRef.binary (.of main_v418 : StableHlo.TRef sig ⟨S64x64, .f32⟩) main_call9.v4 main_call9.v5 subf,
    StableHlo.TRef.binary main_call9.v5 main_call9.v5 main_call9.v6 mulf,
    StableHlo.TRef.unary (.of main_c_82 : StableHlo.TRef sig ⟨S_, .i32⟩) main_call9.v7 (sitofp .f32),
    StableHlo.TRef.nullary main_call9.cst_1 (constant S_ .f32 0x42800000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S64x64_S64_d0 h_S_),
    StableHlo.TRef.unary main_call9.v8 main_call9.v10 (broadcastInDim S64 ![] bcast_S_S64),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S64 ![] bcast_S_S64),
    StableHlo.TRef.ternary main_call9.v12 main_call9.v11 main_call9.call0.v1 main_call9.call0.v2 (fun p a b => select (broadcastInDim S64 ![] bcast_S_S64 p) a b),
    StableHlo.unary main_v421 main_v423 (broadcastInDim S1x64 ![1] bcast_S64_S1x64_1 : (⟨S64, .f32⟩ : BufTy).Contents (Elt F) → (⟨S1x64, .f32⟩ : BufTy).Contents (Elt F)),
    StableHlo.unary main_v423 main_v424 (broadcastInDim S64x64 ![0, 1] bcast_S1x64_S64x64_0_1 : (⟨S1x64, .f32⟩ : BufTy).Contents (Elt F) → (⟨S64x64, .f32⟩ : BufTy).Contents (Elt F)),
    StableHlo.binary main_v418 main_v424 main_v425 (subf : (⟨S64x64, .f32⟩ : BufTy).Contents (Elt F) → (⟨S64x64, .f32⟩ : BufTy).Contents (Elt F) → (⟨S64x64, .f32⟩ : BufTy).Contents (Elt F)),
    StableHlo.nullary main_cst_83 (constant S_ .f32 0x3727C5AC#32),
    StableHlo.unary main_cst_83 main_v426 (broadcastInDim S64 ![] bcast_S_S64 : (⟨S_, .f32⟩ : BufTy).Contents (Elt F) → (⟨S64, .f32⟩ : BufTy).Contents (Elt F)),
    StableHlo.binary main_v422 main_v426 main_v427 (addf : (⟨S64, .f32⟩ : BufTy).Contents (Elt F) → (⟨S64, .f32⟩ : BufTy).Contents (Elt F) → (⟨S64, .f32⟩ : BufTy).Contents (Elt F)),
    StableHlo.unary main_v427 main_v428 (Host.rsqrt : (⟨S64, .f32⟩ : BufTy).Contents (Elt F) → (⟨S64, .f32⟩ : BufTy).Contents (Elt F)),
    StableHlo.unary main_v428 main_v429 (broadcastInDim S1x64 ![1] bcast_S64_S1x64_1 : (⟨S64, .f32⟩ : BufTy).Contents (Elt F) → (⟨S1x64, .f32⟩ : BufTy).Contents (Elt F)),
    StableHlo.unary main_v429 main_v430 (broadcastInDim S64x64 ![0, 1] bcast_S1x64_S64x64_0_1 : (⟨S1x64, .f32⟩ : BufTy).Contents (Elt F) → (⟨S64x64, .f32⟩ : BufTy).Contents (Elt F)),
    StableHlo.binary main_v425 main_v430 main_v431 (mulf : (⟨S64x64, .f32⟩ : BufTy).Contents (Elt F) → (⟨S64x64, .f32⟩ : BufTy).Contents (Elt F) → (⟨S64x64, .f32⟩ : BufTy).Contents (Elt F)),
    StableHlo.unary main_arg13 main_v432 (broadcastInDim S1x64 ![1] bcast_S64_S1x64_1 : (⟨S64, .f32⟩ : BufTy).Contents (Elt F) → (⟨S1x64, .f32⟩ : BufTy).Contents (Elt F)),
    StableHlo.unary main_v432 main_v433 (broadcastInDim S64x64 ![0, 1] bcast_S1x64_S64x64_0_1 : (⟨S1x64, .f32⟩ : BufTy).Contents (Elt F) → (⟨S64x64, .f32⟩ : BufTy).Contents (Elt F)),
    StableHlo.binary main_v431 main_v433 main_v434 (mulf : (⟨S64x64, .f32⟩ : BufTy).Contents (Elt F) → (⟨S64x64, .f32⟩ : BufTy).Contents (Elt F) → (⟨S64x64, .f32⟩ : BufTy).Contents (Elt F)),
    StableHlo.unary main_arg14 main_v435 (broadcastInDim S1x64 ![1] bcast_S64_S1x64_1 : (⟨S64, .f32⟩ : BufTy).Contents (Elt F) → (⟨S1x64, .f32⟩ : BufTy).Contents (Elt F)),
    StableHlo.unary main_v435 main_v436 (broadcastInDim S64x64 ![0, 1] bcast_S1x64_S64x64_0_1 : (⟨S1x64, .f32⟩ : BufTy).Contents (Elt F) → (⟨S64x64, .f32⟩ : BufTy).Contents (Elt F)),
    StableHlo.binary main_v434 main_v436 main_v437 (addf : (⟨S64x64, .f32⟩ : BufTy).Contents (Elt F) → (⟨S64x64, .f32⟩ : BufTy).Contents (Elt F) → (⟨S64x64, .f32⟩ : BufTy).Contents (Elt F)),
    StableHlo.binary main_v437 main_arg15 main_v438 ((fun l r => Host.dotGeneral dot_S64x64_S64x256_S64x256_1_0_0_1_n_n none l r) : (⟨S64x64, .f32⟩ : BufTy).Contents (Elt F) → (⟨S64x256, .f32⟩ : BufTy).Contents (Elt F) → (⟨S64x256, .f32⟩ : BufTy).Contents (Elt F)),
    StableHlo.unary main_arg16 main_v439 (broadcastInDim S1x256 ![1] bcast_S256_S1x256_1 : (⟨S256, .f32⟩ : BufTy).Contents (Elt F) → (⟨S1x256, .f32⟩ : BufTy).Contents (Elt F)),
    StableHlo.unary main_v439 main_v440 (broadcastInDim S64x256 ![0, 1] bcast_S1x256_S64x256_0_1 : (⟨S1x256, .f32⟩ : BufTy).Contents (Elt F) → (⟨S64x256, .f32⟩ : BufTy).Contents (Elt F)),
    StableHlo.binary main_v438 main_v440 main_v441 (addf : (⟨S64x256, .f32⟩ : BufTy).Contents (Elt F) → (⟨S64x256, .f32⟩ : BufTy).Contents (Elt F) → (⟨S64x256, .f32⟩ : BufTy).Contents (Elt F)),
    StableHlo.nullary main_cst_84 (constant S_ .f32 0x00000000#32),
    StableHlo.unary main_cst_84 main_v442 (broadcastInDim S64x256 ![] bcast_S_S64x256 : (⟨S_, .f32⟩ : BufTy).Contents (Elt F) → (⟨S64x256, .f32⟩ : BufTy).Contents (Elt F)),
    StableHlo.binary main_v441 main_v442 main_v443 (cmpf .oge : (⟨S64x256, .f32⟩ : BufTy).Contents (Elt F) → (⟨S64x256, .f32⟩ : BufTy).Contents (Elt F) → (⟨S64x256, .i1⟩ : BufTy).Contents (Elt F)),
    StableHlo.unary main_arg17 main_v444 (broadcastInDim S64x256 ![] bcast_S_S64x256 : (⟨S_, .f32⟩ : BufTy).Contents (Elt F) → (⟨S64x256, .f32⟩ : BufTy).Contents (Elt F)),
    StableHlo.binary main_v444 main_v441 main_v445 (mulf : (⟨S64x256, .f32⟩ : BufTy).Contents (Elt F) → (⟨S64x256, .f32⟩ : BufTy).Contents (Elt F) → (⟨S64x256, .f32⟩ : BufTy).Contents (Elt F)),
    StableHlo.TRef.ternary (.of main_v443 : StableHlo.TRef sig ⟨S64x256, .i1⟩) (.of main_v441 : StableHlo.TRef sig ⟨S64x256, .f32⟩) (.of main_v445 : StableHlo.TRef sig ⟨S64x256, .f32⟩) main_call10.v0 select,
    StableHlo.binary main_v446 main_arg18 main_v447 ((fun l r => Host.dotGeneral dot_S64x256_S256x10_S64x10_1_0_0_1_n_n none l r) : (⟨S64x256, .f32⟩ : BufTy).Contents (Elt F) → (⟨S256x10, .f32⟩ : BufTy).Contents (Elt F) → (⟨S64x10, .f32⟩ : BufTy).Contents (Elt F)),
    StableHlo.unary main_arg19 main_v448 (broadcastInDim S1x10 ![1] bcast_S10_S1x10_1 : (⟨S10, .f32⟩ : BufTy).Contents (Elt F) → (⟨S1x10, .f32⟩ : BufTy).Contents (Elt F)),
    StableHlo.unary main_v448 main_v449 (broadcastInDim S64x10 ![0, 1] bcast_S1x10_S64x10_0_1 : (⟨S1x10, .f32⟩ : BufTy).Contents (Elt F) → (⟨S64x10, .f32⟩ : BufTy).Contents (Elt F)),
    StableHlo.binary main_v447 main_v449 main_v450 (addf : (⟨S64x10, .f32⟩ : BufTy).Contents (Elt F) → (⟨S64x10, .f32⟩ : BufTy).Contents (Elt F) → (⟨S64x10, .f32⟩ : BufTy).Contents (Elt F)) ]

/-- The buffers the stage's operations write. -/
abbrev sHead_W : List (Ref sig .tc) := [main_cst_80, main_v419, main_cst_81, main_v420, main_v421, main_c_82, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v422, main_v423, main_v424, main_v425, main_cst_83, main_v426, main_v427, main_v428, main_v429, main_v430, main_v431, main_v432, main_v433, main_v434, main_v435, main_v436, main_v437, main_v438, main_v439, main_v440, main_v441, main_cst_84, main_v442, main_v443, main_v444, main_v445, main_v446, main_v447, main_v448, main_v449, main_v450]

set_option maxRecDepth 8192 in
set_option maxHeartbeats 4000000 in
theorem sHead_writes : (sHead : List (HloOp τ sig (Elt F))).Forall fun op => op.writes ⊆ (sHead_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stage does not write keeps its contents through it. -/
theorem sHead_keep (V : Valuation τ sig (Elt F)) (r : Ref sig .tc) (h : r ∉ sHead_W) :
    after sHead V (Proc.devRef .tc r) = V (Proc.devRef .tc r) :=
  after_of_writes_sub sHead V sHead_writes h

set_option maxRecDepth 8192 in
set_option maxHeartbeats 4000000 in
/-- The head of the network. -/
theorem sHead_val (V : Valuation τ sig (Elt F)) :
    after sHead V (Proc.devRef .tc main_v450) = Cert.Spec.head (V (Proc.devRef .tc main_v418)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  simp only [sHead]
  after_results_simp
  rfl

end Cert.RefRun

end
-- ==== Proof.RefValue.lean ====
/- The reference program's value: the operation list cut at the network's stage boundaries, and the fold over the
   whole list at the result buffer as the network's function of the twenty argument arrays, stage by stage. -/
import proofs.«102494_j5102421148167_1_alg».proof.Proof.RefOps
import proofs.«102494_j5102421148167_1_alg».proof.Proof.RefStPre
import proofs.«102494_j5102421148167_1_alg».proof.Proof.RefStBlk0
import proofs.«102494_j5102421148167_1_alg».proof.Proof.RefStBlk1
import proofs.«102494_j5102421148167_1_alg».proof.Proof.RefStBlk2
import proofs.«102494_j5102421148167_1_alg».proof.Proof.RefStEnd
import Idealize.ShloMosaic.Lib.StableHlo.Run
import Idealize.ShloMosaic.Lib.Pipeline.Frame

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 65536 in
set_option maxHeartbeats 4000000 in
/-- The windows' lists joined are the stages' lists joined: one list of operations, cut at different places. -/
theorem ops_stages : (ops : List (HloOp τ sig (Elt F))) = sPre ++ (blk0 ++ (blk1 ++ (blk2 ++ (sPool ++ sHead)))) := rfl

/-- The contents after the whole list: the stages' folds, nested in order. -/
theorem after_ops_stages (V : Valuation τ sig (Elt F)) :
    after ops V = after sHead (after sPool (after blk2 (after blk1 (after blk0 (after sPre V))))) := by
  rw [ops_stages, after_append, after_append, after_append, after_append, after_append]

set_option maxRecDepth 8192 in
set_option maxHeartbeats 4000000 in
/-- The fold over the whole list at the result buffer is the network's function of the argument arrays: the head of
    the pool of the third block of the second of the first of the first dense layer, the edge list's rows and each
    block's parameters read where the stage that uses them reads them (no stage writes them). -/
theorem value (V : Valuation τ sig (Elt F)) :
    after ops V (Proc.devRef .tc main_v450)
      = Cert.Spec.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  rw [after_ops_stages]
  rw [sHead_val, sPool_val,
    sPool_keep _ main_arg13 (by decide), sPool_keep _ main_arg14 (by decide), sPool_keep _ main_arg15 (by decide), sPool_keep _ main_arg16 (by decide), sPool_keep _ main_arg17 (by decide), sPool_keep _ main_arg18 (by decide), sPool_keep _ main_arg19 (by decide)]
  rw [blk2_val,
    blk2_keep _ main_arg2 (by decide) (by decide) (by decide) (by decide),
    blk2_keep _ main_arg13 (by decide) (by decide) (by decide) (by decide),
    blk2_keep _ main_arg14 (by decide) (by decide) (by decide) (by decide),
    blk2_keep _ main_arg15 (by decide) (by decide) (by decide) (by decide),
    blk2_keep _ main_arg16 (by decide) (by decide) (by decide) (by decide),
    blk2_keep _ main_arg17 (by decide) (by decide) (by decide) (by decide),
    blk2_keep _ main_arg18 (by decide) (by decide) (by decide) (by decide),
    blk2_keep _ main_arg19 (by decide) (by decide) (by decide) (by decide)]
  rw [blk1_val,
    blk1_keep _ main_v1 (by decide) (by decide) (by decide) (by decide),
    blk1_keep _ main_v3 (by decide) (by decide) (by decide) (by decide),
    blk1_keep _ main_arg2 (by decide) (by decide) (by decide) (by decide),
    blk1_keep _ main_arg5 (by decide) (by decide) (by decide) (by decide),
    blk1_keep _ main_arg6 (by decide) (by decide) (by decide) (by decide),
    blk1_keep _ main_arg7 (by decide) (by decide) (by decide) (by decide),
    blk1_keep _ main_arg8 (by decide) (by decide) (by decide) (by decide),
    blk1_keep _ main_arg9 (by decide) (by decide) (by decide) (by decide),
    blk1_keep _ main_arg10 (by decide) (by decide) (by decide) (by decide),
    blk1_keep _ main_arg11 (by decide) (by decide) (by decide) (by decide),
    blk1_keep _ main_arg12 (by decide) (by decide) (by decide) (by decide),
    blk1_keep _ main_arg13 (by decide) (by decide) (by decide) (by decide),
    blk1_keep _ main_arg14 (by decide) (by decide) (by decide) (by decide),
    blk1_keep _ main_arg15 (by decide) (by decide) (by decide) (by decide),
    blk1_keep _ main_arg16 (by decide) (by decide) (by decide) (by decide),
    blk1_keep _ main_arg17 (by decide) (by decide) (by decide) (by decide),
    blk1_keep _ main_arg18 (by decide) (by decide) (by decide) (by decide),
    blk1_keep _ main_arg19 (by decide) (by decide) (by decide) (by decide)]
  rw [blk0_val,
    blk0_keep _ main_v1 (by decide) (by decide) (by decide) (by decide),
    blk0_keep _ main_v3 (by decide) (by decide) (by decide) (by decide),
    blk0_keep _ main_arg2 (by decide) (by decide) (by decide) (by decide),
    blk0_keep _ main_arg5 (by decide) (by decide) (by decide) (by decide),
    blk0_keep _ main_arg6 (by decide) (by decide) (by decide) (by decide),
    blk0_keep _ main_arg7 (by decide) (by decide) (by decide) (by decide),
    blk0_keep _ main_arg8 (by decide) (by decide) (by decide) (by decide),
    blk0_keep _ main_arg9 (by decide) (by decide) (by decide) (by decide),
    blk0_keep _ main_arg10 (by decide) (by decide) (by decide) (by decide),
    blk0_keep _ main_arg11 (by decide) (by decide) (by decide) (by decide),
    blk0_keep _ main_arg12 (by decide) (by decide) (by decide) (by decide),
    blk0_keep _ main_arg13 (by decide) (by decide) (by decide) (by decide),
    blk0_keep _ main_arg14 (by decide) (by decide) (by decide) (by decide),
    blk0_keep _ main_arg15 (by decide) (by decide) (by decide) (by decide),
    blk0_keep _ main_arg16 (by decide) (by decide) (by decide) (by decide),
    blk0_keep _ main_arg17 (by decide) (by decide) (by decide) (by decide),
    blk0_keep _ main_arg18 (by decide) (by decide) (by decide) (by decide),
    blk0_keep _ main_arg19 (by decide) (by decide) (by decide) (by decide)]
  rw [sPre_lin0, sPre_src, sPre_dst,
    sPre_keep _ main_arg2 (by decide), sPre_keep _ main_arg5 (by decide), sPre_keep _ main_arg6 (by decide), sPre_keep _ main_arg7 (by decide), sPre_keep _ main_arg8 (by decide), sPre_keep _ main_arg9 (by decide), sPre_keep _ main_arg10 (by decide), sPre_keep _ main_arg11 (by decide), sPre_keep _ main_arg12 (by decide), sPre_keep _ main_arg13 (by decide), sPre_keep _ main_arg14 (by decide), sPre_keep _ main_arg15 (by decide), sPre_keep _ main_arg16 (by decide), sPre_keep _ main_arg17 (by decide), sPre_keep _ main_arg18 (by decide), sPre_keep _ main_arg19 (by decide)]
  rfl

end Cert.RefRun

end
-- ==== Proof.lean ====
/-
  A three-block graph network on 50000 nodes and 800000 edges: a dense layer; per block a parametric rectifier, a
  normalisation over the node axis and a dense contraction feeding a symmetric-normalised graph convolution, then a
  rectifier and a second contraction feeding a second convolution; a mean pool per graph, a normalisation over the
  graph axis and two dense layers. One program computes the seven dense stages in row-tiled kernels (5000 rows a
  tile, the operands narrowed to bf16 on the way into the contraction) among host operations and computes the edge
  weights once; the other writes every stage with whole-array operations and recomputes the edge weights per
  convolution.
  On the extended reals the two agree entry by entry: a change of float format is the identity, a tile of a
  contraction is the same sum of the same products as the rows of the whole contraction, the rectifier and the
  normalisation act entry by entry, a per-feature parameter reshaped to a row is the parameter broadcast to a row, and
  every host operation the two programs share is the same function applied to the same values. Both results are the
  one function `Cert.Spec.out` of the twenty argument arrays. No sum is re-ordered and nothing is cancelled, so the
  finiteness of the inputs is never used.
  The frames of the two kernel programs are the generated ones; the plain program's frame is its run as a line of
  host operations, none of which writes an argument array.
-/
import proofs.«102494_j5102421148167_1_alg».proof.Defs
import proofs.«102494_j5102421148167_1_alg».proof.Proof.Gen.Kernel
import proofs.«102494_j5102421148167_1_alg».proof.Proof.Gen.Kernel.Skeleton
import proofs.«102494_j5102421148167_1_alg».proof.Proof.Gen.Kernel.Launch
import proofs.«102494_j5102421148167_1_alg».proof.Proof.Gen.Kernel.Points
import proofs.«102494_j5102421148167_1_alg».proof.Proof.Gen.Kernel.Frame
import proofs.«102494_j5102421148167_1_alg».proof.Proof.Gen.KernelIdeal
import proofs.«102494_j5102421148167_1_alg».proof.Proof.Gen.KernelIdeal.Skeleton
import proofs.«102494_j5102421148167_1_alg».proof.Proof.Gen.KernelIdeal.Launch
import proofs.«102494_j5102421148167_1_alg».proof.Proof.Gen.KernelIdeal.Points
import proofs.«102494_j5102421148167_1_alg».proof.Proof.Gen.KernelIdeal.Frame
import proofs.«102494_j5102421148167_1_alg».proof.Proof.Gen.ReferenceIdeal
import proofs.«102494_j5102421148167_1_alg».proof.Proof.Gen.Pre_finite_inputs
import proofs.«102494_j5102421148167_1_alg».proof.Proof.KValue
import proofs.«102494_j5102421148167_1_alg».proof.Proof.RefRun
import proofs.«102494_j5102421148167_1_alg».proof.Proof.RefValue
import Idealize.ShloMosaic.Adequacy
import Idealize.ShloMosaic.Init

noncomputable section

namespace Cert.Proof

open Idealize.ShloMosaic Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ
/-- The plain program runs as a line of host operations that write no argument array. -/
theorem frame_ri : Cert.frame_ReferenceIdeal := fun m ρ _ => Cert.RefRun.frame (F := Ideal) m ρ
/-- The idealization rewrote nothing. -/
theorem preserves : Cert.preserves_Kernel_KernelIdeal := trivial

/-- Both programs end with the result array at the network's one function of the argument arrays, which agree. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), Cert.KVal.run m ρ, ?_⟩
  refine (θ_run Cert.ReferenceIdeal.defs _ _).mono (fun r h c => ?_) (Cert.RefRun.run_after (F := Ideal) m' ρ')
  obtain ⟨e0, e1, e2, e3, e4, e5, e6, e7, e8, e9, e10, e11, e12, e13, e14, e15, e16, e17, e18, e19⟩ := hagree c
  refine ⟨?_, (h c _).trans (Cert.RefRun.arg_kept_0 _), (h c _).trans (Cert.RefRun.arg_kept_1 _), (h c _).trans (Cert.RefRun.arg_kept_2 _), (h c _).trans (Cert.RefRun.arg_kept_3 _), (h c _).trans (Cert.RefRun.arg_kept_4 _), (h c _).trans (Cert.RefRun.arg_kept_5 _), (h c _).trans (Cert.RefRun.arg_kept_6 _), (h c _).trans (Cert.RefRun.arg_kept_7 _), (h c _).trans (Cert.RefRun.arg_kept_8 _), (h c _).trans (Cert.RefRun.arg_kept_9 _), (h c _).trans (Cert.RefRun.arg_kept_10 _), (h c _).trans (Cert.RefRun.arg_kept_11 _), (h c _).trans (Cert.RefRun.arg_kept_12 _), (h c _).trans (Cert.RefRun.arg_kept_13 _), (h c _).trans (Cert.RefRun.arg_kept_14 _), (h c _).trans (Cert.RefRun.arg_kept_15 _), (h c _).trans (Cert.RefRun.arg_kept_16 _), (h c _).trans (Cert.RefRun.arg_kept_17 _), (h c _).trans (Cert.RefRun.arg_kept_18 _), (h c _).trans (Cert.RefRun.arg_kept_19 _)⟩
  refine (h c Cert.ReferenceIdeal.main_v450).trans ((Cert.RefRun.value (F := Ideal) _).trans ?_)
  show Cert.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) = _
  rw [e0, e1, e2, e3, e4, e5, e6, e7, e8, e9, e10, e11, e12, e13, e14, e15, e16, e17, e18, e19]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
